-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v103)) (v1 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_v114) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x8 : Shape := ⟨2, ![800000, 8]⟩
abbrev S800000 : Shape := ⟨1, ![800000]⟩
abbrev S2x136x128 : Shape := ⟨3, ![2, 136, 128]⟩
abbrev S2x128 : Shape := ⟨2, ![2, 128]⟩
abbrev S2x128x64 : Shape := ⟨3, ![2, 128, 64]⟩
abbrev S2x64 : Shape := ⟨2, ![2, 64]⟩
abbrev S2x128x128 : Shape := ⟨3, ![2, 128, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S2x136x128 : S_.BroadcastsInDim S2x136x128 (![] : Fin 0 → Fin S2x136x128.rank)
  reducesTo_S2x136x128_S_d0_1_2 : S2x136x128.ReducesTo [0, 1, 2] S_
  bcast_S_S2x128 : S_.BroadcastsInDim S2x128 (![] : Fin 0 → Fin S2x128.rank)
  reducesTo_S2x128_S_d0_1 : S2x128.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S2x128x128 : S_.BroadcastsInDim S2x128x128 (![] : Fin 0 → Fin S2x128x128.rank)
  reducesTo_S2x128x128_S_d0_1_2 : S2x128x128.ReducesTo [0, 1, 2] S_

variable [Facts]

def fn_part4 {F : FTy → Type} [FloatOps F] (main_arg16 : FVec F S2x64 .f32) (main_v63 : IVec S_ 1) (main_v67 : IVec S_ 1) : IVec S_ 1 :=
  let main_v68 : IVec S_ 1 := andi main_v63 main_v67
  let main_v69 : FVec F S2x64 .f32 := Host.absf main_arg16
  let main_cst_26 : FVec F S_ .f32 := constant S_ .f32 0x7F800000#32
  let main_v70 : FVec F S2x64 .f32 := broadcastInDim S2x64 ![] bcast_S_S2x64 main_cst_26
  let main_v71 : IVec S2x64 1 := cmpf .olt main_v69 main_v70
  let main_c_27 : IVec S_ 1 := constantI S_ 1 1#1
  let main_v72 : IVec S_ 1 := (fun x v => Host.reduce IntOp.andi x v reducesTo_S2x64_S_d0_1 h_S_) main_v71 main_c_27
  let main_v73 : IVec S_ 1 := andi main_v68 main_v72
  main_v73

def fn_part3 {F : FTy → Type} [FloatOps F] (main_arg13 : FVec F S2x128x128 .f32) (main_arg14 : FVec F S2x128 .f32) (main_arg15 : FVec F S2x128x64 .f32) (main_arg16 : FVec F S2x64 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S2x128x128 .f32 := Host.absf main_arg13
  let main_cst_20 : FVec F S_ .f32 := constant S_ .f32 0x7F800000#32
  let main_v55 : FVec F S2x128x128 .f32 := broadcastInDim S2x128x128 ![] bcast_S_S2x128x128 main_cst_20
  let main_v56 : IVec S2x128x128 1 := cmpf .olt main_v54 main_v55
  let main_c_21 : IVec S_ 1 := constantI S_ 1 1#1
  let main_v57 : IVec S_ 1 := (fun x v => Host.reduce IntOp.andi x v reducesTo_S2x128x128_S_d0_1_2 h_S_) main_v56 main_c_21
  let main_v58 : IVec S_ 1 := andi main_v53 main_v57
  let main_v59 : FVec F S2x128 .f32 := Host.absf main_arg14
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128x64 .f32 := Host.absf main_arg15
  let main_cst_24 : FVec F S_ .f32 := constant S_ .f32 0x7F800000#32
  let main_v65 : FVec F S2x128x64 .f32 := broadcastInDim S2x128x64 ![] bcast_S_S2x128x64 main_cst_24
  let main_v66 : IVec S2x128x64 1 := cmpf .olt main_v64 main_v65
  let main_c_25 : IVec S_ 1 := constantI S_ 1 1#1
  let main_v67 : IVec S_ 1 := (fun x v => Host.reduce IntOp.andi x v reducesTo_S2x128x64_S_d0_1_2 h_S_) main_v66 main_c_25
  fn_part4 (F := F) main_arg16 main_v63 main_v67

def fn_part2 {F : FTy → Type} [FloatOps F] (main_arg9 : FVec F S2x128x128 .f32) (main_arg10 : FVec F S2x128 .f32) (main_arg11 : FVec F S2x128x64 .f32) (main_arg12 : FVec F S2x64 .f32) (main_arg13 : FVec F S2x128x128 .f32) (main_arg14 : FVec F S2x128 .f32) (main_arg15 : FVec F S2x128x64 .f32) (main_arg16 : FVec F S2x64 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128x64 .f32 := Host.absf main_arg11
  let main_cst_16 : FVec F S_ .f32 := constant S_ .f32 0x7F800000#32
  let main_v45 : FVec F S2x128x64 .f32 := broadcastInDim S2x128x64 ![] bcast_S_S2x128x64 main_cst_16
  let main_v46 : IVec S2x128x64 1 := cmpf .olt main_v44 main_v45
  let main_c_17 : IVec S_ 1 := constantI S_ 1 1#1
  let main_v47 : IVec S_ 1 := (fun x v => Host.reduce IntOp.andi x v reducesTo_S2x128x64_S_d0_1_2 h_S_) main_v46 main_c_17
  let main_v48 : IVec S_ 1 := andi main_v43 main_v47
  let main_v49 : FVec F S2x64 .f32 := Host.absf main_arg12
  let main_cst_18 : FVec F S_ .f32 := constant S_ .f32 0x7F800000#32
  let main_v50 : FVec F S2x64 .f32 := broadcastInDim S2x64 ![] bcast_S_S2x64 main_cst_18
  fn_part3 (F := F) main_arg13 main_arg14 main_arg15 main_arg16 main_v48 main_v49 main_v50

def fn_part1 {F : FTy → Type} [FloatOps F] (main_arg6 : FVec F S2x128 .f32) (main_arg7 : FVec F S2x128x64 .f32) (main_arg8 : FVec F S2x64 .f32) (main_arg9 : FVec F S2x128x128 .f32) (main_arg10 : FVec F S2x128 .f32) (main_arg11 : FVec F S2x128x64 .f32) (main_arg12 : FVec F S2x64 .f32) (main_arg13 : FVec F S2x128x128 .f32) (main_arg14 : FVec F S2x128 .f32) (main_arg15 : FVec F S2x128x64 .f32) (main_arg16 : FVec F S2x64 .f32) (main_v13 : IVec S_ 1) (main_v16 : IVec S2x136x128 1) : IVec S_ 1 :=
  let main_c_5 : IVec S_ 1 := constantI S_ 1 1#1
  let main_v17 : IVec S_ 1 := (fun x v => Host.reduce IntOp.andi x v reducesTo_S2x136x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128x64 .f32 := Host.absf main_arg7
  let main_cst_8 : FVec F S_ .f32 := constant S_ .f32 0x7F800000#32
  let main_v25 : FVec F S2x128x64 .f32 := broadcastInDim S2x128x64 ![] bcast_S_S2x128x64 main_cst_8
  let main_v26 : IVec S2x128x64 1 := cmpf .olt main_v24 main_v25
  let main_c_9 : IVec S_ 1 := constantI S_ 1 1#1
  let main_v27 : IVec S_ 1 := (fun x v => Host.reduce IntOp.andi x v reducesTo_S2x128x64_S_d0_1_2 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x64 .f32) (main_arg1 : FVec F S50000x64 .f32) (main_arg2 : FVec F S800000x8 .f32) (main_arg3 : IVec S800000 32) (main_arg4 : IVec S800000 32) (main_arg5 : FVec F S2x136x128 .f32) (main_arg6 : FVec F S2x128 .f32) (main_arg7 : FVec F S2x128x64 .f32) (main_arg8 : FVec F S2x64 .f32) (main_arg9 : FVec F S2x128x128 .f32) (main_arg10 : FVec F S2x128 .f32) (main_arg11 : FVec F S2x128x64 .f32) (main_arg12 : FVec F S2x64 .f32) (main_arg13 : FVec F S2x128x128 .f32) (main_arg14 : FVec F S2x128 .f32) (main_arg15 : FVec F S2x128x64 .f32) (main_arg16 : FVec F S2x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000x8 .f32 := Host.absf main_arg2
  let main_cst_2 : FVec F S_ .f32 := constant S_ .f32 0x7F800000#32
  let main_v10 : FVec F S800000x8 .f32 := broadcastInDim S800000x8 ![] bcast_S_S800000x8 main_cst_2
  let main_v11 : IVec S800000x8 1 := cmpf .olt main_v9 main_v10
  let main_c_3 : IVec S_ 1 := constantI S_ 1 1#1
  let main_v12 : IVec S_ 1 := (fun x v => Host.reduce IntOp.andi x v reducesTo_S800000x8_S_d0_1 h_S_) main_v11 main_c_3
  let main_v13 : IVec S_ 1 := andi main_v8 main_v12
  let main_v14 : FVec F S2x136x128 .f32 := Host.absf main_arg5
  let main_cst_4 : FVec F S_ .f32 := constant S_ .f32 0x7F800000#32
  let main_v15 : FVec F S2x136x128 .f32 := broadcastInDim S2x136x128 ![] bcast_S_S2x136x128 main_cst_4
  let main_v16 : IVec S2x136x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x64 : Shape := ⟨2, ![50000, 64]⟩
abbrev S800000x8 : Shape := ⟨2, ![800000, 8]⟩
abbrev S800000 : Shape := ⟨1, ![800000]⟩
abbrev S2x136x128 : Shape := ⟨3, ![2, 136, 128]⟩
abbrev S2x128 : Shape := ⟨2, ![2, 128]⟩
abbrev S2x128x64 : Shape := ⟨3, ![2, 128, 64]⟩
abbrev S2x64 : Shape := ⟨2, ![2, 64]⟩
abbrev S2x128x128 : Shape := ⟨3, ![2, 128, 128]⟩
abbrev S_ : Shape := ⟨0, ![]⟩
abbrev S800000x1 : Shape := ⟨2, ![800000, 1]⟩
abbrev S800000x64 : Shape := ⟨2, ![800000, 64]⟩
abbrev S1x136x128 : Shape := ⟨3, ![1, 136, 128]⟩
abbrev S136x128 : Shape := ⟨2, ![136, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S4000x64 : Shape := ⟨2, ![4000, 64]⟩
abbrev S4000x8 : Shape := ⟨2, ![4000, 8]⟩
abbrev S64x128 : Shape := ⟨2, ![64, 128]⟩
abbrev S8x128 : Shape := ⟨2, ![8, 128]⟩
abbrev S4000x128 : Shape := ⟨2, ![4000, 128]⟩
abbrev S1x128x128 : Shape := ⟨3, ![1, 128, 128]⟩
abbrev S128x128 : Shape := ⟨2, ![128, 128]⟩
abbrev S2000x64 : Shape := ⟨2, ![2000, 64]⟩
abbrev S2000x128 : Shape := ⟨2, ![2000, 128]⟩

abbrev nBuf : Space → Nat
  | .hbm => 146
  | .vmem => 68
  | .smem => 0
  | _ => 0

abbrev hbmTy0_0 (i : Nat) : BufTy := match i % 128 with
  | 0 => ⟨S50000x64, .f32⟩
  | 1 => ⟨S50000x64, .f32⟩
  | 2 => ⟨S800000x8, .f32⟩
  | 3 => ⟨S800000, .i32⟩
  | 4 => ⟨S800000, .i32⟩
  | 5 => ⟨S2x136x128, .f32⟩
  | 6 => ⟨S2x128, .f32⟩
  | 7 => ⟨S2x128x64, .f32⟩
  | 8 => ⟨S2x64, .f32⟩
  | 9 => ⟨S2x128x128, .f32⟩
  | 10 => ⟨S2x128, .f32⟩
  | 11 => ⟨S2x128x64, .f32⟩
  | 12 => ⟨S2x64, .f32⟩
  | 13 => ⟨S2x128x128, .f32⟩
  | 14 => ⟨S2x128, .f32⟩
  | 15 => ⟨S2x128x64, .f32⟩
  | 16 => ⟨S2x64, .f32⟩
  | 17 => ⟨S800000x8, .bf16⟩
  | 18 => ⟨S50000x64, .bf16⟩
  | 19 => ⟨S50000x64, .bf16⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .bf16⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .bf16⟩
  | 38 => ⟨S1x136x128, .f32⟩
  | 39 => ⟨S136x128, .f32⟩
  | 40 => ⟨S1x128, .f32⟩
  | 41 => ⟨S128, .f32⟩
  | 42 => ⟨S1x128x64, .f32⟩
  | 43 => ⟨S128x64, .f32⟩
  | 44 => ⟨S1x64, .f32⟩
  | 45 => ⟨S64, .f32⟩
  | 46 => ⟨S1x128, .f32⟩
  | 47 => ⟨S1x64, .f32⟩
  | 48 => ⟨S800000x64, .bf16⟩
  | 49 => ⟨S800000x64, .bf16⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S800000x64, .f32⟩
  | 56 => ⟨S_, .f32⟩
  | 57 => ⟨S50000x64, .f32⟩
  | 58 => ⟨S800000x1, .i32⟩
  | 59 => ⟨S50000x64, .f32⟩
  | 60 => ⟨S1x128x128, .f32⟩
  | 61 => ⟨S128x128, .f32⟩
  | 62 => ⟨S1x128, .f32⟩
  | 63 => ⟨S128, .f32⟩
  | 64 => ⟨S1x128x64, .f32⟩
  | 65 => ⟨S128x64, .f32⟩
  | 66 => ⟨S1x64, .f32⟩
  | 67 => ⟨S64, .f32⟩
  | 68 => ⟨S1x128, .f32⟩
  | 69 => ⟨S1x64, .f32⟩
  | 70 => ⟨S50000x64, .f32⟩
  | 71 => ⟨S1x128x128, .f32⟩
  | 72 => ⟨S128x128, .f32⟩
  | 73 => ⟨S1x128, .f32⟩
  | 74 => ⟨S128, .f32⟩
  | 75 => ⟨S1x128x64, .f32⟩
  | 76 => ⟨S128x64, .f32⟩
  | 77 => ⟨S1x64, .f32⟩
  | 78 => ⟨S64, .f32⟩
  | 79 => ⟨S1x128, .f32⟩
  | 80 => ⟨S1x64, .f32⟩
  | 81 => ⟨S50000x64, .f32⟩
  | 82 => ⟨S50000x64, .bf16⟩
  | 83 => ⟨S50000x64, .bf16⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .bf16⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .bf16⟩
  | 102 => ⟨S1x136x128, .f32⟩
  | 103 => ⟨S136x128, .f32⟩
  | 104 => ⟨S1x128, .f32⟩
  | 105 => ⟨S128, .f32⟩
  | 106 => ⟨S1x128x64, .f32⟩
  | 107 => ⟨S128x64, .f32⟩
  | 108 => ⟨S1x64, .f32⟩
  | 109 => ⟨S64, .f32⟩
  | 110 => ⟨S1x128, .f32⟩
  | 111 => ⟨S1x64, .f32⟩
  | 112 => ⟨S800000x64, .bf16⟩
  | 113 => ⟨S800000x64, .bf16⟩
  | 114 => ⟨S800000x64, .f32⟩
  | 115 => ⟨S_, .f32⟩
  | 116 => ⟨S50000x64, .f32⟩
  | 117 => ⟨S800000x1, .i32⟩
  | 118 => ⟨S50000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S1x128x128, .f32⟩
  | 125 => ⟨S128x128, .f32⟩
  | 126 => ⟨S1x128, .f32⟩
  | 127 => ⟨S128, .f32⟩
  | _ => ⟨S50000x64, .f32⟩

abbrev hbmTy0_1 (i : Nat) : BufTy := match i % 128 with
  | 0 => ⟨S1x128x64, .f32⟩
  | 1 => ⟨S128x64, .f32⟩
  | 2 => ⟨S1x64, .f32⟩
  | 3 => ⟨S64, .f32⟩
  | 4 => ⟨S1x128, .f32⟩
  | 5 => ⟨S1x64, .f32⟩
  | 6 => ⟨S50000x64, .f32⟩
  | 7 => ⟨S1x128x128, .f32⟩
  | 8 => ⟨S128x128, .f32⟩
  | 9 => ⟨S1x128, .f32⟩
  | 10 => ⟨S128, .f32⟩
  | 11 => ⟨S1x128x64, .f32⟩
  | 12 => ⟨S128x64, .f32⟩
  | 13 => ⟨S1x64, .f32⟩
  | 14 => ⟨S64, .f32⟩
  | 15 => ⟨S1x128, .f32⟩
  | 16 => ⟨S1x64, .f32⟩
  | 17 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .bf16⟩
  | .local _ .vmem, ⟨1, _⟩ => ⟨S4000x64, .bf16⟩
  | .local _ .vmem, ⟨2, _⟩ => ⟨S4000x64, .bf16⟩
  | .local _ .vmem, ⟨3, _⟩ => ⟨S4000x64, .bf16⟩
  | .local _ .vmem, ⟨4, _⟩ => ⟨S4000x8, .bf16⟩
  | .local _ .vmem, ⟨5, _⟩ => ⟨S4000x8, .bf16⟩
  | .local _ .vmem, ⟨6, _⟩ => ⟨S136x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S4000x64, .bf16⟩
  | .local _ .vmem, ⟨11, _⟩ => ⟨S4000x64, .bf16⟩
  | .local _ .vmem, ⟨12, _⟩ => ⟨S4000x64, .bf16⟩
  | .local _ .vmem, ⟨13, _⟩ => ⟨S4000x64, .bf16⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S128x128, .f32⟩
  | .local _ .vmem, ⟨29, _⟩ => ⟨S1x128, .f32⟩
  | .local _ .vmem, ⟨30, _⟩ => ⟨S128x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S4000x64, .bf16⟩
  | .local _ .vmem, ⟨35, _⟩ => ⟨S4000x64, .bf16⟩
  | .local _ .vmem, ⟨36, _⟩ => ⟨S4000x64, .bf16⟩
  | .local _ .vmem, ⟨37, _⟩ => ⟨S4000x64, .bf16⟩
  | .local _ .vmem, ⟨38, _⟩ => ⟨S4000x8, .bf16⟩
  | .local _ .vmem, ⟨39, _⟩ => ⟨S4000x8, .bf16⟩
  | .local _ .vmem, ⟨40, _⟩ => ⟨S136x128, .f32⟩
  | .local _ .vmem, ⟨41, _⟩ => ⟨S1x128, .f32⟩
  | .local _ .vmem, ⟨42, _⟩ => ⟨S128x64, .f32⟩
  | .local _ .vmem, ⟨43, _⟩ => ⟨S1x64, .f32⟩
  | .local _ .vmem, ⟨44, _⟩ => ⟨S4000x64, .bf16⟩
  | .local _ .vmem, ⟨45, _⟩ => ⟨S4000x64, .bf16⟩
  | .local _ .vmem, ⟨46, _⟩ => ⟨S4000x64, .bf16⟩
  | .local _ .vmem, ⟨47, _⟩ => ⟨S4000x64, .bf16⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S128x128, .f32⟩
  | .local _ .vmem, ⟨53, _⟩ => ⟨S1x128, .f32⟩
  | .local _ .vmem, ⟨54, _⟩ => ⟨S128x64, .f32⟩
  | .local _ .vmem, ⟨55, _⟩ => ⟨S1x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S128x128, .f32⟩
  | .local _ .vmem, ⟨63, _⟩ => ⟨S1x128, .f32⟩
  | .local _ .vmem, ⟨64, _⟩ => ⟨S128x64, .f32⟩
  | .local _ .vmem, ⟨65, _⟩ => ⟨S1x64, .f32⟩
  | .local _ .vmem, ⟨66, _⟩ => ⟨S2000x64, .f32⟩
  | .local _ .vmem, ⟨67, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_c : Ref sig .tc := ⟨.hbm, 20, rfl⟩
abbrev main_v3 : Ref sig .tc := ⟨.hbm, 21, rfl⟩
abbrev main_v4 : Ref sig .tc := ⟨.hbm, 22, rfl⟩
abbrev main_c_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_v10 : Ref sig .tc := ⟨.hbm, 30, rfl⟩
abbrev main_v11 : Ref sig .tc := ⟨.hbm, 31, rfl⟩
abbrev main_c_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27_0 : Ref sig .tc := ⟨.hbm, 48, rfl⟩
abbrev main_v27_1 : Ref sig .tc := ⟨.hbm, 49, rfl⟩
abbrev main_v28 : Ref sig .tc := ⟨.hbm, 50, rfl⟩
abbrev main_cst : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_4 : Ref sig .tc := ⟨.hbm, 84, rfl⟩
abbrev main_v60 : Ref sig .tc := ⟨.hbm, 85, rfl⟩
abbrev main_v61 : Ref sig .tc := ⟨.hbm, 86, rfl⟩
abbrev main_c_5 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_6 : Ref sig .tc := ⟨.hbm, 93, rfl⟩
abbrev main_v67 : Ref sig .tc := ⟨.hbm, 94, rfl⟩
abbrev main_v68 : Ref sig .tc := ⟨.hbm, 95, rfl⟩
abbrev main_c_7 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84_0 : Ref sig .tc := ⟨.hbm, 112, rfl⟩
abbrev main_v84_1 : Ref sig .tc := ⟨.hbm, 113, rfl⟩
abbrev main_v85 : Ref sig .tc := ⟨.hbm, 114, rfl⟩
abbrev main_cst_8 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_9 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg7_1 : Ref sig .tc := ⟨.vmem, 45, rfl⟩
abbrev cc3_stg8_0 : Ref sig .tc := ⟨.vmem, 46, rfl⟩
abbrev cc3_stg8_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_stg6_1 : Ref sig .tc := ⟨.vmem, 57, rfl⟩
abbrev cc5_stg0_0 : Ref sig .tc := ⟨.vmem, 58, rfl⟩
abbrev cc5_stg0_1 : Ref sig .tc := ⟨.vmem, 59, rfl⟩
abbrev cc5_stg1_0 : Ref sig .tc := ⟨.vmem, 60, rfl⟩
abbrev cc5_stg1_1 : Ref sig .tc := ⟨.vmem, 61, rfl⟩
abbrev cc5_stg2_0 : Ref sig .tc := ⟨.vmem, 62, rfl⟩
abbrev cc5_stg3_0 : Ref sig .tc := ⟨.vmem, 63, rfl⟩
abbrev cc5_stg4_0 : Ref sig .tc := ⟨.vmem, 64, rfl⟩
abbrev cc5_stg5_0 : Ref sig .tc := ⟨.vmem, 65, rfl⟩
abbrev cc5_stg6_0 : Ref sig .tc := ⟨.vmem, 66, rfl⟩
abbrev cc5_stg6_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem7_1 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56
abbrev cc4_sem6_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem3_0 : DmaSem sig := 63
abbrev cc5_sem4_0 : DmaSem sig := 64
abbrev cc5_sem5_0 : DmaSem sig := 65
abbrev cc5_sem6_0 : DmaSem sig := 66
abbrev cc5_sem6_1 : DmaSem sig := 67

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x8 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S136x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4000x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4000x64 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S2x136x128_S1x136x128_0_0_0 : S2x136x128.Slices ![0, 0, 0] S1x136x128
  shapeCasts_S1x136x128_S136x128 : S1x136x128.ShapeCasts S136x128
  slices_S2x128_S1x128_0_0 : S2x128.Slices ![0, 0] S1x128
  shapeCasts_S1x128_S128 : S1x128.ShapeCasts S128
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  shapeCasts_S128_S1x128 : S128.ShapeCasts S1x128
  shapeCasts_S64_S1x64 : S64.ShapeCasts S1x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S136x128_S136x128_0_0 : ∀ a, (![0, 0] : Fin 2 → Nat) a + S136x128.size a ≤ S136x128.size a
  h_S136x128 : 0 < S136x128.numel
  shapeCasts_S136x128_S136x128 : S136x128.ShapeCasts S136x128
  slices_S136x128_o0_0_S64x128 : S136x128.Slices ![0, 0] S64x128
  slices_S136x128_o64_0_S64x128 : S136x128.Slices ![64, 0] S64x128
  slices_S136x128_o128_0_S8x128 : S136x128.Slices ![128, 0] S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  packedbf16_S4000x64_S4000x64_0_0 : (Rect.unit (s := S4000x64) ![0, 0] S4000x64.size inb_S4000x64_S4000x64_0_0).PackedRows (EltTy.packing .bf16)
  bcast_S_S50000x64 : S_.BroadcastsInDim S50000x64 (![] : Fin 0 → Fin S50000x64.rank)
  slices_S2x128x128_S1x128x128_0_0_0 : S2x128x128.Slices ![0, 0, 0] S1x128x128
  shapeCasts_S1x128x128_S128x128 : S1x128x128.ShapeCasts S128x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S128x128_o0_0_S64x128 : S128x128.Slices ![0, 0] S64x128
  slices_S128x128_o64_0_S64x128 : S128x128.Slices ![64, 0] S64x128
  broadcasts_S1x128_S2000x128 : S1x128.Broadcasts S2000x128
  broadcasts_S1x64_S2000x64 : S1x64.Broadcasts S2000x64
  slices_S2x136x128_S1x136x128_1_0_0 : S2x136x128.Slices ![1, 0, 0] S1x136x128
  slices_S2x128_S1x128_1_0 : S2x128.Slices ![1, 0] S1x128
  slices_S2x128x64_S1x128x64_1_0_0 : S2x128x64.Slices ![1, 0, 0] S1x128x64
  slices_S2x64_S1x64_1_0 : S2x64.Slices ![1, 0] S1x64
  slices_S2x128x128_S1x128x128_1_0_0 : S2x128x128.Slices ![1, 0, 0] S1x128x128
  gather_S50000x64_S800000x1_S800000x64_1_0_n_n_0_1_164_wf : GatherDims.WF S50000x64 S800000x1 S800000x64 [1] [0] [] [0] [] 1 ![1, 64]
  dot_S4000x64_S64x128_S4000x128_1_0_0_1_n_n_wf : DotDims.WF S4000x64 S64x128 S4000x128 [1] [0] [0] [1] [] []
  dot_S4000x8_S8x128_S4000x128_1_0_0_1_n_n_wf : DotDims.WF S4000x8 S8x128 S4000x128 [1] [0] [0] [1] [] []
  dot_S4000x128_S128x64_S4000x64_1_0_0_1_n_n_wf : DotDims.WF S4000x128 S128x64 S4000x64 [1] [0] [0] [1] [] []
  scatter_S50000x64_S800000x1_S800000x64_1_0_0_1_wf : ScatterDims.WF S50000x64 S800000x1 S800000x64 [1] [0] [0] 1
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .bf16 = 32 ∨ (Rect.block (s := S800000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .bf16 = 32 ∨ (Rect.block (s := S800000x64) S4000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x8.size a ≤ S800000x8.size a
  hwx0_2 : ∀ i : grid0.Coords, EltTy.bits .bf16 = 32 ∨ (Rect.block (s := S800000x8) S4000x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S136x128.size a ≤ S136x128.size a
  hwx0_3 : ∀ i : grid0.Coords, EltTy.bits .f32 = 32 ∨ (Rect.block (s := S136x128) S136x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x64.size a ≤ S800000x64.size a
  hwx0_7 : ∀ i : grid0.Coords, EltTy.bits .bf16 = 32 ∨ (Rect.block (s := S800000x64) S4000x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S800000x64.size a
  hwx0_8 : ∀ i : grid0.Coords, EltTy.bits .bf16 = 32 ∨ (Rect.block (s := S800000x64) S4000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S50000x64.size a
  hwx1_6 : ∀ i : grid1.Coords, EltTy.bits .f32 = 32 ∨ (Rect.block (s := S50000x64) S2000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S800000x64.size a
  hwx3_0 : ∀ i : grid3.Coords, EltTy.bits .bf16 = 32 ∨ (Rect.block (s := S800000x64) S4000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S800000x64.size a
  hwx3_1 : ∀ i : grid3.Coords, EltTy.bits .bf16 = 32 ∨ (Rect.block (s := S800000x64) S4000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x8.size a ≤ S800000x8.size a
  hwx3_2 : ∀ i : grid3.Coords, EltTy.bits .bf16 = 32 ∨ (Rect.block (s := S800000x8) S4000x8.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S136x128.size a ≤ S136x128.size a
  hwx3_3 : ∀ i : grid3.Coords, EltTy.bits .f32 = 32 ∨ (Rect.block (s := S136x128) S136x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4000x64.size a ≤ S800000x64.size a
  hwx3_7 : ∀ i : grid3.Coords, EltTy.bits .bf16 = 32 ∨ (Rect.block (s := S800000x64) S4000x64.size (cc3_transform_7 i) (hinb3_7 i)).WholeWords (EltTy.packing .bf16)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4000x64.size a ≤ S800000x64.size a
  hwx3_8 : ∀ i : grid3.Coords, EltTy.bits .bf16 = 32 ∨ (Rect.block (s := S800000x64) S4000x64.size (cc3_transform_8 i) (hinb3_8 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x64.size a ≤ S50000x64.size a
  hwx4_1 : ∀ i : grid4.Coords, EltTy.bits .f32 = 32 ∨ (Rect.block (s := S50000x64) S2000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x64.size a ≤ S50000x64.size a
  hwx4_6 : ∀ i : grid4.Coords, EltTy.bits .f32 = 32 ∨ (Rect.block (s := S50000x64) S2000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x64.size a ≤ S128x64.size a
  hwx5_4 : ∀ i : grid5.Coords, EltTy.bits .f32 = 32 ∨ (Rect.block (s := S128x64) S128x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S50000x64.size a
  hwx5_6 : ∀ i : grid5.Coords, EltTy.bits .f32 = 32 ∨ (Rect.block (s := S50000x64) S2000x64.size (cc5_transform_6 i) (hinb5_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v9) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S136x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27_0) S4000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v27_1) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg1) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v57) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v66) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0) S4000x8.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S136x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v84_0) S4000x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v84_1) S4000x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v46) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S2000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v94) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v101) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v103) S2000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v57) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v92) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v105) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v109) S128x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v113) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v114) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x64 : Shape := ⟨2, ![50000, 64]⟩
abbrev S800000x8 : Shape := ⟨2, ![800000, 8]⟩
abbrev S800000 : Shape := ⟨1, ![800000]⟩
abbrev S2x136x128 : Shape := ⟨3, ![2, 136, 128]⟩
abbrev S2x128 : Shape := ⟨2, ![2, 128]⟩
abbrev S2x128x64 : Shape := ⟨3, ![2, 128, 64]⟩
abbrev S2x64 : Shape := ⟨2, ![2, 64]⟩
abbrev S2x128x128 : Shape := ⟨3, ![2, 128, 128]⟩
abbrev S_ : Shape := ⟨0, ![]⟩
abbrev S800000x1 : Shape := ⟨2, ![800000, 1]⟩
abbrev S800000x64 : Shape := ⟨2, ![800000, 64]⟩
abbrev S800000x136 : Shape := ⟨2, ![800000, 136]⟩
abbrev S1x136x128 : Shape := ⟨3, ![1, 136, 128]⟩
abbrev S136x128 : Shape := ⟨2, ![136, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S64 : Shape := ⟨1, ![64]⟩
abbrev S800000x128 : Shape := ⟨2, ![800000, 128]⟩
abbrev S50000x128 : Shape := ⟨2, ![50000, 128]⟩
abbrev S1x128x128 : Shape := ⟨3, ![1, 128, 128]⟩
abbrev S128x128 : Shape := ⟨2, ![128, 128]⟩

abbrev nBuf : Space → Nat
  | .hbm => 229
  | .vmem => 0
  | .smem => 0
  | _ => 0

abbrev hbmTy0_0 (i : Nat) : BufTy := match i % 128 with
  | 0 => ⟨S50000x64, .f32⟩
  | 1 => ⟨S50000x64, .f32⟩
  | 2 => ⟨S800000x8, .f32⟩
  | 3 => ⟨S800000, .i32⟩
  | 4 => ⟨S800000, .i32⟩
  | 5 => ⟨S2x136x128, .f32⟩
  | 6 => ⟨S2x128, .f32⟩
  | 7 => ⟨S2x128x64, .f32⟩
  | 8 => ⟨S2x64, .f32⟩
  | 9 => ⟨S2x128x128, .f32⟩
  | 10 => ⟨S2x128, .f32⟩
  | 11 => ⟨S2x128x64, .f32⟩
  | 12 => ⟨S2x64, .f32⟩
  | 13 => ⟨S2x128x128, .f32⟩
  | 14 => ⟨S2x128, .f32⟩
  | 15 => ⟨S2x128x64, .f32⟩
  | 16 => ⟨S2x64, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x64, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x136, .f32⟩
  | 36 => ⟨S1x136x128, .f32⟩
  | 37 => ⟨S136x128, .f32⟩
  | 38 => ⟨S1x128, .f32⟩
  | 39 => ⟨S128, .f32⟩
  | 40 => ⟨S1x128x64, .f32⟩
  | 41 => ⟨S128x64, .f32⟩
  | 42 => ⟨S1x64, .f32⟩
  | 43 => ⟨S64, .f32⟩
  | 44 => ⟨S800000x128, .f32⟩
  | 45 => ⟨S1x128, .f32⟩
  | 46 => ⟨S800000x128, .f32⟩
  | 47 => ⟨S800000x128, .f32⟩
  | 48 => ⟨S_, .f32⟩
  | 49 => ⟨S800000x128, .f32⟩
  | 50 => ⟨S800000x128, .f32⟩
  | 51 => ⟨S800000x64, .f32⟩
  | 52 => ⟨S1x64, .f32⟩
  | 53 => ⟨S800000x64, .f32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S50000x128, .f32⟩
  | 60 => ⟨S1x128x128, .f32⟩
  | 61 => ⟨S128x128, .f32⟩
  | 62 => ⟨S1x128, .f32⟩
  | 63 => ⟨S128, .f32⟩
  | 64 => ⟨S1x128x64, .f32⟩
  | 65 => ⟨S128x64, .f32⟩
  | 66 => ⟨S1x64, .f32⟩
  | 67 => ⟨S64, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x64, .f32⟩
  | 76 => ⟨S1x64, .f32⟩
  | 77 => ⟨S50000x64, .f32⟩
  | 78 => ⟨S50000x64, .f32⟩
  | 79 => ⟨S800000x136, .f32⟩
  | 80 => ⟨S1x136x128, .f32⟩
  | 81 => ⟨S136x128, .f32⟩
  | 82 => ⟨S1x128, .f32⟩
  | 83 => ⟨S128, .f32⟩
  | 84 => ⟨S1x128x64, .f32⟩
  | 85 => ⟨S128x64, .f32⟩
  | 86 => ⟨S1x64, .f32⟩
  | 87 => ⟨S64, .f32⟩
  | 88 => ⟨S800000x128, .f32⟩
  | 89 => ⟨S1x128, .f32⟩
  | 90 => ⟨S800000x128, .f32⟩
  | 91 => ⟨S800000x128, .f32⟩
  | 92 => ⟨S_, .f32⟩
  | 93 => ⟨S800000x128, .f32⟩
  | 94 => ⟨S800000x128, .f32⟩
  | 95 => ⟨S800000x64, .f32⟩
  | 96 => ⟨S1x64, .f32⟩
  | 97 => ⟨S800000x64, .f32⟩
  | 98 => ⟨S800000x64, .f32⟩
  | 99 => ⟨S_, .f32⟩
  | 100 => ⟨S50000x64, .f32⟩
  | 101 => ⟨S800000x1, .i32⟩
  | 102 => ⟨S50000x64, .f32⟩
  | 103 => ⟨S50000x128, .f32⟩
  | 104 => ⟨S1x128x128, .f32⟩
  | 105 => ⟨S128x128, .f32⟩
  | 106 => ⟨S1x128, .f32⟩
  | 107 => ⟨S128, .f32⟩
  | 108 => ⟨S1x128x64, .f32⟩
  | 109 => ⟨S128x64, .f32⟩
  | 110 => ⟨S1x64, .f32⟩
  | 111 => ⟨S64, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x64, .f32⟩
  | 120 => ⟨S1x64, .f32⟩
  | 121 => ⟨S50000x64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x64, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S_, .i32⟩
  | 5 => ⟨S800000, .i32⟩
  | 6 => ⟨S800000, .i1⟩
  | 7 => ⟨S_, .i32⟩
  | 8 => ⟨S800000, .i32⟩
  | 9 => ⟨S800000, .i32⟩
  | 10 => ⟨S800000, .i32⟩
  | 11 => ⟨S800000x1, .i32⟩
  | 12 => ⟨S800000x64, .f32⟩
  | 13 => ⟨S800000x136, .f32⟩
  | 14 => ⟨S1x136x128, .f32⟩
  | 15 => ⟨S136x128, .f32⟩
  | 16 => ⟨S1x128, .f32⟩
  | 17 => ⟨S128, .f32⟩
  | 18 => ⟨S1x128x64, .f32⟩
  | 19 => ⟨S128x64, .f32⟩
  | 20 => ⟨S1x64, .f32⟩
  | 21 => ⟨S64, .f32⟩
  | 22 => ⟨S800000x128, .f32⟩
  | 23 => ⟨S1x128, .f32⟩
  | 24 => ⟨S800000x128, .f32⟩
  | 25 => ⟨S800000x128, .f32⟩
  | 26 => ⟨S_, .f32⟩
  | 27 => ⟨S800000x128, .f32⟩
  | 28 => ⟨S800000x128, .f32⟩
  | 29 => ⟨S800000x64, .f32⟩
  | 30 => ⟨S1x64, .f32⟩
  | 31 => ⟨S800000x64, .f32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S50000x128, .f32⟩
  | 38 => ⟨S1x128x128, .f32⟩
  | 39 => ⟨S128x128, .f32⟩
  | 40 => ⟨S1x128, .f32⟩
  | 41 => ⟨S128, .f32⟩
  | 42 => ⟨S1x128x64, .f32⟩
  | 43 => ⟨S128x64, .f32⟩
  | 44 => ⟨S1x64, .f32⟩
  | 45 => ⟨S64, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .f32⟩
  | 53 => ⟨S50000x64, .f32⟩
  | 54 => ⟨S1x64, .f32⟩
  | 55 => ⟨S50000x64, .f32⟩
  | 56 => ⟨S50000x64, .f32⟩
  | 57 => ⟨S800000x136, .f32⟩
  | 58 => ⟨S1x136x128, .f32⟩
  | 59 => ⟨S136x128, .f32⟩
  | 60 => ⟨S1x128, .f32⟩
  | 61 => ⟨S128, .f32⟩
  | 62 => ⟨S1x128x64, .f32⟩
  | 63 => ⟨S128x64, .f32⟩
  | 64 => ⟨S1x64, .f32⟩
  | 65 => ⟨S64, .f32⟩
  | 66 => ⟨S800000x128, .f32⟩
  | 67 => ⟨S1x128, .f32⟩
  | 68 => ⟨S800000x128, .f32⟩
  | 69 => ⟨S800000x128, .f32⟩
  | 70 => ⟨S_, .f32⟩
  | 71 => ⟨S800000x128, .f32⟩
  | 72 => ⟨S800000x128, .f32⟩
  | 73 => ⟨S800000x64, .f32⟩
  | 74 => ⟨S1x64, .f32⟩
  | 75 => ⟨S800000x64, .f32⟩
  | 76 => ⟨S800000x64, .f32⟩
  | 77 => ⟨S_, .f32⟩
  | 78 => ⟨S50000x64, .f32⟩
  | 79 => ⟨S800000x1, .i32⟩
  | 80 => ⟨S50000x64, .f32⟩
  | 81 => ⟨S50000x128, .f32⟩
  | 82 => ⟨S1x128x128, .f32⟩
  | 83 => ⟨S128x128, .f32⟩
  | 84 => ⟨S1x128, .f32⟩
  | 85 => ⟨S128, .f32⟩
  | 86 => ⟨S1x128x64, .f32⟩
  | 87 => ⟨S128x64, .f32⟩
  | 88 => ⟨S1x64, .f32⟩
  | 89 => ⟨S64, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x64, .f32⟩
  | 98 => ⟨S1x64, .f32⟩
  | 99 => ⟨S50000x64, .f32⟩
  | 100 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call0_cst : Ref sig .tc := ⟨.hbm, 48, rfl⟩
abbrev main_call0_v0 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call1_cst : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_3 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call3_cst : Ref sig .tc := ⟨.hbm, 116, rfl⟩
abbrev main_call3_v0 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_4 : Ref sig .tc := ⟨.hbm, 123, rfl⟩
abbrev main_v92 : Ref sig .tc := ⟨.hbm, 124, rfl⟩
abbrev main_v93 : Ref sig .tc := ⟨.hbm, 125, rfl⟩
abbrev main_c_5 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_6 : Ref sig .tc := ⟨.hbm, 132, rfl⟩
abbrev main_v99 : Ref sig .tc := ⟨.hbm, 133, rfl⟩
abbrev main_v100 : Ref sig .tc := ⟨.hbm, 134, rfl⟩
abbrev main_c_7 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call4_cst : Ref sig .tc := ⟨.hbm, 154, rfl⟩
abbrev main_call4_v0 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_cst_8 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_call5_cst : Ref sig .tc := ⟨.hbm, 178, rfl⟩
abbrev main_call5_v0 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_call6_cst : Ref sig .tc := ⟨.hbm, 198, rfl⟩
abbrev main_call6_v0 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_cst_9 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_call7_cst : Ref sig .tc := ⟨.hbm, 222, rfl⟩
abbrev main_call7_v0 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x8_S800000x136_d1 : Shape.Concatenates [S800000x64, S800000x64, S800000x8] S800000x136 1
  slices_S2x136x128_S1x136x128_0_0_0 : S2x136x128.Slices ![0, 0, 0] S1x136x128
  shapeCasts_S1x136x128_S136x128 : S1x136x128.ShapeCasts S136x128
  slices_S2x128_S1x128_0_0 : S2x128.Slices ![0, 0] S1x128
  shapeCasts_S1x128_S128 : S1x128.ShapeCasts S128
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  slices_S2x128x128_S1x128x128_0_0_0 : S2x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  slices_S2x136x128_S1x136x128_1_0_0 : S2x136x128.Slices ![1, 0, 0] S1x136x128
  slices_S2x128_S1x128_1_0 : S2x128.Slices ![1, 0] S1x128
  slices_S2x128x64_S1x128x64_1_0_0 : S2x128x64.Slices ![1, 0, 0] S1x128x64
  slices_S2x64_S1x64_1_0 : S2x64.Slices ![1, 0] S1x64
  slices_S2x128x128_S1x128x128_1_0_0 : S2x128x128.Slices ![1, 0, 0] S1x128x128
  gather_S50000x64_S800000x1_S800000x64_1_0_n_n_0_1_164_wf : GatherDims.WF S50000x64 S800000x1 S800000x64 [1] [0] [] [0] [] 1 ![1, 64]
  dot_S800000x136_S136x128_S800000x128_1_0_0_1_n_n_wf : DotDims.WF S800000x136 S136x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x136_S136x128_S800000x128_1_0_0_1_n_n : DotDims S800000x136 S136x128 S800000x128 where
  lhsContracting := [1]
  rhsContracting := [0]
  lhsNonContracting := [0]
  rhsNonContracting := [1]
  lhsBatch := []
  rhsBatch := []
  wf := dot_S800000x136_S136x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RunValue.lean ====
/-
  The idealized kernel's run with its two results named.

  The program is six kernel regions among stretches of host operations.  Its buffers' contents at the boundaries
  between them form a chain: a stretch of host operations applies its operations in order to the contents before
  it; a region leaves each of its arrays at what its points wrote back and every other buffer as it found it.  Every
  weakly fair execution terminates with every buffer at the end of that chain; in particular each of the two result
  buffers holds the chain's last contents at it, and the seventeen argument buffers hold what they held at launch.
-/
import proofs.«156022_j57337813401889_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the first result buffer at the last
    boundary's contents of it, the second likewise, and the arguments as launched. -/
theorem run_vals : θ_run defs (onTc (τ := τ) (main (F := F))) ⟨m, fun _ => 0, ρ⟩ (fun r => ∀ c : Dev nD,
      r.2.mem ((c.tc : Thread nD τ).loc main_v103) = W12 m ρ c (Proc.devRef .tc main_v103)
      ∧ r.2.mem ((c.tc : Thread nD τ).loc main_v114) = W12 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v103 (by decide)),
       h c _ (mem_uc main_v114 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.RunValue

end
-- ==== Proof.GnnRows.lean ====
/-
  One message-passing layer pair, row by row, over the extended reals.

  A node or an edge is a row of features.  Every learned map in the network is the same two-layer perceptron
  (linear, ReLU, linear) with hidden width 128 and output width 64:

      mlp x = ( Σ_k  max( Σ_i x_i · W1[i,k] + b1[k] , 0 ) · W2[k,j] ) + b2[j].

  The edge network reads the 136-feature row  [ endpoint | other endpoint | edge ]  (64 + 64 + 8 features side by
  side); the node network reads the 128-feature row  [ node | aggregate ]  (64 + 64).  A product of such a joined row
  with a stacked weight matrix is the sum of the products of the pieces with the matching row blocks of the matrix:
  that only regroups a finite sum, so it holds in any commutative additive monoid — in particular on the extended
  reals, where no finiteness is needed.
-/
import Mathlib.Algebra.BigOperators.Fin
import Mathlib.Data.EReal.Basic

noncomputable section

open scoped BigOperators

namespace Cert.GnnRows

/-- Linear → ReLU → Linear on one row `x` of `n` features. -/
def mlpRow {n : ℕ} (x : Fin n → EReal) (w1 : Fin n → Fin 128 → EReal) (b1 : Fin 128 → EReal)
    (w2 : Fin 128 → Fin 64 → EReal) (b2 : Fin 64 → EReal) (j : Fin 64) : EReal :=
  (∑ k : Fin 128, max ((∑ i : Fin n, x i * w1 i k) + b1 k) 0 * w2 k j) + b2 j

/-- Two rows of 64 features side by side. -/
def cat2 (a b : Fin 64 → EReal) : Fin 128 → EReal := fun i =>
  if h : i.val < 64 then a ⟨i.val, h⟩ else b ⟨i.val - 64, by omega⟩

/-- Two rows of 64 features and one of 8, side by side. -/
def cat3 (a b : Fin 64 → EReal) (e : Fin 8 → EReal) : Fin 136 → EReal := fun i =>
  if h : i.val < 64 then a ⟨i.val, h⟩
  else if h2 : i.val < 128 then b ⟨i.val - 64, by omega⟩ else e ⟨i.val - 128, by omega⟩

theorem cat2_left (a b : Fin 64 → EReal) (i : Fin 64) : cat2 a b ⟨i.val, by omega⟩ = a i := by
  unfold cat2; rw [dif_pos i.isLt]
theorem cat2_right (a b : Fin 64 → EReal) (i : Fin 64) : cat2 a b ⟨i.val + 64, by omega⟩ = b i := by
  unfold cat2; rw [dif_neg (by show ¬ (i.val + 64 < 64); omega)]; exact congrArg b (Fin.ext (by show i.val + 64 - 64 = i.val; omega))

theorem cat3_left (a b : Fin 64 → EReal) (e : Fin 8 → EReal) (i : Fin 64) : cat3 a b e ⟨i.val, by omega⟩ = a i := by
  unfold cat3; rw [dif_pos i.isLt]
theorem cat3_mid (a b : Fin 64 → EReal) (e : Fin 8 → EReal) (i : Fin 64) : cat3 a b e ⟨i.val + 64, by omega⟩ = b i := by
  unfold cat3
  rw [dif_neg (by show ¬ (i.val + 64 < 64); omega), dif_pos (by show i.val + 64 < 128; omega)]
  exact congrArg b (Fin.ext (by show i.val + 64 - 64 = i.val; omega))
theorem cat3_right (a b : Fin 64 → EReal) (e : Fin 8 → EReal) (i : Fin 8) : cat3 a b e ⟨i.val + 128, by omega⟩ = e i := by
  unfold cat3
  rw [dif_neg (by show ¬ (i.val + 128 < 64); omega), dif_neg (by show ¬ (i.val + 128 < 128); omega)]
  exact congrArg e (Fin.ext (by show i.val + 128 - 128 = i.val; omega))

/-- A sum over a + b positions is the sum over the first a plus the sum over the last b. -/
theorem sum_split {M : Type*} [AddCommMonoid M] {N : ℕ} (a b : ℕ) (h : a + b = N) (f : Fin N → M) :
    ∑ k : Fin N, f k = (∑ k : Fin a, f ⟨k.val, by omega⟩) + ∑ k : Fin b, f ⟨k.val + a, by omega⟩ := by
  subst h
  refine (Fin.sum_univ_add f).trans ?_
  refine congrArg₂ (· + ·) (Finset.sum_congr rfl fun k _ => congrArg f (Fin.ext rfl))
    (Finset.sum_congr rfl fun k _ => congrArg f (Fin.ext ?_))
  show a + k.val = k.val + a
  omega

/-- The joined row [a | b] against 128 stacked weights: a against the upper 64 plus b against the lower 64. -/
theorem sum_cat2 (a b : Fin 64 → EReal) (w : Fin 128 → EReal) :
    ∑ i : Fin 128, cat2 a b i * w i
      = (∑ i : Fin 64, a i * w ⟨i.val, by omega⟩) + ∑ i : Fin 64, b i * w ⟨i.val + 64, by omega⟩ := by
  rw [sum_split 64 64 rfl]
  exact congrArg₂ (· + ·) (Finset.sum_congr rfl fun i _ => by rw [cat2_left])
    (Finset.sum_congr rfl fun i _ => by rw [cat2_right])

/-- The joined row [a | b | e] against 136 stacked weights: a against rows 0–63, b against rows 64–127, e against
    rows 128–135, grouped as ((a + b) + e). -/
theorem sum_cat3 (a b : Fin 64 → EReal) (e : Fin 8 → EReal) (w : Fin 136 → EReal) :
    ∑ i : Fin 136, cat3 a b e i * w i
      = ((∑ i : Fin 64, a i * w ⟨i.val, by omega⟩) + ∑ i : Fin 64, b i * w ⟨i.val + 64, by omega⟩)
        + ∑ i : Fin 8, e i * w ⟨i.val + 128, by omega⟩ := by
  rw [sum_split 128 8 rfl, sum_split 64 64 rfl]
  refine congrArg₂ (· + ·) (congrArg₂ (· + ·) (Finset.sum_congr rfl fun i _ => ?_) (Finset.sum_congr rfl fun i _ => ?_))
    (Finset.sum_congr rfl fun i _ => ?_)
  · exact congrArg (· * _) (cat3_left a b e i)
  · exact congrArg (· * _) (cat3_mid a b e i)
  · exact congrArg (· * _) (cat3_right a b e i)

end Cert.GnnRows

end
-- ==== Proof.GnnArrays.lean ====
/-
  The two networks of a message-passing round applied to every row of a matrix.

  `msgArr` is the edge network: row p of the result is the perceptron of the joined row
  [ a_p | b_p | e_p ]  (64 + 64 + 8 features).  `updArr` is the node network: row p of the result is the perceptron of
  [ a_p | b_p ]  (64 + 64).  The biases come as one-row matrices.  Both are defined for any number of rows, so that a
  block of rows of the result is the same function of the matching blocks of rows of a, b (and e): each result row
  depends on the same row of the operands only.
-/
import Idealize.ShloMosaic.Lib.ValueIdx
import proofs.«156022_j57337813401889_2_alg».proof.Proof.GnnRows

noncomputable section

namespace Cert.GnnRows

open Idealize.ShloMosaic Idealize.ShloMosaic.ValueIdx

/-- An r × c matrix of extended reals, indexed as the arrays of the programs are. -/
abbrev Mat (r c : ℕ) : Type := (⟨2, ![r, c]⟩ : Shape).Idx → EReal

/-- Row p of a matrix. -/
def row {r c : ℕ} (x : Mat r c) (p : Fin r) : Fin c → EReal := fun k => x (ix2 p k)

/-- A matrix by its two coordinates. -/
def ent {r c : ℕ} (x : Mat r c) : Fin r → Fin c → EReal := fun p k => x (ix2 p k)

/-- A vector of c entries as the one-row matrix holding it. -/
def oneRow {c : ℕ} (v : (⟨1, ![c]⟩ : Shape).Idx → EReal) : Mat 1 c := fun i => v (ix1 ⟨(i 1).val, idx2_lt1 i⟩)

theorem row_oneRow {c : ℕ} (v : (⟨1, ![c]⟩ : Shape).Idx → EReal) (u : Fin 1) : row (oneRow v) u = fun k => v (ix1 k) := rfl

/-- The edge network on every row. -/
def msgArr {n : ℕ} (a b : Mat n 64) (e : Mat n 8) (w1 : Mat 136 128) (b1 : Mat 1 128) (w2 : Mat 128 64)
    (b2 : Mat 1 64) : Mat n 64 := fun i =>
  mlpRow (cat3 (row a ⟨(i 0).val, idx2_lt0 i⟩) (row b ⟨(i 0).val, idx2_lt0 i⟩) (row e ⟨(i 0).val, idx2_lt0 i⟩))
    (ent w1) (row b1 0) (ent w2) (row b2 0) ⟨(i 1).val, idx2_lt1 i⟩

/-- The node network on every row. -/
def updArr {n : ℕ} (a b : Mat n 64) (w1 : Mat 128 128) (b1 : Mat 1 128) (w2 : Mat 128 64) (b2 : Mat 1 64) :
    Mat n 64 := fun i =>
  mlpRow (cat2 (row a ⟨(i 0).val, idx2_lt0 i⟩) (row b ⟨(i 0).val, idx2_lt0 i⟩))
    (ent w1) (row b1 0) (ent w2) (row b2 0) ⟨(i 1).val, idx2_lt1 i⟩

theorem msgArr_ix2 {n : ℕ} (a b : Mat n 64) (e : Mat n 8) (w1 : Mat 136 128) (b1 : Mat 1 128) (w2 : Mat 128 64)
    (b2 : Mat 1 64) (p : Fin n) (q : Fin 64) :
    msgArr a b e w1 b1 w2 b2 (ix2 p q)
      = mlpRow (cat3 (row a p) (row b p) (row e p)) (ent w1) (row b1 0) (ent w2) (row b2 0) q := rfl

theorem updArr_ix2 {n : ℕ} (a b : Mat n 64) (w1 : Mat 128 128) (b1 : Mat 1 128) (w2 : Mat 128 64)
    (b2 : Mat 1 64) (p : Fin n) (q : Fin 64) :
    updArr a b w1 b1 w2 b2 (ix2 p q)
      = mlpRow (cat2 (row a p) (row b p)) (ent w1) (row b1 0) (ent w2) (row b2 0) q := rfl

end Cert.GnnRows

end
-- ==== Proof.ChainA.lean ====
/-
  The idealized kernel's buffers at the boundaries between its host stretches and regions: the part that depends on
  the program's arguments only.

  An argument buffer is written by no host operation and by no region (a region only reads it, through an input
  window, or does not touch it), so it holds its launch contents at every boundary.  Each stretch slices the layer's
  weight and bias stacks and lays a bias out as a one-row matrix; these results are the same functions of the
  arguments as the reference's own slices (the reference keeps a bias as a vector, which the one-row matrix holds).
  The edge features, converted to the narrow float format once at the start, are the argument itself on the extended
  reals, and stay in their buffer up to the second round's edge network.
-/
import proofs.«156022_j57337813401889_2_alg».proof.Proof.Gen.KernelIdeal.Frame
import proofs.«156022_j57337813401889_2_alg».proof.Proof.RefStagesP
import proofs.«156022_j57337813401889_2_alg».proof.Proof.GnnArrays
import Idealize.ShloMosaic.Lib.Pipeline.Value
import Idealize.ShloMosaic.Lib.StableHlo.Run

set_option maxRecDepth 16384

noncomputable section

namespace Cert.KernelIdeal.Chain

open Cert.KernelIdeal Cert.KernelIdeal.Gen Cert.GnnRows Cert.ReferenceIdeal.ReadP
open Idealize.ShloMosaic Idealize.ShloMosaic.TcCoe Idealize.ShloMosaic.ValueIdx Idealize.SL.Sem
open Idealize.ShloMosaic.StableHlo (after_cons after_nil)

/-- A vector cast to a one-row matrix is the one-row matrix holding it. -/
theorem shapeCast_oneRow {n : ℕ} (v : (⟨1, ![n]⟩ : Shape).Idx → EReal)
    (h : (⟨1, ![n]⟩ : Shape).ShapeCasts ⟨2, ![1, n]⟩) : shapeCast ⟨2, ![1, n]⟩ v h = oneRow v :=
  funext fun j => (shapeCast_addUnit_apply ![n] v h j).trans (congrArg v (funext fun a => Fin.ext (by
    match a with
    | ⟨0, _⟩ => rfl)))

/-- The buffers the operations of stretch 0 write. -/
abbrev wr0 : List (Ref sig .tc) := [main_v0, main_v1, main_v2, main_c, main_v3, main_v4, main_c_0, main_v5, main_v6, main_v7, main_v8, main_v9, main_c_1, main_v10, main_v11, main_c_2, main_v12, main_v13, main_v14, main_v15, main_v16, main_v17, main_v18, main_v19, main_v20, main_v21, main_v22, main_v23, main_v24, main_v25, main_v26]
theorem hostOps0_writes : (hostOps0 : List (HloOp τ sig (Elt Ideal))).Forall fun op => op.writes ⊆ ((wr0).map (Proc.devRef (τ := τ) .tc)).toFinset := by
  simp only [hostOps0, wr0, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers the operations of stretch 1 write. -/
abbrev wr1 : List (Ref sig .tc) := [main_v28, main_cst, main_v29, main_v30, main_v31, main_v32, main_cst_3, main_v33, main_v34, main_v35, main_v36, main_v37, main_v38, main_v39, main_v40, main_v41, main_v42, main_v43, main_v44, main_v45]
theorem hostOps1_writes : (hostOps1 : List (HloOp τ sig (Elt Ideal))).Forall fun op => op.writes ⊆ ((wr1).map (Proc.devRef (τ := τ) .tc)).toFinset := by
  simp only [hostOps1, wr1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers the operations of stretch 2 write. -/
abbrev wr2 : List (Ref sig .tc) := [main_v47, main_v48, main_v49, main_v50, main_v51, main_v52, main_v53, main_v54, main_v55, main_v56]
theorem hostOps2_writes : (hostOps2 : List (HloOp τ sig (Elt Ideal))).Forall fun op => op.writes ⊆ ((wr2).map (Proc.devRef (τ := τ) .tc)).toFinset := by
  simp only [hostOps2, wr2, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers the operations of stretch 3 write. -/
abbrev wr3 : List (Ref sig .tc) := [main_v58, main_v59, main_c_4, main_v60, main_v61, main_c_5, main_v62, main_v63, main_v64, main_v65, main_v66, main_c_6, main_v67, main_v68, main_c_7, main_v69, main_v70, main_v71, main_v72, main_v73, main_v74, main_v75, main_v76, main_v77, main_v78, main_v79, main_v80, main_v81, main_v82, main_v83]
theorem hostOps3_writes : (hostOps3 : List (HloOp τ sig (Elt Ideal))).Forall fun op => op.writes ⊆ ((wr3).map (Proc.devRef (τ := τ) .tc)).toFinset := by
  simp only [hostOps3, wr3, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers the operations of stretch 4 write. -/
abbrev wr4 : List (Ref sig .tc) := [main_v85, main_cst_8, main_v86, main_v87, main_v88, main_v89, main_cst_9, main_v90, main_v91, main_v92, main_v93, main_v94, main_v95, main_v96, main_v97, main_v98, main_v99, main_v100, main_v101, main_v102]
theorem hostOps4_writes : (hostOps4 : List (HloOp τ sig (Elt Ideal))).Forall fun op => op.writes ⊆ ((wr4).map (Proc.devRef (τ := τ) .tc)).toFinset := by
  simp only [hostOps4, wr4, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

/-- The buffers the operations of stretch 5 write. -/
abbrev wr5 : List (Ref sig .tc) := [main_v104, main_v105, main_v106, main_v107, main_v108, main_v109, main_v110, main_v111, main_v112, main_v113]
theorem hostOps5_writes : (hostOps5 : List (HloOp τ sig (Elt Ideal))).Forall fun op => op.writes ⊆ ((wr5).map (Proc.devRef (τ := τ) .tc)).toFinset := by
  simp only [hostOps5, wr5, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩

variable (m : (ℓ : Loc nD τ sig) → Buf (Elt Ideal) ℓ) (ρ : Dev nD → PrngReg) (c : Dev nD)

/-! ## The arguments' launch contents -/
abbrev ax0 := m ((c : Thread nD τ).loc main_arg0)
abbrev ax1 := m ((c : Thread nD τ).loc main_arg1)
abbrev ax2 := m ((c : Thread nD τ).loc main_arg2)
abbrev ax3 := m ((c : Thread nD τ).loc main_arg3)
abbrev ax4 := m ((c : Thread nD τ).loc main_arg4)
abbrev ax5 := m ((c : Thread nD τ).loc main_arg5)
abbrev ax6 := m ((c : Thread nD τ).loc main_arg6)
abbrev ax7 := m ((c : Thread nD τ).loc main_arg7)
abbrev ax8 := m ((c : Thread nD τ).loc main_arg8)
abbrev ax9 := m ((c : Thread nD τ).loc main_arg9)
abbrev ax10 := m ((c : Thread nD τ).loc main_arg10)
abbrev ax11 := m ((c : Thread nD τ).loc main_arg11)
abbrev ax12 := m ((c : Thread nD τ).loc main_arg12)
abbrev ax13 := m ((c : Thread nD τ).loc main_arg13)
abbrev ax14 := m ((c : Thread nD τ).loc main_arg14)
abbrev ax15 := m ((c : Thread nD τ).loc main_arg15)
abbrev ax16 := m ((c : Thread nD τ).loc main_arg16)

/-! ## An argument buffer at every boundary up to its last reader -/
theorem W0_arg0 : W0 m ρ c (Proc.devRef .tc main_arg0) = ax0 m c := rfl
theorem W1_arg0 : W1 m ρ c (Proc.devRef .tc main_arg0) = ax0 m c :=
  (StableHlo.after_of_writes_sub hostOps0 (W0 m ρ c) hostOps0_writes (by decide : main_arg0 ∉ wr0)).trans (W0_arg0 m ρ c)
theorem W2_arg0 : W2 m ρ c (Proc.devRef .tc main_arg0) = ax0 m c :=
  (W2_of_ne m ρ c main_arg0 (by decide)).trans (W1_arg0 m ρ c)
theorem W3_arg0 : W3 m ρ c (Proc.devRef .tc main_arg0) = ax0 m c :=
  (StableHlo.after_of_writes_sub hostOps1 (W2 m ρ c) hostOps1_writes (by decide : main_arg0 ∉ wr1)).trans (W2_arg0 m ρ c)
theorem W0_arg1 : W0 m ρ c (Proc.devRef .tc main_arg1) = ax1 m c := rfl
theorem W1_arg1 : W1 m ρ c (Proc.devRef .tc main_arg1) = ax1 m c :=
  (StableHlo.after_of_writes_sub hostOps0 (W0 m ρ c) hostOps0_writes (by decide : main_arg1 ∉ wr0)).trans (W0_arg1 m ρ c)
theorem W2_arg1 : W2 m ρ c (Proc.devRef .tc main_arg1) = ax1 m c :=
  (W2_of_ne m ρ c main_arg1 (by decide)).trans (W1_arg1 m ρ c)
theorem W3_arg1 : W3 m ρ c (Proc.devRef .tc main_arg1) = ax1 m c :=
  (StableHlo.after_of_writes_sub hostOps1 (W2 m ρ c) hostOps1_writes (by decide : main_arg1 ∉ wr1)).trans (W2_arg1 m ρ c)
theorem W4_arg1 : W4 m ρ c (Proc.devRef .tc main_arg1) = ax1 m c :=
  (W4_of_ne m ρ c main_arg1 (by decide)).trans (W3_arg1 m ρ c)
theorem W5_arg1 : W5 m ρ c (Proc.devRef .tc main_arg1) = ax1 m c :=
  (StableHlo.after_of_writes_sub hostOps2 (W4 m ρ c) hostOps2_writes (by decide : main_arg1 ∉ wr2)).trans (W4_arg1 m ρ c)
theorem W0_arg2 : W0 m ρ c (Proc.devRef .tc main_arg2) = ax2 m c := rfl
theorem W1_arg2 : W1 m ρ c (Proc.devRef .tc main_arg2) = ax2 m c :=
  (StableHlo.after_of_writes_sub hostOps0 (W0 m ρ c) hostOps0_writes (by decide : main_arg2 ∉ wr0)).trans (W0_arg2 m ρ c)
theorem W0_arg3 : W0 m ρ c (Proc.devRef .tc main_arg3) = ax3 m c := rfl
theorem W1_arg3 : W1 m ρ c (Proc.devRef .tc main_arg3) = ax3 m c :=
  (StableHlo.after_of_writes_sub hostOps0 (W0 m ρ c) hostOps0_writes (by decide : main_arg3 ∉ wr0)).trans (W0_arg3 m ρ c)
theorem W2_arg3 : W2 m ρ c (Proc.devRef .tc main_arg3) = ax3 m c :=
  (W2_of_ne m ρ c main_arg3 (by decide)).trans (W1_arg3 m ρ c)
theorem W3_arg3 : W3 m ρ c (Proc.devRef .tc main_arg3) = ax3 m c :=
  (StableHlo.after_of_writes_sub hostOps1 (W2 m ρ c) hostOps1_writes (by decide : main_arg3 ∉ wr1)).trans (W2_arg3 m ρ c)
theorem W4_arg3 : W4 m ρ c (Proc.devRef .tc main_arg3) = ax3 m c :=
  (W4_of_ne m ρ c main_arg3 (by decide)).trans (W3_arg3 m ρ c)
theorem W5_arg3 : W5 m ρ c (Proc.devRef .tc main_arg3) = ax3 m c :=
  (StableHlo.after_of_writes_sub hostOps2 (W4 m ρ c) hostOps2_writes (by decide : main_arg3 ∉ wr2)).trans (W4_arg3 m ρ c)
theorem W6_arg3 : W6 m ρ c (Proc.devRef .tc main_arg3) = ax3 m c :=
  (W6_of_ne m ρ c main_arg3 (by decide)).trans (W5_arg3 m ρ c)
theorem W7_arg3 : W7 m ρ c (Proc.devRef .tc main_arg3) = ax3 m c :=
  (StableHlo.after_of_writes_sub hostOps3 (W6 m ρ c) hostOps3_writes (by decide : main_arg3 ∉ wr3)).trans (W6_arg3 m ρ c)
theorem W8_arg3 : W8 m ρ c (Proc.devRef .tc main_arg3) = ax3 m c :=
  (W8_of_ne m ρ c main_arg3 (by decide)).trans (W7_arg3 m ρ c)
theorem W0_arg4 : W0 m ρ c (Proc.devRef .tc main_arg4) = ax4 m c := rfl
theorem W1_arg4 : W1 m ρ c (Proc.devRef .tc main_arg4) = ax4 m c :=
  (StableHlo.after_of_writes_sub hostOps0 (W0 m ρ c) hostOps0_writes (by decide : main_arg4 ∉ wr0)).trans (W0_arg4 m ρ c)
theorem W2_arg4 : W2 m ρ c (Proc.devRef .tc main_arg4) = ax4 m c :=
  (W2_of_ne m ρ c main_arg4 (by decide)).trans (W1_arg4 m ρ c)
theorem W3_arg4 : W3 m ρ c (Proc.devRef .tc main_arg4) = ax4 m c :=
  (StableHlo.after_of_writes_sub hostOps1 (W2 m ρ c) hostOps1_writes (by decide : main_arg4 ∉ wr1)).trans (W2_arg4 m ρ c)
theorem W4_arg4 : W4 m ρ c (Proc.devRef .tc main_arg4) = ax4 m c :=
  (W4_of_ne m ρ c main_arg4 (by decide)).trans (W3_arg4 m ρ c)
theorem W5_arg4 : W5 m ρ c (Proc.devRef .tc main_arg4) = ax4 m c :=
  (StableHlo.after_of_writes_sub hostOps2 (W4 m ρ c) hostOps2_writes (by decide : main_arg4 ∉ wr2)).trans (W4_arg4 m ρ c)
theorem W6_arg4 : W6 m ρ c (Proc.devRef .tc main_arg4) = ax4 m c :=
  (W6_of_ne m ρ c main_arg4 (by decide)).trans (W5_arg4 m ρ c)
theorem W7_arg4 : W7 m ρ c (Proc.devRef .tc main_arg4) = ax4 m c :=
  (StableHlo.after_of_writes_sub hostOps3 (W6 m ρ c) hostOps3_writes (by decide : main_arg4 ∉ wr3)).trans (W6_arg4 m ρ c)
theorem W8_arg4 : W8 m ρ c (Proc.devRef .tc main_arg4) = ax4 m c :=
  (W8_of_ne m ρ c main_arg4 (by decide)).trans (W7_arg4 m ρ c)
theorem W0_arg5 : W0 m ρ c (Proc.devRef .tc main_arg5) = ax5 m c := rfl
theorem W1_arg5 : W1 m ρ c (Proc.devRef .tc main_arg5) = ax5 m c :=
  (StableHlo.after_of_writes_sub hostOps0 (W0 m ρ c) hostOps0_writes (by decide : main_arg5 ∉ wr0)).trans (W0_arg5 m ρ c)
theorem W2_arg5 : W2 m ρ c (Proc.devRef .tc main_arg5) = ax5 m c :=
  (W2_of_ne m ρ c main_arg5 (by decide)).trans (W1_arg5 m ρ c)
theorem W3_arg5 : W3 m ρ c (Proc.devRef .tc main_arg5) = ax5 m c :=
  (StableHlo.after_of_writes_sub hostOps1 (W2 m ρ c) hostOps1_writes (by decide : main_arg5 ∉ wr1)).trans (W2_arg5 m ρ c)
theorem W4_arg5 : W4 m ρ c (Proc.devRef .tc main_arg5) = ax5 m c :=
  (W4_of_ne m ρ c main_arg5 (by decide)).trans (W3_arg5 m ρ c)
theorem W5_arg5 : W5 m ρ c (Proc.devRef .tc main_arg5) = ax5 m c :=
  (StableHlo.after_of_writes_sub hostOps2 (W4 m ρ c) hostOps2_writes (by decide : main_arg5 ∉ wr2)).trans (W4_arg5 m ρ c)
theorem W6_arg5 : W6 m ρ c (Proc.devRef .tc main_arg5) = ax5 m c :=
  (W6_of_ne m ρ c main_arg5 (by decide)).trans (W5_arg5 m ρ c)
theorem W0_arg6 : W0 m ρ c (Proc.devRef .tc main_arg6) = ax6 m c := rfl
theorem W1_arg6 : W1 m ρ c (Proc.devRef .tc main_arg6) = ax6 m c :=
  (StableHlo.after_of_writes_sub hostOps0 (W0 m ρ c) hostOps0_writes (by decide : main_arg6 ∉ wr0)).trans (W0_arg6 m ρ c)
theorem W2_arg6 : W2 m ρ c (Proc.devRef .tc main_arg6) = ax6 m c :=
  (W2_of_ne m ρ c main_arg6 (by decide)).trans (W1_arg6 m ρ c)
theorem W3_arg6 : W3 m ρ c (Proc.devRef .tc main_arg6) = ax6 m c :=
  (StableHlo.after_of_writes_sub hostOps1 (W2 m ρ c) hostOps1_writes (by decide : main_arg6 ∉ wr1)).trans (W2_arg6 m ρ c)
theorem W4_arg6 : W4 m ρ c (Proc.devRef .tc main_arg6) = ax6 m c :=
  (W4_of_ne m ρ c main_arg6 (by decide)).trans (W3_arg6 m ρ c)
theorem W5_arg6 : W5 m ρ c (Proc.devRef .tc main_arg6) = ax6 m c :=
  (StableHlo.after_of_writes_sub hostOps2 (W4 m ρ c) hostOps2_writes (by decide : main_arg6 ∉ wr2)).trans (W4_arg6 m ρ c)
theorem W6_arg6 : W6 m ρ c (Proc.devRef .tc main_arg6) = ax6 m c :=
  (W6_of_ne m ρ c main_arg6 (by decide)).trans (W5_arg6 m ρ c)
theorem W0_arg7 : W0 m ρ c (Proc.devRef .tc main_arg7) = ax7 m c := rfl
theorem W1_arg7 : W1 m ρ c (Proc.devRef .tc main_arg7) = ax7 m c :=
  (StableHlo.after_of_writes_sub hostOps0 (W0 m ρ c) hostOps0_writes (by decide : main_arg7 ∉ wr0)).trans (W0_arg7 m ρ c)
theorem W2_arg7 : W2 m ρ c (Proc.devRef .tc main_arg7) = ax7 m c :=
  (W2_of_ne m ρ c main_arg7 (by decide)).trans (W1_arg7 m ρ c)
theorem W3_arg7 : W3 m ρ c (Proc.devRef .tc main_arg7) = ax7 m c :=
  (StableHlo.after_of_writes_sub hostOps1 (W2 m ρ c) hostOps1_writes (by decide : main_arg7 ∉ wr1)).trans (W2_arg7 m ρ c)
theorem W4_arg7 : W4 m ρ c (Proc.devRef .tc main_arg7) = ax7 m c :=
  (W4_of_ne m ρ c main_arg7 (by decide)).trans (W3_arg7 m ρ c)
theorem W5_arg7 : W5 m ρ c (Proc.devRef .tc main_arg7) = ax7 m c :=
  (StableHlo.after_of_writes_sub hostOps2 (W4 m ρ c) hostOps2_writes (by decide : main_arg7 ∉ wr2)).trans (W4_arg7 m ρ c)
theorem W6_arg7 : W6 m ρ c (Proc.devRef .tc main_arg7) = ax7 m c :=
  (W6_of_ne m ρ c main_arg7 (by decide)).trans (W5_arg7 m ρ c)
theorem W0_arg8 : W0 m ρ c (Proc.devRef .tc main_arg8) = ax8 m c := rfl
theorem W1_arg8 : W1 m ρ c (Proc.devRef .tc main_arg8) = ax8 m c :=
  (StableHlo.after_of_writes_sub hostOps0 (W0 m ρ c) hostOps0_writes (by decide : main_arg8 ∉ wr0)).trans (W0_arg8 m ρ c)
theorem W2_arg8 : W2 m ρ c (Proc.devRef .tc main_arg8) = ax8 m c :=
  (W2_of_ne m ρ c main_arg8 (by decide)).trans (W1_arg8 m ρ c)
theorem W3_arg8 : W3 m ρ c (Proc.devRef .tc main_arg8) = ax8 m c :=
  (StableHlo.after_of_writes_sub hostOps1 (W2 m ρ c) hostOps1_writes (by decide : main_arg8 ∉ wr1)).trans (W2_arg8 m ρ c)
theorem W4_arg8 : W4 m ρ c (Proc.devRef .tc main_arg8) = ax8 m c :=
  (W4_of_ne m ρ c main_arg8 (by decide)).trans (W3_arg8 m ρ c)
theorem W5_arg8 : W5 m ρ c (Proc.devRef .tc main_arg8) = ax8 m c :=
  (StableHlo.after_of_writes_sub hostOps2 (W4 m ρ c) hostOps2_writes (by decide : main_arg8 ∉ wr2)).trans (W4_arg8 m ρ c)
theorem W6_arg8 : W6 m ρ c (Proc.devRef .tc main_arg8) = ax8 m c :=
  (W6_of_ne m ρ c main_arg8 (by decide)).trans (W5_arg8 m ρ c)
theorem W0_arg9 : W0 m ρ c (Proc.devRef .tc main_arg9) = ax9 m c := rfl
theorem W1_arg9 : W1 m ρ c (Proc.devRef .tc main_arg9) = ax9 m c :=
  (StableHlo.after_of_writes_sub hostOps0 (W0 m ρ c) hostOps0_writes (by decide : main_arg9 ∉ wr0)).trans (W0_arg9 m ρ c)
theorem W2_arg9 : W2 m ρ c (Proc.devRef .tc main_arg9) = ax9 m c :=
  (W2_of_ne m ρ c main_arg9 (by decide)).trans (W1_arg9 m ρ c)
theorem W3_arg9 : W3 m ρ c (Proc.devRef .tc main_arg9) = ax9 m c :=
  (StableHlo.after_of_writes_sub hostOps1 (W2 m ρ c) hostOps1_writes (by decide : main_arg9 ∉ wr1)).trans (W2_arg9 m ρ c)
theorem W4_arg9 : W4 m ρ c (Proc.devRef .tc main_arg9) = ax9 m c :=
  (W4_of_ne m ρ c main_arg9 (by decide)).trans (W3_arg9 m ρ c)
theorem W5_arg9 : W5 m ρ c (Proc.devRef .tc main_arg9) = ax9 m c :=
  (StableHlo.after_of_writes_sub hostOps2 (W4 m ρ c) hostOps2_writes (by decide : main_arg9 ∉ wr2)).trans (W4_arg9 m ρ c)
theorem W6_arg9 : W6 m ρ c (Proc.devRef .tc main_arg9) = ax9 m c :=
  (W6_of_ne m ρ c main_arg9 (by decide)).trans (W5_arg9 m ρ c)
theorem W7_arg9 : W7 m ρ c (Proc.devRef .tc main_arg9) = ax9 m c :=
  (StableHlo.after_of_writes_sub hostOps3 (W6 m ρ c) hostOps3_writes (by decide : main_arg9 ∉ wr3)).trans (W6_arg9 m ρ c)
theorem W8_arg9 : W8 m ρ c (Proc.devRef .tc main_arg9) = ax9 m c :=
  (W8_of_ne m ρ c main_arg9 (by decide)).trans (W7_arg9 m ρ c)
theorem W0_arg10 : W0 m ρ c (Proc.devRef .tc main_arg10) = ax10 m c := rfl
theorem W1_arg10 : W1 m ρ c (Proc.devRef .tc main_arg10) = ax10 m c :=
  (StableHlo.after_of_writes_sub hostOps0 (W0 m ρ c) hostOps0_writes (by decide : main_arg10 ∉ wr0)).trans (W0_arg10 m ρ c)
theorem W2_arg10 : W2 m ρ c (Proc.devRef .tc main_arg10) = ax10 m c :=
  (W2_of_ne m ρ c main_arg10 (by decide)).trans (W1_arg10 m ρ c)
theorem W3_arg10 : W3 m ρ c (Proc.devRef .tc main_arg10) = ax10 m c :=
  (StableHlo.after_of_writes_sub hostOps1 (W2 m ρ c) hostOps1_writes (by decide : main_arg10 ∉ wr1)).trans (W2_arg10 m ρ c)
theorem W4_arg10 : W4 m ρ c (Proc.devRef .tc main_arg10) = ax10 m c :=
  (W4_of_ne m ρ c main_arg10 (by decide)).trans (W3_arg10 m ρ c)
theorem W5_arg10 : W5 m ρ c (Proc.devRef .tc main_arg10) = ax10 m c :=
  (StableHlo.after_of_writes_sub hostOps2 (W4 m ρ c) hostOps2_writes (by decide : main_arg10 ∉ wr2)).trans (W4_arg10 m ρ c)
theorem W6_arg10 : W6 m ρ c (Proc.devRef .tc main_arg10) = ax10 m c :=
  (W6_of_ne m ρ c main_arg10 (by decide)).trans (W5_arg10 m ρ c)
theorem W7_arg10 : W7 m ρ c (Proc.devRef .tc main_arg10) = ax10 m c :=
  (StableHlo.after_of_writes_sub hostOps3 (W6 m ρ c) hostOps3_writes (by decide : main_arg10 ∉ wr3)).trans (W6_arg10 m ρ c)
theorem W8_arg10 : W8 m ρ c (Proc.devRef .tc main_arg10) = ax10 m c :=
  (W8_of_ne m ρ c main_arg10 (by decide)).trans (W7_arg10 m ρ c)
theorem W0_arg11 : W0 m ρ c (Proc.devRef .tc main_arg11) = ax11 m c := rfl
theorem W1_arg11 : W1 m ρ c (Proc.devRef .tc main_arg11) = ax11 m c :=
  (StableHlo.after_of_writes_sub hostOps0 (W0 m ρ c) hostOps0_writes (by decide : main_arg11 ∉ wr0)).trans (W0_arg11 m ρ c)
theorem W2_arg11 : W2 m ρ c (Proc.devRef .tc main_arg11) = ax11 m c :=
  (W2_of_ne m ρ c main_arg11 (by decide)).trans (W1_arg11 m ρ c)
theorem W3_arg11 : W3 m ρ c (Proc.devRef .tc main_arg11) = ax11 m c :=
  (StableHlo.after_of_writes_sub hostOps1 (W2 m ρ c) hostOps1_writes (by decide : main_arg11 ∉ wr1)).trans (W2_arg11 m ρ c)
theorem W4_arg11 : W4 m ρ c (Proc.devRef .tc main_arg11) = ax11 m c :=
  (W4_of_ne m ρ c main_arg11 (by decide)).trans (W3_arg11 m ρ c)
theorem W5_arg11 : W5 m ρ c (Proc.devRef .tc main_arg11) = ax11 m c :=
  (StableHlo.after_of_writes_sub hostOps2 (W4 m ρ c) hostOps2_writes (by decide : main_arg11 ∉ wr2)).trans (W4_arg11 m ρ c)
theorem W6_arg11 : W6 m ρ c (Proc.devRef .tc main_arg11) = ax11 m c :=
  (W6_of_ne m ρ c main_arg11 (by decide)).trans (W5_arg11 m ρ c)
theorem W7_arg11 : W7 m ρ c (Proc.devRef .tc main_arg11) = ax11 m c :=
  (StableHlo.after_of_writes_sub hostOps3 (W6 m ρ c) hostOps3_writes (by decide : main_arg11 ∉ wr3)).trans (W6_arg11 m ρ c)
theorem W8_arg11 : W8 m ρ c (Proc.devRef .tc main_arg11) = ax11 m c :=
  (W8_of_ne m ρ c main_arg11 (by decide)).trans (W7_arg11 m ρ c)
theorem W0_arg12 : W0 m ρ c (Proc.devRef .tc main_arg12) = ax12 m c := rfl
theorem W1_arg12 : W1 m ρ c (Proc.devRef .tc main_arg12) = ax12 m c :=
  (StableHlo.after_of_writes_sub hostOps0 (W0 m ρ c) hostOps0_writes (by decide : main_arg12 ∉ wr0)).trans (W0_arg12 m ρ c)
theorem W2_arg12 : W2 m ρ c (Proc.devRef .tc main_arg12) = ax12 m c :=
  (W2_of_ne m ρ c main_arg12 (by decide)).trans (W1_arg12 m ρ c)
theorem W3_arg12 : W3 m ρ c (Proc.devRef .tc main_arg12) = ax12 m c :=
  (StableHlo.after_of_writes_sub hostOps1 (W2 m ρ c) hostOps1_writes (by decide : main_arg12 ∉ wr1)).trans (W2_arg12 m ρ c)
theorem W4_arg12 : W4 m ρ c (Proc.devRef .tc main_arg12) = ax12 m c :=
  (W4_of_ne m ρ c main_arg12 (by decide)).trans (W3_arg12 m ρ c)
theorem W5_arg12 : W5 m ρ c (Proc.devRef .tc main_arg12) = ax12 m c :=
  (StableHlo.after_of_writes_sub hostOps2 (W4 m ρ c) hostOps2_writes (by decide : main_arg12 ∉ wr2)).trans (W4_arg12 m ρ c)
theorem W6_arg12 : W6 m ρ c (Proc.devRef .tc main_arg12) = ax12 m c :=
  (W6_of_ne m ρ c main_arg12 (by decide)).trans (W5_arg12 m ρ c)
theorem W7_arg12 : W7 m ρ c (Proc.devRef .tc main_arg12) = ax12 m c :=
  (StableHlo.after_of_writes_sub hostOps3 (W6 m ρ c) hostOps3_writes (by decide : main_arg12 ∉ wr3)).trans (W6_arg12 m ρ c)
theorem W8_arg12 : W8 m ρ c (Proc.devRef .tc main_arg12) = ax12 m c :=
  (W8_of_ne m ρ c main_arg12 (by decide)).trans (W7_arg12 m ρ c)
theorem W0_arg13 : W0 m ρ c (Proc.devRef .tc main_arg13) = ax13 m c := rfl
theorem W1_arg13 : W1 m ρ c (Proc.devRef .tc main_arg13) = ax13 m c :=
  (StableHlo.after_of_writes_sub hostOps0 (W0 m ρ c) hostOps0_writes (by decide : main_arg13 ∉ wr0)).trans (W0_arg13 m ρ c)
theorem W2_arg13 : W2 m ρ c (Proc.devRef .tc main_arg13) = ax13 m c :=
  (W2_of_ne m ρ c main_arg13 (by decide)).trans (W1_arg13 m ρ c)
theorem W3_arg13 : W3 m ρ c (Proc.devRef .tc main_arg13) = ax13 m c :=
  (StableHlo.after_of_writes_sub hostOps1 (W2 m ρ c) hostOps1_writes (by decide : main_arg13 ∉ wr1)).trans (W2_arg13 m ρ c)
theorem W4_arg13 : W4 m ρ c (Proc.devRef .tc main_arg13) = ax13 m c :=
  (W4_of_ne m ρ c main_arg13 (by decide)).trans (W3_arg13 m ρ c)
theorem W5_arg13 : W5 m ρ c (Proc.devRef .tc main_arg13) = ax13 m c :=
  (StableHlo.after_of_writes_sub hostOps2 (W4 m ρ c) hostOps2_writes (by decide : main_arg13 ∉ wr2)).trans (W4_arg13 m ρ c)
theorem W6_arg13 : W6 m ρ c (Proc.devRef .tc main_arg13) = ax13 m c :=
  (W6_of_ne m ρ c main_arg13 (by decide)).trans (W5_arg13 m ρ c)
theorem W7_arg13 : W7 m ρ c (Proc.devRef .tc main_arg13) = ax13 m c :=
  (StableHlo.after_of_writes_sub hostOps3 (W6 m ρ c) hostOps3_writes (by decide : main_arg13 ∉ wr3)).trans (W6_arg13 m ρ c)
theorem W8_arg13 : W8 m ρ c (Proc.devRef .tc main_arg13) = ax13 m c :=
  (W8_of_ne m ρ c main_arg13 (by decide)).trans (W7_arg13 m ρ c)
theorem W9_arg13 : W9 m ρ c (Proc.devRef .tc main_arg13) = ax13 m c :=
  (StableHlo.after_of_writes_sub hostOps4 (W8 m ρ c) hostOps4_writes (by decide : main_arg13 ∉ wr4)).trans (W8_arg13 m ρ c)
theorem W10_arg13 : W10 m ρ c (Proc.devRef .tc main_arg13) = ax13 m c :=
  (W10_of_ne m ρ c main_arg13 (by decide)).trans (W9_arg13 m ρ c)
theorem W0_arg14 : W0 m ρ c (Proc.devRef .tc main_arg14) = ax14 m c := rfl
theorem W1_arg14 : W1 m ρ c (Proc.devRef .tc main_arg14) = ax14 m c :=
  (StableHlo.after_of_writes_sub hostOps0 (W0 m ρ c) hostOps0_writes (by decide : main_arg14 ∉ wr0)).trans (W0_arg14 m ρ c)
theorem W2_arg14 : W2 m ρ c (Proc.devRef .tc main_arg14) = ax14 m c :=
  (W2_of_ne m ρ c main_arg14 (by decide)).trans (W1_arg14 m ρ c)
theorem W3_arg14 : W3 m ρ c (Proc.devRef .tc main_arg14) = ax14 m c :=
  (StableHlo.after_of_writes_sub hostOps1 (W2 m ρ c) hostOps1_writes (by decide : main_arg14 ∉ wr1)).trans (W2_arg14 m ρ c)
theorem W4_arg14 : W4 m ρ c (Proc.devRef .tc main_arg14) = ax14 m c :=
  (W4_of_ne m ρ c main_arg14 (by decide)).trans (W3_arg14 m ρ c)
theorem W5_arg14 : W5 m ρ c (Proc.devRef .tc main_arg14) = ax14 m c :=
  (StableHlo.after_of_writes_sub hostOps2 (W4 m ρ c) hostOps2_writes (by decide : main_arg14 ∉ wr2)).trans (W4_arg14 m ρ c)
theorem W6_arg14 : W6 m ρ c (Proc.devRef .tc main_arg14) = ax14 m c :=
  (W6_of_ne m ρ c main_arg14 (by decide)).trans (W5_arg14 m ρ c)
theorem W7_arg14 : W7 m ρ c (Proc.devRef .tc main_arg14) = ax14 m c :=
  (StableHlo.after_of_writes_sub hostOps3 (W6 m ρ c) hostOps3_writes (by decide : main_arg14 ∉ wr3)).trans (W6_arg14 m ρ c)
theorem W8_arg14 : W8 m ρ c (Proc.devRef .tc main_arg14) = ax14 m c :=
  (W8_of_ne m ρ c main_arg14 (by decide)).trans (W7_arg14 m ρ c)
theorem W9_arg14 : W9 m ρ c (Proc.devRef .tc main_arg14) = ax14 m c :=
  (StableHlo.after_of_writes_sub hostOps4 (W8 m ρ c) hostOps4_writes (by decide : main_arg14 ∉ wr4)).trans (W8_arg14 m ρ c)
theorem W10_arg14 : W10 m ρ c (Proc.devRef .tc main_arg14) = ax14 m c :=
  (W10_of_ne m ρ c main_arg14 (by decide)).trans (W9_arg14 m ρ c)
theorem W0_arg15 : W0 m ρ c (Proc.devRef .tc main_arg15) = ax15 m c := rfl
theorem W1_arg15 : W1 m ρ c (Proc.devRef .tc main_arg15) = ax15 m c :=
  (StableHlo.after_of_writes_sub hostOps0 (W0 m ρ c) hostOps0_writes (by decide : main_arg15 ∉ wr0)).trans (W0_arg15 m ρ c)
theorem W2_arg15 : W2 m ρ c (Proc.devRef .tc main_arg15) = ax15 m c :=
  (W2_of_ne m ρ c main_arg15 (by decide)).trans (W1_arg15 m ρ c)
theorem W3_arg15 : W3 m ρ c (Proc.devRef .tc main_arg15) = ax15 m c :=
  (StableHlo.after_of_writes_sub hostOps1 (W2 m ρ c) hostOps1_writes (by decide : main_arg15 ∉ wr1)).trans (W2_arg15 m ρ c)
theorem W4_arg15 : W4 m ρ c (Proc.devRef .tc main_arg15) = ax15 m c :=
  (W4_of_ne m ρ c main_arg15 (by decide)).trans (W3_arg15 m ρ c)
theorem W5_arg15 : W5 m ρ c (Proc.devRef .tc main_arg15) = ax15 m c :=
  (StableHlo.after_of_writes_sub hostOps2 (W4 m ρ c) hostOps2_writes (by decide : main_arg15 ∉ wr2)).trans (W4_arg15 m ρ c)
theorem W6_arg15 : W6 m ρ c (Proc.devRef .tc main_arg15) = ax15 m c :=
  (W6_of_ne m ρ c main_arg15 (by decide)).trans (W5_arg15 m ρ c)
theorem W7_arg15 : W7 m ρ c (Proc.devRef .tc main_arg15) = ax15 m c :=
  (StableHlo.after_of_writes_sub hostOps3 (W6 m ρ c) hostOps3_writes (by decide : main_arg15 ∉ wr3)).trans (W6_arg15 m ρ c)
theorem W8_arg15 : W8 m ρ c (Proc.devRef .tc main_arg15) = ax15 m c :=
  (W8_of_ne m ρ c main_arg15 (by decide)).trans (W7_arg15 m ρ c)
theorem W9_arg15 : W9 m ρ c (Proc.devRef .tc main_arg15) = ax15 m c :=
  (StableHlo.after_of_writes_sub hostOps4 (W8 m ρ c) hostOps4_writes (by decide : main_arg15 ∉ wr4)).trans (W8_arg15 m ρ c)
theorem W10_arg15 : W10 m ρ c (Proc.devRef .tc main_arg15) = ax15 m c :=
  (W10_of_ne m ρ c main_arg15 (by decide)).trans (W9_arg15 m ρ c)
theorem W0_arg16 : W0 m ρ c (Proc.devRef .tc main_arg16) = ax16 m c := rfl
theorem W1_arg16 : W1 m ρ c (Proc.devRef .tc main_arg16) = ax16 m c :=
  (StableHlo.after_of_writes_sub hostOps0 (W0 m ρ c) hostOps0_writes (by decide : main_arg16 ∉ wr0)).trans (W0_arg16 m ρ c)
theorem W2_arg16 : W2 m ρ c (Proc.devRef .tc main_arg16) = ax16 m c :=
  (W2_of_ne m ρ c main_arg16 (by decide)).trans (W1_arg16 m ρ c)
theorem W3_arg16 : W3 m ρ c (Proc.devRef .tc main_arg16) = ax16 m c :=
  (StableHlo.after_of_writes_sub hostOps1 (W2 m ρ c) hostOps1_writes (by decide : main_arg16 ∉ wr1)).trans (W2_arg16 m ρ c)
theorem W4_arg16 : W4 m ρ c (Proc.devRef .tc main_arg16) = ax16 m c :=
  (W4_of_ne m ρ c main_arg16 (by decide)).trans (W3_arg16 m ρ c)
theorem W5_arg16 : W5 m ρ c (Proc.devRef .tc main_arg16) = ax16 m c :=
  (StableHlo.after_of_writes_sub hostOps2 (W4 m ρ c) hostOps2_writes (by decide : main_arg16 ∉ wr2)).trans (W4_arg16 m ρ c)
theorem W6_arg16 : W6 m ρ c (Proc.devRef .tc main_arg16) = ax16 m c :=
  (W6_of_ne m ρ c main_arg16 (by decide)).trans (W5_arg16 m ρ c)
theorem W7_arg16 : W7 m ρ c (Proc.devRef .tc main_arg16) = ax16 m c :=
  (StableHlo.after_of_writes_sub hostOps3 (W6 m ρ c) hostOps3_writes (by decide : main_arg16 ∉ wr3)).trans (W6_arg16 m ρ c)
theorem W8_arg16 : W8 m ρ c (Proc.devRef .tc main_arg16) = ax16 m c :=
  (W8_of_ne m ρ c main_arg16 (by decide)).trans (W7_arg16 m ρ c)
theorem W9_arg16 : W9 m ρ c (Proc.devRef .tc main_arg16) = ax16 m c :=
  (StableHlo.after_of_writes_sub hostOps4 (W8 m ρ c) hostOps4_writes (by decide : main_arg16 ∉ wr4)).trans (W8_arg16 m ρ c)
theorem W10_arg16 : W10 m ρ c (Proc.devRef .tc main_arg16) = ax16 m c :=
  (W10_of_ne m ρ c main_arg16 (by decide)).trans (W9_arg16 m ρ c)

/-! ## The slices of the weight stacks, the biases as one-row matrices, the gathered endpoint features of round one -/
theorem W1_v0 : (W1 m ρ c (Proc.devRef .tc main_v0) : Mat 800000 8) = ax2 m c := by
  dsimp only [W1, hostOps0]
  after_results_simp
  rw [W0_arg2 m ρ c]
  rfl
theorem W1_v9 : (W1 m ρ c (Proc.devRef .tc main_v9) : Mat 800000 64) = (val_main_v6 (F := Ideal) (ax0 m c) (ax3 m c)) := by
  dsimp only [W1, hostOps0]
  after_results_simp
  rw [W0_arg0 m ρ c, W0_arg3 m ρ c]
  rfl
theorem W1_v16 : (W1 m ρ c (Proc.devRef .tc main_v16) : Mat 800000 64) = (val_main_v13 (F := Ideal) (ax1 m c) (ax4 m c)) := by
  dsimp only [W1, hostOps0]
  after_results_simp
  rw [W0_arg1 m ρ c, W0_arg4 m ρ c]
  rfl
theorem W1_v18 : (W1 m ρ c (Proc.devRef .tc main_v18) : Mat 136 128) = (val_main_v16 (F := Ideal) (ax5 m c)) := by
  dsimp only [W1, hostOps0]
  after_results_simp
  rw [W0_arg5 m ρ c]
  rfl
theorem W1_v25 : (W1 m ρ c (Proc.devRef .tc main_v25) : Mat 1 128) = oneRow (val_main_v18 (F := Ideal) (ax6 m c)) := by
  dsimp only [W1, hostOps0]
  after_results_simp
  rw [W0_arg6 m ρ c]
  exact shapeCast_oneRow _ _
theorem W1_v22 : (W1 m ρ c (Proc.devRef .tc main_v22) : Mat 128 64) = (val_main_v20 (F := Ideal) (ax7 m c)) := by
  dsimp only [W1, hostOps0]
  after_results_simp
  rw [W0_arg7 m ρ c]
  rfl
theorem W1_v26 : (W1 m ρ c (Proc.devRef .tc main_v26) : Mat 1 64) = oneRow (val_main_v22 (F := Ideal) (ax8 m c)) := by
  dsimp only [W1, hostOps0]
  after_results_simp
  rw [W0_arg8 m ρ c]
  exact shapeCast_oneRow _ _
theorem W3_v37 : (W3 m ρ c (Proc.devRef .tc main_v37) : Mat 128 128) = (val_main_v37 (F := Ideal) (ax9 m c)) := by
  dsimp only [W3, hostOps1]
  after_results_simp
  rw [W2_arg9 m ρ c]
  rfl
theorem W3_v44 : (W3 m ρ c (Proc.devRef .tc main_v44) : Mat 1 128) = oneRow (val_main_v39 (F := Ideal) (ax10 m c)) := by
  dsimp only [W3, hostOps1]
  after_results_simp
  rw [W2_arg10 m ρ c]
  exact shapeCast_oneRow _ _
theorem W3_v41 : (W3 m ρ c (Proc.devRef .tc main_v41) : Mat 128 64) = (val_main_v41 (F := Ideal) (ax11 m c)) := by
  dsimp only [W3, hostOps1]
  after_results_simp
  rw [W2_arg11 m ρ c]
  rfl
theorem W3_v45 : (W3 m ρ c (Proc.devRef .tc main_v45) : Mat 1 64) = oneRow (val_main_v43 (F := Ideal) (ax12 m c)) := by
  dsimp only [W3, hostOps1]
  after_results_simp
  rw [W2_arg12 m ρ c]
  exact shapeCast_oneRow _ _
theorem W5_v48 : (W5 m ρ c (Proc.devRef .tc main_v48) : Mat 128 128) = (val_main_v76 (F := Ideal) (ax13 m c)) := by
  dsimp only [W5, hostOps2]
  after_results_simp
  rw [W4_arg13 m ρ c]
  rfl
theorem W5_v55 : (W5 m ρ c (Proc.devRef .tc main_v55) : Mat 1 128) = oneRow (val_main_v78 (F := Ideal) (ax14 m c)) := by
  dsimp only [W5, hostOps2]
  after_results_simp
  rw [W4_arg14 m ρ c]
  exact shapeCast_oneRow _ _
theorem W5_v52 : (W5 m ρ c (Proc.devRef .tc main_v52) : Mat 128 64) = (val_main_v80 (F := Ideal) (ax15 m c)) := by
  dsimp only [W5, hostOps2]
  after_results_simp
  rw [W4_arg15 m ρ c]
  rfl
theorem W5_v56 : (W5 m ρ c (Proc.devRef .tc main_v56) : Mat 1 64) = oneRow (val_main_v82 (F := Ideal) (ax16 m c)) := by
  dsimp only [W5, hostOps2]
  after_results_simp
  rw [W4_arg16 m ρ c]
  exact shapeCast_oneRow _ _
theorem W7_v75 : (W7 m ρ c (Proc.devRef .tc main_v75) : Mat 136 128) = (val_main_v108 (F := Ideal) (ax5 m c)) := by
  dsimp only [W7, hostOps3]
  after_results_simp
  rw [W6_arg5 m ρ c]
  rfl
theorem W7_v82 : (W7 m ρ c (Proc.devRef .tc main_v82) : Mat 1 128) = oneRow (val_main_v110 (F := Ideal) (ax6 m c)) := by
  dsimp only [W7, hostOps3]
  after_results_simp
  rw [W6_arg6 m ρ c]
  exact shapeCast_oneRow _ _
theorem W7_v79 : (W7 m ρ c (Proc.devRef .tc main_v79) : Mat 128 64) = (val_main_v112 (F := Ideal) (ax7 m c)) := by
  dsimp only [W7, hostOps3]
  after_results_simp
  rw [W6_arg7 m ρ c]
  rfl
theorem W7_v83 : (W7 m ρ c (Proc.devRef .tc main_v83) : Mat 1 64) = oneRow (val_main_v114 (F := Ideal) (ax8 m c)) := by
  dsimp only [W7, hostOps3]
  after_results_simp
  rw [W6_arg8 m ρ c]
  exact shapeCast_oneRow _ _
theorem W9_v94 : (W9 m ρ c (Proc.devRef .tc main_v94) : Mat 128 128) = (val_main_v129 (F := Ideal) (ax9 m c)) := by
  dsimp only [W9, hostOps4]
  after_results_simp
  rw [W8_arg9 m ρ c]
  rfl
theorem W9_v101 : (W9 m ρ c (Proc.devRef .tc main_v101) : Mat 1 128) = oneRow (val_main_v131 (F := Ideal) (ax10 m c)) := by
  dsimp only [W9, hostOps4]
  after_results_simp
  rw [W8_arg10 m ρ c]
  exact shapeCast_oneRow _ _
theorem W9_v98 : (W9 m ρ c (Proc.devRef .tc main_v98) : Mat 128 64) = (val_main_v133 (F := Ideal) (ax11 m c)) := by
  dsimp only [W9, hostOps4]
  after_results_simp
  rw [W8_arg11 m ρ c]
  rfl
theorem W9_v102 : (W9 m ρ c (Proc.devRef .tc main_v102) : Mat 1 64) = oneRow (val_main_v135 (F := Ideal) (ax12 m c)) := by
  dsimp only [W9, hostOps4]
  after_results_simp
  rw [W8_arg12 m ρ c]
  exact shapeCast_oneRow _ _
theorem W11_v105 : (W11 m ρ c (Proc.devRef .tc main_v105) : Mat 128 128) = (val_main_v168 (F := Ideal) (ax13 m c)) := by
  dsimp only [W11, hostOps5]
  after_results_simp
  rw [W10_arg13 m ρ c]
  rfl
theorem W11_v112 : (W11 m ρ c (Proc.devRef .tc main_v112) : Mat 1 128) = oneRow (val_main_v170 (F := Ideal) (ax14 m c)) := by
  dsimp only [W11, hostOps5]
  after_results_simp
  rw [W10_arg14 m ρ c]
  exact shapeCast_oneRow _ _
theorem W11_v109 : (W11 m ρ c (Proc.devRef .tc main_v109) : Mat 128 64) = (val_main_v172 (F := Ideal) (ax15 m c)) := by
  dsimp only [W11, hostOps5]
  after_results_simp
  rw [W10_arg15 m ρ c]
  rfl
theorem W11_v113 : (W11 m ρ c (Proc.devRef .tc main_v113) : Mat 1 64) = oneRow (val_main_v174 (F := Ideal) (ax16 m c)) := by
  dsimp only [W11, hostOps5]
  after_results_simp
  rw [W10_arg16 m ρ c]
  exact shapeCast_oneRow _ _

/-! ## The edge features stay in their buffer up to the second round's edge network -/
theorem W2_v0 : (W2 m ρ c (Proc.devRef .tc main_v0) : Mat 800000 8) = ax2 m c :=
  (W2_arr m ρ c 2).trans (((dat0 (V1 m ρ) c).arrAt_in 2 rfl _).trans ((A_eq0 (V1 m ρ) c 2).trans (W1_v0 m ρ c)))
theorem W3_v0 : (W3 m ρ c (Proc.devRef .tc main_v0) : Mat 800000 8) = ax2 m c :=
  (StableHlo.after_of_writes_sub hostOps1 (W2 m ρ c) hostOps1_writes (by decide : main_v0 ∉ wr1)).trans (W2_v0 m ρ c)
theorem W4_v0 : (W4 m ρ c (Proc.devRef .tc main_v0) : Mat 800000 8) = ax2 m c :=
  (W4_of_ne m ρ c main_v0 (by decide)).trans (W3_v0 m ρ c)
theorem W5_v0 : (W5 m ρ c (Proc.devRef .tc main_v0) : Mat 800000 8) = ax2 m c :=
  (StableHlo.after_of_writes_sub hostOps2 (W4 m ρ c) hostOps2_writes (by decide : main_v0 ∉ wr2)).trans (W4_v0 m ρ c)
theorem W6_v0 : (W6 m ρ c (Proc.devRef .tc main_v0) : Mat 800000 8) = ax2 m c :=
  (W6_of_ne m ρ c main_v0 (by decide)).trans (W5_v0 m ρ c)
theorem W7_v0 : (W7 m ρ c (Proc.devRef .tc main_v0) : Mat 800000 8) = ax2 m c :=
  (StableHlo.after_of_writes_sub hostOps3 (W6 m ρ c) hostOps3_writes (by decide : main_v0 ∉ wr3)).trans (W6_v0 m ρ c)

end Cert.KernelIdeal.Chain

end
-- ==== Proof.LibHostRead.lean ====
/-
  Host operations on matrices read at one index of their result, over the extended reals.

  A host product of an R × K matrix by a K × C matrix is, at (p, q), the K-term sum of the products of row p of the
  first by column q of the second.  A host sum along the second axis of an R × C matrix is, at row r, the initial
  value plus the C-term sum of that row; along the first axis, at column c, the initial value plus the R-term sum of
  that column.  Spreading a scalar, a vector along the columns of every row, or a vector along the rows of every
  column, repeats the entry it came from.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.LibHostRead

open Idealize.ShloMosaic Idealize.ShloMosaic.ValueIdx

/-! ## A matrix product -/

section Dot
variable {R K C : ℕ}

/-- On the first operand's row axis the operand index is the result's row. -/
theorem lhsIdx_row (D : DotDims ⟨2, ![R, K]⟩ ⟨2, ![K, C]⟩ ⟨2, ![R, C]⟩) (hlb : D.lhsBatch = [])
    (hln : D.lhsNonContracting = [0]) (j : (⟨2, ![R, C]⟩ : Shape).Idx) (k : D.contr.Idx) :
    (D.lhsIdx j k (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln])

/-- On the second operand's column axis the operand index is the result's column. -/
theorem rhsIdx_col (D : DotDims ⟨2, ![R, K]⟩ ⟨2, ![K, C]⟩ ⟨2, ![R, C]⟩) (hlb : D.lhsBatch = []) (hrb : D.rhsBatch = [])
    (hln : D.lhsNonContracting = [0]) (hrn : D.rhsNonContracting = [1]) (j : (⟨2, ![R, C]⟩ : Shape).Idx) (k : D.contr.Idx) :
    (D.rhsIdx j k (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![R, C]⟩ : Shape).rank) (hb : b < (⟨2, ![R, C]⟩ : Shape).rank), a = b →
      (j ⟨a, ha⟩).val = (j ⟨b, hb⟩).val := fun a b ha hb h => by subst h; rfl
  exact key _ _ _ _ (by simp [hlb, hln, hrn])

/-- A host rows-by-columns product at (p, q): the sum over the shared axis of the products. -/
theorem dotGeneral_ix2 {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    Host.dotGeneral D prec lhs rhs (ix2 p q) = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_col D hlb hrb hln hrn _ _)
  rw [el, er]

end Dot

/-! ## Host sums along one axis of a matrix -/

section Sums
variable {R C : ℕ} {φ : FTy}

/-- The host sum along the second axis, at row r. -/
theorem reduceAdd_lanes_ix1 (x : FVec Ideal ⟨2, ![R, C]⟩ φ) (init : EReal)
    (h : (⟨2, ![R, C]⟩ : Shape).ReducesTo [1] ⟨1, ![R]⟩)
    (hr : (⟨2, ![R, C]⟩ : Shape).Reduces [1] ⟨1, ![R]⟩) (r : Fin R) :
    Ideal.hostReduceAdd h x init (ix1 r) = init + ∑ k : Fin C, x (ix2 r k) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

/-- The host sum along the first axis, at column c. -/
theorem reduceAdd_rows_ix1 (x : FVec Ideal ⟨2, ![R, C]⟩ φ) (init : EReal)
    (h : (⟨2, ![R, C]⟩ : Shape).ReducesTo [0] ⟨1, ![C]⟩)
    (hr : (⟨2, ![R, C]⟩ : Shape).Reduces [0] ⟨1, ![C]⟩) (c : Fin C) :
    Ideal.hostReduceAdd h x init (ix1 c) = init + ∑ r : Fin R, x (ix2 r c) := by
  rw [Ideal.hostReduceAdd_single h hr]
  refine congrArg (_ + ·) (Finset.sum_congr rfl fun k _ => congrArg x (funext fun a => Fin.ext ?_))
  match a with
  | ⟨0, _⟩ => rfl
  | ⟨1, _⟩ => rfl

end Sums

/-! ## Spreading along an axis -/

section Spread
variable {α : Type} {R C : ℕ}

/-- A vector of C entries laid along the columns of every one of R rows: entry (p, q) is entry q. -/
theorem spread_cols_ix2 (v : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 v) (ix2 p q) = v (ix1 q) := by
  rw [broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)]
  exact broadcastInDim_apply _ h1 v (ix2 (0 : Fin 1) q) (ix1 q) (fun a => by
    match a with
    | ⟨0, _⟩ =>
      show q.val = if C = 1 then 0 else q.val
      split
      · have := q.isLt; omega
      · rfl)

/-- A vector of R entries laid along the rows of every one of C columns: entry (p, q) is entry p. -/
theorem spread_rows_ix2 (v : (⟨1, ![R]⟩ : Shape).Idx → α)
    (h1 : (⟨1, ![R]⟩ : Shape).BroadcastsInDim ⟨2, ![R, 1]⟩ ![0])
    (h2 : (⟨2, ![R, 1]⟩ : Shape).BroadcastsInDim ⟨2, ![R, C]⟩ ![0, 1]) (p : Fin R) (q : Fin C) :
    broadcastInDim ⟨2, ![R, C]⟩ ![0, 1] h2 (broadcastInDim ⟨2, ![R, 1]⟩ ![0] h1 v) (ix2 p q) = v (ix1 p) := by
  rw [broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])]
  exact broadcastInDim_apply _ h1 v (ix2 p (0 : Fin 1)) (ix1 p) (fun a => by
    match a with
    | ⟨0, _⟩ =>
      show p.val = if R = 1 then 0 else p.val
      split
      · have := p.isLt; omega
      · rfl)

/-- A one-column matrix spread over C columns: entry (p, q) is the column's entry p. -/
theorem spread_col_ix2 (w : (⟨2, ![R, 1]⟩ : Shape).Idx → α)
    (h2 : (⟨2, ![R, 1]⟩ : Shape).BroadcastsInDim ⟨2, ![R, C]⟩ ![0, 1]) (p : Fin R) (q : Fin C) :
    broadcastInDim ⟨2, ![R, C]⟩ ![0, 1] h2 w (ix2 p q) = w (ix2 p (0 : Fin 1)) :=
  broadcastInDim_apply _ h2 _ (ix2 p q) (ix2 p (0 : Fin 1)) (fun a => by
    match a with
    | ⟨0, _⟩ =>
      show p.val = if R = 1 then 0 else p.val
      split
      · have := p.isLt; omega
      · rfl
    | ⟨1, _⟩ => show (0 : ℕ) = if (1 : ℕ) = 1 then 0 else q.val; rw [if_pos rfl])

/-- A vector as a one-row matrix: entry (0, q) is entry q. -/
theorem row_ix2 (v : (⟨1, ![C]⟩ : Shape).Idx → α)
    (h1 : (⟨1, ![C]⟩ : Shape).BroadcastsInDim ⟨2, ![1, C]⟩ ![1]) (u : Fin 1) (q : Fin C) :
    broadcastInDim ⟨2, ![1, C]⟩ ![1] h1 v (ix2 u q) = v (ix1 q) :=
  broadcastInDim_apply _ h1 v (ix2 u q) (ix1 q) (fun a => by
    match a with
    | ⟨0, _⟩ =>
      show q.val = if C = 1 then 0 else q.val
      split
      · have := q.isLt; omega
      · rfl)

/-- A one-row matrix spread over R rows: entry (p, q) is the row's entry q. -/
theorem spread_row_ix2 (w : (⟨2, ![1, C]⟩ : Shape).Idx → α)
    (h2 : (⟨2, ![1, C]⟩ : Shape).BroadcastsInDim ⟨2, ![R, C]⟩ ![0, 1]) (p : Fin R) (q : Fin C) :
    broadcastInDim ⟨2, ![R, C]⟩ ![0, 1] h2 w (ix2 p q) = w (ix2 (0 : Fin 1) q) :=
  broadcastInDim_apply _ h2 _ (ix2 p q) (ix2 (0 : Fin 1) q) (fun a => by
    match a with
    | ⟨0, _⟩ => show (0 : ℕ) = if (1 : ℕ) = 1 then 0 else p.val; rw [if_pos rfl]
    | ⟨1, _⟩ =>
      show q.val = if C = 1 then 0 else q.val
      split
      · have := q.isLt; omega
      · rfl)

/-- A vector as a one-column matrix: entry (p, 0) is entry p. -/
theorem column_ix2 (v : (⟨1, ![R]⟩ : Shape).Idx → α)
    (h1 : (⟨1, ![R]⟩ : Shape).BroadcastsInDim ⟨2, ![R, 1]⟩ ![0]) (p : Fin R) (u : Fin 1) :
    broadcastInDim ⟨2, ![R, 1]⟩ ![0] h1 v (ix2 p u) = v (ix1 p) :=
  broadcastInDim_apply _ h1 v (ix2 p u) (ix1 p) (fun a => by
    match a with
    | ⟨0, _⟩ =>
      show p.val = if R = 1 then 0 else p.val
      split
      · have := p.isLt; omega
      · rfl)

end Spread

end Cert.LibHostRead

end
-- ==== Proof.MsgPayload.lean ====
/-
  The edge network on one block of rows, read entry by entry.

  On a block of 4000 edges the program holds three matrices of features side by side — the two endpoints' rows
  (64 features each) and the edge's own row (8 features) — and the stacked first-layer weights W1 (136 rows).  It never
  joins the three: it multiplies each by its own row block of W1 (rows 0–63, 64–127, 128–135) and adds the three
  products, then adds the bias, clamps below at zero, multiplies by the second-layer weights and adds the second bias.
  Entry (p, q) of the result is therefore the perceptron of the joined row  [ a_p | b_p | e_p ]  at output q: the three
  partial sums regroup into the one sum over the 136 joined positions, which is only a regrouping of a finite sum in a
  commutative additive monoid.  The second output is the same computation with the two endpoint blocks exchanged.
  Changes of number format are the identity on the extended reals.
-/
import proofs.«156022_j57337813401889_2_alg».proof.Proof.Gen.KernelIdeal.Skeleton
import proofs.«156022_j57337813401889_2_alg».proof.Proof.GnnArrays
import proofs.«156022_j57337813401889_2_alg».proof.Proof.LibHostRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.MsgRegion

open Idealize.ShloMosaic Idealize.ShloMosaic.ValueIdx Cert.KernelIdeal Cert.KernelIdeal.Gen Cert.GnnRows

/-! ## A matrix product accumulated into zero -/

section Dot
variable {R K C : ℕ}

/-- A rows-by-columns product accumulated into the zero matrix, at (p, q): the sum over the shared axis of the
    products of row p of the first factor with column q of the second. -/
theorem matmul_zero_ix2 {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    matmul D prec lhs rhs (constant (F := Ideal) ⟨2, ![R, C]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact Cert.LibHostRead.lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact Cert.LibHostRead.rhsIdx_col D hlb hrb hln hrn _ _)
  rw [el, er]

end Dot

/-! ## The first round's edge network -/

/-- The first-layer weights' rows 0–63. -/
theorem k0_w1_top (x3 : Vec Ideal S136x128 .f32) (i : Fin 64) (k : Fin 128) :
    k0_pay8 (F := Ideal) x3 (ix2 i k) = ent x3 ⟨i.val, by omega⟩ k := by
  unfold k0_pay8 k0_pay7
  refine (slice2_axis0_apply 0 _ _ i k ⟨i.val, by omega⟩ (by show i.val = 0 + i.val; omega)).trans ?_
  rw [truncf_apply, shapeCast_self]
  rfl

/-- The first-layer weights' rows 64–127. -/
theorem k0_w1_mid (x3 : Vec Ideal S136x128 .f32) (i : Fin 64) (k : Fin 128) :
    k0_pay9 (F := Ideal) x3 (ix2 i k) = ent x3 ⟨i.val + 64, by omega⟩ k := by
  unfold k0_pay9 k0_pay7
  refine (slice2_axis0_apply 64 _ _ i k ⟨i.val + 64, by omega⟩ (by show i.val + 64 = 64 + i.val; omega)).trans ?_
  rw [truncf_apply, shapeCast_self]
  rfl

/-- The first-layer weights' rows 128–135. -/
theorem k0_w1_low (x3 : Vec Ideal S136x128 .f32) (i : Fin 8) (k : Fin 128) :
    k0_pay10 (F := Ideal) x3 (ix2 i k) = ent x3 ⟨i.val + 128, by omega⟩ k := by
  unfold k0_pay10 k0_pay7
  refine (slice2_axis0_apply 128 _ _ i k ⟨i.val + 128, by omega⟩ (by show i.val + 128 = 128 + i.val; omega)).trans ?_
  rw [truncf_apply, shapeCast_self]
  rfl

/-- The first bias spread over the block's rows. -/
theorem k0_bias1 (x4 : Vec Ideal S1x128 .f32) (p : Fin 4000) (k : Fin 128) :
    broadcastTo S4000x128 (shapeCast S1x128 (k0_pay11 (F := Ideal) x4) shapeCasts_S1x128_S1x128) broadcasts_S1x128_S4000x128
      (ix2 p k) = row x4 0 k := by
  refine (broadcastTo_1b_ab_apply _ _ p k).trans ?_
  unfold k0_pay11
  rw [shapeCast_self, shapeCast_self]
  rfl

/-- The hidden layer of the first output at (p, k): the three partial products regrouped into the product with the
    joined row, plus the bias, clamped below at zero. -/
theorem k0_hidden_v (x0 x1 : Vec Ideal S4000x64 .bf16) (x2 : Vec Ideal S4000x8 .bf16) (x3 : Vec Ideal S136x128 .f32)
    (x4 : Vec Ideal S1x128 .f32) (p : Fin 4000) (k : Fin 128) :
    k0_pay12 (F := Ideal) x0 x1 x2 x3 x4 (ix2 p k)
      = max ((∑ i : Fin 136, cat3 (row x0 p) (row x1 p) (row x2 p) i * ent x3 i k) + row x4 0 k) 0 := by
  unfold k0_pay12
  refine (maximumf_apply _ _ _).trans (congrArg₂ max ?_ Ideal.ofBits_zero_f32)
  refine (addf_apply _ _ _).trans (congrArg₂ (· + ·) ?_ (k0_bias1 x4 p k))
  rw [sum_cat3]
  refine (addf_apply _ _ _).trans (congrArg₂ (· + ·) ((addf_apply _ _ _).trans (congrArg₂ (· + ·) ?_ ?_)) ?_)
  · refine (matmul_zero_ix2 dot_S4000x64_S64x128_S4000x128_1_0_0_1_n_n rfl rfl rfl rfl rfl rfl none _ _ p k).trans ?_
    refine Finset.sum_congr rfl fun i _ => congrArg₂ (· * ·) ?_ (k0_w1_top x3 i k)
    unfold k0_pay4; rw [shapeCast_self]; rfl
  · refine (matmul_zero_ix2 dot_S4000x64_S64x128_S4000x128_1_0_0_1_n_n rfl rfl rfl rfl rfl rfl none _ _ p k).trans ?_
    refine Finset.sum_congr rfl fun i _ => congrArg₂ (· * ·) ?_ (k0_w1_mid x3 i k)
    unfold k0_pay5; rw [shapeCast_self]; rfl
  · refine (matmul_zero_ix2 dot_S4000x8_S8x128_S4000x128_1_0_0_1_n_n rfl rfl rfl rfl rfl rfl none _ _ p k).trans ?_
    refine Finset.sum_congr rfl fun i _ => congrArg₂ (· * ·) ?_ (k0_w1_low x3 i k)
    unfold k0_pay6; rw [shapeCast_self]; rfl

/-- The hidden layer of the second output: the same with the two endpoint blocks exchanged. -/
theorem k0_hidden_c (x0 x1 : Vec Ideal S4000x64 .bf16) (x2 : Vec Ideal S4000x8 .bf16) (x3 : Vec Ideal S136x128 .f32)
    (x4 : Vec Ideal S1x128 .f32) (p : Fin 4000) (k : Fin 128) :
    k0_pay13 (F := Ideal) x0 x1 x2 x3 x4 (ix2 p k)
      = max ((∑ i : Fin 136, cat3 (row x1 p) (row x0 p) (row x2 p) i * ent x3 i k) + row x4 0 k) 0 := by
  unfold k0_pay13
  refine (maximumf_apply _ _ _).trans (congrArg₂ max ?_ Ideal.ofBits_zero_f32)
  refine (addf_apply _ _ _).trans (congrArg₂ (· + ·) ?_ (k0_bias1 x4 p k))
  rw [sum_cat3]
  refine (addf_apply _ _ _).trans (congrArg₂ (· + ·) ((addf_apply _ _ _).trans (congrArg₂ (· + ·) ?_ ?_)) ?_)
  · refine (matmul_zero_ix2 dot_S4000x64_S64x128_S4000x128_1_0_0_1_n_n rfl rfl rfl rfl rfl rfl none _ _ p k).trans ?_
    refine Finset.sum_congr rfl fun i _ => congrArg₂ (· * ·) ?_ (k0_w1_top x3 i k)
    unfold k0_pay5; rw [shapeCast_self]; rfl
  · refine (matmul_zero_ix2 dot_S4000x64_S64x128_S4000x128_1_0_0_1_n_n rfl rfl rfl rfl rfl rfl none _ _ p k).trans ?_
    refine Finset.sum_congr rfl fun i _ => congrArg₂ (· * ·) ?_ (k0_w1_mid x3 i k)
    unfold k0_pay4; rw [shapeCast_self]; rfl
  · refine (matmul_zero_ix2 dot_S4000x8_S8x128_S4000x128_1_0_0_1_n_n rfl rfl rfl rfl rfl rfl none _ _ p k).trans ?_
    refine Finset.sum_congr rfl fun i _ => congrArg₂ (· * ·) ?_ (k0_w1_low x3 i k)
    unfold k0_pay6; rw [shapeCast_self]; rfl

/-- The second-layer weights. -/
theorem k0_w2 (x5 : Vec Ideal S128x64 .f32) (k : Fin 128) (q : Fin 64) :
    k0_pay14 (F := Ideal) x5 (ix2 k q) = ent x5 k q := by
  unfold k0_pay14
  rw [truncf_apply, shapeCast_self]
  rfl

/-- The second bias spread over the block's rows. -/
theorem k0_bias2 (x6 : Vec Ideal S1x64 .f32) (p : Fin 4000) (q : Fin 64) :
    broadcastTo S4000x64 (shapeCast S1x64 (k0_pay1 (F := Ideal) x6) shapeCasts_S1x64_S1x64) broadcasts_S1x64_S4000x64
      (ix2 p q) = row x6 0 q := by
  refine (broadcastTo_1b_ab_apply _ _ p q).trans ?_
  unfold k0_pay1
  rw [shapeCast_self, shapeCast_self]
  rfl

/-- The output layer of the first output at (p, q). -/
theorem k0_out_v (h : FVec Ideal S4000x128 .f32) (w : FVec Ideal S128x64 .bf16) (x6 : Vec Ideal S1x64 .f32)
    (p : Fin 4000) (q : Fin 64) :
    k0_pay2 (F := Ideal) h w x6 (ix2 p q) = (∑ k : Fin 128, h (ix2 p k) * w (ix2 k q)) + row x6 0 q := by
  unfold k0_pay2
  refine (truncf_apply (ψ := .bf16) _ bitsLt_bf16_f32 _).trans
    ((addf_apply _ _ _).trans (congrArg₂ (· + ·) ?_ (k0_bias2 x6 p q)))
  refine (matmul_zero_ix2 dot_S4000x128_S128x64_S4000x64_1_0_0_1_n_n rfl rfl rfl rfl rfl rfl none _ _ p q).trans ?_
  exact Finset.sum_congr rfl fun k _ => congrArg (· * w (ix2 k q)) (truncf_apply (ψ := .bf16) h bitsLt_bf16_f32 _)

/-- The output layer of the second output at (p, q). -/
theorem k0_out_c (h : FVec Ideal S4000x128 .f32) (w : FVec Ideal S128x64 .bf16) (x6 : Vec Ideal S1x64 .f32)
    (p : Fin 4000) (q : Fin 64) :
    k0_pay3 (F := Ideal) h w x6 (ix2 p q) = (∑ k : Fin 128, h (ix2 p k) * w (ix2 k q)) + row x6 0 q := by
  unfold k0_pay3
  refine (truncf_apply (ψ := .bf16) _ bitsLt_bf16_f32 _).trans
    ((addf_apply _ _ _).trans (congrArg₂ (· + ·) ?_ (k0_bias2 x6 p q)))
  refine (matmul_zero_ix2 dot_S4000x128_S128x64_S4000x64_1_0_0_1_n_n rfl rfl rfl rfl rfl rfl none _ _ p q).trans ?_
  exact Finset.sum_congr rfl fun k _ => congrArg (· * w (ix2 k q)) (truncf_apply (ψ := .bf16) h bitsLt_bf16_f32 _)

/-- THE FIRST OUTPUT BLOCK is the edge network on the block's rows. -/
theorem pay0_v (x0 x1 : Vec Ideal S4000x64 .bf16) (x2 : Vec Ideal S4000x8 .bf16) (x3 : Vec Ideal S136x128 .f32)
    (x4 : Vec Ideal S1x128 .f32) (x5 : Vec Ideal S128x64 .f32) (x6 : Vec Ideal S1x64 .f32) :
    k0_pay2 (k0_pay12 x0 x1 x2 x3 x4) (k0_pay14 x5) x6 = msgArr (n := 4000) x0 x1 x2 x3 x4 x5 x6 := by
  funext j
  obtain ⟨p, q, rfl⟩ : ∃ (p : Fin 4000) (q : Fin 64), j = ix2 p q := ⟨_, _, eq_ix2 j⟩
  rw [msgArr_ix2]
  unfold mlpRow
  refine (k0_out_v _ _ x6 p q).trans (congrArg (· + row x6 0 q) ?_)
  exact Finset.sum_congr rfl fun k _ => congrArg₂ (· * ·) (k0_hidden_v x0 x1 x2 x3 x4 p k) (k0_w2 x5 k q)

/-- THE SECOND OUTPUT BLOCK is the edge network with the two endpoint blocks exchanged. -/
theorem pay0_c (x0 x1 : Vec Ideal S4000x64 .bf16) (x2 : Vec Ideal S4000x8 .bf16) (x3 : Vec Ideal S136x128 .f32)
    (x4 : Vec Ideal S1x128 .f32) (x5 : Vec Ideal S128x64 .f32) (x6 : Vec Ideal S1x64 .f32) :
    k0_pay3 (k0_pay13 x0 x1 x2 x3 x4) (k0_pay14 x5) x6 = msgArr (n := 4000) x1 x0 x2 x3 x4 x5 x6 := by
  funext j
  obtain ⟨p, q, rfl⟩ : ∃ (p : Fin 4000) (q : Fin 64), j = ix2 p q := ⟨_, _, eq_ix2 j⟩
  rw [msgArr_ix2]
  unfold mlpRow
  refine (k0_out_c _ _ x6 p q).trans (congrArg (· + row x6 0 q) ?_)
  exact Finset.sum_congr rfl fun k _ => congrArg₂ (· * ·) (k0_hidden_c x0 x1 x2 x3 x4 p k) (k0_w2 x5 k q)

/-! ## The second round's edge network: the same computation -/

/-- The first-layer weights' rows 0–63. -/
theorem k3_w1_top (x3 : Vec Ideal S136x128 .f32) (i : Fin 64) (k : Fin 128) :
    k3_pay8 (F := Ideal) x3 (ix2 i k) = ent x3 ⟨i.val, by omega⟩ k := by
  unfold k3_pay8 k3_pay7
  refine (slice2_axis0_apply 0 _ _ i k ⟨i.val, by omega⟩ (by show i.val = 0 + i.val; omega)).trans ?_
  rw [truncf_apply, shapeCast_self]
  rfl

/-- The first-layer weights' rows 64–127. -/
theorem k3_w1_mid (x3 : Vec Ideal S136x128 .f32) (i : Fin 64) (k : Fin 128) :
    k3_pay9 (F := Ideal) x3 (ix2 i k) = ent x3 ⟨i.val + 64, by omega⟩ k := by
  unfold k3_pay9 k3_pay7
  refine (slice2_axis0_apply 64 _ _ i k ⟨i.val + 64, by omega⟩ (by show i.val + 64 = 64 + i.val; omega)).trans ?_
  rw [truncf_apply, shapeCast_self]
  rfl

/-- The first-layer weights' rows 128–135. -/
theorem k3_w1_low (x3 : Vec Ideal S136x128 .f32) (i : Fin 8) (k : Fin 128) :
    k3_pay10 (F := Ideal) x3 (ix2 i k) = ent x3 ⟨i.val + 128, by omega⟩ k := by
  unfold k3_pay10 k3_pay7
  refine (slice2_axis0_apply 128 _ _ i k ⟨i.val + 128, by omega⟩ (by show i.val + 128 = 128 + i.val; omega)).trans ?_
  rw [truncf_apply, shapeCast_self]
  rfl

/-- The first bias spread over the block's rows. -/
theorem k3_bias1 (x4 : Vec Ideal S1x128 .f32) (p : Fin 4000) (k : Fin 128) :
    broadcastTo S4000x128 (shapeCast S1x128 (k3_pay11 (F := Ideal) x4) shapeCasts_S1x128_S1x128) broadcasts_S1x128_S4000x128
      (ix2 p k) = row x4 0 k := by
  refine (broadcastTo_1b_ab_apply _ _ p k).trans ?_
  unfold k3_pay11
  rw [shapeCast_self, shapeCast_self]
  rfl

/-- The hidden layer of the first output at (p, k): the three partial products regrouped into the product with the
    joined row, plus the bias, clamped below at zero. -/
theorem k3_hidden_v (x0 x1 : Vec Ideal S4000x64 .bf16) (x2 : Vec Ideal S4000x8 .bf16) (x3 : Vec Ideal S136x128 .f32)
    (x4 : Vec Ideal S1x128 .f32) (p : Fin 4000) (k : Fin 128) :
    k3_pay12 (F := Ideal) x0 x1 x2 x3 x4 (ix2 p k)
      = max ((∑ i : Fin 136, cat3 (row x0 p) (row x1 p) (row x2 p) i * ent x3 i k) + row x4 0 k) 0 := by
  unfold k3_pay12
  refine (maximumf_apply _ _ _).trans (congrArg₂ max ?_ Ideal.ofBits_zero_f32)
  refine (addf_apply _ _ _).trans (congrArg₂ (· + ·) ?_ (k3_bias1 x4 p k))
  rw [sum_cat3]
  refine (addf_apply _ _ _).trans (congrArg₂ (· + ·) ((addf_apply _ _ _).trans (congrArg₂ (· + ·) ?_ ?_)) ?_)
  · refine (matmul_zero_ix2 dot_S4000x64_S64x128_S4000x128_1_0_0_1_n_n rfl rfl rfl rfl rfl rfl none _ _ p k).trans ?_
    refine Finset.sum_congr rfl fun i _ => congrArg₂ (· * ·) ?_ (k3_w1_top x3 i k)
    unfold k3_pay4; rw [shapeCast_self]; rfl
  · refine (matmul_zero_ix2 dot_S4000x64_S64x128_S4000x128_1_0_0_1_n_n rfl rfl rfl rfl rfl rfl none _ _ p k).trans ?_
    refine Finset.sum_congr rfl fun i _ => congrArg₂ (· * ·) ?_ (k3_w1_mid x3 i k)
    unfold k3_pay5; rw [shapeCast_self]; rfl
  · refine (matmul_zero_ix2 dot_S4000x8_S8x128_S4000x128_1_0_0_1_n_n rfl rfl rfl rfl rfl rfl none _ _ p k).trans ?_
    refine Finset.sum_congr rfl fun i _ => congrArg₂ (· * ·) ?_ (k3_w1_low x3 i k)
    unfold k3_pay6; rw [shapeCast_self]; rfl

/-- The hidden layer of the second output: the same with the two endpoint blocks exchanged. -/
theorem k3_hidden_c (x0 x1 : Vec Ideal S4000x64 .bf16) (x2 : Vec Ideal S4000x8 .bf16) (x3 : Vec Ideal S136x128 .f32)
    (x4 : Vec Ideal S1x128 .f32) (p : Fin 4000) (k : Fin 128) :
    k3_pay13 (F := Ideal) x0 x1 x2 x3 x4 (ix2 p k)
      = max ((∑ i : Fin 136, cat3 (row x1 p) (row x0 p) (row x2 p) i * ent x3 i k) + row x4 0 k) 0 := by
  unfold k3_pay13
  refine (maximumf_apply _ _ _).trans (congrArg₂ max ?_ Ideal.ofBits_zero_f32)
  refine (addf_apply _ _ _).trans (congrArg₂ (· + ·) ?_ (k3_bias1 x4 p k))
  rw [sum_cat3]
  refine (addf_apply _ _ _).trans (congrArg₂ (· + ·) ((addf_apply _ _ _).trans (congrArg₂ (· + ·) ?_ ?_)) ?_)
  · refine (matmul_zero_ix2 dot_S4000x64_S64x128_S4000x128_1_0_0_1_n_n rfl rfl rfl rfl rfl rfl none _ _ p k).trans ?_
    refine Finset.sum_congr rfl fun i _ => congrArg₂ (· * ·) ?_ (k3_w1_top x3 i k)
    unfold k3_pay5; rw [shapeCast_self]; rfl
  · refine (matmul_zero_ix2 dot_S4000x64_S64x128_S4000x128_1_0_0_1_n_n rfl rfl rfl rfl rfl rfl none _ _ p k).trans ?_
    refine Finset.sum_congr rfl fun i _ => congrArg₂ (· * ·) ?_ (k3_w1_mid x3 i k)
    unfold k3_pay4; rw [shapeCast_self]; rfl
  · refine (matmul_zero_ix2 dot_S4000x8_S8x128_S4000x128_1_0_0_1_n_n rfl rfl rfl rfl rfl rfl none _ _ p k).trans ?_
    refine Finset.sum_congr rfl fun i _ => congrArg₂ (· * ·) ?_ (k3_w1_low x3 i k)
    unfold k3_pay6; rw [shapeCast_self]; rfl

/-- The second-layer weights. -/
theorem k3_w2 (x5 : Vec Ideal S128x64 .f32) (k : Fin 128) (q : Fin 64) :
    k3_pay14 (F := Ideal) x5 (ix2 k q) = ent x5 k q := by
  unfold k3_pay14
  rw [truncf_apply, shapeCast_self]
  rfl

/-- The second bias spread over the block's rows. -/
theorem k3_bias2 (x6 : Vec Ideal S1x64 .f32) (p : Fin 4000) (q : Fin 64) :
    broadcastTo S4000x64 (shapeCast S1x64 (k3_pay1 (F := Ideal) x6) shapeCasts_S1x64_S1x64) broadcasts_S1x64_S4000x64
      (ix2 p q) = row x6 0 q := by
  refine (broadcastTo_1b_ab_apply _ _ p q).trans ?_
  unfold k3_pay1
  rw [shapeCast_self, shapeCast_self]
  rfl

/-- The output layer of the first output at (p, q). -/
theorem k3_out_v (h : FVec Ideal S4000x128 .f32) (w : FVec Ideal S128x64 .bf16) (x6 : Vec Ideal S1x64 .f32)
    (p : Fin 4000) (q : Fin 64) :
    k3_pay2 (F := Ideal) h w x6 (ix2 p q) = (∑ k : Fin 128, h (ix2 p k) * w (ix2 k q)) + row x6 0 q := by
  unfold k3_pay2
  refine (truncf_apply (ψ := .bf16) _ bitsLt_bf16_f32 _).trans
    ((addf_apply _ _ _).trans (congrArg₂ (· + ·) ?_ (k3_bias2 x6 p q)))
  refine (matmul_zero_ix2 dot_S4000x128_S128x64_S4000x64_1_0_0_1_n_n rfl rfl rfl rfl rfl rfl none _ _ p q).trans ?_
  exact Finset.sum_congr rfl fun k _ => congrArg (· * w (ix2 k q)) (truncf_apply (ψ := .bf16) h bitsLt_bf16_f32 _)

/-- The output layer of the second output at (p, q). -/
theorem k3_out_c (h : FVec Ideal S4000x128 .f32) (w : FVec Ideal S128x64 .bf16) (x6 : Vec Ideal S1x64 .f32)
    (p : Fin 4000) (q : Fin 64) :
    k3_pay3 (F := Ideal) h w x6 (ix2 p q) = (∑ k : Fin 128, h (ix2 p k) * w (ix2 k q)) + row x6 0 q := by
  unfold k3_pay3
  refine (truncf_apply (ψ := .bf16) _ bitsLt_bf16_f32 _).trans
    ((addf_apply _ _ _).trans (congrArg₂ (· + ·) ?_ (k3_bias2 x6 p q)))
  refine (matmul_zero_ix2 dot_S4000x128_S128x64_S4000x64_1_0_0_1_n_n rfl rfl rfl rfl rfl rfl none _ _ p q).trans ?_
  exact Finset.sum_congr rfl fun k _ => congrArg (· * w (ix2 k q)) (truncf_apply (ψ := .bf16) h bitsLt_bf16_f32 _)

/-- THE FIRST OUTPUT BLOCK is the edge network on the block's rows. -/
theorem pay3_v (x0 x1 : Vec Ideal S4000x64 .bf16) (x2 : Vec Ideal S4000x8 .bf16) (x3 : Vec Ideal S136x128 .f32)
    (x4 : Vec Ideal S1x128 .f32) (x5 : Vec Ideal S128x64 .f32) (x6 : Vec Ideal S1x64 .f32) :
    k3_pay2 (k3_pay12 x0 x1 x2 x3 x4) (k3_pay14 x5) x6 = msgArr (n := 4000) x0 x1 x2 x3 x4 x5 x6 := by
  funext j
  obtain ⟨p, q, rfl⟩ : ∃ (p : Fin 4000) (q : Fin 64), j = ix2 p q := ⟨_, _, eq_ix2 j⟩
  rw [msgArr_ix2]
  unfold mlpRow
  refine (k3_out_v _ _ x6 p q).trans (congrArg (· + row x6 0 q) ?_)
  exact Finset.sum_congr rfl fun k _ => congrArg₂ (· * ·) (k3_hidden_v x0 x1 x2 x3 x4 p k) (k3_w2 x5 k q)

/-- THE SECOND OUTPUT BLOCK is the edge network with the two endpoint blocks exchanged. -/
theorem pay3_c (x0 x1 : Vec Ideal S4000x64 .bf16) (x2 : Vec Ideal S4000x8 .bf16) (x3 : Vec Ideal S136x128 .f32)
    (x4 : Vec Ideal S1x128 .f32) (x5 : Vec Ideal S128x64 .f32) (x6 : Vec Ideal S1x64 .f32) :
    k3_pay3 (k3_pay13 x0 x1 x2 x3 x4) (k3_pay14 x5) x6 = msgArr (n := 4000) x1 x0 x2 x3 x4 x5 x6 := by
  funext j
  obtain ⟨p, q, rfl⟩ : ∃ (p : Fin 4000) (q : Fin 64), j = ix2 p q := ⟨_, _, eq_ix2 j⟩
  rw [msgArr_ix2]
  unfold mlpRow
  refine (k3_out_c _ _ x6 p q).trans (congrArg (· + row x6 0 q) ?_)
  exact Finset.sum_congr rfl fun k _ => congrArg₂ (· * ·) (k3_hidden_c x0 x1 x2 x3 x4 p k) (k3_w2 x5 k q)

end Cert.KernelIdeal.MsgRegion

end
-- ==== Proof.MsgRegion.lean ====
/-
  The edge network's regions, from blocks to whole arrays.

  The region walks its 200 grid points; at point t it stages rows 4000·t … 4000·t + 3999 of the two endpoint arrays and of
  the edge array, together with the whole weight matrices and biases, runs the block computation, and writes the two
  results back as rows 4000·t … 4000·t + 3999 of the two output arrays.  Row r of the edge network's result depends on
  row r of the three row-blocked operands only, so the block of the result is the result of the blocks; and
  200 · 4000 = 800000, so the blocks fill the output arrays.  Hence each output array ends as the edge network applied
  to every row of the arrays the region found on entry.
-/
import proofs.«156022_j57337813401889_2_alg».proof.Proof.Gen.KernelIdeal.Frame
import proofs.«156022_j57337813401889_2_alg».proof.Proof.GnnArrays
import proofs.«156022_j57337813401889_2_alg».proof.Proof.MsgPayload
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.MsgRegion

open Idealize.ShloMosaic Idealize.ShloMosaic.ValueIdx Idealize.ShloMosaic.TcCoe Cert.KernelIdeal Cert.KernelIdeal.Gen
  Cert.GnnRows
open Idealize.ShloMosaic.Pipeline (Dat)

/-! ## Blocks of rows -/

/-- The offsets of an access to a whole buffer are zero on both axes. -/
theorem zero_offsets : (![0, 0] : Fin 2 → Nat) = fun _ => 0 := funext fun a => by fin_cases a <;> rfl

/-- Row by row: if row j₀ of a, b, e is row i₀ of A, B, E, and the weights agree, the edge network of a, b, e at
    (j₀, q) is the edge network of A, B, E at (i₀, q). -/
theorem msgArr_rows {n N : ℕ} (a b : Mat n 64) (e : Mat n 8) (w1 : Mat 136 128) (b1 : Mat 1 128) (w2 : Mat 128 64)
    (b2 : Mat 1 64) (A B : Mat N 64) (E : Mat N 8) (W1 : Mat 136 128) (B1 : Mat 1 128) (W2 : Mat 128 64) (B2 : Mat 1 64)
    (hw1 : w1 = W1) (hb1 : b1 = B1) (hw2 : w2 = W2) (hb2 : b2 = B2)
    (j : (⟨2, ![n, 64]⟩ : Shape).Idx) (i : (⟨2, ![N, 64]⟩ : Shape).Idx)
    (hcol : (j 1).val = (i 1).val)
    (ha : ∀ k : Fin 64, a (ix2 ⟨(j 0).val, idx2_lt0 j⟩ k) = A (ix2 ⟨(i 0).val, idx2_lt0 i⟩ k))
    (hb : ∀ k : Fin 64, b (ix2 ⟨(j 0).val, idx2_lt0 j⟩ k) = B (ix2 ⟨(i 0).val, idx2_lt0 i⟩ k))
    (he : ∀ k : Fin 8, e (ix2 ⟨(j 0).val, idx2_lt0 j⟩ k) = E (ix2 ⟨(i 0).val, idx2_lt0 i⟩ k)) :
    msgArr a b e w1 b1 w2 b2 j = msgArr A B E W1 B1 W2 B2 i := by
  subst hw1 hb1 hw2 hb2
  have ra : row a ⟨(j 0).val, idx2_lt0 j⟩ = row A ⟨(i 0).val, idx2_lt0 i⟩ := funext ha
  have rb : row b ⟨(j 0).val, idx2_lt0 j⟩ = row B ⟨(i 0).val, idx2_lt0 i⟩ := funext hb
  have re : row e ⟨(j 0).val, idx2_lt0 j⟩ = row E ⟨(i 0).val, idx2_lt0 i⟩ := funext he
  unfold msgArr
  rw [ra, rb, re]
  exact congrArg (mlpRow _ _ _ _ _) (Fin.ext hcol)

/-! ## Round one: the edge network's region -/

/-- The block index of every window at every point of the grid, decided over its 200 points: the three row-blocked
    inputs and the two outputs move down one block of rows per point; the weights and biases stay put. -/
theorem index_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The first endpoint array: row p of the block staged at point t is row 4000·t + p of the array. -/
theorem rows0_0 (V : (c : Dev nD) → (b : Ref sig .tc) → Buf (Elt Ideal) ((c : Thread nD τ).loc b)) (c : Dev nD)
    (t : Fin cfg0.N) (p : Fin 4000) (k : Fin 64) (r : Fin 800000) (hr : r.val = 4000 * t.val + p.val) :
    (iblk0 (F := Ideal) V c 0 t : Mat 4000 64) (ix2 p k) = (V c main_v9 : Mat 800000 64) (ix2 r k) := by
  have e := (index_facts0 t).1
  show V c main_v9 (((cfg0.win 0).blk t).view.emb (ix2 p k)) = V c main_v9 (ix2 r k)
  refine congrArg (V c main_v9) (funext fun a => Fin.ext ?_)
  match a with
  | ⟨0, _⟩ => show win0_0.index t (0 : Fin 2) * 4000 + 1 * p.val = r.val; rw [e.1, hr]; omega
  | ⟨1, _⟩ => show win0_0.index t (1 : Fin 2) * 64 + 1 * k.val = k.val; rw [e.2]; omega

/-- The second endpoint array: row p of the block staged at point t is row 4000·t + p of the array. -/
theorem rows0_1 (V : (c : Dev nD) → (b : Ref sig .tc) → Buf (Elt Ideal) ((c : Thread nD τ).loc b)) (c : Dev nD)
    (t : Fin cfg0.N) (p : Fin 4000) (k : Fin 64) (r : Fin 800000) (hr : r.val = 4000 * t.val + p.val) :
    (iblk0 (F := Ideal) V c 1 t : Mat 4000 64) (ix2 p k) = (V c main_v16 : Mat 800000 64) (ix2 r k) := by
  have e := (index_facts0 t).2.1
  show V c main_v16 (((cfg0.win 1).blk t).view.emb (ix2 p k)) = V c main_v16 (ix2 r k)
  refine congrArg (V c main_v16) (funext fun a => Fin.ext ?_)
  match a with
  | ⟨0, _⟩ => show win0_1.index t (0 : Fin 2) * 4000 + 1 * p.val = r.val; rw [e.1, hr]; omega
  | ⟨1, _⟩ => show win0_1.index t (1 : Fin 2) * 64 + 1 * k.val = k.val; rw [e.2]; omega

/-- The edge array: row p of the block staged at point t is row 4000·t + p of the array. -/
theorem rows0_2 (V : (c : Dev nD) → (b : Ref sig .tc) → Buf (Elt Ideal) ((c : Thread nD τ).loc b)) (c : Dev nD)
    (t : Fin cfg0.N) (p : Fin 4000) (k : Fin 8) (r : Fin 800000) (hr : r.val = 4000 * t.val + p.val) :
    (iblk0 (F := Ideal) V c 2 t : Mat 4000 8) (ix2 p k) = (V c main_v0 : Mat 800000 8) (ix2 r k) := by
  have e := (index_facts0 t).2.2.1
  show V c main_v0 (((cfg0.win 2).blk t).view.emb (ix2 p k)) = V c main_v0 (ix2 r k)
  refine congrArg (V c main_v0) (funext fun a => Fin.ext ?_)
  match a with
  | ⟨0, _⟩ => show win0_2.index t (0 : Fin 2) * 4000 + 1 * p.val = r.val; rw [e.1, hr]; omega
  | ⟨1, _⟩ => show win0_2.index t (1 : Fin 2) * 8 + 1 * k.val = k.val; rw [e.2]; omega

/-- The first-layer weight matrix is staged whole at every point of round one: the block is the array. -/
theorem whole0_3 (V : (c : Dev nD) → (b : Ref sig .tc) → Buf (Elt Ideal) ((c : Thread nD τ).loc b)) (c : Dev nD)
    (t : Fin cfg0.N) : (iblk0 (F := Ideal) V c 3 t : Mat 136 128) = V c main_v18 := by
  have e := (index_facts0 t).2.2.2.1
  funext y
  show V c main_v18 (((cfg0.win 3).blk t).view.emb y) = V c main_v18 y
  refine congrArg (V c main_v18) (funext fun a => Fin.ext ?_)
  match a with
  | ⟨0, _⟩ => show win0_3.index t (0 : Fin 2) * 136 + 1 * (y 0).val = (y 0).val; rw [e.1]; omega
  | ⟨1, _⟩ => show win0_3.index t (1 : Fin 2) * 128 + 1 * (y 1).val = (y 1).val; rw [e.2]; omega

/-- The first bias is staged whole at every point of round one: the block is the array. -/
theorem whole0_4 (V : (c : Dev nD) → (b : Ref sig .tc) → Buf (Elt Ideal) ((c : Thread nD τ).loc b)) (c : Dev nD)
    (t : Fin cfg0.N) : (iblk0 (F := Ideal) V c 4 t : Mat 1 128) = V c main_v25 := by
  have e := (index_facts0 t).2.2.2.2.1
  funext y
  show V c main_v25 (((cfg0.win 4).blk t).view.emb y) = V c main_v25 y
  refine congrArg (V c main_v25) (funext fun a => Fin.ext ?_)
  match a with
  | ⟨0, _⟩ => show win0_4.index t (0 : Fin 2) * 1 + 1 * (y 0).val = (y 0).val; rw [e.1]; omega
  | ⟨1, _⟩ => show win0_4.index t (1 : Fin 2) * 128 + 1 * (y 1).val = (y 1).val; rw [e.2]; omega

/-- The second-layer weight matrix is staged whole at every point of round one: the block is the array. -/
theorem whole0_5 (V : (c : Dev nD) → (b : Ref sig .tc) → Buf (Elt Ideal) ((c : Thread nD τ).loc b)) (c : Dev nD)
    (t : Fin cfg0.N) : (iblk0 (F := Ideal) V c 5 t : Mat 128 64) = V c main_v22 := by
  have e := (index_facts0 t).2.2.2.2.2.1
  funext y
  show V c main_v22 (((cfg0.win 5).blk t).view.emb y) = V c main_v22 y
  refine congrArg (V c main_v22) (funext fun a => Fin.ext ?_)
  match a with
  | ⟨0, _⟩ => show win0_5.index t (0 : Fin 2) * 128 + 1 * (y 0).val = (y 0).val; rw [e.1]; omega
  | ⟨1, _⟩ => show win0_5.index t (1 : Fin 2) * 64 + 1 * (y 1).val = (y 1).val; rw [e.2]; omega

/-- The second bias is staged whole at every point of round one: the block is the array. -/
theorem whole0_6 (V : (c : Dev nD) → (b : Ref sig .tc) → Buf (Elt Ideal) ((c : Thread nD τ).loc b)) (c : Dev nD)
    (t : Fin cfg0.N) : (iblk0 (F := Ideal) V c 6 t : Mat 1 64) = V c main_v26 := by
  have e := (index_facts0 t).2.2.2.2.2.2.1
  funext y
  show V c main_v26 (((cfg0.win 6).blk t).view.emb y) = V c main_v26 y
  refine congrArg (V c main_v26) (funext fun a => Fin.ext ?_)
  match a with
  | ⟨0, _⟩ => show win0_6.index t (0 : Fin 2) * 1 + 1 * (y 0).val = (y 0).val; rw [e.1]; omega
  | ⟨1, _⟩ => show win0_6.index t (1 : Fin 2) * 64 + 1 * (y 1).val = (y 1).val; rw [e.2]; omega

/-- What point t writes back to the first output: rows 4000·t … 4000·t + 3999 of the edge network of the whole
    arrays. -/
theorem flushed0_v (V : (c : Dev nD) → (b : Ref sig .tc) → Buf (Elt Ideal) ((c : Thread nD τ).loc b)) (c : Dev nD)
    (t : Fin cfg0.N) :
    (dat0 (F := Ideal) V c).flushed 7 t = ((cfg0.win 7).blk t).view.read (Elt Ideal)
      (msgArr (n := 800000) (V c main_v9) (V c main_v16) (V c main_v0) (V c main_v18) (V c main_v25) (V c main_v22) (V c main_v26)) := by
  show (cfg0.win 7).cut (grid0.coords t) ((dat0 V c).after 7 t) = _
  rw [after0_7]
  unfold out0_7
  rw [View.canon_unit_zero zero_offsets]
  simp only [View.ld_unit_zero (S := S4000x64) zero_offsets, View.ld_unit_zero (S := S4000x8) zero_offsets,
    View.ld_unit_zero (S := S136x128) zero_offsets, View.ld_unit_zero (S := S1x128) zero_offsets,
    View.ld_unit_zero (S := S128x64) zero_offsets, View.ld_unit_zero (S := S1x64) zero_offsets]
  rw [pay0_v]
  have e := (index_facts0 t).2.2.2.2.2.2.2.1
  funext y
  show msgArr (n := 4000) _ _ _ _ _ _ _ _ = msgArr (n := 800000) _ _ _ _ _ _ _ (((cfg0.win 7).blk t).view.emb y)
  refine msgArr_rows _ _ _ _ _ _ _ _ _ _ _ _ _ _ (whole0_3 V c t) (whole0_4 V c t) (whole0_5 V c t) (whole0_6 V c t)
    _ _ ?_ (fun k => ?_) (fun k => ?_) (fun k => ?_)
  · show (y 1).val = win0_7.index t (1 : Fin 2) * 64 + 1 * (y 1).val
    rw [e.2]; omega
  · refine rows0_0 V c t _ k _ ?_
    show win0_7.index t (0 : Fin 2) * 4000 + 1 * (y 0).val = 4000 * t.val + (y 0).val
    rw [e.1]; omega
  · refine rows0_1 V c t _ k _ ?_
    show win0_7.index t (0 : Fin 2) * 4000 + 1 * (y 0).val = 4000 * t.val + (y 0).val
    rw [e.1]; omega
  · refine rows0_2 V c t _ k _ ?_
    show win0_7.index t (0 : Fin 2) * 4000 + 1 * (y 0).val = 4000 * t.val + (y 0).val
    rw [e.1]; omega

/-- What point t writes back to the second output: rows 4000·t … 4000·t + 3999 of the edge network of the whole
    arrays, the two endpoint arrays exchanged. -/
theorem flushed0_c (V : (c : Dev nD) → (b : Ref sig .tc) → Buf (Elt Ideal) ((c : Thread nD τ).loc b)) (c : Dev nD)
    (t : Fin cfg0.N) :
    (dat0 (F := Ideal) V c).flushed 8 t = ((cfg0.win 8).blk t).view.read (Elt Ideal)
      (msgArr (n := 800000) (V c main_v16) (V c main_v9) (V c main_v0) (V c main_v18) (V c main_v25) (V c main_v22) (V c main_v26)) := by
  show (cfg0.win 8).cut (grid0.coords t) ((dat0 V c).after 8 t) = _
  rw [after0_8]
  unfold out0_8
  rw [View.canon_unit_zero zero_offsets]
  simp only [View.ld_unit_zero (S := S4000x64) zero_offsets, View.ld_unit_zero (S := S4000x8) zero_offsets,
    View.ld_unit_zero (S := S136x128) zero_offsets, View.ld_unit_zero (S := S1x128) zero_offsets,
    View.ld_unit_zero (S := S128x64) zero_offsets, View.ld_unit_zero (S := S1x64) zero_offsets]
  rw [pay0_c]
  have e := (index_facts0 t).2.2.2.2.2.2.2.2
  funext y
  show msgArr (n := 4000) _ _ _ _ _ _ _ _ = msgArr (n := 800000) _ _ _ _ _ _ _ (((cfg0.win 8).blk t).view.emb y)
  refine msgArr_rows _ _ _ _ _ _ _ _ _ _ _ _ _ _ (whole0_3 V c t) (whole0_4 V c t) (whole0_5 V c t) (whole0_6 V c t)
    _ _ ?_ (fun k => ?_) (fun k => ?_) (fun k => ?_)
  · show (y 1).val = win0_8.index t (1 : Fin 2) * 64 + 1 * (y 1).val
    rw [e.2]; omega
  · refine rows0_1 V c t _ k _ ?_
    show win0_8.index t (0 : Fin 2) * 4000 + 1 * (y 0).val = 4000 * t.val + (y 0).val
    rw [e.1]; omega
  · refine rows0_0 V c t _ k _ ?_
    show win0_8.index t (0 : Fin 2) * 4000 + 1 * (y 0).val = 4000 * t.val + (y 0).val
    rw [e.1]; omega
  · refine rows0_2 V c t _ k _ ?_
    show win0_8.index t (0 : Fin 2) * 4000 + 1 * (y 0).val = 4000 * t.val + (y 0).val
    rw [e.1]; omega

/-- An index of the first output array is in point t's block iff its row is among the block's 4000 rows. -/
theorem mem_rows0_7 (t : Fin cfg0.N) (i : S800000x64.Idx) :
    i ∈ ((cfg0.win 7).blk t).view.set ↔ ∀ a : Fin 2, win0_7.index t a * S4000x64.size a ≤ (i a).val
      ∧ (i a).val < win0_7.index t a * S4000x64.size a + S4000x64.size a := by
  show i ∈ ((View.whole main_v27_0).slice (win0_7.rect t)).set ↔ _
  rw [View.set_slice_whole, Rect.mem_set_unit]
  exact Iff.rfl

/-- The 200 blocks of 4000 rows fill the first output array: row r is in the block of point r / 4000. -/
theorem rows_cover0_7 (i : S800000x64.Idx) :
    ∃ t : Fin cfg0.N, (cfg0.win 7).flush t = true ∧ i ∈ ((cfg0.win 7).blk t).view.set := by
  have hN : cfg0.N = 200 := N_0
  have h0 : (i 0).val < 800000 := (i 0).isLt
  have h1 : (i 1).val < 64 := (i 1).isLt
  obtain ⟨t, ht⟩ : ∃ t : Fin cfg0.N, t.val = (i 0).val / 4000 := ⟨⟨(i 0).val / 4000, by rw [hN]; omega⟩, rfl⟩
  have e := (index_facts0 t).2.2.2.2.2.2.2.1
  refine ⟨t, flush0_7 t, ?_⟩
  rw [mem_rows0_7]
  intro a
  match a with
  | ⟨0, _⟩ =>
    show win0_7.index t (0 : Fin 2) * 4000 ≤ (i 0).val ∧ (i 0).val < win0_7.index t (0 : Fin 2) * 4000 + 4000
    rw [e.1, ht]; omega
  | ⟨1, _⟩ =>
    show win0_7.index t (1 : Fin 2) * 64 ≤ (i 1).val ∧ (i 1).val < win0_7.index t (1 : Fin 2) * 64 + 64
    rw [e.2]; omega

/-- An index of the second output array is in point t's block iff its row is among the block's 4000 rows. -/
theorem mem_rows0_8 (t : Fin cfg0.N) (i : S800000x64.Idx) :
    i ∈ ((cfg0.win 8).blk t).view.set ↔ ∀ a : Fin 2, win0_8.index t a * S4000x64.size a ≤ (i a).val
      ∧ (i a).val < win0_8.index t a * S4000x64.size a + S4000x64.size a := by
  show i ∈ ((View.whole main_v27_1).slice (win0_8.rect t)).set ↔ _
  rw [View.set_slice_whole, Rect.mem_set_unit]
  exact Iff.rfl

/-- The 200 blocks of 4000 rows fill the second output array: row r is in the block of point r / 4000. -/
theorem rows_cover0_8 (i : S800000x64.Idx) :
    ∃ t : Fin cfg0.N, (cfg0.win 8).flush t = true ∧ i ∈ ((cfg0.win 8).blk t).view.set := by
  have hN : cfg0.N = 200 := N_0
  have h0 : (i 0).val < 800000 := (i 0).isLt
  have h1 : (i 1).val < 64 := (i 1).isLt
  obtain ⟨t, ht⟩ : ∃ t : Fin cfg0.N, t.val = (i 0).val / 4000 := ⟨⟨(i 0).val / 4000, by rw [hN]; omega⟩, rfl⟩
  have e := (index_facts0 t).2.2.2.2.2.2.2.2
  refine ⟨t, flush0_8 t, ?_⟩
  rw [mem_rows0_8]
  intro a
  match a with
  | ⟨0, _⟩ =>
    show win0_8.index t (0 : Fin 2) * 4000 ≤ (i 0).val ∧ (i 0).val < win0_8.index t (0 : Fin 2) * 4000 + 4000
    rw [e.1, ht]; omega
  | ⟨1, _⟩ =>
    show win0_8.index t (1 : Fin 2) * 64 ≤ (i 1).val ∧ (i 1).val < win0_8.index t (1 : Fin 2) * 64 + 64
    rw [e.2]; omega

/-- THE FIRST OUTPUT ARRAY of round one's edge region is the edge network on every row. -/
theorem region0_v (V : (c : Dev nD) → (b : Ref sig .tc) → Buf (Elt Ideal) ((c : Thread nD τ).loc b)) (c : Dev nD) :
    (dat0 (F := Ideal) V c).arrAt 7 cfg0.N
      = msgArr (n := 800000) (V c main_v9) (V c main_v16) (V c main_v0) (V c main_v18) (V c main_v25) (V c main_v22) (V c main_v26) :=
  (dat0 V c).arrAt_eq_of_cover 7 _ (fun t _ => flushed0_v V c t) rows_cover0_7

/-- THE SECOND OUTPUT ARRAY is the edge network on every row with the two endpoint arrays exchanged. -/
theorem region0_c (V : (c : Dev nD) → (b : Ref sig .tc) → Buf (Elt Ideal) ((c : Thread nD τ).loc b)) (c : Dev nD) :
    (dat0 (F := Ideal) V c).arrAt 8 cfg0.N
      = msgArr (n := 800000) (V c main_v16) (V c main_v9) (V c main_v0) (V c main_v18) (V c main_v25) (V c main_v22) (V c main_v26) :=
  (dat0 V c).arrAt_eq_of_cover 8 _ (fun t _ => flushed0_c V c t) rows_cover0_8

/-! ## Round two: the edge network's region -/

/-- The block index of every window at every point of the grid, decided over its 200 points: the three row-blocked
    inputs and the two outputs move down one block of rows per point; the weights and biases stay put. -/
theorem index_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0) :=
  (by decide +kernel : ∀ t : Fin grid3.N, _)

/-- The first endpoint array: row p of the block staged at point t is row 4000·t + p of the array. -/
theorem rows3_0 (V : (c : Dev nD) → (b : Ref sig .tc) → Buf (Elt Ideal) ((c : Thread nD τ).loc b)) (c : Dev nD)
    (t : Fin cfg3.N) (p : Fin 4000) (k : Fin 64) (r : Fin 800000) (hr : r.val = 4000 * t.val + p.val) :
    (iblk3 (F := Ideal) V c 0 t : Mat 4000 64) (ix2 p k) = (V c main_v66 : Mat 800000 64) (ix2 r k) := by
  have e := (index_facts3 t).1
  show V c main_v66 (((cfg3.win 0).blk t).view.emb (ix2 p k)) = V c main_v66 (ix2 r k)
  refine congrArg (V c main_v66) (funext fun a => Fin.ext ?_)
  match a with
  | ⟨0, _⟩ => show win3_0.index t (0 : Fin 2) * 4000 + 1 * p.val = r.val; rw [e.1, hr]; omega
  | ⟨1, _⟩ => show win3_0.index t (1 : Fin 2) * 64 + 1 * k.val = k.val; rw [e.2]; omega

/-- The second endpoint array: row p of the block staged at point t is row 4000·t + p of the array. -/
theorem rows3_1 (V : (c : Dev nD) → (b : Ref sig .tc) → Buf (Elt Ideal) ((c : Thread nD τ).loc b)) (c : Dev nD)
    (t : Fin cfg3.N) (p : Fin 4000) (k : Fin 64) (r : Fin 800000) (hr : r.val = 4000 * t.val + p.val) :
    (iblk3 (F := Ideal) V c 1 t : Mat 4000 64) (ix2 p k) = (V c main_v73 : Mat 800000 64) (ix2 r k) := by
  have e := (index_facts3 t).2.1
  show V c main_v73 (((cfg3.win 1).blk t).view.emb (ix2 p k)) = V c main_v73 (ix2 r k)
  refine congrArg (V c main_v73) (funext fun a => Fin.ext ?_)
  match a with
  | ⟨0, _⟩ => show win3_1.index t (0 : Fin 2) * 4000 + 1 * p.val = r.val; rw [e.1, hr]; omega
  | ⟨1, _⟩ => show win3_1.index t (1 : Fin 2) * 64 + 1 * k.val = k.val; rw [e.2]; omega

/-- The edge array: row p of the block staged at point t is row 4000·t + p of the array. -/
theorem rows3_2 (V : (c : Dev nD) → (b : Ref sig .tc) → Buf (Elt Ideal) ((c : Thread nD τ).loc b)) (c : Dev nD)
    (t : Fin cfg3.N) (p : Fin 4000) (k : Fin 8) (r : Fin 800000) (hr : r.val = 4000 * t.val + p.val) :
    (iblk3 (F := Ideal) V c 2 t : Mat 4000 8) (ix2 p k) = (V c main_v0 : Mat 800000 8) (ix2 r k) := by
  have e := (index_facts3 t).2.2.1
  show V c main_v0 (((cfg3.win 2).blk t).view.emb (ix2 p k)) = V c main_v0 (ix2 r k)
  refine congrArg (V c main_v0) (funext fun a => Fin.ext ?_)
  match a with
  | ⟨0, _⟩ => show win3_2.index t (0 : Fin 2) * 4000 + 1 * p.val = r.val; rw [e.1, hr]; omega
  | ⟨1, _⟩ => show win3_2.index t (1 : Fin 2) * 8 + 1 * k.val = k.val; rw [e.2]; omega

/-- The first-layer weight matrix is staged whole at every point of round two: the block is the array. -/
theorem whole3_3 (V : (c : Dev nD) → (b : Ref sig .tc) → Buf (Elt Ideal) ((c : Thread nD τ).loc b)) (c : Dev nD)
    (t : Fin cfg3.N) : (iblk3 (F := Ideal) V c 3 t : Mat 136 128) = V c main_v75 := by
  have e := (index_facts3 t).2.2.2.1
  funext y
  show V c main_v75 (((cfg3.win 3).blk t).view.emb y) = V c main_v75 y
  refine congrArg (V c main_v75) (funext fun a => Fin.ext ?_)
  match a with
  | ⟨0, _⟩ => show win3_3.index t (0 : Fin 2) * 136 + 1 * (y 0).val = (y 0).val; rw [e.1]; omega
  | ⟨1, _⟩ => show win3_3.index t (1 : Fin 2) * 128 + 1 * (y 1).val = (y 1).val; rw [e.2]; omega

/-- The first bias is staged whole at every point of round two: the block is the array. -/
theorem whole3_4 (V : (c : Dev nD) → (b : Ref sig .tc) → Buf (Elt Ideal) ((c : Thread nD τ).loc b)) (c : Dev nD)
    (t : Fin cfg3.N) : (iblk3 (F := Ideal) V c 4 t : Mat 1 128) = V c main_v82 := by
  have e := (index_facts3 t).2.2.2.2.1
  funext y
  show V c main_v82 (((cfg3.win 4).blk t).view.emb y) = V c main_v82 y
  refine congrArg (V c main_v82) (funext fun a => Fin.ext ?_)
  match a with
  | ⟨0, _⟩ => show win3_4.index t (0 : Fin 2) * 1 + 1 * (y 0).val = (y 0).val; rw [e.1]; omega
  | ⟨1, _⟩ => show win3_4.index t (1 : Fin 2) * 128 + 1 * (y 1).val = (y 1).val; rw [e.2]; omega

/-- The second-layer weight matrix is staged whole at every point of round two: the block is the array. -/
theorem whole3_5 (V : (c : Dev nD) → (b : Ref sig .tc) → Buf (Elt Ideal) ((c : Thread nD τ).loc b)) (c : Dev nD)
    (t : Fin cfg3.N) : (iblk3 (F := Ideal) V c 5 t : Mat 128 64) = V c main_v79 := by
  have e := (index_facts3 t).2.2.2.2.2.1
  funext y
  show V c main_v79 (((cfg3.win 5).blk t).view.emb y) = V c main_v79 y
  refine congrArg (V c main_v79) (funext fun a => Fin.ext ?_)
  match a with
  | ⟨0, _⟩ => show win3_5.index t (0 : Fin 2) * 128 + 1 * (y 0).val = (y 0).val; rw [e.1]; omega
  | ⟨1, _⟩ => show win3_5.index t (1 : Fin 2) * 64 + 1 * (y 1).val = (y 1).val; rw [e.2]; omega

/-- The second bias is staged whole at every point of round two: the block is the array. -/
theorem whole3_6 (V : (c : Dev nD) → (b : Ref sig .tc) → Buf (Elt Ideal) ((c : Thread nD τ).loc b)) (c : Dev nD)
    (t : Fin cfg3.N) : (iblk3 (F := Ideal) V c 6 t : Mat 1 64) = V c main_v83 := by
  have e := (index_facts3 t).2.2.2.2.2.2.1
  funext y
  show V c main_v83 (((cfg3.win 6).blk t).view.emb y) = V c main_v83 y
  refine congrArg (V c main_v83) (funext fun a => Fin.ext ?_)
  match a with
  | ⟨0, _⟩ => show win3_6.index t (0 : Fin 2) * 1 + 1 * (y 0).val = (y 0).val; rw [e.1]; omega
  | ⟨1, _⟩ => show win3_6.index t (1 : Fin 2) * 64 + 1 * (y 1).val = (y 1).val; rw [e.2]; omega

/-- What point t writes back to the first output: rows 4000·t … 4000·t + 3999 of the edge network of the whole
    arrays. -/
theorem flushed3_v (V : (c : Dev nD) → (b : Ref sig .tc) → Buf (Elt Ideal) ((c : Thread nD τ).loc b)) (c : Dev nD)
    (t : Fin cfg3.N) :
    (dat3 (F := Ideal) V c).flushed 7 t = ((cfg3.win 7).blk t).view.read (Elt Ideal)
      (msgArr (n := 800000) (V c main_v66) (V c main_v73) (V c main_v0) (V c main_v75) (V c main_v82) (V c main_v79) (V c main_v83)) := by
  show (cfg3.win 7).cut (grid3.coords t) ((dat3 V c).after 7 t) = _
  rw [after3_7]
  unfold out3_7
  rw [View.canon_unit_zero zero_offsets]
  simp only [View.ld_unit_zero (S := S4000x64) zero_offsets, View.ld_unit_zero (S := S4000x8) zero_offsets,
    View.ld_unit_zero (S := S136x128) zero_offsets, View.ld_unit_zero (S := S1x128) zero_offsets,
    View.ld_unit_zero (S := S128x64) zero_offsets, View.ld_unit_zero (S := S1x64) zero_offsets]
  rw [pay3_v]
  have e := (index_facts3 t).2.2.2.2.2.2.2.1
  funext y
  show msgArr (n := 4000) _ _ _ _ _ _ _ _ = msgArr (n := 800000) _ _ _ _ _ _ _ (((cfg3.win 7).blk t).view.emb y)
  refine msgArr_rows _ _ _ _ _ _ _ _ _ _ _ _ _ _ (whole3_3 V c t) (whole3_4 V c t) (whole3_5 V c t) (whole3_6 V c t)
    _ _ ?_ (fun k => ?_) (fun k => ?_) (fun k => ?_)
  · show (y 1).val = win3_7.index t (1 : Fin 2) * 64 + 1 * (y 1).val
    rw [e.2]; omega
  · refine rows3_0 V c t _ k _ ?_
    show win3_7.index t (0 : Fin 2) * 4000 + 1 * (y 0).val = 4000 * t.val + (y 0).val
    rw [e.1]; omega
  · refine rows3_1 V c t _ k _ ?_
    show win3_7.index t (0 : Fin 2) * 4000 + 1 * (y 0).val = 4000 * t.val + (y 0).val
    rw [e.1]; omega
  · refine rows3_2 V c t _ k _ ?_
    show win3_7.index t (0 : Fin 2) * 4000 + 1 * (y 0).val = 4000 * t.val + (y 0).val
    rw [e.1]; omega

/-- What point t writes back to the second output: rows 4000·t … 4000·t + 3999 of the edge network of the whole
    arrays, the two endpoint arrays exchanged. -/
theorem flushed3_c (V : (c : Dev nD) → (b : Ref sig .tc) → Buf (Elt Ideal) ((c : Thread nD τ).loc b)) (c : Dev nD)
    (t : Fin cfg3.N) :
    (dat3 (F := Ideal) V c).flushed 8 t = ((cfg3.win 8).blk t).view.read (Elt Ideal)
      (msgArr (n := 800000) (V c main_v73) (V c main_v66) (V c main_v0) (V c main_v75) (V c main_v82) (V c main_v79) (V c main_v83)) := by
  show (cfg3.win 8).cut (grid3.coords t) ((dat3 V c).after 8 t) = _
  rw [after3_8]
  unfold out3_8
  rw [View.canon_unit_zero zero_offsets]
  simp only [View.ld_unit_zero (S := S4000x64) zero_offsets, View.ld_unit_zero (S := S4000x8) zero_offsets,
    View.ld_unit_zero (S := S136x128) zero_offsets, View.ld_unit_zero (S := S1x128) zero_offsets,
    View.ld_unit_zero (S := S128x64) zero_offsets, View.ld_unit_zero (S := S1x64) zero_offsets]
  rw [pay3_c]
  have e := (index_facts3 t).2.2.2.2.2.2.2.2
  funext y
  show msgArr (n := 4000) _ _ _ _ _ _ _ _ = msgArr (n := 800000) _ _ _ _ _ _ _ (((cfg3.win 8).blk t).view.emb y)
  refine msgArr_rows _ _ _ _ _ _ _ _ _ _ _ _ _ _ (whole3_3 V c t) (whole3_4 V c t) (whole3_5 V c t) (whole3_6 V c t)
    _ _ ?_ (fun k => ?_) (fun k => ?_) (fun k => ?_)
  · show (y 1).val = win3_8.index t (1 : Fin 2) * 64 + 1 * (y 1).val
    rw [e.2]; omega
  · refine rows3_1 V c t _ k _ ?_
    show win3_8.index t (0 : Fin 2) * 4000 + 1 * (y 0).val = 4000 * t.val + (y 0).val
    rw [e.1]; omega
  · refine rows3_0 V c t _ k _ ?_
    show win3_8.index t (0 : Fin 2) * 4000 + 1 * (y 0).val = 4000 * t.val + (y 0).val
    rw [e.1]; omega
  · refine rows3_2 V c t _ k _ ?_
    show win3_8.index t (0 : Fin 2) * 4000 + 1 * (y 0).val = 4000 * t.val + (y 0).val
    rw [e.1]; omega

/-- An index of the first output array is in point t's block iff its row is among the block's 4000 rows. -/
theorem mem_rows3_7 (t : Fin cfg3.N) (i : S800000x64.Idx) :
    i ∈ ((cfg3.win 7).blk t).view.set ↔ ∀ a : Fin 2, win3_7.index t a * S4000x64.size a ≤ (i a).val
      ∧ (i a).val < win3_7.index t a * S4000x64.size a + S4000x64.size a := by
  show i ∈ ((View.whole main_v84_0).slice (win3_7.rect t)).set ↔ _
  rw [View.set_slice_whole, Rect.mem_set_unit]
  exact Iff.rfl

/-- The 200 blocks of 4000 rows fill the first output array: row r is in the block of point r / 4000. -/
theorem rows_cover3_7 (i : S800000x64.Idx) :
    ∃ t : Fin cfg3.N, (cfg3.win 7).flush t = true ∧ i ∈ ((cfg3.win 7).blk t).view.set := by
  have hN : cfg3.N = 200 := N_3
  have h0 : (i 0).val < 800000 := (i 0).isLt
  have h1 : (i 1).val < 64 := (i 1).isLt
  obtain ⟨t, ht⟩ : ∃ t : Fin cfg3.N, t.val = (i 0).val / 4000 := ⟨⟨(i 0).val / 4000, by rw [hN]; omega⟩, rfl⟩
  have e := (index_facts3 t).2.2.2.2.2.2.2.1
  refine ⟨t, flush3_7 t, ?_⟩
  rw [mem_rows3_7]
  intro a
  match a with
  | ⟨0, _⟩ =>
    show win3_7.index t (0 : Fin 2) * 4000 ≤ (i 0).val ∧ (i 0).val < win3_7.index t (0 : Fin 2) * 4000 + 4000
    rw [e.1, ht]; omega
  | ⟨1, _⟩ =>
    show win3_7.index t (1 : Fin 2) * 64 ≤ (i 1).val ∧ (i 1).val < win3_7.index t (1 : Fin 2) * 64 + 64
    rw [e.2]; omega

/-- An index of the second output array is in point t's block iff its row is among the block's 4000 rows. -/
theorem mem_rows3_8 (t : Fin cfg3.N) (i : S800000x64.Idx) :
    i ∈ ((cfg3.win 8).blk t).view.set ↔ ∀ a : Fin 2, win3_8.index t a * S4000x64.size a ≤ (i a).val
      ∧ (i a).val < win3_8.index t a * S4000x64.size a + S4000x64.size a := by
  show i ∈ ((View.whole main_v84_1).slice (win3_8.rect t)).set ↔ _
  rw [View.set_slice_whole, Rect.mem_set_unit]
  exact Iff.rfl

/-- The 200 blocks of 4000 rows fill the second output array: row r is in the block of point r / 4000. -/
theorem rows_cover3_8 (i : S800000x64.Idx) :
    ∃ t : Fin cfg3.N, (cfg3.win 8).flush t = true ∧ i ∈ ((cfg3.win 8).blk t).view.set := by
  have hN : cfg3.N = 200 := N_3
  have h0 : (i 0).val < 800000 := (i 0).isLt
  have h1 : (i 1).val < 64 := (i 1).isLt
  obtain ⟨t, ht⟩ : ∃ t : Fin cfg3.N, t.val = (i 0).val / 4000 := ⟨⟨(i 0).val / 4000, by rw [hN]; omega⟩, rfl⟩
  have e := (index_facts3 t).2.2.2.2.2.2.2.2
  refine ⟨t, flush3_8 t, ?_⟩
  rw [mem_rows3_8]
  intro a
  match a with
  | ⟨0, _⟩ =>
    show win3_8.index t (0 : Fin 2) * 4000 ≤ (i 0).val ∧ (i 0).val < win3_8.index t (0 : Fin 2) * 4000 + 4000
    rw [e.1, ht]; omega
  | ⟨1, _⟩ =>
    show win3_8.index t (1 : Fin 2) * 64 ≤ (i 1).val ∧ (i 1).val < win3_8.index t (1 : Fin 2) * 64 + 64
    rw [e.2]; omega

/-- THE FIRST OUTPUT ARRAY of round two's edge region is the edge network on every row. -/
theorem region3_v (V : (c : Dev nD) → (b : Ref sig .tc) → Buf (Elt Ideal) ((c : Thread nD τ).loc b)) (c : Dev nD) :
    (dat3 (F := Ideal) V c).arrAt 7 cfg3.N
      = msgArr (n := 800000) (V c main_v66) (V c main_v73) (V c main_v0) (V c main_v75) (V c main_v82) (V c main_v79) (V c main_v83) :=
  (dat3 V c).arrAt_eq_of_cover 7 _ (fun t _ => flushed3_v V c t) rows_cover3_7

/-- THE SECOND OUTPUT ARRAY is the edge network on every row with the two endpoint arrays exchanged. -/
theorem region3_c (V : (c : Dev nD) → (b : Ref sig .tc) → Buf (Elt Ideal) ((c : Thread nD τ).loc b)) (c : Dev nD) :
    (dat3 (F := Ideal) V c).arrAt 8 cfg3.N
      = msgArr (n := 800000) (V c main_v73) (V c main_v66) (V c main_v0) (V c main_v75) (V c main_v82) (V c main_v79) (V c main_v83) :=
  (dat3 V c).arrAt_eq_of_cover 8 _ (fun t _ => flushed3_c V c t) rows_cover3_8

end Cert.KernelIdeal.MsgRegion

end
-- ==== Proof.UpdPayload.lean ====
/-
  The node network's arithmetic on one block of rows.

  A block of n node rows a and n aggregate rows b, the stacked first-layer weights W1 (128 × 128), the biases (one-row
  matrices) and the second-layer weights W2 (128 × 64) go through: a product of a with the upper 64 rows of W1, a product
  of b with the lower 64 rows of W1, their sum, the first bias spread over the rows, a maximum with zero, a product with
  W2, the second bias spread over the rows.  Over the extended reals a change of float format is the identity, a
  shape cast to the same shape is the identity, and a product accumulated into the zero matrix is, at (p, q), the sum
  over the shared axis of the products.  So entry (p, q) of the result is

      ( Σ_k max( (Σ_{i<64} a[p,i]·W1[i,k]) + (Σ_{i<64} b[p,i]·W1[64+i,k]) + b1[k] , 0 ) · W2[k,q] ) + b2[q],

  and the two 64-term sums are the 128-term sum of the joined row [ a_p | b_p ] against column k of W1: that only
  regroups a finite sum, which needs no finiteness.  Hence the block's result is the perceptron of the joined rows.
-/
import proofs.«156022_j57337813401889_2_alg».proof.Proof.Gen.KernelIdeal.Skeleton
import proofs.«156022_j57337813401889_2_alg».proof.Proof.GnnArrays
import proofs.«156022_j57337813401889_2_alg».proof.Proof.LibHostRead
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.UpdRegion

open Idealize.ShloMosaic Idealize.ShloMosaic.ValueIdx Cert.KernelIdeal Cert.KernelIdeal.Gen Cert.GnnRows

/-- A rows-by-columns product accumulated into the zero matrix, at (p, q): the sum over the shared axis of the
    products of row p of the first operand with column q of the second. -/
theorem matmul_zero_ix2 {R K C : ℕ} {φ₁ φ₂ : FTy} (D : DotDims ⟨2, ![R, K]⟩ ⟨2, ![K, C]⟩ ⟨2, ![R, C]⟩)
    (hlc : D.lhsContracting = [1]) (hrc : D.rhsContracting = [0]) (hlb : D.lhsBatch = []) (hrb : D.rhsBatch = [])
    (hln : D.lhsNonContracting = [0]) (hrn : D.rhsNonContracting = [1])
    (prec : Option ContractPrecision) (lhs : FVec Ideal ⟨2, ![R, K]⟩ φ₁) (rhs : FVec Ideal ⟨2, ![K, C]⟩ φ₂)
    (p : Fin R) (q : Fin C) :
    matmul D prec lhs rhs (constant (F := Ideal) ⟨2, ![R, C]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have e := D.size_contr 0 (by rw [hlc]; exact Nat.one_pos)
    rw [e]
    simp [hlc]
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact Cert.LibHostRead.lhsIdx_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact Cert.LibHostRead.rhsIdx_col D hlb hrb hln hrn _ _)
  rw [el, er]

/-- The node network's arithmetic on a block of n rows, at row p and output feature q: the perceptron of the joined
    row [ a_p | b_p ].  (The node rows enter as y0, equal to a: in the second round they pass a shape cast to the same
    shape first.)  The two products of the first layer are read as 64-term sums, the slices of W1 at the rows they
    start from, the spread biases at their one row; the two sums are then joined by regrouping. -/
theorem node_net_ix2 {n : ℕ}
    (D1 : DotDims ⟨2, ![n, 64]⟩ ⟨2, ![64, 128]⟩ ⟨2, ![n, 128]⟩)
    (h1 : D1.lhsContracting = [1] ∧ D1.rhsContracting = [0] ∧ D1.lhsBatch = [] ∧ D1.rhsBatch = []
      ∧ D1.lhsNonContracting = [0] ∧ D1.rhsNonContracting = [1])
    (D2 : DotDims ⟨2, ![n, 128]⟩ ⟨2, ![128, 64]⟩ ⟨2, ![n, 64]⟩)
    (h2 : D2.lhsContracting = [1] ∧ D2.rhsContracting = [0] ∧ D2.lhsBatch = [] ∧ D2.rhsBatch = []
      ∧ D2.lhsNonContracting = [0] ∧ D2.rhsNonContracting = [1])
    (x0 x1 : FVec Ideal ⟨2, ![n, 64]⟩ .f32) (x2 : FVec Ideal ⟨2, ![128, 128]⟩ .f32) (x3 : FVec Ideal ⟨2, ![1, 128]⟩ .f32)
    (x4 : FVec Ideal ⟨2, ![128, 64]⟩ .f32) (x5 : FVec Ideal ⟨2, ![1, 64]⟩ .f32)
    (y0 : FVec Ideal ⟨2, ![n, 64]⟩ .f32) (hy0 : y0 = x0) (hb : FTy.bf16.bits < FTy.f32.bits)
    (c1 : (⟨2, ![n, 64]⟩ : Shape).ShapeCasts ⟨2, ![n, 64]⟩) (c2 : (⟨2, ![128, 128]⟩ : Shape).ShapeCasts ⟨2, ![128, 128]⟩)
    (c3 : (⟨2, ![1, 128]⟩ : Shape).ShapeCasts ⟨2, ![1, 128]⟩) (c4 : (⟨2, ![128, 64]⟩ : Shape).ShapeCasts ⟨2, ![128, 64]⟩)
    (c5 : (⟨2, ![1, 64]⟩ : Shape).ShapeCasts ⟨2, ![1, 64]⟩)
    (s0 : (⟨2, ![128, 128]⟩ : Shape).Slices ![0, 0] ⟨2, ![64, 128]⟩) (s1 : (⟨2, ![128, 128]⟩ : Shape).Slices ![64, 0] ⟨2, ![64, 128]⟩)
    (b3 : (⟨2, ![1, 128]⟩ : Shape).Broadcasts ⟨2, ![n, 128]⟩) (b5 : (⟨2, ![1, 64]⟩ : Shape).Broadcasts ⟨2, ![n, 64]⟩)
    (p : Fin n) (q : Fin 64) :
    addf
        (matmul D2 none
          (truncf .bf16
            (maximumf
              (addf
                (addf
                  (matmul D1 none (truncf .bf16 y0 hb)
                    (extractStridedSlice ⟨2, ![64, 128]⟩ ![0, 0] (truncf .bf16 (shapeCast ⟨2, ![128, 128]⟩ x2 c2) hb) s0)
                    (constant ⟨2, ![n, 128]⟩ .f32 0x00000000#32))
                  (matmul D1 none (truncf .bf16 (shapeCast ⟨2, ![n, 64]⟩ x1 c1) hb)
                    (extractStridedSlice ⟨2, ![64, 128]⟩ ![64, 0] (truncf .bf16 (shapeCast ⟨2, ![128, 128]⟩ x2 c2) hb) s1)
                    (constant ⟨2, ![n, 128]⟩ .f32 0x00000000#32)))
                (broadcastTo ⟨2, ![n, 128]⟩ (shapeCast ⟨2, ![1, 128]⟩ (shapeCast ⟨2, ![1, 128]⟩ x3 c3) c3) b3))
              (broadcast ⟨2, ![n, 128]⟩ (Scalar.ofBits .f32 0x00000000#32)))
            hb)
          (truncf .bf16 (shapeCast ⟨2, ![128, 64]⟩ x4 c4) hb)
          (constant ⟨2, ![n, 64]⟩ .f32 0x00000000#32))
        (broadcastTo ⟨2, ![n, 64]⟩ (shapeCast ⟨2, ![1, 64]⟩ (shapeCast ⟨2, ![1, 64]⟩ x5 c5) c5) b5)
        (ix2 p q)
      = mlpRow (cat2 (row x0 p) (row x1 p)) (ent x2) (row x3 0) (ent x4) (row x5 0) q := by
  obtain ⟨h1a, h1b, h1c, h1d, h1e, h1f⟩ := h1
  obtain ⟨h2a, h2b, h2c, h2d, h2e, h2f⟩ := h2
  unfold mlpRow
  refine (addf_apply _ _ _).trans ?_
  refine congrArg₂ (· + ·) ?_ ?_
  · -- the second layer: a 128-term sum over the hidden features
    refine (matmul_zero_ix2 D2 h2a h2b h2c h2d h2e h2f none _ _ p q).trans ?_
    refine Finset.sum_congr rfl fun k _ => ?_
    refine congrArg₂ (· * ·) ?_ ?_
    · -- hidden feature k of row p: the maximum with the zero word, which is the extended real 0
      show max (_ + _ + _) (Ideal.ofBits .f32 0x00000000#32) = _
      rw [Ideal.ofBits_zero_f32]
      refine congrArg (max · 0) ?_
      refine congrArg₂ (· + ·) ?_ ?_
      · -- the first layer's two 64-term sums are the 128-term sum over the joined row
        rw [sum_cat2]
        refine congrArg₂ (· + ·) ?_ ?_
        · refine (matmul_zero_ix2 D1 h1a h1b h1c h1d h1e h1f none _ _ p k).trans ?_
          refine Finset.sum_congr rfl fun i _ => congrArg₂ (· * ·) (congrFun hy0 _) ?_
          refine (slice2_axis0_apply 0 _ s0 i k ⟨i.val, by omega⟩ (Nat.zero_add _).symm).trans ?_
          exact congrFun (shapeCast_self x2 c2) _
        · refine (matmul_zero_ix2 D1 h1a h1b h1c h1d h1e h1f none _ _ p k).trans ?_
          refine Finset.sum_congr rfl fun i _ => congrArg₂ (· * ·) ?_ ?_
          · exact congrFun (shapeCast_self x1 c1) _
          · refine (slice2_axis0_apply 64 _ s1 i k ⟨i.val + 64, by omega⟩ (Nat.add_comm _ _)).trans ?_
            exact congrFun (shapeCast_self x2 c2) _
      · -- the first bias, spread over the rows, read at its one row
        refine (broadcastTo_1b_ab_apply _ b3 p k).trans ?_
        exact congrFun ((shapeCast_self _ c3).trans (shapeCast_self x3 c3)) _
    · exact congrFun (shapeCast_self x4 c4) _
  · -- the second bias, spread over the rows, read at its one row
    refine (broadcastTo_1b_ab_apply _ b5 p q).trans ?_
    exact congrFun ((shapeCast_self _ c5).trans (shapeCast_self x5 c5)) _

/-- The body of region 1 on a block of 2000 rows is the node network on those rows. -/
theorem pay1 (x0 x1 : Vec Ideal S2000x64 .f32) (x2 : Vec Ideal S128x128 .f32) (x3 : Vec Ideal S1x128 .f32)
    (x4 : Vec Ideal S128x64 .f32) (x5 : Vec Ideal S1x64 .f32) :
    k1_pay1 x0 x1 x2 x3 x4 x5 = updArr (n := 2000) x0 x1 x2 x3 x4 x5 := by
  funext j
  obtain ⟨p, q, rfl⟩ : ∃ (p : Fin 2000) (q : Fin 64), j = ix2 p q := ⟨_, _, eq_ix2 j⟩
  rw [updArr_ix2]
  unfold k1_pay1
  exact node_net_ix2 dot_S2000x64_S64x128_S2000x128_1_0_0_1_n_n ⟨rfl, rfl, rfl, rfl, rfl, rfl⟩
    dot_S2000x128_S128x64_S2000x64_1_0_0_1_n_n ⟨rfl, rfl, rfl, rfl, rfl, rfl⟩ x0 x1 x2 x3 x4 x5 x0 rfl _ _ _ _ _ _ _ _ _ _ p q

/-- The body of region 2 on a block of 2000 rows is the node network on those rows. -/
theorem pay2 (x0 x1 : Vec Ideal S2000x64 .f32) (x2 : Vec Ideal S128x128 .f32) (x3 : Vec Ideal S1x128 .f32)
    (x4 : Vec Ideal S128x64 .f32) (x5 : Vec Ideal S1x64 .f32) :
    k2_pay1 x0 x1 x2 x3 x4 x5 = updArr (n := 2000) x0 x1 x2 x3 x4 x5 := by
  funext j
  obtain ⟨p, q, rfl⟩ : ∃ (p : Fin 2000) (q : Fin 64), j = ix2 p q := ⟨_, _, eq_ix2 j⟩
  rw [updArr_ix2]
  unfold k2_pay1
  exact node_net_ix2 dot_S2000x64_S64x128_S2000x128_1_0_0_1_n_n ⟨rfl, rfl, rfl, rfl, rfl, rfl⟩
    dot_S2000x128_S128x64_S2000x64_1_0_0_1_n_n ⟨rfl, rfl, rfl, rfl, rfl, rfl⟩ x0 x1 x2 x3 x4 x5 x0 rfl _ _ _ _ _ _ _ _ _ _ p q

/-- The body of region 4 on a block of 2000 rows is the node network on those rows. -/
theorem pay4 (x0 x1 : Vec Ideal S2000x64 .f32) (x2 : Vec Ideal S128x128 .f32) (x3 : Vec Ideal S1x128 .f32)
    (x4 : Vec Ideal S128x64 .f32) (x5 : Vec Ideal S1x64 .f32) :
    k4_pay1 x0 x1 x2 x3 x4 x5 = updArr (n := 2000) x0 x1 x2 x3 x4 x5 := by
  funext j
  obtain ⟨p, q, rfl⟩ : ∃ (p : Fin 2000) (q : Fin 64), j = ix2 p q := ⟨_, _, eq_ix2 j⟩
  rw [updArr_ix2]
  unfold k4_pay1
  exact node_net_ix2 dot_S2000x64_S64x128_S2000x128_1_0_0_1_n_n ⟨rfl, rfl, rfl, rfl, rfl, rfl⟩
    dot_S2000x128_S128x64_S2000x64_1_0_0_1_n_n ⟨rfl, rfl, rfl, rfl, rfl, rfl⟩ x0 x1 x2 x3 x4 x5 _ (shapeCast_self x0 _) _ _ _ _ _ _ _ _ _ _ p q

/-- The body of region 5 on a block of 2000 rows is the node network on those rows. -/
theorem pay5 (x0 x1 : Vec Ideal S2000x64 .f32) (x2 : Vec Ideal S128x128 .f32) (x3 : Vec Ideal S1x128 .f32)
    (x4 : Vec Ideal S128x64 .f32) (x5 : Vec Ideal S1x64 .f32) :
    k5_pay1 x0 x1 x2 x3 x4 x5 = updArr (n := 2000) x0 x1 x2 x3 x4 x5 := by
  funext j
  obtain ⟨p, q, rfl⟩ : ∃ (p : Fin 2000) (q : Fin 64), j = ix2 p q := ⟨_, _, eq_ix2 j⟩
  rw [updArr_ix2]
  unfold k5_pay1
  exact node_net_ix2 dot_S2000x64_S64x128_S2000x128_1_0_0_1_n_n ⟨rfl, rfl, rfl, rfl, rfl, rfl⟩
    dot_S2000x128_S128x64_S2000x64_1_0_0_1_n_n ⟨rfl, rfl, rfl, rfl, rfl, rfl⟩ x0 x1 x2 x3 x4 x5 _ (shapeCast_self x0 _) _ _ _ _ _ _ _ _ _ _ p q

end Cert.KernelIdeal.UpdRegion

end
-- ==== Proof.UpdRegion.lean ====
/-
  The node network's four regions, from one block of rows to the whole array.

  Each region runs over 25 points.  At point t the body sees rows 2000·t … 2000·t + 1999 of the node array and of the
  aggregate array and the weights and biases whole, and its result — the node network on those 2000 rows — is written
  back to rows 2000·t … 2000·t + 1999 of the result array.  A row of the node network's result depends on the same row
  of the two row arrays only, so block t of the node network of the whole arrays is the node network of the blocks; the
  25 blocks of 2000 rows tile the 50000 rows, so after the run the result array is the node network on every row.
  This holds whatever the arrays hold when the region is entered.
-/
import proofs.«156022_j57337813401889_2_alg».proof.Proof.Gen.KernelIdeal.Frame
import proofs.«156022_j57337813401889_2_alg».proof.Proof.GnnArrays
import proofs.«156022_j57337813401889_2_alg».proof.Proof.UpdPayload
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.UpdRegion

open Idealize.ShloMosaic Idealize.ShloMosaic.ValueIdx Idealize.ShloMosaic.TcCoe Cert.KernelIdeal Cert.KernelIdeal.Gen Cert.GnnRows
open Idealize.ShloMosaic.Pipeline (Dat)

theorem hz : (![0, 0] : Fin 2 → Nat) = fun _ => 0 := funext fun a => by fin_cases a <;> rfl

/-- A result row of the node network depends on the same row of the two row arrays only: if row y₀ of the blocks B0, B1
    is row i₀ of the arrays A0, A1, the network of the blocks at (y₀, q) is the network of the arrays at (i₀, q). -/
theorem updArr_block {n N : ℕ} (A0 A1 : Mat N 64) (B0 B1 : Mat n 64) (w1 : Mat 128 128) (b1 : Mat 1 128) (w2 : Mat 128 64)
    (b2 : Mat 1 64) (y : (⟨2, ![n, 64]⟩ : Shape).Idx) (i : (⟨2, ![N, 64]⟩ : Shape).Idx)
    (h1 : (i 1).val = (y 1).val)
    (hB0 : ∀ k : Fin 64, B0 (ix2 ⟨(y 0).val, idx2_lt0 y⟩ k) = A0 (ix2 ⟨(i 0).val, idx2_lt0 i⟩ k))
    (hB1 : ∀ k : Fin 64, B1 (ix2 ⟨(y 0).val, idx2_lt0 y⟩ k) = A1 (ix2 ⟨(i 0).val, idx2_lt0 i⟩ k)) :
    updArr B0 B1 w1 b1 w2 b2 y = updArr A0 A1 w1 b1 w2 b2 i := by
  have e0 : row B0 ⟨(y 0).val, idx2_lt0 y⟩ = row A0 ⟨(i 0).val, idx2_lt0 i⟩ := funext hB0
  have e1 : row B1 ⟨(y 0).val, idx2_lt0 y⟩ = row A1 ⟨(i 0).val, idx2_lt0 i⟩ := funext hB1
  have e2 : (⟨(y 1).val, idx2_lt1 y⟩ : Fin 64) = ⟨(i 1).val, idx2_lt1 i⟩ := Fin.ext h1.symm
  show mlpRow (cat2 (row B0 ⟨(y 0).val, idx2_lt0 y⟩) (row B1 ⟨(y 0).val, idx2_lt0 y⟩)) (ent w1) (row b1 0) (ent w2) (row b2 0)
      ⟨(y 1).val, idx2_lt1 y⟩
    = mlpRow (cat2 (row A0 ⟨(i 0).val, idx2_lt0 i⟩) (row A1 ⟨(i 0).val, idx2_lt0 i⟩)) (ent w1) (row b1 0) (ent w2) (row b2 0)
      ⟨(i 1).val, idx2_lt1 i⟩
  rw [e0, e1, e2]

variable (V : (c : Dev nD) → (b : Ref sig .tc) → Buf (Elt Ideal) ((c : Thread nD τ).loc b))

/-! ## Region 1 -/

/-- Where each window's block sits at point t of the 25-point grid: the node rows, the aggregate rows and the result move
    in blocks of 2000 rows (block t), the weights and biases are staged whole. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the node block at point t is row 2000·t + p of the node array. -/
theorem rows1_0 (c : Dev nD) (t : Fin cfg1.N) (p : Fin 2000) (r : Fin 50000) (hr : r.val = 2000 * t.val + p.val) (k : Fin 64) :
    (iblk1 (F := Ideal) V c 0 t : Mat 2000 64) (ix2 p k) = (V c main_arg0 : Mat 50000 64) (ix2 r k) := by
  obtain ⟨e0, e1, -⟩ := idx1 t
  unfold iblk1
  rw [View.read_apply]
  show (V c main_arg0 : Mat 50000 64) _ = _
  refine congrArg (V c main_arg0 : Mat 50000 64) (funext fun a => Fin.ext ?_)
  match a with
  | ⟨0, _⟩ => show win1_0.index t (0 : Fin 2) * 2000 + 1 * p.val = r.val; omega
  | ⟨1, _⟩ => show win1_0.index t (1 : Fin 2) * 64 + 1 * k.val = k.val; omega

/-- Row p of the aggregate block at point t is row 2000·t + p of the aggregate array. -/
theorem rows1_1 (c : Dev nD) (t : Fin cfg1.N) (p : Fin 2000) (r : Fin 50000) (hr : r.val = 2000 * t.val + p.val) (k : Fin 64) :
    (iblk1 (F := Ideal) V c 1 t : Mat 2000 64) (ix2 p k) = (V c main_v31 : Mat 50000 64) (ix2 r k) := by
  obtain ⟨-, -, e0, e1, -⟩ := idx1 t
  unfold iblk1
  rw [View.read_apply]
  show (V c main_v31 : Mat 50000 64) _ = _
  refine congrArg (V c main_v31 : Mat 50000 64) (funext fun a => Fin.ext ?_)
  match a with
  | ⟨0, _⟩ => show win1_1.index t (0 : Fin 2) * 2000 + 1 * p.val = r.val; omega
  | ⟨1, _⟩ => show win1_1.index t (1 : Fin 2) * 64 + 1 * k.val = k.val; omega

/-- The first-layer weights are staged whole at every point. -/
theorem whole1_2 (c : Dev nD) (t : Fin cfg1.N) :
    (iblk1 (F := Ideal) V c 2 t : Mat 128 128) = (V c main_v37 : Mat 128 128) := by
  obtain ⟨-, -, -, -, e0, e1, -⟩ := idx1 t
  funext x
  unfold iblk1
  rw [View.read_apply]
  show (V c main_v37 : Mat 128 128) _ = _
  refine congrArg (V c main_v37 : Mat 128 128) (funext fun a => Fin.ext ?_)
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- The first bias are staged whole at every point. -/
theorem whole1_3 (c : Dev nD) (t : Fin cfg1.N) :
    (iblk1 (F := Ideal) V c 3 t : Mat 1 128) = (V c main_v44 : Mat 1 128) := by
  obtain ⟨-, -, -, -, -, -, e0, e1, -⟩ := idx1 t
  funext x
  unfold iblk1
  rw [View.read_apply]
  show (V c main_v44 : Mat 1 128) _ = _
  refine congrArg (V c main_v44 : Mat 1 128) (funext fun a => Fin.ext ?_)
  match a with
  | ⟨0, _⟩ => show win1_3.index t (0 : Fin 2) * 1 + 1 * (x 0).val = (x 0).val; omega
  | ⟨1, _⟩ => show win1_3.index t (1 : Fin 2) * 128 + 1 * (x 1).val = (x 1).val; omega

/-- The second-layer weights are staged whole at every point. -/
theorem whole1_4 (c : Dev nD) (t : Fin cfg1.N) :
    (iblk1 (F := Ideal) V c 4 t : Mat 128 64) = (V c main_v41 : Mat 128 64) := by
  obtain ⟨-, -, -, -, -, -, -, -, e0, e1, -⟩ := idx1 t
  funext x
  unfold iblk1
  rw [View.read_apply]
  show (V c main_v41 : Mat 128 64) _ = _
  refine congrArg (V c main_v41 : Mat 128 64) (funext fun a => Fin.ext ?_)
  match a with
  | ⟨0, _⟩ => show win1_4.index t (0 : Fin 2) * 128 + 1 * (x 0).val = (x 0).val; omega
  | ⟨1, _⟩ => show win1_4.index t (1 : Fin 2) * 64 + 1 * (x 1).val = (x 1).val; omega

/-- The second bias are staged whole at every point. -/
theorem whole1_5 (c : Dev nD) (t : Fin cfg1.N) :
    (iblk1 (F := Ideal) V c 5 t : Mat 1 64) = (V c main_v45 : Mat 1 64) := by
  obtain ⟨-, -, -, -, -, -, -, -, -, -, e0, e1, -⟩ := idx1 t
  funext x
  unfold iblk1
  rw [View.read_apply]
  show (V c main_v45 : Mat 1 64) _ = _
  refine congrArg (V c main_v45 : Mat 1 64) (funext fun a => Fin.ext ?_)
  match a with
  | ⟨0, _⟩ => show win1_5.index t (0 : Fin 2) * 1 + 1 * (x 0).val = (x 0).val; omega
  | ⟨1, _⟩ => show win1_5.index t (1 : Fin 2) * 64 + 1 * (x 1).val = (x 1).val; omega

/-- What point t writes back is block t of the node network of the whole arrays: the body's result on the blocks is the
    node network on the blocks' rows, and row p of a block is row 2000·t + p of its array. -/
theorem flushed1 (c : Dev nD) (t : Fin cfg1.N) :
    (dat1 (F := Ideal) V c).flushed 6 t
      = ((cfg1.win 6).blk t).view.read (Elt Ideal)
          (updArr (n := 50000) (V c main_arg0) (V c main_v31) (V c main_v37) (V c main_v44) (V c main_v41) (V c main_v45)) := by
  show (cfg1.win 6).cut (grid1.coords t) ((dat1 V c).after 6 t) = _
  rw [after1_6]
  unfold out1_6
  rw [View.canon_unit_zero hz]
  simp only [View.ld_unit_zero (S := S2000x64) hz, View.ld_unit_zero (S := S128x128) hz, View.ld_unit_zero (S := S1x128) hz,
    View.ld_unit_zero (S := S128x64) hz, View.ld_unit_zero (S := S1x64) hz]
  rw [pay1, whole1_2 V c t, whole1_3 V c t, whole1_4 V c t, whole1_5 V c t]
  obtain ⟨-, -, -, -, -, -, -, -, -, -, -, -, e0, e1⟩ := idx1 t
  funext y
  show updArr (n := 2000) _ _ _ _ _ _ _ = updArr (n := 50000) _ _ _ _ _ _ (((cfg1.win 6).blk t).view.emb y)
  have hy0 : (y 0).val < 2000 := (y 0).isLt
  have hr : (((cfg1.win 6).blk t).view.emb y 0).val = 2000 * t.val + (y 0).val := by
    show win1_6.index t (0 : Fin 2) * 2000 + 1 * (y 0).val = _
    omega
  refine updArr_block _ _ _ _ _ _ _ _ _ _ ?_ (fun k => ?_) (fun k => ?_)
  · show win1_6.index t (1 : Fin 2) * 64 + 1 * (y 1).val = (y 1).val
    omega
  · exact rows1_0 V c t _ _ hr k
  · exact rows1_1 V c t _ _ hr k

/-- Every row of the result array is in some point's block: row r in the block of point r / 2000 (25 · 2000 = 50000). -/
theorem cover1 (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, -, -, e0, e1⟩ := idx1 t
  refine ⟨t, flush1_6 t, ?_⟩
  show i ∈ ((View.whole main_v46).slice (win1_6.rect t)).set
  rw [View.set_slice_whole, Rect.mem_set_unit]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 64 ≤ (i 1).val ∧ (i 1).val < win1_6.index t (1 : Fin 2) * 64 + 64
    omega

/-- The result array of region 1 after its run: the node network on every row. -/
theorem region1 (c : Dev nD) :
    (dat1 (F := Ideal) V c).arrAt 6 cfg1.N
      = updArr (n := 50000) (V c main_arg0) (V c main_v31) (V c main_v37) (V c main_v44) (V c main_v41) (V c main_v45) :=
  (dat1 (F := Ideal) V c).arrAt_eq_of_cover 6 _ (fun t _ => flushed1 V c t) cover1

/-! ## Region 2 -/

/-- Where each window's block sits at point t of the 25-point grid: the node rows, the aggregate rows and the result move
    in blocks of 2000 rows (block t), the weights and biases are staged whole. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row p of the node block at point t is row 2000·t + p of the node array. -/
theorem rows2_0 (c : Dev nD) (t : Fin cfg2.N) (p : Fin 2000) (r : Fin 50000) (hr : r.val = 2000 * t.val + p.val) (k : Fin 64) :
    (iblk2 (F := Ideal) V c 0 t : Mat 2000 64) (ix2 p k) = (V c main_arg1 : Mat 50000 64) (ix2 r k) := by
  obtain ⟨e0, e1, -⟩ := idx2 t
  unfold iblk2
  rw [View.read_apply]
  show (V c main_arg1 : Mat 50000 64) _ = _
  refine congrArg (V c main_arg1 : Mat 50000 64) (funext fun a => Fin.ext ?_)
  match a with
  | ⟨0, _⟩ => show win2_0.index t (0 : Fin 2) * 2000 + 1 * p.val = r.val; omega
  | ⟨1, _⟩ => show win2_0.index t (1 : Fin 2) * 64 + 1 * k.val = k.val; omega

/-- Row p of the aggregate block at point t is row 2000·t + p of the aggregate array. -/
theorem rows2_1 (c : Dev nD) (t : Fin cfg2.N) (p : Fin 2000) (r : Fin 50000) (hr : r.val = 2000 * t.val + p.val) (k : Fin 64) :
    (iblk2 (F := Ideal) V c 1 t : Mat 2000 64) (ix2 p k) = (V c main_v35 : Mat 50000 64) (ix2 r k) := by
  obtain ⟨-, -, e0, e1, -⟩ := idx2 t
  unfold iblk2
  rw [View.read_apply]
  show (V c main_v35 : Mat 50000 64) _ = _
  refine congrArg (V c main_v35 : Mat 50000 64) (funext fun a => Fin.ext ?_)
  match a with
  | ⟨0, _⟩ => show win2_1.index t (0 : Fin 2) * 2000 + 1 * p.val = r.val; omega
  | ⟨1, _⟩ => show win2_1.index t (1 : Fin 2) * 64 + 1 * k.val = k.val; omega

/-- The first-layer weights are staged whole at every point. -/
theorem whole2_2 (c : Dev nD) (t : Fin cfg2.N) :
    (iblk2 (F := Ideal) V c 2 t : Mat 128 128) = (V c main_v48 : Mat 128 128) := by
  obtain ⟨-, -, -, -, e0, e1, -⟩ := idx2 t
  funext x
  unfold iblk2
  rw [View.read_apply]
  show (V c main_v48 : Mat 128 128) _ = _
  refine congrArg (V c main_v48 : Mat 128 128) (funext fun a => Fin.ext ?_)
  match a with
  | ⟨0, _⟩ => show win2_2.index t (0 : Fin 2) * 128 + 1 * (x 0).val = (x 0).val; omega
  | ⟨1, _⟩ => show win2_2.index t (1 : Fin 2) * 128 + 1 * (x 1).val = (x 1).val; omega

/-- The first bias are staged whole at every point. -/
theorem whole2_3 (c : Dev nD) (t : Fin cfg2.N) :
    (iblk2 (F := Ideal) V c 3 t : Mat 1 128) = (V c main_v55 : Mat 1 128) := by
  obtain ⟨-, -, -, -, -, -, e0, e1, -⟩ := idx2 t
  funext x
  unfold iblk2
  rw [View.read_apply]
  show (V c main_v55 : Mat 1 128) _ = _
  refine congrArg (V c main_v55 : Mat 1 128) (funext fun a => Fin.ext ?_)
  match a with
  | ⟨0, _⟩ => show win2_3.index t (0 : Fin 2) * 1 + 1 * (x 0).val = (x 0).val; omega
  | ⟨1, _⟩ => show win2_3.index t (1 : Fin 2) * 128 + 1 * (x 1).val = (x 1).val; omega

/-- The second-layer weights are staged whole at every point. -/
theorem whole2_4 (c : Dev nD) (t : Fin cfg2.N) :
    (iblk2 (F := Ideal) V c 4 t : Mat 128 64) = (V c main_v52 : Mat 128 64) := by
  obtain ⟨-, -, -, -, -, -, -, -, e0, e1, -⟩ := idx2 t
  funext x
  unfold iblk2
  rw [View.read_apply]
  show (V c main_v52 : Mat 128 64) _ = _
  refine congrArg (V c main_v52 : Mat 128 64) (funext fun a => Fin.ext ?_)
  match a with
  | ⟨0, _⟩ => show win2_4.index t (0 : Fin 2) * 128 + 1 * (x 0).val = (x 0).val; omega
  | ⟨1, _⟩ => show win2_4.index t (1 : Fin 2) * 64 + 1 * (x 1).val = (x 1).val; omega

/-- The second bias are staged whole at every point. -/
theorem whole2_5 (c : Dev nD) (t : Fin cfg2.N) :
    (iblk2 (F := Ideal) V c 5 t : Mat 1 64) = (V c main_v56 : Mat 1 64) := by
  obtain ⟨-, -, -, -, -, -, -, -, -, -, e0, e1, -⟩ := idx2 t
  funext x
  unfold iblk2
  rw [View.read_apply]
  show (V c main_v56 : Mat 1 64) _ = _
  refine congrArg (V c main_v56 : Mat 1 64) (funext fun a => Fin.ext ?_)
  match a with
  | ⟨0, _⟩ => show win2_5.index t (0 : Fin 2) * 1 + 1 * (x 0).val = (x 0).val; omega
  | ⟨1, _⟩ => show win2_5.index t (1 : Fin 2) * 64 + 1 * (x 1).val = (x 1).val; omega

/-- What point t writes back is block t of the node network of the whole arrays: the body's result on the blocks is the
    node network on the blocks' rows, and row p of a block is row 2000·t + p of its array. -/
theorem flushed2 (c : Dev nD) (t : Fin cfg2.N) :
    (dat2 (F := Ideal) V c).flushed 6 t
      = ((cfg2.win 6).blk t).view.read (Elt Ideal)
          (updArr (n := 50000) (V c main_arg1) (V c main_v35) (V c main_v48) (V c main_v55) (V c main_v52) (V c main_v56)) := by
  show (cfg2.win 6).cut (grid2.coords t) ((dat2 V c).after 6 t) = _
  rw [after2_6]
  unfold out2_6
  rw [View.canon_unit_zero hz]
  simp only [View.ld_unit_zero (S := S2000x64) hz, View.ld_unit_zero (S := S128x128) hz, View.ld_unit_zero (S := S1x128) hz,
    View.ld_unit_zero (S := S128x64) hz, View.ld_unit_zero (S := S1x64) hz]
  rw [pay2, whole2_2 V c t, whole2_3 V c t, whole2_4 V c t, whole2_5 V c t]
  obtain ⟨-, -, -, -, -, -, -, -, -, -, -, -, e0, e1⟩ := idx2 t
  funext y
  show updArr (n := 2000) _ _ _ _ _ _ _ = updArr (n := 50000) _ _ _ _ _ _ (((cfg2.win 6).blk t).view.emb y)
  have hy0 : (y 0).val < 2000 := (y 0).isLt
  have hr : (((cfg2.win 6).blk t).view.emb y 0).val = 2000 * t.val + (y 0).val := by
    show win2_6.index t (0 : Fin 2) * 2000 + 1 * (y 0).val = _
    omega
  refine updArr_block _ _ _ _ _ _ _ _ _ _ ?_ (fun k => ?_) (fun k => ?_)
  · show win2_6.index t (1 : Fin 2) * 64 + 1 * (y 1).val = (y 1).val
    omega
  · exact rows2_0 V c t _ _ hr k
  · exact rows2_1 V c t _ _ hr k

/-- Every row of the result array is in some point's block: row r in the block of point r / 2000 (25 · 2000 = 50000). -/
theorem cover2 (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, -, -, e0, e1⟩ := idx2 t
  refine ⟨t, flush2_6 t, ?_⟩
  show i ∈ ((View.whole main_v57).slice (win2_6.rect t)).set
  rw [View.set_slice_whole, Rect.mem_set_unit]
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 64 ≤ (i 1).val ∧ (i 1).val < win2_6.index t (1 : Fin 2) * 64 + 64
    omega

/-- The result array of region 2 after its run: the node network on every row. -/
theorem region2 (c : Dev nD) :
    (dat2 (F := Ideal) V c).arrAt 6 cfg2.N
      = updArr (n := 50000) (V c main_arg1) (V c main_v35) (V c main_v48) (V c main_v55) (V c main_v52) (V c main_v56) :=
  (dat2 (F := Ideal) V c).arrAt_eq_of_cover 6 _ (fun t _ => flushed2 V c t) cover2

/-! ## Region 4 -/

/-- Where each window's block sits at point t of the 25-point grid: the node rows, the aggregate rows and the result move
    in blocks of 2000 rows (block t), the weights and biases are staged whole. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row p of the node block at point t is row 2000·t + p of the node array. -/
theorem rows4_0 (c : Dev nD) (t : Fin cfg4.N) (p : Fin 2000) (r : Fin 50000) (hr : r.val = 2000 * t.val + p.val) (k : Fin 64) :
    (iblk4 (F := Ideal) V c 0 t : Mat 2000 64) (ix2 p k) = (V c main_v46 : Mat 50000 64) (ix2 r k) := by
  obtain ⟨e0, e1, -⟩ := idx4 t
  unfold iblk4
  rw [View.read_apply]
  show (V c main_v46 : Mat 50000 64) _ = _
  refine congrArg (V c main_v46 : Mat 50000 64) (funext fun a => Fin.ext ?_)
  match a with
  | ⟨0, _⟩ => show win4_0.index t (0 : Fin 2) * 2000 + 1 * p.val = r.val; omega
  | ⟨1, _⟩ => show win4_0.index t (1 : Fin 2) * 64 + 1 * k.val = k.val; omega

/-- Row p of the aggregate block at point t is row 2000·t + p of the aggregate array. -/
theorem rows4_1 (c : Dev nD) (t : Fin cfg4.N) (p : Fin 2000) (r : Fin 50000) (hr : r.val = 2000 * t.val + p.val) (k : Fin 64) :
    (iblk4 (F := Ideal) V c 1 t : Mat 2000 64) (ix2 p k) = (V c main_v88 : Mat 50000 64) (ix2 r k) := by
  obtain ⟨-, -, e0, e1, -⟩ := idx4 t
  unfold iblk4
  rw [View.read_apply]
  show (V c main_v88 : Mat 50000 64) _ = _
  refine congrArg (V c main_v88 : Mat 50000 64) (funext fun a => Fin.ext ?_)
  match a with
  | ⟨0, _⟩ => show win4_1.index t (0 : Fin 2) * 2000 + 1 * p.val = r.val; omega
  | ⟨1, _⟩ => show win4_1.index t (1 : Fin 2) * 64 + 1 * k.val = k.val; omega

/-- The first-layer weights are staged whole at every point. -/
theorem whole4_2 (c : Dev nD) (t : Fin cfg4.N) :
    (iblk4 (F := Ideal) V c 2 t : Mat 128 128) = (V c main_v94 : Mat 128 128) := by
  obtain ⟨-, -, -, -, e0, e1, -⟩ := idx4 t
  funext x
  unfold iblk4
  rw [View.read_apply]
  show (V c main_v94 : Mat 128 128) _ = _
  refine congrArg (V c main_v94 : Mat 128 128) (funext fun a => Fin.ext ?_)
  match a with
  | ⟨0, _⟩ => show win4_2.index t (0 : Fin 2) * 128 + 1 * (x 0).val = (x 0).val; omega
  | ⟨1, _⟩ => show win4_2.index t (1 : Fin 2) * 128 + 1 * (x 1).val = (x 1).val; omega

/-- The first bias are staged whole at every point. -/
theorem whole4_3 (c : Dev nD) (t : Fin cfg4.N) :
    (iblk4 (F := Ideal) V c 3 t : Mat 1 128) = (V c main_v101 : Mat 1 128) := by
  obtain ⟨-, -, -, -, -, -, e0, e1, -⟩ := idx4 t
  funext x
  unfold iblk4
  rw [View.read_apply]
  show (V c main_v101 : Mat 1 128) _ = _
  refine congrArg (V c main_v101 : Mat 1 128) (funext fun a => Fin.ext ?_)
  match a with
  | ⟨0, _⟩ => show win4_3.index t (0 : Fin 2) * 1 + 1 * (x 0).val = (x 0).val; omega
  | ⟨1, _⟩ => show win4_3.index t (1 : Fin 2) * 128 + 1 * (x 1).val = (x 1).val; omega

/-- The second-layer weights are staged whole at every point. -/
theorem whole4_4 (c : Dev nD) (t : Fin cfg4.N) :
    (iblk4 (F := Ideal) V c 4 t : Mat 128 64) = (V c main_v98 : Mat 128 64) := by
  obtain ⟨-, -, -, -, -, -, -, -, e0, e1, -⟩ := idx4 t
  funext x
  unfold iblk4
  rw [View.read_apply]
  show (V c main_v98 : Mat 128 64) _ = _
  refine congrArg (V c main_v98 : Mat 128 64) (funext fun a => Fin.ext ?_)
  match a with
  | ⟨0, _⟩ => show win4_4.index t (0 : Fin 2) * 128 + 1 * (x 0).val = (x 0).val; omega
  | ⟨1, _⟩ => show win4_4.index t (1 : Fin 2) * 64 + 1 * (x 1).val = (x 1).val; omega

/-- The second bias are staged whole at every point. -/
theorem whole4_5 (c : Dev nD) (t : Fin cfg4.N) :
    (iblk4 (F := Ideal) V c 5 t : Mat 1 64) = (V c main_v102 : Mat 1 64) := by
  obtain ⟨-, -, -, -, -, -, -, -, -, -, e0, e1, -⟩ := idx4 t
  funext x
  unfold iblk4
  rw [View.read_apply]
  show (V c main_v102 : Mat 1 64) _ = _
  refine congrArg (V c main_v102 : Mat 1 64) (funext fun a => Fin.ext ?_)
  match a with
  | ⟨0, _⟩ => show win4_5.index t (0 : Fin 2) * 1 + 1 * (x 0).val = (x 0).val; omega
  | ⟨1, _⟩ => show win4_5.index t (1 : Fin 2) * 64 + 1 * (x 1).val = (x 1).val; omega

/-- What point t writes back is block t of the node network of the whole arrays: the body's result on the blocks is the
    node network on the blocks' rows, and row p of a block is row 2000·t + p of its array. -/
theorem flushed4 (c : Dev nD) (t : Fin cfg4.N) :
    (dat4 (F := Ideal) V c).flushed 6 t
      = ((cfg4.win 6).blk t).view.read (Elt Ideal)
          (updArr (n := 50000) (V c main_v46) (V c main_v88) (V c main_v94) (V c main_v101) (V c main_v98) (V c main_v102)) := by
  show (cfg4.win 6).cut (grid4.coords t) ((dat4 V c).after 6 t) = _
  rw [after4_6]
  unfold out4_6
  rw [View.canon_unit_zero hz]
  simp only [View.ld_unit_zero (S := S2000x64) hz, View.ld_unit_zero (S := S128x128) hz, View.ld_unit_zero (S := S1x128) hz,
    View.ld_unit_zero (S := S128x64) hz, View.ld_unit_zero (S := S1x64) hz]
  rw [pay4, whole4_2 V c t, whole4_3 V c t, whole4_4 V c t, whole4_5 V c t]
  obtain ⟨-, -, -, -, -, -, -, -, -, -, -, -, e0, e1⟩ := idx4 t
  funext y
  show updArr (n := 2000) _ _ _ _ _ _ _ = updArr (n := 50000) _ _ _ _ _ _ (((cfg4.win 6).blk t).view.emb y)
  have hy0 : (y 0).val < 2000 := (y 0).isLt
  have hr : (((cfg4.win 6).blk t).view.emb y 0).val = 2000 * t.val + (y 0).val := by
    show win4_6.index t (0 : Fin 2) * 2000 + 1 * (y 0).val = _
    omega
  refine updArr_block _ _ _ _ _ _ _ _ _ _ ?_ (fun k => ?_) (fun k => ?_)
  · show win4_6.index t (1 : Fin 2) * 64 + 1 * (y 1).val = (y 1).val
    omega
  · exact rows4_0 V c t _ _ hr k
  · exact rows4_1 V c t _ _ hr k

/-- Every row of the result array is in some point's block: row r in the block of point r / 2000 (25 · 2000 = 50000). -/
theorem cover4 (i : S50000x64.Idx) :
    ∃ t : Fin cfg4.N, (cfg4.win 6).flush t = true ∧ i ∈ ((cfg4.win 6).blk t).view.set := by
  have hi0 : (i 0).val < 50000 := (i 0).isLt
  have hi1 : (i 1).val < 64 := (i 1).isLt
  obtain ⟨t, ht⟩ : ∃ t : Fin cfg4.N, t.val = (i 0).val / 2000 :=
    ⟨⟨(i 0).val / 2000, by rw [show cfg4.N = 25 from N_4]; omega⟩, rfl⟩
  obtain ⟨-, -, -, -, -, -, -, -, -, -, -, -, e0, e1⟩ := idx4 t
  refine ⟨t, flush4_6 t, ?_⟩
  show i ∈ ((View.whole main_v103).slice (win4_6.rect t)).set
  rw [View.set_slice_whole, Rect.mem_set_unit]
  intro a
  match a with
  | ⟨0, _⟩ =>
    show win4_6.index t (0 : Fin 2) * 2000 ≤ (i 0).val ∧ (i 0).val < win4_6.index t (0 : Fin 2) * 2000 + 2000
    omega
  | ⟨1, _⟩ =>
    show win4_6.index t (1 : Fin 2) * 64 ≤ (i 1).val ∧ (i 1).val < win4_6.index t (1 : Fin 2) * 64 + 64
    omega

/-- The result array of region 4 after its run: the node network on every row. -/
theorem region4 (c : Dev nD) :
    (dat4 (F := Ideal) V c).arrAt 6 cfg4.N
      = updArr (n := 50000) (V c main_v46) (V c main_v88) (V c main_v94) (V c main_v101) (V c main_v98) (V c main_v102) :=
  (dat4 (F := Ideal) V c).arrAt_eq_of_cover 6 _ (fun t _ => flushed4 V c t) cover4

/-! ## Region 5 -/

/-- Where each window's block sits at point t of the 25-point grid: the node rows, the aggregate rows and the result move
    in blocks of 2000 rows (block t), the weights and biases are staged whole. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row p of the node block at point t is row 2000·t + p of the node array. -/
theorem rows5_0 (c : Dev nD) (t : Fin cfg5.N) (p : Fin 2000) (r : Fin 50000) (hr : r.val = 2000 * t.val + p.val) (k : Fin 64) :
    (iblk5 (F := Ideal) V c 0 t : Mat 2000 64) (ix2 p k) = (V c main_v57 : Mat 50000 64) (ix2 r k) := by
  obtain ⟨e0, e1, -⟩ := idx5 t
  unfold iblk5
  rw [View.read_apply]
  show (V c main_v57 : Mat 50000 64) _ = _
  refine congrArg (V c main_v57 : Mat 50000 64) (funext fun a => Fin.ext ?_)
  match a with
  | ⟨0, _⟩ => show win5_0.index t (0 : Fin 2) * 2000 + 1 * p.val = r.val; omega
  | ⟨1, _⟩ => show win5_0.index t (1 : Fin 2) * 64 + 1 * k.val = k.val; omega

/-- Row p of the aggregate block at point t is row 2000·t + p of the aggregate array. -/
theorem rows5_1 (c : Dev nD) (t : Fin cfg5.N) (p : Fin 2000) (r : Fin 50000) (hr : r.val = 2000 * t.val + p.val) (k : Fin 64) :
    (iblk5 (F := Ideal) V c 1 t : Mat 2000 64) (ix2 p k) = (V c main_v92 : Mat 50000 64) (ix2 r k) := by
  obtain ⟨-, -, e0, e1, -⟩ := idx5 t
  unfold iblk5
  rw [View.read_apply]
  show (V c main_v92 : Mat 50000 64) _ = _
  refine congrArg (V c main_v92 : Mat 50000 64) (funext fun a => Fin.ext ?_)
  match a with
  | ⟨0, _⟩ => show win5_1.index t (0 : Fin 2) * 2000 + 1 * p.val = r.val; omega
  | ⟨1, _⟩ => show win5_1.index t (1 : Fin 2) * 64 + 1 * k.val = k.val; omega

/-- The first-layer weights are staged whole at every point. -/
theorem whole5_2 (c : Dev nD) (t : Fin cfg5.N) :
    (iblk5 (F := Ideal) V c 2 t : Mat 128 128) = (V c main_v105 : Mat 128 128) := by
  obtain ⟨-, -, -, -, e0, e1, -⟩ := idx5 t
  funext x
  unfold iblk5
  rw [View.read_apply]
  show (V c main_v105 : Mat 128 128) _ = _
  refine congrArg (V c main_v105 : Mat 128 128) (funext fun a => Fin.ext ?_)
  match a with
  | ⟨0, _⟩ => show win5_2.index t (0 : Fin 2) * 128 + 1 * (x 0).val = (x 0).val; omega
  | ⟨1, _⟩ => show win5_2.index t (1 : Fin 2) * 128 + 1 * (x 1).val = (x 1).val; omega

/-- The first bias are staged whole at every point. -/
theorem whole5_3 (c : Dev nD) (t : Fin cfg5.N) :
    (iblk5 (F := Ideal) V c 3 t : Mat 1 128) = (V c main_v112 : Mat 1 128) := by
  obtain ⟨-, -, -, -, -, -, e0, e1, -⟩ := idx5 t
  funext x
  unfold iblk5
  rw [View.read_apply]
  show (V c main_v112 : Mat 1 128) _ = _
  refine congrArg (V c main_v112 : Mat 1 128) (funext fun a => Fin.ext ?_)
  match a with
  | ⟨0, _⟩ => show win5_3.index t (0 : Fin 2) * 1 + 1 * (x 0).val = (x 0).val; omega
  | ⟨1, _⟩ => show win5_3.index t (1 : Fin 2) * 128 + 1 * (x 1).val = (x 1).val; omega

/-- The second-layer weights are staged whole at every point. -/
theorem whole5_4 (c : Dev nD) (t : Fin cfg5.N) :
    (iblk5 (F := Ideal) V c 4 t : Mat 128 64) = (V c main_v109 : Mat 128 64) := by
  obtain ⟨-, -, -, -, -, -, -, -, e0, e1, -⟩ := idx5 t
  funext x
  unfold iblk5
  rw [View.read_apply]
  show (V c main_v109 : Mat 128 64) _ = _
  refine congrArg (V c main_v109 : Mat 128 64) (funext fun a => Fin.ext ?_)
  match a with
  | ⟨0, _⟩ => show win5_4.index t (0 : Fin 2) * 128 + 1 * (x 0).val = (x 0).val; omega
  | ⟨1, _⟩ => show win5_4.index t (1 : Fin 2) * 64 + 1 * (x 1).val = (x 1).val; omega

/-- The second bias are staged whole at every point. -/
theorem whole5_5 (c : Dev nD) (t : Fin cfg5.N) :
    (iblk5 (F := Ideal) V c 5 t : Mat 1 64) = (V c main_v113 : Mat 1 64) := by
  obtain ⟨-, -, -, -, -, -, -, -, -, -, e0, e1, -⟩ := idx5 t
  funext x
  unfold iblk5
  rw [View.read_apply]
  show (V c main_v113 : Mat 1 64) _ = _
  refine congrArg (V c main_v113 : Mat 1 64) (funext fun a => Fin.ext ?_)
  match a with
  | ⟨0, _⟩ => show win5_5.index t (0 : Fin 2) * 1 + 1 * (x 0).val = (x 0).val; omega
  | ⟨1, _⟩ => show win5_5.index t (1 : Fin 2) * 64 + 1 * (x 1).val = (x 1).val; omega

/-- What point t writes back is block t of the node network of the whole arrays: the body's result on the blocks is the
    node network on the blocks' rows, and row p of a block is row 2000·t + p of its array. -/
theorem flushed5 (c : Dev nD) (t : Fin cfg5.N) :
    (dat5 (F := Ideal) V c).flushed 6 t
      = ((cfg5.win 6).blk t).view.read (Elt Ideal)
          (updArr (n := 50000) (V c main_v57) (V c main_v92) (V c main_v105) (V c main_v112) (V c main_v109) (V c main_v113)) := by
  show (cfg5.win 6).cut (grid5.coords t) ((dat5 V c).after 6 t) = _
  rw [after5_6]
  unfold out5_6
  rw [View.canon_unit_zero hz]
  simp only [View.ld_unit_zero (S := S2000x64) hz, View.ld_unit_zero (S := S128x128) hz, View.ld_unit_zero (S := S1x128) hz,
    View.ld_unit_zero (S := S128x64) hz, View.ld_unit_zero (S := S1x64) hz]
  rw [pay5, whole5_2 V c t, whole5_3 V c t, whole5_4 V c t, whole5_5 V c t]
  obtain ⟨-, -, -, -, -, -, -, -, -, -, -, -, e0, e1⟩ := idx5 t
  funext y
  show updArr (n := 2000) _ _ _ _ _ _ _ = updArr (n := 50000) _ _ _ _ _ _ (((cfg5.win 6).blk t).view.emb y)
  have hy0 : (y 0).val < 2000 := (y 0).isLt
  have hr : (((cfg5.win 6).blk t).view.emb y 0).val = 2000 * t.val + (y 0).val := by
    show win5_6.index t (0 : Fin 2) * 2000 + 1 * (y 0).val = _
    omega
  refine updArr_block _ _ _ _ _ _ _ _ _ _ ?_ (fun k => ?_) (fun k => ?_)
  · show win5_6.index t (1 : Fin 2) * 64 + 1 * (y 1).val = (y 1).val
    omega
  · exact rows5_0 V c t _ _ hr k
  · exact rows5_1 V c t _ _ hr k

/-- Every row of the result array is in some point's block: row r in the block of point r / 2000 (25 · 2000 = 50000). -/
theorem cover5 (i : S50000x64.Idx) :
    ∃ t : Fin cfg5.N, (cfg5.win 6).flush t = true ∧ i ∈ ((cfg5.win 6).blk t).view.set := by
  have hi0 : (i 0).val < 50000 := (i 0).isLt
  have hi1 : (i 1).val < 64 := (i 1).isLt
  obtain ⟨t, ht⟩ : ∃ t : Fin cfg5.N, t.val = (i 0).val / 2000 :=
    ⟨⟨(i 0).val / 2000, by rw [show cfg5.N = 25 from N_5]; omega⟩, rfl⟩
  obtain ⟨-, -, -, -, -, -, -, -, -, -, -, -, e0, e1⟩ := idx5 t
  refine ⟨t, flush5_6 t, ?_⟩
  show i ∈ ((View.whole main_v114).slice (win5_6.rect t)).set
  rw [View.set_slice_whole, Rect.mem_set_unit]
  intro a
  match a with
  | ⟨0, _⟩ =>
    show win5_6.index t (0 : Fin 2) * 2000 ≤ (i 0).val ∧ (i 0).val < win5_6.index t (0 : Fin 2) * 2000 + 2000
    omega
  | ⟨1, _⟩ =>
    show win5_6.index t (1 : Fin 2) * 64 ≤ (i 1).val ∧ (i 1).val < win5_6.index t (1 : Fin 2) * 64 + 64
    omega

/-- The result array of region 5 after its run: the node network on every row. -/
theorem region5 (c : Dev nD) :
    (dat5 (F := Ideal) V c).arrAt 6 cfg5.N
      = updArr (n := 50000) (V c main_v57) (V c main_v92) (V c main_v105) (V c main_v112) (V c main_v109) (V c main_v113) :=
  (dat5 (F := Ideal) V c).arrAt_eq_of_cover 6 _ (fun t _ => flushed5 V c t) cover5

end Cert.KernelIdeal.UpdRegion

end
-- ==== Proof.LibJoinRead.lean ====
/-
  A side-by-side join of matrices read at one entry, over the extended reals.

  Joining two or three matrices with the same number of rows along the columns gives, at (p, i), the entry of the piece
  whose column span holds i, at row p and at column i less the widths of the pieces before it.  So row p of the join
  [a | b] is the join `cat2` of row p of a and row p of b, and row p of [a | b | e] is `cat3` of the three rows.
  A scalar zero spread over an array reads 0 at every index.
-/
import Idealize.ShloMosaic.PureOps.Ideal.Laws
import Idealize.ShloMosaic.Lib.ValueIdx
import Idealize.ShloMosaic.Lib.Pipeline.Value
import proofs.«156022_j57337813401889_2_alg».proof.Proof.GnnArrays

noncomputable section

namespace Cert.LibJoinRead

open Idealize.ShloMosaic Idealize.ShloMosaic.ValueIdx Cert.GnnRows

/-- Three matrices with the same rows joined side by side, read at (p, i): entry i of the joined row p. -/
theorem join3_ix2 {n : ℕ} (a b : Mat n 64) (e : Mat n 8)
    (h : Shape.Concatenates [(⟨2, ![n, 64]⟩ : Shape), ⟨2, ![n, 64]⟩, ⟨2, ![n, 8]⟩] ⟨2, ![n, 136]⟩ 1)
    (p : Fin n) (i : Fin 136) :
    concatenate (⟨2, ![n, 136]⟩ : Shape) 1 [⟨⟨2, ![n, 64]⟩, a⟩, ⟨⟨2, ![n, 64]⟩, b⟩, ⟨⟨2, ![n, 8]⟩, e⟩] h (ix2 p i)
      = cat3 (row a p) (row b p) (row e p) i := by
  unfold cat3
  by_cases h1 : i.val < 64
  · rw [dif_pos h1]
    refine concatenate_apply_piece (t := ⟨2, ![n, 136]⟩) 1 [⟨⟨2, ![n, 64]⟩, a⟩, ⟨⟨2, ![n, 64]⟩, b⟩, ⟨⟨2, ![n, 8]⟩, e⟩] h (ix2 p i) 0 (by show 0 < 3; omega) ⟨2, ![n, 64]⟩ a rfl rfl 0 rfl
      (ix2 p ⟨i.val, h1⟩) (fun c hc => ?_) ?_
    · match c with
      | ⟨0, _⟩ => rfl
      | ⟨1, _⟩ => exact absurd rfl hc
    · show 0 + i.val = i.val
      omega
  · rw [dif_neg h1]
    by_cases h2 : i.val < 128
    · rw [dif_pos h2]
      refine concatenate_apply_piece (t := ⟨2, ![n, 136]⟩) 1 [⟨⟨2, ![n, 64]⟩, a⟩, ⟨⟨2, ![n, 64]⟩, b⟩, ⟨⟨2, ![n, 8]⟩, e⟩] h (ix2 p i) 1 (by show 1 < 3; omega) ⟨2, ![n, 64]⟩ b rfl rfl 64 rfl
        (ix2 p ⟨i.val - 64, by omega⟩) (fun c hc => ?_) ?_
      · match c with
        | ⟨0, _⟩ => rfl
        | ⟨1, _⟩ => exact absurd rfl hc
      · show 64 + (i.val - 64) = i.val
        omega
    · rw [dif_neg h2]
      refine concatenate_apply_piece (t := ⟨2, ![n, 136]⟩) 1 [⟨⟨2, ![n, 64]⟩, a⟩, ⟨⟨2, ![n, 64]⟩, b⟩, ⟨⟨2, ![n, 8]⟩, e⟩] h (ix2 p i) 2 (by show 2 < 3; omega) ⟨2, ![n, 8]⟩ e rfl rfl 128 rfl
        (ix2 p ⟨i.val - 128, by have := i.isLt; omega⟩) (fun c hc => ?_) ?_
      · match c with
        | ⟨0, _⟩ => rfl
        | ⟨1, _⟩ => exact absurd rfl hc
      · show 128 + (i.val - 128) = i.val
        omega

/-- Two matrices with the same rows joined side by side, read at (p, i). -/
theorem join2_ix2 {n : ℕ} (a b : Mat n 64)
    (h : Shape.Concatenates [(⟨2, ![n, 64]⟩ : Shape), ⟨2, ![n, 64]⟩] ⟨2, ![n, 128]⟩ 1)
    (p : Fin n) (i : Fin 128) :
    concatenate (⟨2, ![n, 128]⟩ : Shape) 1 [⟨⟨2, ![n, 64]⟩, a⟩, ⟨⟨2, ![n, 64]⟩, b⟩] h (ix2 p i)
      = cat2 (row a p) (row b p) i := by
  unfold cat2
  by_cases h1 : i.val < 64
  · rw [dif_pos h1]
    refine concatenate_apply_piece (t := ⟨2, ![n, 128]⟩) 1 [⟨⟨2, ![n, 64]⟩, a⟩, ⟨⟨2, ![n, 64]⟩, b⟩] h (ix2 p i) 0 (by show 0 < 2; omega) ⟨2, ![n, 64]⟩ a rfl rfl 0 rfl
      (ix2 p ⟨i.val, h1⟩) (fun c hc => ?_) ?_
    · match c with
      | ⟨0, _⟩ => rfl
      | ⟨1, _⟩ => exact absurd rfl hc
    · show 0 + i.val = i.val
      omega
  · rw [dif_neg h1]
    refine concatenate_apply_piece (t := ⟨2, ![n, 128]⟩) 1 [⟨⟨2, ![n, 64]⟩, a⟩, ⟨⟨2, ![n, 64]⟩, b⟩] h (ix2 p i) 1 (by show 1 < 2; omega) ⟨2, ![n, 64]⟩ b rfl rfl 64 rfl
      (ix2 p ⟨i.val - 64, by have := i.isLt; omega⟩) (fun c hc => ?_) ?_
    · match c with
      | ⟨0, _⟩ => rfl
      | ⟨1, _⟩ => exact absurd rfl hc
    · show 64 + (i.val - 64) = i.val
      omega

/-- The scalar zero spread over every entry of an array reads zero everywhere. -/
theorem zeros_apply {t : Shape} (h : (⟨0, ![]⟩ : Shape).BroadcastsInDim t ![]) (j : t.Idx) :
    broadcastInDim t ![] h (constant (F := Ideal) ⟨0, ![]⟩ .f32 0x00000000#32) j = (0 : EReal) := by
  refine (broadcastInDim_apply _ h _ j (fun c => c.elim0) (fun c => c.elim0)).trans ?_
  show Ideal.ofBits .f32 0x00000000#32 = 0
  exact Ideal.ofBits_zero_f32

end Cert.LibJoinRead

end
-- ==== Proof.RefMlp.lean ====
/-
  The reference's eight perceptrons, row by row.

  The reference applies, twice over (two rounds) and to each of the two node kinds, an edge network and a node
  network.  Each is the same chain of host operations: join the operand matrices side by side, multiply by the first
  weight matrix, add the first bias to every row, take the maximum with zero, multiply by the second weight matrix, add
  the second bias to every row.  Read at one entry (p, q) of the result this is the two-layer perceptron of the joined
  row p at output q:

      ( Σ_k  max( Σ_i [a_p | b_p | e_p]_i · W1[i,k] + b1[k] , 0 ) · W2[k,q] ) + b2[q].

  Every step is exact over the extended reals and reads one entry of each operand (a matrix product reads one row and
  one column), so no finiteness is used anywhere.
-/
import proofs.«156022_j57337813401889_2_alg».proof.Proof.RefStagesP
import proofs.«156022_j57337813401889_2_alg».proof.Proof.GnnArrays
import proofs.«156022_j57337813401889_2_alg».proof.Proof.LibHostRead
import proofs.«156022_j57337813401889_2_alg».proof.Proof.LibJoinRead
import Idealize.ShloMosaic.Lib.ValueLayout

noncomputable section

open scoped BigOperators

namespace Cert.ReferenceIdeal.RefMlp

open Idealize.ShloMosaic Idealize.ShloMosaic.ValueIdx Cert.ReferenceIdeal Cert.ReferenceIdeal.Gen Cert.ReferenceIdeal.ReadP
  Cert.GnnRows

/-! ## The two networks as functions of arrays -/

/-- The reference's edge network: join [a | b | e], first layer, bias, maximum with zero, second layer, bias. -/
def refMsg (a b : FVec Ideal S800000x64 .f32) (e : FVec Ideal S800000x8 .f32) (w1 : FVec Ideal S136x128 .f32)
    (b1 : FVec Ideal S128 .f32) (w2 : FVec Ideal S128x64 .f32) (b2 : FVec Ideal S64 .f32) : FVec Ideal S800000x64 .f32 :=
  addf (Host.dotGeneral dot_S800000x128_S128x64_S800000x64_1_0_0_1_n_n none
      (maximumf (addf (Host.dotGeneral dot_S800000x136_S136x128_S800000x128_1_0_0_1_n_n none
            (concatenate S800000x136 1 [⟨S800000x64, a⟩, ⟨S800000x64, b⟩, ⟨S800000x8, e⟩] concatenates_S800000x64_S800000x64_S800000x8_S800000x136_d1) w1)
          (broadcastInDim S800000x128 ![0, 1] bcast_S1x128_S800000x128_0_1 (broadcastInDim S1x128 ![1] bcast_S128_S1x128_1 b1)))
        (broadcastInDim S800000x128 ![] bcast_S_S800000x128 (constant (F := Ideal) S_ .f32 0x00000000#32))) w2)
    (broadcastInDim S800000x64 ![0, 1] bcast_S1x64_S800000x64_0_1 (broadcastInDim S1x64 ![1] bcast_S64_S1x64_1 b2))

/-- The reference's node network: join [a | b], first layer, bias, maximum with zero, second layer, bias. -/
def refUpd (a b : FVec Ideal S50000x64 .f32) (w1 : FVec Ideal S128x128 .f32) (b1 : FVec Ideal S128 .f32)
    (w2 : FVec Ideal S128x64 .f32) (b2 : FVec Ideal S64 .f32) : FVec Ideal S50000x64 .f32 :=
  addf (Host.dotGeneral dot_S50000x128_S128x64_S50000x64_1_0_0_1_n_n none
      (maximumf (addf (Host.dotGeneral dot_S50000x128_S128x128_S50000x128_1_0_0_1_n_n none
            (concatenate S50000x128 1 [⟨S50000x64, a⟩, ⟨S50000x64, b⟩] concatenates_S50000x64_S50000x64_S50000x128_d1) w1)
          (broadcastInDim S50000x128 ![0, 1] bcast_S1x128_S50000x128_0_1 (broadcastInDim S1x128 ![1] bcast_S128_S1x128_1 b1)))
        (broadcastInDim S50000x128 ![] bcast_S_S50000x128 (constant (F := Ideal) S_ .f32 0x00000000#32))) w2)
    (broadcastInDim S50000x64 ![0, 1] bcast_S1x64_S50000x64_0_1 (broadcastInDim S1x64 ![1] bcast_S64_S1x64_1 b2))

/-- The edge network is the perceptron of the joined row, row by row. -/
theorem refMsg_eq (a b : FVec Ideal S800000x64 .f32) (e : FVec Ideal S800000x8 .f32) (w1 : FVec Ideal S136x128 .f32)
    (b1 : FVec Ideal S128 .f32) (w2 : FVec Ideal S128x64 .f32) (b2 : FVec Ideal S64 .f32) :
    refMsg a b e w1 b1 w2 b2 = msgArr (n := 800000) a b e w1 (oneRow b1) w2 (oneRow b2) := by
  funext j
  obtain ⟨p, q, rfl⟩ : ∃ (p : Fin 800000) (q : Fin 64), j = ix2 p q := ⟨_, _, eq_ix2 j⟩
  refine Eq.trans ?_ (msgArr_ix2 a b e w1 (oneRow b1) w2 (oneRow b2) p q).symm
  unfold refMsg mlpRow
  -- the outer sum with the second bias, entry by entry
  refine congrArg₂ (· + ·) ?_ (Cert.LibHostRead.spread_cols_ix2 b2 bcast_S64_S1x64_1 bcast_S1x64_S800000x64_0_1 p q)
  -- the second product: a sum over the 128 hidden units
  refine (Cert.LibHostRead.dotGeneral_ix2 dot_S800000x128_S128x64_S800000x64_1_0_0_1_n_n rfl rfl rfl rfl rfl rfl none _ w2
    p q).trans (Finset.sum_congr rfl fun k _ => congrArg (· * w2 (ix2 k q)) ?_)
  -- hidden unit k: the maximum with zero of the first product plus the first bias
  refine congrArg₂ max (congrArg₂ (· + ·) ?_
    (Cert.LibHostRead.spread_cols_ix2 b1 bcast_S128_S1x128_1 bcast_S1x128_S800000x128_0_1 p k))
    (Cert.LibJoinRead.zeros_apply bcast_S_S800000x128 (ix2 p k))
  -- the first product: a sum over the 136 entries of the joined row
  exact (Cert.LibHostRead.dotGeneral_ix2 dot_S800000x136_S136x128_S800000x128_1_0_0_1_n_n rfl rfl rfl rfl rfl rfl none _ w1
    p k).trans (Finset.sum_congr rfl fun i _ => congrArg (· * w1 (ix2 i k))
      (Cert.LibJoinRead.join3_ix2 a b e concatenates_S800000x64_S800000x64_S800000x8_S800000x136_d1 p i))

/-- The node network is the perceptron of the joined row, row by row. -/
theorem refUpd_eq (a b : FVec Ideal S50000x64 .f32) (w1 : FVec Ideal S128x128 .f32) (b1 : FVec Ideal S128 .f32)
    (w2 : FVec Ideal S128x64 .f32) (b2 : FVec Ideal S64 .f32) :
    refUpd a b w1 b1 w2 b2 = updArr (n := 50000) a b w1 (oneRow b1) w2 (oneRow b2) := by
  funext j
  obtain ⟨p, q, rfl⟩ : ∃ (p : Fin 50000) (q : Fin 64), j = ix2 p q := ⟨_, _, eq_ix2 j⟩
  refine Eq.trans ?_ (updArr_ix2 a b w1 (oneRow b1) w2 (oneRow b2) p q).symm
  unfold refUpd mlpRow
  refine congrArg₂ (· + ·) ?_ (Cert.LibHostRead.spread_cols_ix2 b2 bcast_S64_S1x64_1 bcast_S1x64_S50000x64_0_1 p q)
  refine (Cert.LibHostRead.dotGeneral_ix2 dot_S50000x128_S128x64_S50000x64_1_0_0_1_n_n rfl rfl rfl rfl rfl rfl none _ w2
    p q).trans (Finset.sum_congr rfl fun k _ => congrArg (· * w2 (ix2 k q)) ?_)
  refine congrArg₂ max (congrArg₂ (· + ·) ?_
    (Cert.LibHostRead.spread_cols_ix2 b1 bcast_S128_S1x128_1 bcast_S1x128_S50000x128_0_1 p k))
    (Cert.LibJoinRead.zeros_apply bcast_S_S50000x128 (ix2 p k))
  exact (Cert.LibHostRead.dotGeneral_ix2 dot_S50000x128_S128x128_S50000x128_1_0_0_1_n_n rfl rfl rfl rfl rfl rfl none _ w1
    p k).trans (Finset.sum_congr rfl fun i _ => congrArg (· * w1 (ix2 i k))
      (Cert.LibJoinRead.join2_ix2 a b concatenates_S50000x64_S50000x64_S50000x128_d1 p i))

/-! ## The reference's eight stages

Each perceptron stage of the reference is, by its definition, one of the two networks above applied to the stages that
feed it: the edge network of round 1 reads the gathered endpoint rows and the edge features, the node network the node
rows and the scattered sums; round 2 reads round 1's results in the same way. -/

section Stages

variable (x0 x1 : (⟨S50000x64, .f32⟩ : BufTy).Contents (Elt Ideal)) (x2 : (⟨S800000x8, .f32⟩ : BufTy).Contents (Elt Ideal))
  (x3 x4 : (⟨S800000, .i32⟩ : BufTy).Contents (Elt Ideal)) (x5 : (⟨S2x136x128, .f32⟩ : BufTy).Contents (Elt Ideal))
  (x6 : (⟨S2x128, .f32⟩ : BufTy).Contents (Elt Ideal)) (x7 : (⟨S2x128x64, .f32⟩ : BufTy).Contents (Elt Ideal))
  (x8 : (⟨S2x64, .f32⟩ : BufTy).Contents (Elt Ideal)) (x9 : (⟨S2x128x128, .f32⟩ : BufTy).Contents (Elt Ideal))
  (x10 : (⟨S2x128, .f32⟩ : BufTy).Contents (Elt Ideal)) (x11 : (⟨S2x128x64, .f32⟩ : BufTy).Contents (Elt Ideal))
  (x12 : (⟨S2x64, .f32⟩ : BufTy).Contents (Elt Ideal)) (x13 : (⟨S2x128x128, .f32⟩ : BufTy).Contents (Elt Ideal))
  (x14 : (⟨S2x128, .f32⟩ : BufTy).Contents (Elt Ideal)) (x15 : (⟨S2x128x64, .f32⟩ : BufTy).Contents (Elt Ideal))
  (x16 : (⟨S2x64, .f32⟩ : BufTy).Contents (Elt Ideal))

/-- Round 1, edge network towards the first node kind. -/
theorem stage_v31 :
    val_main_v31 (F := Ideal) x0 x1 x2 x3 x4 x5 x6 x7 x8
      = refMsg (val_main_v6 (F := Ideal) x0 x3) (val_main_v13 (F := Ideal) x1 x4) x2 (val_main_v16 (F := Ideal) x5)
          (val_main_v18 (F := Ideal) x6) (val_main_v20 (F := Ideal) x7) (val_main_v22 (F := Ideal) x8) := by
  unfold val_main_v31 val_main_v28 val_main_v27 val_main_v26 val_main_v23 val_main_v14 val_main_v25 val_main_v24
    val_main_call0_v0 val_main_call0_cst val_main_v30 val_main_v29 refMsg
  rfl

/-- Round 1, node network of the first node kind. -/
theorem stage_v52 :
    val_main_v52 (F := Ideal) x0 x1 x2 x3 x4 x5 x6 x7 x8 x9 x10 x11 x12
      = refUpd x0 (val_main_v34 (F := Ideal) x0 x1 x2 x3 x4 x5 x6 x7 x8) (val_main_v37 (F := Ideal) x9)
          (val_main_v39 (F := Ideal) x10) (val_main_v41 (F := Ideal) x11) (val_main_v43 (F := Ideal) x12) := by
  unfold val_main_v52 val_main_v49 val_main_v48 val_main_v47 val_main_v44 val_main_v35 val_main_v46 val_main_v45
    val_main_call1_v0 val_main_call1_cst val_main_v51 val_main_v50 refUpd
  rfl

/-- Round 1, edge network towards the second node kind. -/
theorem stage_v70 :
    val_main_v70 (F := Ideal) x0 x1 x2 x3 x4 x5 x6 x7 x8
      = refMsg (val_main_v13 (F := Ideal) x1 x4) (val_main_v6 (F := Ideal) x0 x3) x2 (val_main_v55 (F := Ideal) x5)
          (val_main_v57 (F := Ideal) x6) (val_main_v59 (F := Ideal) x7) (val_main_v61 (F := Ideal) x8) := by
  unfold val_main_v70 val_main_v67 val_main_v66 val_main_v65 val_main_v62 val_main_v53 val_main_v64 val_main_v63
    val_main_call2_v0 val_main_call2_cst val_main_v69 val_main_v68 refMsg
  rfl

/-- Round 1, node network of the second node kind. -/
theorem stage_v91 :
    val_main_v91 (F := Ideal) x0 x1 x2 x3 x4 x5 x6 x7 x8 x13 x14 x15 x16
      = refUpd x1 (val_main_v73 (F := Ideal) x0 x1 x2 x3 x4 x5 x6 x7 x8) (val_main_v76 (F := Ideal) x13)
          (val_main_v78 (F := Ideal) x14) (val_main_v80 (F := Ideal) x15) (val_main_v82 (F := Ideal) x16) := by
  unfold val_main_v91 val_main_v88 val_main_v87 val_main_v86 val_main_v83 val_main_v74 val_main_v85 val_main_v84
    val_main_call3_v0 val_main_call3_cst val_main_v90 val_main_v89 refUpd
  rfl

/-- Round 2, edge network towards the first node kind. -/
theorem stage_v123 :
    val_main_v123 (F := Ideal) x0 x1 x2 x3 x4 x5 x6 x7 x8 x9 x10 x11 x12 x13 x14 x15 x16
      = refMsg (val_main_v98 (F := Ideal) x0 x1 x2 x3 x4 x5 x6 x7 x8 x9 x10 x11 x12)
          (val_main_v105 (F := Ideal) x0 x1 x2 x3 x4 x5 x6 x7 x8 x13 x14 x15 x16) x2 (val_main_v108 (F := Ideal) x5)
          (val_main_v110 (F := Ideal) x6) (val_main_v112 (F := Ideal) x7) (val_main_v114 (F := Ideal) x8) := by
  unfold val_main_v123 val_main_v120 val_main_v119 val_main_v118 val_main_v115 val_main_v106 val_main_v117 val_main_v116
    val_main_call4_v0 val_main_call4_cst val_main_v122 val_main_v121 refMsg
  rfl

/-- Round 2, node network of the first node kind. -/
theorem stage_v144 :
    val_main_v144 (F := Ideal) x0 x1 x2 x3 x4 x5 x6 x7 x8 x9 x10 x11 x12 x13 x14 x15 x16
      = refUpd (val_main_v52 (F := Ideal) x0 x1 x2 x3 x4 x5 x6 x7 x8 x9 x10 x11 x12)
          (val_main_v126 (F := Ideal) x0 x1 x2 x3 x4 x5 x6 x7 x8 x9 x10 x11 x12 x13 x14 x15 x16)
          (val_main_v129 (F := Ideal) x9) (val_main_v131 (F := Ideal) x10) (val_main_v133 (F := Ideal) x11)
          (val_main_v135 (F := Ideal) x12) := by
  unfold val_main_v144 val_main_v141 val_main_v140 val_main_v139 val_main_v136 val_main_v127 val_main_v138 val_main_v137
    val_main_call5_v0 val_main_call5_cst val_main_v143 val_main_v142 refUpd
  rfl

/-- Round 2, edge network towards the second node kind. -/
theorem stage_v162 :
    val_main_v162 (F := Ideal) x0 x1 x2 x3 x4 x5 x6 x7 x8 x9 x10 x11 x12 x13 x14 x15 x16
      = refMsg (val_main_v105 (F := Ideal) x0 x1 x2 x3 x4 x5 x6 x7 x8 x13 x14 x15 x16)
          (val_main_v98 (F := Ideal) x0 x1 x2 x3 x4 x5 x6 x7 x8 x9 x10 x11 x12) x2 (val_main_v147 (F := Ideal) x5)
          (val_main_v149 (F := Ideal) x6) (val_main_v151 (F := Ideal) x7) (val_main_v153 (F := Ideal) x8) := by
  unfold val_main_v162 val_main_v159 val_main_v158 val_main_v157 val_main_v154 val_main_v145 val_main_v156 val_main_v155
    val_main_call6_v0 val_main_call6_cst val_main_v161 val_main_v160 refMsg
  rfl

/-- Round 2, node network of the second node kind. -/
theorem stage_v183 :
    val_main_v183 (F := Ideal) x0 x1 x2 x3 x4 x5 x6 x7 x8 x9 x10 x11 x12 x13 x14 x15 x16
      = refUpd (val_main_v91 (F := Ideal) x0 x1 x2 x3 x4 x5 x6 x7 x8 x13 x14 x15 x16)
          (val_main_v165 (F := Ideal) x0 x1 x2 x3 x4 x5 x6 x7 x8 x9 x10 x11 x12 x13 x14 x15 x16)
          (val_main_v168 (F := Ideal) x13) (val_main_v170 (F := Ideal) x14) (val_main_v172 (F := Ideal) x15)
          (val_main_v174 (F := Ideal) x16) := by
  unfold val_main_v183 val_main_v180 val_main_v179 val_main_v178 val_main_v175 val_main_v166 val_main_v177 val_main_v176
    val_main_call7_v0 val_main_call7_cst val_main_v182 val_main_v181 refUpd
  rfl

end Stages

end Cert.ReferenceIdeal.RefMlp

end
-- ==== Proof.ChainB.lean ====
/-
  The idealized kernel's buffers at the boundaries between its host stretches and regions, followed through both
  rounds, against the reference's stages.

  Round by round: the gathered endpoint rows, the edge network on every edge (a region: its result is the reference's
  edge perceptron of the same rows, the joined row against the stacked weights being the pieces against the matching
  row blocks), the accumulation of the edge messages into node bins (the same host scatter on both sides), the node
  network on every node (a region: the reference's node perceptron), and again.  A buffer nobody writes in between keeps
  its contents.  At the end the two result buffers hold the reference's two final stages of the same arguments.
-/
import proofs.«156022_j57337813401889_2_alg».proof.Proof.ChainA
import proofs.«156022_j57337813401889_2_alg».proof.Proof.MsgRegion
import proofs.«156022_j57337813401889_2_alg».proof.Proof.UpdRegion
import proofs.«156022_j57337813401889_2_alg».proof.Proof.RefMlp

set_option maxRecDepth 16384

noncomputable section

namespace Cert.KernelIdeal.Chain

open Cert.KernelIdeal Cert.KernelIdeal.Gen Cert.GnnRows Cert.ReferenceIdeal.ReadP
open Idealize.ShloMosaic Idealize.ShloMosaic.TcCoe Idealize.ShloMosaic.ValueIdx Idealize.SL.Sem
open Idealize.ShloMosaic.StableHlo (after_cons after_nil)

variable (m : (ℓ : Loc nD τ sig) → Buf (Elt Ideal) ℓ) (ρ : Dev nD → PrngReg) (c : Dev nD)

/-! ## Round one: the edge network -/
theorem W2_v27_0 : (W2 m ρ c (Proc.devRef .tc main_v27_0) : Mat 800000 64) = (val_main_v31 (F := Ideal) (ax0 m c) (ax1 m c) (ax2 m c) (ax3 m c) (ax4 m c) (ax5 m c) (ax6 m c) (ax7 m c) (ax8 m c)) := by
  refine (W2_arr m ρ c 7).trans ((MsgRegion.region0_v (V1 m ρ) c).trans ?_)
  dsimp only [V1]
  rw [W1_v9 m ρ c, W1_v16 m ρ c, W1_v0 m ρ c, W1_v18 m ρ c, W1_v25 m ρ c, W1_v22 m ρ c, W1_v26 m ρ c]
  rw [Cert.ReferenceIdeal.RefMlp.stage_v31]
  exact (Cert.ReferenceIdeal.RefMlp.refMsg_eq _ _ _ _ _ _ _).symm
theorem W2_v27_1 : (W2 m ρ c (Proc.devRef .tc main_v27_1) : Mat 800000 64) = (val_main_v70 (F := Ideal) (ax0 m c) (ax1 m c) (ax2 m c) (ax3 m c) (ax4 m c) (ax5 m c) (ax6 m c) (ax7 m c) (ax8 m c)) := by
  refine (W2_arr m ρ c 8).trans ((MsgRegion.region0_c (V1 m ρ) c).trans ?_)
  dsimp only [V1]
  rw [W1_v16 m ρ c, W1_v9 m ρ c, W1_v0 m ρ c, W1_v18 m ρ c, W1_v25 m ρ c, W1_v22 m ρ c, W1_v26 m ρ c]
  rw [Cert.ReferenceIdeal.RefMlp.stage_v70]
  exact (Cert.ReferenceIdeal.RefMlp.refMsg_eq _ _ _ _ _ _ _).symm

/-! ## Round one: the messages summed into the node bins -/
theorem W3_v31 : (W3 m ρ c (Proc.devRef .tc main_v31) : Mat 50000 64) = (val_main_v34 (F := Ideal) (ax0 m c) (ax1 m c) (ax2 m c) (ax3 m c) (ax4 m c) (ax5 m c) (ax6 m c) (ax7 m c) (ax8 m c)) := by
  dsimp only [W3, hostOps1]
  after_results_simp
  rw [W2_arg3 m ρ c, W2_v27_0 m ρ c]
  rfl
theorem W3_v35 : (W3 m ρ c (Proc.devRef .tc main_v35) : Mat 50000 64) = (val_main_v73 (F := Ideal) (ax0 m c) (ax1 m c) (ax2 m c) (ax3 m c) (ax4 m c) (ax5 m c) (ax6 m c) (ax7 m c) (ax8 m c)) := by
  dsimp only [W3, hostOps1]
  after_results_simp
  rw [W2_arg4 m ρ c, W2_v27_1 m ρ c]
  rfl

/-! ## Round one: the node networks -/
theorem W4_v46 : (W4 m ρ c (Proc.devRef .tc main_v46) : Mat 50000 64) = (val_main_v52 (F := Ideal) (ax0 m c) (ax1 m c) (ax2 m c) (ax3 m c) (ax4 m c) (ax5 m c) (ax6 m c) (ax7 m c) (ax8 m c) (ax9 m c) (ax10 m c) (ax11 m c) (ax12 m c)) := by
  refine (W4_arr m ρ c 6).trans ((UpdRegion.region1 (V3 m ρ) c).trans ?_)
  dsimp only [V3]
  rw [W3_arg0 m ρ c, W3_v31 m ρ c, W3_v37 m ρ c, W3_v44 m ρ c, W3_v41 m ρ c, W3_v45 m ρ c]
  rw [Cert.ReferenceIdeal.RefMlp.stage_v52]
  exact (Cert.ReferenceIdeal.RefMlp.refUpd_eq _ _ _ _ _ _).symm
theorem W4_v35 : (W4 m ρ c (Proc.devRef .tc main_v35) : Mat 50000 64) = (val_main_v73 (F := Ideal) (ax0 m c) (ax1 m c) (ax2 m c) (ax3 m c) (ax4 m c) (ax5 m c) (ax6 m c) (ax7 m c) (ax8 m c)) :=
  (W4_of_ne m ρ c main_v35 (by decide)).trans (W3_v35 m ρ c)
theorem W5_v35 : (W5 m ρ c (Proc.devRef .tc main_v35) : Mat 50000 64) = (val_main_v73 (F := Ideal) (ax0 m c) (ax1 m c) (ax2 m c) (ax3 m c) (ax4 m c) (ax5 m c) (ax6 m c) (ax7 m c) (ax8 m c)) :=
  (StableHlo.after_of_writes_sub hostOps2 (W4 m ρ c) hostOps2_writes (by decide : main_v35 ∉ wr2)).trans (W4_v35 m ρ c)
theorem W6_v57 : (W6 m ρ c (Proc.devRef .tc main_v57) : Mat 50000 64) = (val_main_v91 (F := Ideal) (ax0 m c) (ax1 m c) (ax2 m c) (ax3 m c) (ax4 m c) (ax5 m c) (ax6 m c) (ax7 m c) (ax8 m c) (ax13 m c) (ax14 m c) (ax15 m c) (ax16 m c)) := by
  refine (W6_arr m ρ c 6).trans ((UpdRegion.region2 (V5 m ρ) c).trans ?_)
  dsimp only [V5]
  rw [W5_arg1 m ρ c, W5_v35 m ρ c, W5_v48 m ρ c, W5_v55 m ρ c, W5_v52 m ρ c, W5_v56 m ρ c]
  rw [Cert.ReferenceIdeal.RefMlp.stage_v91]
  exact (Cert.ReferenceIdeal.RefMlp.refUpd_eq _ _ _ _ _ _).symm
theorem W5_v46 : (W5 m ρ c (Proc.devRef .tc main_v46) : Mat 50000 64) = (val_main_v52 (F := Ideal) (ax0 m c) (ax1 m c) (ax2 m c) (ax3 m c) (ax4 m c) (ax5 m c) (ax6 m c) (ax7 m c) (ax8 m c) (ax9 m c) (ax10 m c) (ax11 m c) (ax12 m c)) :=
  (StableHlo.after_of_writes_sub hostOps2 (W4 m ρ c) hostOps2_writes (by decide : main_v46 ∉ wr2)).trans (W4_v46 m ρ c)
theorem W6_v46 : (W6 m ρ c (Proc.devRef .tc main_v46) : Mat 50000 64) = (val_main_v52 (F := Ideal) (ax0 m c) (ax1 m c) (ax2 m c) (ax3 m c) (ax4 m c) (ax5 m c) (ax6 m c) (ax7 m c) (ax8 m c) (ax9 m c) (ax10 m c) (ax11 m c) (ax12 m c)) :=
  (W6_of_ne m ρ c main_v46 (by decide)).trans (W5_v46 m ρ c)
theorem W7_v46 : (W7 m ρ c (Proc.devRef .tc main_v46) : Mat 50000 64) = (val_main_v52 (F := Ideal) (ax0 m c) (ax1 m c) (ax2 m c) (ax3 m c) (ax4 m c) (ax5 m c) (ax6 m c) (ax7 m c) (ax8 m c) (ax9 m c) (ax10 m c) (ax11 m c) (ax12 m c)) :=
  (StableHlo.after_of_writes_sub hostOps3 (W6 m ρ c) hostOps3_writes (by decide : main_v46 ∉ wr3)).trans (W6_v46 m ρ c)
theorem W8_v46 : (W8 m ρ c (Proc.devRef .tc main_v46) : Mat 50000 64) = (val_main_v52 (F := Ideal) (ax0 m c) (ax1 m c) (ax2 m c) (ax3 m c) (ax4 m c) (ax5 m c) (ax6 m c) (ax7 m c) (ax8 m c) (ax9 m c) (ax10 m c) (ax11 m c) (ax12 m c)) :=
  (W8_of_ne m ρ c main_v46 (by decide)).trans (W7_v46 m ρ c)
theorem W9_v46 : (W9 m ρ c (Proc.devRef .tc main_v46) : Mat 50000 64) = (val_main_v52 (F := Ideal) (ax0 m c) (ax1 m c) (ax2 m c) (ax3 m c) (ax4 m c) (ax5 m c) (ax6 m c) (ax7 m c) (ax8 m c) (ax9 m c) (ax10 m c) (ax11 m c) (ax12 m c)) :=
  (StableHlo.after_of_writes_sub hostOps4 (W8 m ρ c) hostOps4_writes (by decide : main_v46 ∉ wr4)).trans (W8_v46 m ρ c)
theorem W7_v57 : (W7 m ρ c (Proc.devRef .tc main_v57) : Mat 50000 64) = (val_main_v91 (F := Ideal) (ax0 m c) (ax1 m c) (ax2 m c) (ax3 m c) (ax4 m c) (ax5 m c) (ax6 m c) (ax7 m c) (ax8 m c) (ax13 m c) (ax14 m c) (ax15 m c) (ax16 m c)) :=
  (StableHlo.after_of_writes_sub hostOps3 (W6 m ρ c) hostOps3_writes (by decide : main_v57 ∉ wr3)).trans (W6_v57 m ρ c)
theorem W8_v57 : (W8 m ρ c (Proc.devRef .tc main_v57) : Mat 50000 64) = (val_main_v91 (F := Ideal) (ax0 m c) (ax1 m c) (ax2 m c) (ax3 m c) (ax4 m c) (ax5 m c) (ax6 m c) (ax7 m c) (ax8 m c) (ax13 m c) (ax14 m c) (ax15 m c) (ax16 m c)) :=
  (W8_of_ne m ρ c main_v57 (by decide)).trans (W7_v57 m ρ c)
theorem W9_v57 : (W9 m ρ c (Proc.devRef .tc main_v57) : Mat 50000 64) = (val_main_v91 (F := Ideal) (ax0 m c) (ax1 m c) (ax2 m c) (ax3 m c) (ax4 m c) (ax5 m c) (ax6 m c) (ax7 m c) (ax8 m c) (ax13 m c) (ax14 m c) (ax15 m c) (ax16 m c)) :=
  (StableHlo.after_of_writes_sub hostOps4 (W8 m ρ c) hostOps4_writes (by decide : main_v57 ∉ wr4)).trans (W8_v57 m ρ c)
theorem W10_v57 : (W10 m ρ c (Proc.devRef .tc main_v57) : Mat 50000 64) = (val_main_v91 (F := Ideal) (ax0 m c) (ax1 m c) (ax2 m c) (ax3 m c) (ax4 m c) (ax5 m c) (ax6 m c) (ax7 m c) (ax8 m c) (ax13 m c) (ax14 m c) (ax15 m c) (ax16 m c)) :=
  (W10_of_ne m ρ c main_v57 (by decide)).trans (W9_v57 m ρ c)
theorem W11_v57 : (W11 m ρ c (Proc.devRef .tc main_v57) : Mat 50000 64) = (val_main_v91 (F := Ideal) (ax0 m c) (ax1 m c) (ax2 m c) (ax3 m c) (ax4 m c) (ax5 m c) (ax6 m c) (ax7 m c) (ax8 m c) (ax13 m c) (ax14 m c) (ax15 m c) (ax16 m c)) :=
  (StableHlo.after_of_writes_sub hostOps5 (W10 m ρ c) hostOps5_writes (by decide : main_v57 ∉ wr5)).trans (W10_v57 m ρ c)

/-! ## Round two: the gathered endpoint rows and the edge network -/
theorem W7_v66 : (W7 m ρ c (Proc.devRef .tc main_v66) : Mat 800000 64) = (val_main_v98 (F := Ideal) (ax0 m c) (ax1 m c) (ax2 m c) (ax3 m c) (ax4 m c) (ax5 m c) (ax6 m c) (ax7 m c) (ax8 m c) (ax9 m c) (ax10 m c) (ax11 m c) (ax12 m c)) := by
  dsimp only [W7, hostOps3]
  after_results_simp
  rw [W6_v46 m ρ c, W6_arg3 m ρ c]
  rfl
theorem W7_v73 : (W7 m ρ c (Proc.devRef .tc main_v73) : Mat 800000 64) = (val_main_v105 (F := Ideal) (ax0 m c) (ax1 m c) (ax2 m c) (ax3 m c) (ax4 m c) (ax5 m c) (ax6 m c) (ax7 m c) (ax8 m c) (ax13 m c) (ax14 m c) (ax15 m c) (ax16 m c)) := by
  dsimp only [W7, hostOps3]
  after_results_simp
  rw [W6_v57 m ρ c, W6_arg4 m ρ c]
  rfl
theorem W8_v84_0 : (W8 m ρ c (Proc.devRef .tc main_v84_0) : Mat 800000 64) = (val_main_v123 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) := by
  refine (W8_arr m ρ c 7).trans ((MsgRegion.region3_v (V7 m ρ) c).trans ?_)
  dsimp only [V7]
  rw [W7_v66 m ρ c, W7_v73 m ρ c, W7_v0 m ρ c, W7_v75 m ρ c, W7_v82 m ρ c, W7_v79 m ρ c, W7_v83 m ρ c]
  rw [Cert.ReferenceIdeal.RefMlp.stage_v123]
  exact (Cert.ReferenceIdeal.RefMlp.refMsg_eq _ _ _ _ _ _ _).symm
theorem W8_v84_1 : (W8 m ρ c (Proc.devRef .tc main_v84_1) : Mat 800000 64) = (val_main_v162 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) := by
  refine (W8_arr m ρ c 8).trans ((MsgRegion.region3_c (V7 m ρ) c).trans ?_)
  dsimp only [V7]
  rw [W7_v73 m ρ c, W7_v66 m ρ c, W7_v0 m ρ c, W7_v75 m ρ c, W7_v82 m ρ c, W7_v79 m ρ c, W7_v83 m ρ c]
  rw [Cert.ReferenceIdeal.RefMlp.stage_v162]
  exact (Cert.ReferenceIdeal.RefMlp.refMsg_eq _ _ _ _ _ _ _).symm

/-! ## Round two: the messages summed into the node bins, and the node networks -/
theorem W9_v88 : (W9 m ρ c (Proc.devRef .tc main_v88) : Mat 50000 64) = (val_main_v126 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) := by
  dsimp only [W9, hostOps4]
  after_results_simp
  rw [W8_arg3 m ρ c, W8_v84_0 m ρ c]
  rfl
theorem W9_v92 : (W9 m ρ c (Proc.devRef .tc main_v92) : Mat 50000 64) = (val_main_v165 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) := by
  dsimp only [W9, hostOps4]
  after_results_simp
  rw [W8_arg4 m ρ c, W8_v84_1 m ρ c]
  rfl
theorem W10_v103 : (W10 m ρ c (Proc.devRef .tc main_v103) : Mat 50000 64) = (val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) := by
  refine (W10_arr m ρ c 6).trans ((UpdRegion.region4 (V9 m ρ) c).trans ?_)
  dsimp only [V9]
  rw [W9_v46 m ρ c, W9_v88 m ρ c, W9_v94 m ρ c, W9_v101 m ρ c, W9_v98 m ρ c, W9_v102 m ρ c]
  rw [Cert.ReferenceIdeal.RefMlp.stage_v144]
  exact (Cert.ReferenceIdeal.RefMlp.refUpd_eq _ _ _ _ _ _).symm
theorem W10_v92 : (W10 m ρ c (Proc.devRef .tc main_v92) : Mat 50000 64) = (val_main_v165 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) :=
  (W10_of_ne m ρ c main_v92 (by decide)).trans (W9_v92 m ρ c)
theorem W11_v92 : (W11 m ρ c (Proc.devRef .tc main_v92) : Mat 50000 64) = (val_main_v165 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) :=
  (StableHlo.after_of_writes_sub hostOps5 (W10 m ρ c) hostOps5_writes (by decide : main_v92 ∉ wr5)).trans (W10_v92 m ρ c)
theorem W12_v114 : (W12 m ρ c (Proc.devRef .tc main_v114) : Mat 50000 64) = (val_main_v183 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) := by
  refine (W12_arr m ρ c 6).trans ((UpdRegion.region5 (V11 m ρ) c).trans ?_)
  dsimp only [V11]
  rw [W11_v57 m ρ c, W11_v92 m ρ c, W11_v105 m ρ c, W11_v112 m ρ c, W11_v109 m ρ c, W11_v113 m ρ c]
  rw [Cert.ReferenceIdeal.RefMlp.stage_v183]
  exact (Cert.ReferenceIdeal.RefMlp.refUpd_eq _ _ _ _ _ _).symm
theorem W11_v103 : (W11 m ρ c (Proc.devRef .tc main_v103) : Mat 50000 64) = (val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) :=
  (StableHlo.after_of_writes_sub hostOps5 (W10 m ρ c) hostOps5_writes (by decide : main_v103 ∉ wr5)).trans (W10_v103 m ρ c)
theorem W12_v103 : (W12 m ρ c (Proc.devRef .tc main_v103) : Mat 50000 64) = (val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c)) :=
  (W12_of_ne m ρ c main_v103 (by decide)).trans (W11_v103 m ρ c)

end Cert.KernelIdeal.Chain

end
-- ==== Proof.RefRunHand.lean ====
/-
  The reference's run, read stage by stage.

  The reference program is a straight line of 212 host operations, each writing one buffer of its own from buffers
  written before it or from the arguments.  What a buffer holds at the end is therefore settled by the operation that
  writes it: a buffer that no later operation writes keeps its contents.  The line is cut into 22 consecutive pieces.
  A piece's effect on the few buffers that later pieces read is computed operation by operation from the contents at
  the piece's start, and each such buffer is found to hold the reference's own stage for it — the operation applied to
  the stages of its operands — as a function of the arguments' launch contents.  A join of arrays side by side is a
  piece by itself, so that its operands are buffers of the boundary before it.  No operation writes an argument.
  Composing the pieces: at the end of every execution the two results hold their stages and the arguments are unchanged.
-/
import proofs.«156022_j57337813401889_2_alg».proof.Proof.RefStagesP
import proofs.«156022_j57337813401889_2_alg».proof.Proof.RefRunP
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.RunHand

open Cert.ReferenceIdeal Cert.ReferenceIdeal.Gen Cert.ReferenceIdeal.ReadP Cert.ReferenceIdeal.ValueP Idealize.ShloMosaic
  Idealize.ShloMosaic.TcCoe Idealize.SL.Sem Idealize.ShloMosaic.StableHlo

variable {F : FTy → Type} [FloatOps F]

section Chain

/-- Operations 0 … 17 of @main. -/
def ck1 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg3 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v2 (broadcastInDim S800000 ![] bcast_S_S800000 : (⟨S_, .i32⟩ : BufTy).Contents (Elt F) → (⟨S800000, .i32⟩ : BufTy).Contents (Elt F)),
    binary main_arg3 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg3 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg4 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v9 (broadcastInDim S800000 ![] bcast_S_S800000 : (⟨S_, .i32⟩ : BufTy).Contents (Elt F) → (⟨S800000, .i32⟩ : BufTy).Contents (Elt F)),
    binary main_arg4 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg4 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg1 main_v12 main_v13 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Operations 18 … 18 of @main. -/
def ck2 : List (HloOp τ sig (Elt F)) :=
  [ nary ![main_v6, main_v13, main_arg2] main_v14 (fun u => concatenate S800000x136 1 [⟨S800000x64, u 0⟩, ⟨S800000x64, u 1⟩, ⟨S800000x8, u 2⟩] concatenates_S800000x64_S800000x64_S800000x8_S800000x136_d1) ]

/-- Operations 19 … 37 of @main. -/
def ck3 : List (HloOp τ sig (Elt F)) :=
  [ unary main_arg5 main_v15 ((extractStridedSlice S1x136x128 ![0, 0, 0] · slices_S2x136x128_S1x136x128_0_0_0) : (⟨S2x136x128, .f32⟩ : BufTy).Contents (Elt F) → (⟨S1x136x128, .f32⟩ : BufTy).Contents (Elt F)),
    reshape main_v15 main_v16 rfl shapeCasts_S1x136x128_S136x128,
    unary main_arg6 main_v17 ((extractStridedSlice S1x128 ![0, 0] · slices_S2x128_S1x128_0_0) : (⟨S2x128, .f32⟩ : BufTy).Contents (Elt F) → (⟨S1x128, .f32⟩ : BufTy).Contents (Elt F)),
    reshape main_v17 main_v18 rfl shapeCasts_S1x128_S128,
    unary main_arg7 main_v19 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v19 main_v20 rfl shapeCasts_S1x128x64_S128x64,
    unary main_arg8 main_v21 ((extractStridedSlice S1x64 ![0, 0] · slices_S2x64_S1x64_0_0) : (⟨S2x64, .f32⟩ : BufTy).Contents (Elt F) → (⟨S1x64, .f32⟩ : BufTy).Contents (Elt F)),
    reshape main_v21 main_v22 rfl shapeCasts_S1x64_S64,
    binary main_v14 main_v16 main_v23 ((fun l r => Host.dotGeneral dot_S800000x136_S136x128_S800000x128_1_0_0_1_n_n none l r) : (⟨S800000x136, .f32⟩ : BufTy).Contents (Elt F) → (⟨S136x128, .f32⟩ : BufTy).Contents (Elt F) → (⟨S800000x128, .f32⟩ : BufTy).Contents (Elt F)),
    unary main_v18 main_v24 (broadcastInDim S1x128 ![1] bcast_S128_S1x128_1 : (⟨S128, .f32⟩ : BufTy).Contents (Elt F) → (⟨S1x128, .f32⟩ : BufTy).Contents (Elt F)),
    unary main_v24 main_v25 (broadcastInDim S800000x128 ![0, 1] bcast_S1x128_S800000x128_0_1 : (⟨S1x128, .f32⟩ : BufTy).Contents (Elt F) → (⟨S800000x128, .f32⟩ : BufTy).Contents (Elt F)),
    binary main_v23 main_v25 main_v26 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x128, .f32⟩) main_call0_v0) (broadcastInDim S800000x128 ![] bcast_S_S800000x128),
    TRef.binary (TRef.of (T := ⟨S800000x128, .f32⟩) main_v26) (TRef.of (T := ⟨S800000x128, .f32⟩) main_call0_v0) (TRef.of (T := ⟨S800000x128, .f32⟩) main_v27) maximumf,
    binary main_v27 main_v20 main_v28 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v22 main_v29 (broadcastInDim S1x64 ![1] bcast_S64_S1x64_1 : (⟨S64, .f32⟩ : BufTy).Contents (Elt F) → (⟨S1x64, .f32⟩ : BufTy).Contents (Elt F)),
    unary main_v29 main_v30 (broadcastInDim S800000x64 ![0, 1] bcast_S1x64_S800000x64_0_1 : (⟨S1x64, .f32⟩ : BufTy).Contents (Elt F) → (⟨S800000x64, .f32⟩ : BufTy).Contents (Elt F)),
    binary main_v28 main_v30 main_v31 (addf : (⟨S800000x64, .f32⟩ : BufTy).Contents (Elt F) → (⟨S800000x64, .f32⟩ : BufTy).Contents (Elt F) → (⟨S800000x64, .f32⟩ : BufTy).Contents (Elt F)) ]

/-- Operations 38 … 41 of @main. -/
def ck4 : List (HloOp τ sig (Elt F)) :=
  [ nullary main_cst (constant S_ .f32 0x00000000#32),
    unary main_cst main_v32 (broadcastInDim S50000x64 ![] bcast_S_S50000x64 : (⟨S_, .f32⟩ : BufTy).Contents (Elt F) → (⟨S50000x64, .f32⟩ : BufTy).Contents (Elt F)),
    unary main_arg3 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Operations 42 … 42 of @main. -/
def ck5 : List (HloOp τ sig (Elt F)) :=
  [ binary main_arg0 main_v34 main_v35 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) ]

/-- Operations 43 … 61 of @main. -/
def ck6 : List (HloOp τ sig (Elt F)) :=
  [ unary main_arg9 main_v36 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v36 main_v37 rfl shapeCasts_S1x128x128_S128x128,
    unary main_arg10 main_v38 ((extractStridedSlice S1x128 ![0, 0] · slices_S2x128_S1x128_0_0) : (⟨S2x128, .f32⟩ : BufTy).Contents (Elt F) → (⟨S1x128, .f32⟩ : BufTy).Contents (Elt F)),
    reshape main_v38 main_v39 rfl shapeCasts_S1x128_S128,
    unary main_arg11 main_v40 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v40 main_v41 rfl shapeCasts_S1x128x64_S128x64,
    unary main_arg12 main_v42 ((extractStridedSlice S1x64 ![0, 0] · slices_S2x64_S1x64_0_0) : (⟨S2x64, .f32⟩ : BufTy).Contents (Elt F) → (⟨S1x64, .f32⟩ : BufTy).Contents (Elt F)),
    reshape main_v42 main_v43 rfl shapeCasts_S1x64_S64,
    binary main_v35 main_v37 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v39 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v47) (TRef.of (T := ⟨S50000x128, .f32⟩) main_call1_v0) (TRef.of (T := ⟨S50000x128, .f32⟩) main_v48) maximumf,
    binary main_v48 main_v41 main_v49 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v43 main_v50 (broadcastInDim S1x64 ![1] bcast_S64_S1x64_1 : (⟨S64, .f32⟩ : BufTy).Contents (Elt F) → (⟨S1x64, .f32⟩ : BufTy).Contents (Elt F)),
    unary main_v50 main_v51 (broadcastInDim S50000x64 ![0, 1] bcast_S1x64_S50000x64_0_1 : (⟨S1x64, .f32⟩ : BufTy).Contents (Elt F) → (⟨S50000x64, .f32⟩ : BufTy).Contents (Elt F)),
    binary main_v49 main_v51 main_v52 (addf : (⟨S50000x64, .f32⟩ : BufTy).Contents (Elt F) → (⟨S50000x64, .f32⟩ : BufTy).Contents (Elt F) → (⟨S50000x64, .f32⟩ : BufTy).Contents (Elt F)) ]

/-- Operations 62 … 62 of @main. -/
def ck7 : List (HloOp τ sig (Elt F)) :=
  [ nary ![main_v13, main_v6, main_arg2] main_v53 (fun u => concatenate S800000x136 1 [⟨S800000x64, u 0⟩, ⟨S800000x64, u 1⟩, ⟨S800000x8, u 2⟩] concatenates_S800000x64_S800000x64_S800000x8_S800000x136_d1) ]

/-- Operations 63 … 81 of @main. -/
def ck8 : List (HloOp τ sig (Elt F)) :=
  [ unary main_arg5 main_v54 ((extractStridedSlice S1x136x128 ![0, 0, 0] · slices_S2x136x128_S1x136x128_0_0_0) : (⟨S2x136x128, .f32⟩ : BufTy).Contents (Elt F) → (⟨S1x136x128, .f32⟩ : BufTy).Contents (Elt F)),
    reshape main_v54 main_v55 rfl shapeCasts_S1x136x128_S136x128,
    unary main_arg6 main_v56 ((extractStridedSlice S1x128 ![0, 0] · slices_S2x128_S1x128_0_0) : (⟨S2x128, .f32⟩ : BufTy).Contents (Elt F) → (⟨S1x128, .f32⟩ : BufTy).Contents (Elt F)),
    reshape main_v56 main_v57 rfl shapeCasts_S1x128_S128,
    unary main_arg7 main_v58 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v58 main_v59 rfl shapeCasts_S1x128x64_S128x64,
    unary main_arg8 main_v60 ((extractStridedSlice S1x64 ![0, 0] · slices_S2x64_S1x64_0_0) : (⟨S2x64, .f32⟩ : BufTy).Contents (Elt F) → (⟨S1x64, .f32⟩ : BufTy).Contents (Elt F)),
    reshape main_v60 main_v61 rfl shapeCasts_S1x64_S64,
    binary main_v53 main_v55 main_v62 ((fun l r => Host.dotGeneral dot_S800000x136_S136x128_S800000x128_1_0_0_1_n_n none l r) : (⟨S800000x136, .f32⟩ : BufTy).Contents (Elt F) → (⟨S136x128, .f32⟩ : BufTy).Contents (Elt F) → (⟨S800000x128, .f32⟩ : BufTy).Contents (Elt F)),
    unary main_v57 main_v63 (broadcastInDim S1x128 ![1] bcast_S128_S1x128_1 : (⟨S128, .f32⟩ : BufTy).Contents (Elt F) → (⟨S1x128, .f32⟩ : BufTy).Contents (Elt F)),
    unary main_v63 main_v64 (broadcastInDim S800000x128 ![0, 1] bcast_S1x128_S800000x128_0_1 : (⟨S1x128, .f32⟩ : BufTy).Contents (Elt F) → (⟨S800000x128, .f32⟩ : BufTy).Contents (Elt F)),
    binary main_v62 main_v64 main_v65 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x128, .f32⟩) main_call2_v0) (broadcastInDim S800000x128 ![] bcast_S_S800000x128),
    TRef.binary (TRef.of (T := ⟨S800000x128, .f32⟩) main_v65) (TRef.of (T := ⟨S800000x128, .f32⟩) main_call2_v0) (TRef.of (T := ⟨S800000x128, .f32⟩) main_v66) maximumf,
    binary main_v66 main_v59 main_v67 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v61 main_v68 (broadcastInDim S1x64 ![1] bcast_S64_S1x64_1 : (⟨S64, .f32⟩ : BufTy).Contents (Elt F) → (⟨S1x64, .f32⟩ : BufTy).Contents (Elt F)),
    unary main_v68 main_v69 (broadcastInDim S800000x64 ![0, 1] bcast_S1x64_S800000x64_0_1 : (⟨S1x64, .f32⟩ : BufTy).Contents (Elt F) → (⟨S800000x64, .f32⟩ : BufTy).Contents (Elt F)),
    binary main_v67 main_v69 main_v70 (addf : (⟨S800000x64, .f32⟩ : BufTy).Contents (Elt F) → (⟨S800000x64, .f32⟩ : BufTy).Contents (Elt F) → (⟨S800000x64, .f32⟩ : BufTy).Contents (Elt F)) ]

/-- Operations 82 … 85 of @main. -/
def ck9 : List (HloOp τ sig (Elt F)) :=
  [ nullary main_cst_3 (constant S_ .f32 0x00000000#32),
    unary main_cst_3 main_v71 (broadcastInDim S50000x64 ![] bcast_S_S50000x64 : (⟨S_, .f32⟩ : BufTy).Contents (Elt F) → (⟨S50000x64, .f32⟩ : BufTy).Contents (Elt F)),
    unary main_arg4 main_v72 (broadcastInDim S800000x1 ![0] bcast_S800000_S800000x1_0 : (⟨S800000, .i32⟩ : BufTy).Contents (Elt F) → (⟨S800000x1, .i32⟩ : BufTy).Contents (Elt F)),
    ternary main_v71 main_v72 main_v70 main_v73 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Operations 86 … 86 of @main. -/
def ck10 : List (HloOp τ sig (Elt F)) :=
  [ binary main_arg1 main_v73 main_v74 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) ]

/-- Operations 87 … 105 of @main. -/
def ck11 : List (HloOp τ sig (Elt F)) :=
  [ unary main_arg13 main_v75 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v75 main_v76 rfl shapeCasts_S1x128x128_S128x128,
    unary main_arg14 main_v77 ((extractStridedSlice S1x128 ![0, 0] · slices_S2x128_S1x128_0_0) : (⟨S2x128, .f32⟩ : BufTy).Contents (Elt F) → (⟨S1x128, .f32⟩ : BufTy).Contents (Elt F)),
    reshape main_v77 main_v78 rfl shapeCasts_S1x128_S128,
    unary main_arg15 main_v79 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v79 main_v80 rfl shapeCasts_S1x128x64_S128x64,
    unary main_arg16 main_v81 ((extractStridedSlice S1x64 ![0, 0] · slices_S2x64_S1x64_0_0) : (⟨S2x64, .f32⟩ : BufTy).Contents (Elt F) → (⟨S1x64, .f32⟩ : BufTy).Contents (Elt F)),
    reshape main_v81 main_v82 rfl shapeCasts_S1x64_S64,
    binary main_v74 main_v76 main_v83 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v78 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v83 main_v85 main_v86 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v86) (TRef.of (T := ⟨S50000x128, .f32⟩) main_call3_v0) (TRef.of (T := ⟨S50000x128, .f32⟩) main_v87) maximumf,
    binary main_v87 main_v80 main_v88 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v82 main_v89 (broadcastInDim S1x64 ![1] bcast_S64_S1x64_1 : (⟨S64, .f32⟩ : BufTy).Contents (Elt F) → (⟨S1x64, .f32⟩ : BufTy).Contents (Elt F)),
    unary main_v89 main_v90 (broadcastInDim S50000x64 ![0, 1] bcast_S1x64_S50000x64_0_1 : (⟨S1x64, .f32⟩ : BufTy).Contents (Elt F) → (⟨S50000x64, .f32⟩ : BufTy).Contents (Elt F)),
    binary main_v88 main_v90 main_v91 (addf : (⟨S50000x64, .f32⟩ : BufTy).Contents (Elt F) → (⟨S50000x64, .f32⟩ : BufTy).Contents (Elt F) → (⟨S50000x64, .f32⟩ : BufTy).Contents (Elt F)) ]

/-- Operations 106 … 123 of @main. -/
def ck12 : List (HloOp τ sig (Elt F)) :=
  [ nullary main_c_4 (constantI S_ 32 0#32),
    unary main_c_4 main_v92 (broadcastInDim S800000 ![] bcast_S_S800000 : (⟨S_, .i32⟩ : BufTy).Contents (Elt F) → (⟨S800000, .i32⟩ : BufTy).Contents (Elt F)),
    binary main_arg3 main_v92 main_v93 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v94 (broadcastInDim S800000 ![] bcast_S_S800000 : (⟨S_, .i32⟩ : BufTy).Contents (Elt F) → (⟨S800000, .i32⟩ : BufTy).Contents (Elt F)),
    binary main_arg3 main_v94 main_v95 (addi : (⟨S800000, .i32⟩ : BufTy).Contents (Elt F) → (⟨S800000, .i32⟩ : BufTy).Contents (Elt F) → (⟨S800000, .i32⟩ : BufTy).Contents (Elt F)),
    ternary main_v93 main_v95 main_arg3 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v96 main_v97 (broadcastInDim S800000x1 ![0] bcast_S800000_S800000x1_0 : (⟨S800000, .i32⟩ : BufTy).Contents (Elt F) → (⟨S800000x1, .i32⟩ : BufTy).Contents (Elt F)),
    binary main_v52 main_v97 main_v98 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_6 (constantI S_ 32 0#32),
    unary main_c_6 main_v99 (broadcastInDim S800000 ![] bcast_S_S800000 : (⟨S_, .i32⟩ : BufTy).Contents (Elt F) → (⟨S800000, .i32⟩ : BufTy).Contents (Elt F)),
    binary main_arg4 main_v99 main_v100 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v101 (broadcastInDim S800000 ![] bcast_S_S800000 : (⟨S_, .i32⟩ : BufTy).Contents (Elt F) → (⟨S800000, .i32⟩ : BufTy).Contents (Elt F)),
    binary main_arg4 main_v101 main_v102 (addi : (⟨S800000, .i32⟩ : BufTy).Contents (Elt F) → (⟨S800000, .i32⟩ : BufTy).Contents (Elt F) → (⟨S800000, .i32⟩ : BufTy).Contents (Elt F)),
    ternary main_v100 main_v102 main_arg4 main_v103 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v103 main_v104 (broadcastInDim S800000x1 ![0] bcast_S800000_S800000x1_0 : (⟨S800000, .i32⟩ : BufTy).Contents (Elt F) → (⟨S800000x1, .i32⟩ : BufTy).Contents (Elt F)),
    binary main_v91 main_v104 main_v105 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

/-- Operations 124 … 124 of @main. -/
def ck13 : List (HloOp τ sig (Elt F)) :=
  [ nary ![main_v98, main_v105, main_arg2] main_v106 (fun u => concatenate S800000x136 1 [⟨S800000x64, u 0⟩, ⟨S800000x64, u 1⟩, ⟨S800000x8, u 2⟩] concatenates_S800000x64_S800000x64_S800000x8_S800000x136_d1) ]

/-- Operations 125 … 143 of @main. -/
def ck14 : List (HloOp τ sig (Elt F)) :=
  [ unary main_arg5 main_v107 ((extractStridedSlice S1x136x128 ![1, 0, 0] · slices_S2x136x128_S1x136x128_1_0_0) : (⟨S2x136x128, .f32⟩ : BufTy).Contents (Elt F) → (⟨S1x136x128, .f32⟩ : BufTy).Contents (Elt F)),
    reshape main_v107 main_v108 rfl shapeCasts_S1x136x128_S136x128,
    unary main_arg6 main_v109 ((extractStridedSlice S1x128 ![1, 0] · slices_S2x128_S1x128_1_0) : (⟨S2x128, .f32⟩ : BufTy).Contents (Elt F) → (⟨S1x128, .f32⟩ : BufTy).Contents (Elt F)),
    reshape main_v109 main_v110 rfl shapeCasts_S1x128_S128,
    unary main_arg7 main_v111 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v111 main_v112 rfl shapeCasts_S1x128x64_S128x64,
    unary main_arg8 main_v113 ((extractStridedSlice S1x64 ![1, 0] · slices_S2x64_S1x64_1_0) : (⟨S2x64, .f32⟩ : BufTy).Contents (Elt F) → (⟨S1x64, .f32⟩ : BufTy).Contents (Elt F)),
    reshape main_v113 main_v114 rfl shapeCasts_S1x64_S64,
    binary main_v106 main_v108 main_v115 ((fun l r => Host.dotGeneral dot_S800000x136_S136x128_S800000x128_1_0_0_1_n_n none l r) : (⟨S800000x136, .f32⟩ : BufTy).Contents (Elt F) → (⟨S136x128, .f32⟩ : BufTy).Contents (Elt F) → (⟨S800000x128, .f32⟩ : BufTy).Contents (Elt F)),
    unary main_v110 main_v116 (broadcastInDim S1x128 ![1] bcast_S128_S1x128_1 : (⟨S128, .f32⟩ : BufTy).Contents (Elt F) → (⟨S1x128, .f32⟩ : BufTy).Contents (Elt F)),
    unary main_v116 main_v117 (broadcastInDim S800000x128 ![0, 1] bcast_S1x128_S800000x128_0_1 : (⟨S1x128, .f32⟩ : BufTy).Contents (Elt F) → (⟨S800000x128, .f32⟩ : BufTy).Contents (Elt F)),
    binary main_v115 main_v117 main_v118 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x128, .f32⟩) main_call4_v0) (broadcastInDim S800000x128 ![] bcast_S_S800000x128),
    TRef.binary (TRef.of (T := ⟨S800000x128, .f32⟩) main_v118) (TRef.of (T := ⟨S800000x128, .f32⟩) main_call4_v0) (TRef.of (T := ⟨S800000x128, .f32⟩) main_v119) maximumf,
    binary main_v119 main_v112 main_v120 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v114 main_v121 (broadcastInDim S1x64 ![1] bcast_S64_S1x64_1 : (⟨S64, .f32⟩ : BufTy).Contents (Elt F) → (⟨S1x64, .f32⟩ : BufTy).Contents (Elt F)),
    unary main_v121 main_v122 (broadcastInDim S800000x64 ![0, 1] bcast_S1x64_S800000x64_0_1 : (⟨S1x64, .f32⟩ : BufTy).Contents (Elt F) → (⟨S800000x64, .f32⟩ : BufTy).Contents (Elt F)),
    binary main_v120 main_v122 main_v123 (addf : (⟨S800000x64, .f32⟩ : BufTy).Contents (Elt F) → (⟨S800000x64, .f32⟩ : BufTy).Contents (Elt F) → (⟨S800000x64, .f32⟩ : BufTy).Contents (Elt F)) ]

/-- Operations 144 … 147 of @main. -/
def ck15 : List (HloOp τ sig (Elt F)) :=
  [ nullary main_cst_8 (constant S_ .f32 0x00000000#32),
    unary main_cst_8 main_v124 (broadcastInDim S50000x64 ![] bcast_S_S50000x64 : (⟨S_, .f32⟩ : BufTy).Contents (Elt F) → (⟨S50000x64, .f32⟩ : BufTy).Contents (Elt F)),
    unary main_arg3 main_v125 (broadcastInDim S800000x1 ![0] bcast_S800000_S800000x1_0 : (⟨S800000, .i32⟩ : BufTy).Contents (Elt F) → (⟨S800000x1, .i32⟩ : BufTy).Contents (Elt F)),
    ternary main_v124 main_v125 main_v123 main_v126 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Operations 148 … 148 of @main. -/
def ck16 : List (HloOp τ sig (Elt F)) :=
  [ binary main_v52 main_v126 main_v127 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) ]

/-- Operations 149 … 167 of @main. -/
def ck17 : List (HloOp τ sig (Elt F)) :=
  [ unary main_arg9 main_v128 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v128 main_v129 rfl shapeCasts_S1x128x128_S128x128,
    unary main_arg10 main_v130 ((extractStridedSlice S1x128 ![1, 0] · slices_S2x128_S1x128_1_0) : (⟨S2x128, .f32⟩ : BufTy).Contents (Elt F) → (⟨S1x128, .f32⟩ : BufTy).Contents (Elt F)),
    reshape main_v130 main_v131 rfl shapeCasts_S1x128_S128,
    unary main_arg11 main_v132 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v132 main_v133 rfl shapeCasts_S1x128x64_S128x64,
    unary main_arg12 main_v134 ((extractStridedSlice S1x64 ![1, 0] · slices_S2x64_S1x64_1_0) : (⟨S2x64, .f32⟩ : BufTy).Contents (Elt F) → (⟨S1x64, .f32⟩ : BufTy).Contents (Elt F)),
    reshape main_v134 main_v135 rfl shapeCasts_S1x64_S64,
    binary main_v127 main_v129 main_v136 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v131 main_v137 (broadcastInDim S1x128 ![1] bcast_S128_S1x128_1 : (⟨S128, .f32⟩ : BufTy).Contents (Elt F) → (⟨S1x128, .f32⟩ : BufTy).Contents (Elt F)),
    unary main_v137 main_v138 (broadcastInDim S50000x128 ![0, 1] bcast_S1x128_S50000x128_0_1 : (⟨S1x128, .f32⟩ : BufTy).Contents (Elt F) → (⟨S50000x128, .f32⟩ : BufTy).Contents (Elt F)),
    binary main_v136 main_v138 main_v139 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v139) (TRef.of (T := ⟨S50000x128, .f32⟩) main_call5_v0) (TRef.of (T := ⟨S50000x128, .f32⟩) main_v140) maximumf,
    binary main_v140 main_v133 main_v141 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v135 main_v142 (broadcastInDim S1x64 ![1] bcast_S64_S1x64_1 : (⟨S64, .f32⟩ : BufTy).Contents (Elt F) → (⟨S1x64, .f32⟩ : BufTy).Contents (Elt F)),
    unary main_v142 main_v143 (broadcastInDim S50000x64 ![0, 1] bcast_S1x64_S50000x64_0_1 : (⟨S1x64, .f32⟩ : BufTy).Contents (Elt F) → (⟨S50000x64, .f32⟩ : BufTy).Contents (Elt F)),
    binary main_v141 main_v143 main_v144 (addf : (⟨S50000x64, .f32⟩ : BufTy).Contents (Elt F) → (⟨S50000x64, .f32⟩ : BufTy).Contents (Elt F) → (⟨S50000x64, .f32⟩ : BufTy).Contents (Elt F)) ]

/-- Operations 168 … 168 of @main. -/
def ck18 : List (HloOp τ sig (Elt F)) :=
  [ nary ![main_v105, main_v98, main_arg2] main_v145 (fun u => concatenate S800000x136 1 [⟨S800000x64, u 0⟩, ⟨S800000x64, u 1⟩, ⟨S800000x8, u 2⟩] concatenates_S800000x64_S800000x64_S800000x8_S800000x136_d1) ]

/-- Operations 169 … 187 of @main. -/
def ck19 : List (HloOp τ sig (Elt F)) :=
  [ unary main_arg5 main_v146 ((extractStridedSlice S1x136x128 ![1, 0, 0] · slices_S2x136x128_S1x136x128_1_0_0) : (⟨S2x136x128, .f32⟩ : BufTy).Contents (Elt F) → (⟨S1x136x128, .f32⟩ : BufTy).Contents (Elt F)),
    reshape main_v146 main_v147 rfl shapeCasts_S1x136x128_S136x128,
    unary main_arg6 main_v148 ((extractStridedSlice S1x128 ![1, 0] · slices_S2x128_S1x128_1_0) : (⟨S2x128, .f32⟩ : BufTy).Contents (Elt F) → (⟨S1x128, .f32⟩ : BufTy).Contents (Elt F)),
    reshape main_v148 main_v149 rfl shapeCasts_S1x128_S128,
    unary main_arg7 main_v150 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v150 main_v151 rfl shapeCasts_S1x128x64_S128x64,
    unary main_arg8 main_v152 ((extractStridedSlice S1x64 ![1, 0] · slices_S2x64_S1x64_1_0) : (⟨S2x64, .f32⟩ : BufTy).Contents (Elt F) → (⟨S1x64, .f32⟩ : BufTy).Contents (Elt F)),
    reshape main_v152 main_v153 rfl shapeCasts_S1x64_S64,
    binary main_v145 main_v147 main_v154 ((fun l r => Host.dotGeneral dot_S800000x136_S136x128_S800000x128_1_0_0_1_n_n none l r) : (⟨S800000x136, .f32⟩ : BufTy).Contents (Elt F) → (⟨S136x128, .f32⟩ : BufTy).Contents (Elt F) → (⟨S800000x128, .f32⟩ : BufTy).Contents (Elt F)),
    unary main_v149 main_v155 (broadcastInDim S1x128 ![1] bcast_S128_S1x128_1 : (⟨S128, .f32⟩ : BufTy).Contents (Elt F) → (⟨S1x128, .f32⟩ : BufTy).Contents (Elt F)),
    unary main_v155 main_v156 (broadcastInDim S800000x128 ![0, 1] bcast_S1x128_S800000x128_0_1 : (⟨S1x128, .f32⟩ : BufTy).Contents (Elt F) → (⟨S800000x128, .f32⟩ : BufTy).Contents (Elt F)),
    binary main_v154 main_v156 main_v157 (addf : (⟨S800000x128, .f32⟩ : BufTy).Contents (Elt F) → (⟨S800000x128, .f32⟩ : BufTy).Contents (Elt F) → (⟨S800000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S800000x128, .f32⟩) main_call6_v0) (broadcastInDim S800000x128 ![] bcast_S_S800000x128),
    TRef.binary (TRef.of (T := ⟨S800000x128, .f32⟩) main_v157) (TRef.of (T := ⟨S800000x128, .f32⟩) main_call6_v0) (TRef.of (T := ⟨S800000x128, .f32⟩) main_v158) maximumf,
    binary main_v158 main_v151 main_v159 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_v153 main_v160 (broadcastInDim S1x64 ![1] bcast_S64_S1x64_1 : (⟨S64, .f32⟩ : BufTy).Contents (Elt F) → (⟨S1x64, .f32⟩ : BufTy).Contents (Elt F)),
    unary main_v160 main_v161 (broadcastInDim S800000x64 ![0, 1] bcast_S1x64_S800000x64_0_1 : (⟨S1x64, .f32⟩ : BufTy).Contents (Elt F) → (⟨S800000x64, .f32⟩ : BufTy).Contents (Elt F)),
    binary main_v159 main_v161 main_v162 (addf : (⟨S800000x64, .f32⟩ : BufTy).Contents (Elt F) → (⟨S800000x64, .f32⟩ : BufTy).Contents (Elt F) → (⟨S800000x64, .f32⟩ : BufTy).Contents (Elt F)) ]

/-- Operations 188 … 191 of @main. -/
def ck20 : List (HloOp τ sig (Elt F)) :=
  [ nullary main_cst_9 (constant S_ .f32 0x00000000#32),
    unary main_cst_9 main_v163 (broadcastInDim S50000x64 ![] bcast_S_S50000x64 : (⟨S_, .f32⟩ : BufTy).Contents (Elt F) → (⟨S50000x64, .f32⟩ : BufTy).Contents (Elt F)),
    unary main_arg4 main_v164 (broadcastInDim S800000x1 ![0] bcast_S800000_S800000x1_0 : (⟨S800000, .i32⟩ : BufTy).Contents (Elt F) → (⟨S800000x1, .i32⟩ : BufTy).Contents (Elt F)),
    ternary main_v163 main_v164 main_v162 main_v165 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]

/-- Operations 192 … 192 of @main. -/
def ck21 : List (HloOp τ sig (Elt F)) :=
  [ binary main_v91 main_v165 main_v166 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) ]

/-- Operations 193 … 211 of @main. -/
def ck22 : List (HloOp τ sig (Elt F)) :=
  [ unary main_arg13 main_v167 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v167 main_v168 rfl shapeCasts_S1x128x128_S128x128,
    unary main_arg14 main_v169 ((extractStridedSlice S1x128 ![1, 0] · slices_S2x128_S1x128_1_0) : (⟨S2x128, .f32⟩ : BufTy).Contents (Elt F) → (⟨S1x128, .f32⟩ : BufTy).Contents (Elt F)),
    reshape main_v169 main_v170 rfl shapeCasts_S1x128_S128,
    unary main_arg15 main_v171 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v171 main_v172 rfl shapeCasts_S1x128x64_S128x64,
    unary main_arg16 main_v173 ((extractStridedSlice S1x64 ![1, 0] · slices_S2x64_S1x64_1_0) : (⟨S2x64, .f32⟩ : BufTy).Contents (Elt F) → (⟨S1x64, .f32⟩ : BufTy).Contents (Elt F)),
    reshape main_v173 main_v174 rfl shapeCasts_S1x64_S64,
    binary main_v166 main_v168 main_v175 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_v170 main_v176 (broadcastInDim S1x128 ![1] bcast_S128_S1x128_1 : (⟨S128, .f32⟩ : BufTy).Contents (Elt F) → (⟨S1x128, .f32⟩ : BufTy).Contents (Elt F)),
    unary main_v176 main_v177 (broadcastInDim S50000x128 ![0, 1] bcast_S1x128_S50000x128_0_1 : (⟨S1x128, .f32⟩ : BufTy).Contents (Elt F) → (⟨S50000x128, .f32⟩ : BufTy).Contents (Elt F)),
    binary main_v175 main_v177 main_v178 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S50000x128, .f32⟩) main_call7_v0) (broadcastInDim S50000x128 ![] bcast_S_S50000x128),
    TRef.binary (TRef.of (T := ⟨S50000x128, .f32⟩) main_v178) (TRef.of (T := ⟨S50000x128, .f32⟩) main_call7_v0) (TRef.of (T := ⟨S50000x128, .f32⟩) main_v179) maximumf,
    binary main_v179 main_v172 main_v180 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_v174 main_v181 (broadcastInDim S1x64 ![1] bcast_S64_S1x64_1 : (⟨S64, .f32⟩ : BufTy).Contents (Elt F) → (⟨S1x64, .f32⟩ : BufTy).Contents (Elt F)),
    unary main_v181 main_v182 (broadcastInDim S50000x64 ![0, 1] bcast_S1x64_S50000x64_0_1 : (⟨S1x64, .f32⟩ : BufTy).Contents (Elt F) → (⟨S50000x64, .f32⟩ : BufTy).Contents (Elt F)),
    binary main_v180 main_v182 main_v183 (addf : (⟨S50000x64, .f32⟩ : BufTy).Contents (Elt F) → (⟨S50000x64, .f32⟩ : BufTy).Contents (Elt F) → (⟨S50000x64, .f32⟩ : BufTy).Contents (Elt F)) ]

set_option maxRecDepth 16384 in
/-- The 22 pieces, in order, are the whole line. -/
theorem ops_split : (ops : List (HloOp τ sig (Elt F))) = ck1 ++ (ck2 ++ (ck3 ++ (ck4 ++ (ck5 ++ (ck6 ++ (ck7 ++ (ck8 ++ (ck9 ++ (ck10 ++ (ck11 ++ (ck12 ++ (ck13 ++ (ck14 ++ (ck15 ++ (ck16 ++ (ck17 ++ (ck18 ++ (ck19 ++ (ck20 ++ (ck21 ++ (ck22))))))))))))))))))))) := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The buffers that piece 1 writes. -/
abbrev wr1 : List (Ref sig .tc) := [main_c, main_v0, main_v1, main_c_0, main_v2, main_v3, main_v4, main_v5, main_v6, main_c_1, main_v7, main_v8, main_c_2, main_v9, main_v10, main_v11, main_v12, main_v13]
theorem ck1_writes : (ck1 : List (HloOp τ sig (Elt Ideal))).Forall fun op => op.writes ⊆ ((wr1).map (Proc.devRef (τ := τ) .tc)).toFinset := by
  simp only [ck1, wr1, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 2 writes. -/
abbrev wr2 : List (Ref sig .tc) := [main_v14]
theorem ck2_writes : (ck2 : List (HloOp τ sig (Elt Ideal))).Forall fun op => op.writes ⊆ ((wr2).map (Proc.devRef (τ := τ) .tc)).toFinset := by
  simp only [ck2, wr2, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 3 writes. -/
abbrev wr3 : List (Ref sig .tc) := [main_v15, main_v16, main_v17, main_v18, main_v19, main_v20, main_v21, main_v22, main_v23, main_v24, main_v25, main_v26, main_call0_cst, main_call0_v0, main_v27, main_v28, main_v29, main_v30, main_v31]
theorem ck3_writes : (ck3 : List (HloOp τ sig (Elt Ideal))).Forall fun op => op.writes ⊆ ((wr3).map (Proc.devRef (τ := τ) .tc)).toFinset := by
  simp only [ck3, wr3, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 4 writes. -/
abbrev wr4 : List (Ref sig .tc) := [main_cst, main_v32, main_v33, main_v34]
theorem ck4_writes : (ck4 : List (HloOp τ sig (Elt Ideal))).Forall fun op => op.writes ⊆ ((wr4).map (Proc.devRef (τ := τ) .tc)).toFinset := by
  simp only [ck4, wr4, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 5 writes. -/
abbrev wr5 : List (Ref sig .tc) := [main_v35]
theorem ck5_writes : (ck5 : List (HloOp τ sig (Elt Ideal))).Forall fun op => op.writes ⊆ ((wr5).map (Proc.devRef (τ := τ) .tc)).toFinset := by
  simp only [ck5, wr5, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 6 writes. -/
abbrev wr6 : List (Ref sig .tc) := [main_v36, main_v37, main_v38, main_v39, main_v40, main_v41, main_v42, main_v43, main_v44, main_v45, main_v46, main_v47, main_call1_cst, main_call1_v0, main_v48, main_v49, main_v50, main_v51, main_v52]
theorem ck6_writes : (ck6 : List (HloOp τ sig (Elt Ideal))).Forall fun op => op.writes ⊆ ((wr6).map (Proc.devRef (τ := τ) .tc)).toFinset := by
  simp only [ck6, wr6, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 7 writes. -/
abbrev wr7 : List (Ref sig .tc) := [main_v53]
theorem ck7_writes : (ck7 : List (HloOp τ sig (Elt Ideal))).Forall fun op => op.writes ⊆ ((wr7).map (Proc.devRef (τ := τ) .tc)).toFinset := by
  simp only [ck7, wr7, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 8 writes. -/
abbrev wr8 : List (Ref sig .tc) := [main_v54, main_v55, main_v56, main_v57, main_v58, main_v59, main_v60, main_v61, main_v62, main_v63, main_v64, main_v65, main_call2_cst, main_call2_v0, main_v66, main_v67, main_v68, main_v69, main_v70]
theorem ck8_writes : (ck8 : List (HloOp τ sig (Elt Ideal))).Forall fun op => op.writes ⊆ ((wr8).map (Proc.devRef (τ := τ) .tc)).toFinset := by
  simp only [ck8, wr8, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 9 writes. -/
abbrev wr9 : List (Ref sig .tc) := [main_cst_3, main_v71, main_v72, main_v73]
theorem ck9_writes : (ck9 : List (HloOp τ sig (Elt Ideal))).Forall fun op => op.writes ⊆ ((wr9).map (Proc.devRef (τ := τ) .tc)).toFinset := by
  simp only [ck9, wr9, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 10 writes. -/
abbrev wr10 : List (Ref sig .tc) := [main_v74]
theorem ck10_writes : (ck10 : List (HloOp τ sig (Elt Ideal))).Forall fun op => op.writes ⊆ ((wr10).map (Proc.devRef (τ := τ) .tc)).toFinset := by
  simp only [ck10, wr10, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 11 writes. -/
abbrev wr11 : List (Ref sig .tc) := [main_v75, main_v76, main_v77, main_v78, main_v79, main_v80, main_v81, main_v82, main_v83, main_v84, main_v85, main_v86, main_call3_cst, main_call3_v0, main_v87, main_v88, main_v89, main_v90, main_v91]
theorem ck11_writes : (ck11 : List (HloOp τ sig (Elt Ideal))).Forall fun op => op.writes ⊆ ((wr11).map (Proc.devRef (τ := τ) .tc)).toFinset := by
  simp only [ck11, wr11, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 12 writes. -/
abbrev wr12 : List (Ref sig .tc) := [main_c_4, main_v92, main_v93, main_c_5, main_v94, main_v95, main_v96, main_v97, main_v98, main_c_6, main_v99, main_v100, main_c_7, main_v101, main_v102, main_v103, main_v104, main_v105]
theorem ck12_writes : (ck12 : List (HloOp τ sig (Elt Ideal))).Forall fun op => op.writes ⊆ ((wr12).map (Proc.devRef (τ := τ) .tc)).toFinset := by
  simp only [ck12, wr12, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 13 writes. -/
abbrev wr13 : List (Ref sig .tc) := [main_v106]
theorem ck13_writes : (ck13 : List (HloOp τ sig (Elt Ideal))).Forall fun op => op.writes ⊆ ((wr13).map (Proc.devRef (τ := τ) .tc)).toFinset := by
  simp only [ck13, wr13, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 14 writes. -/
abbrev wr14 : List (Ref sig .tc) := [main_v107, main_v108, main_v109, main_v110, main_v111, main_v112, main_v113, main_v114, main_v115, main_v116, main_v117, main_v118, main_call4_cst, main_call4_v0, main_v119, main_v120, main_v121, main_v122, main_v123]
theorem ck14_writes : (ck14 : List (HloOp τ sig (Elt Ideal))).Forall fun op => op.writes ⊆ ((wr14).map (Proc.devRef (τ := τ) .tc)).toFinset := by
  simp only [ck14, wr14, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 15 writes. -/
abbrev wr15 : List (Ref sig .tc) := [main_cst_8, main_v124, main_v125, main_v126]
theorem ck15_writes : (ck15 : List (HloOp τ sig (Elt Ideal))).Forall fun op => op.writes ⊆ ((wr15).map (Proc.devRef (τ := τ) .tc)).toFinset := by
  simp only [ck15, wr15, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 16 writes. -/
abbrev wr16 : List (Ref sig .tc) := [main_v127]
theorem ck16_writes : (ck16 : List (HloOp τ sig (Elt Ideal))).Forall fun op => op.writes ⊆ ((wr16).map (Proc.devRef (τ := τ) .tc)).toFinset := by
  simp only [ck16, wr16, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 17 writes. -/
abbrev wr17 : List (Ref sig .tc) := [main_v128, main_v129, main_v130, main_v131, main_v132, main_v133, main_v134, main_v135, main_v136, main_v137, main_v138, main_v139, main_call5_cst, main_call5_v0, main_v140, main_v141, main_v142, main_v143, main_v144]
theorem ck17_writes : (ck17 : List (HloOp τ sig (Elt Ideal))).Forall fun op => op.writes ⊆ ((wr17).map (Proc.devRef (τ := τ) .tc)).toFinset := by
  simp only [ck17, wr17, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 18 writes. -/
abbrev wr18 : List (Ref sig .tc) := [main_v145]
theorem ck18_writes : (ck18 : List (HloOp τ sig (Elt Ideal))).Forall fun op => op.writes ⊆ ((wr18).map (Proc.devRef (τ := τ) .tc)).toFinset := by
  simp only [ck18, wr18, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 19 writes. -/
abbrev wr19 : List (Ref sig .tc) := [main_v146, main_v147, main_v148, main_v149, main_v150, main_v151, main_v152, main_v153, main_v154, main_v155, main_v156, main_v157, main_call6_cst, main_call6_v0, main_v158, main_v159, main_v160, main_v161, main_v162]
theorem ck19_writes : (ck19 : List (HloOp τ sig (Elt Ideal))).Forall fun op => op.writes ⊆ ((wr19).map (Proc.devRef (τ := τ) .tc)).toFinset := by
  simp only [ck19, wr19, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 20 writes. -/
abbrev wr20 : List (Ref sig .tc) := [main_cst_9, main_v163, main_v164, main_v165]
theorem ck20_writes : (ck20 : List (HloOp τ sig (Elt Ideal))).Forall fun op => op.writes ⊆ ((wr20).map (Proc.devRef (τ := τ) .tc)).toFinset := by
  simp only [ck20, wr20, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 21 writes. -/
abbrev wr21 : List (Ref sig .tc) := [main_v166]
theorem ck21_writes : (ck21 : List (HloOp τ sig (Elt Ideal))).Forall fun op => op.writes ⊆ ((wr21).map (Proc.devRef (τ := τ) .tc)).toFinset := by
  simp only [ck21, wr21, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

/-- The buffers that piece 22 writes. -/
abbrev wr22 : List (Ref sig .tc) := [main_v167, main_v168, main_v169, main_v170, main_v171, main_v172, main_v173, main_v174, main_v175, main_v176, main_v177, main_v178, main_call7_cst, main_call7_v0, main_v179, main_v180, main_v181, main_v182, main_v183]
theorem ck22_writes : (ck22 : List (HloOp τ sig (Elt Ideal))).Forall fun op => op.writes ⊆ ((wr22).map (Proc.devRef (τ := τ) .tc)).toFinset := by
  simp only [ck22, wr22, List.Forall, StableHlo.nullary_writes, StableHlo.unary_writes, StableHlo.binary_writes, StableHlo.ternary_writes, StableHlo.reshape_writes, StableHlo.nary_writes, Finset.singleton_subset_iff, List.mem_toFinset, List.mem_map]
  repeat' apply And.intro
  all_goals exact ⟨_, by decide, rfl⟩

variable (m : (ℓ : Loc nD τ sig) → Buf (Elt Ideal) ℓ) (c : Dev nD)

/-! ## The arguments' launch contents -/
abbrev ax0 := m ((c.tc : Thread nD τ).loc main_arg0)
abbrev ax1 := m ((c.tc : Thread nD τ).loc main_arg1)
abbrev ax2 := m ((c.tc : Thread nD τ).loc main_arg2)
abbrev ax3 := m ((c.tc : Thread nD τ).loc main_arg3)
abbrev ax4 := m ((c.tc : Thread nD τ).loc main_arg4)
abbrev ax5 := m ((c.tc : Thread nD τ).loc main_arg5)
abbrev ax6 := m ((c.tc : Thread nD τ).loc main_arg6)
abbrev ax7 := m ((c.tc : Thread nD τ).loc main_arg7)
abbrev ax8 := m ((c.tc : Thread nD τ).loc main_arg8)
abbrev ax9 := m ((c.tc : Thread nD τ).loc main_arg9)
abbrev ax10 := m ((c.tc : Thread nD τ).loc main_arg10)
abbrev ax11 := m ((c.tc : Thread nD τ).loc main_arg11)
abbrev ax12 := m ((c.tc : Thread nD τ).loc main_arg12)
abbrev ax13 := m ((c.tc : Thread nD τ).loc main_arg13)
abbrev ax14 := m ((c.tc : Thread nD τ).loc main_arg14)
abbrev ax15 := m ((c.tc : Thread nD τ).loc main_arg15)
abbrev ax16 := m ((c.tc : Thread nD τ).loc main_arg16)

/-- The buffers' contents at the boundaries between the pieces: at launch, and after each piece. -/
def W0 : Valuation τ sig (Elt Ideal) := launchContents m c
def W1 : Valuation τ sig (Elt Ideal) := after ck1 (W0 m c)
def W2 : Valuation τ sig (Elt Ideal) := after ck2 (W1 m c)
def W3 : Valuation τ sig (Elt Ideal) := after ck3 (W2 m c)
def W4 : Valuation τ sig (Elt Ideal) := after ck4 (W3 m c)
def W5 : Valuation τ sig (Elt Ideal) := after ck5 (W4 m c)
def W6 : Valuation τ sig (Elt Ideal) := after ck6 (W5 m c)
def W7 : Valuation τ sig (Elt Ideal) := after ck7 (W6 m c)
def W8 : Valuation τ sig (Elt Ideal) := after ck8 (W7 m c)
def W9 : Valuation τ sig (Elt Ideal) := after ck9 (W8 m c)
def W10 : Valuation τ sig (Elt Ideal) := after ck10 (W9 m c)
def W11 : Valuation τ sig (Elt Ideal) := after ck11 (W10 m c)
def W12 : Valuation τ sig (Elt Ideal) := after ck12 (W11 m c)
def W13 : Valuation τ sig (Elt Ideal) := after ck13 (W12 m c)
def W14 : Valuation τ sig (Elt Ideal) := after ck14 (W13 m c)
def W15 : Valuation τ sig (Elt Ideal) := after ck15 (W14 m c)
def W16 : Valuation τ sig (Elt Ideal) := after ck16 (W15 m c)
def W17 : Valuation τ sig (Elt Ideal) := after ck17 (W16 m c)
def W18 : Valuation τ sig (Elt Ideal) := after ck18 (W17 m c)
def W19 : Valuation τ sig (Elt Ideal) := after ck19 (W18 m c)
def W20 : Valuation τ sig (Elt Ideal) := after ck20 (W19 m c)
def W21 : Valuation τ sig (Elt Ideal) := after ck21 (W20 m c)
def W22 : Valuation τ sig (Elt Ideal) := after ck22 (W21 m c)

/-- The contents after the whole line are the contents after the last piece. -/
theorem after_ops : after (ops : List (HloOp τ sig (Elt Ideal))) (launchContents m c) = W22 m c := by
  rw [ops_split]
  simp only [after_append]
  rfl

/-! ## Each live buffer at each boundary: an argument at its launch contents, a result at its stage -/
theorem W0_arg0 : W0 m c (Proc.devRef .tc main_arg0) = ax0 m c := rfl
theorem W0_arg3 : W0 m c (Proc.devRef .tc main_arg3) = ax3 m c := rfl
theorem W0_arg1 : W0 m c (Proc.devRef .tc main_arg1) = ax1 m c := rfl
theorem W0_arg4 : W0 m c (Proc.devRef .tc main_arg4) = ax4 m c := rfl
theorem W0_arg2 : W0 m c (Proc.devRef .tc main_arg2) = ax2 m c := rfl
theorem W0_arg5 : W0 m c (Proc.devRef .tc main_arg5) = ax5 m c := rfl
theorem W0_arg6 : W0 m c (Proc.devRef .tc main_arg6) = ax6 m c := rfl
theorem W0_arg7 : W0 m c (Proc.devRef .tc main_arg7) = ax7 m c := rfl
theorem W0_arg8 : W0 m c (Proc.devRef .tc main_arg8) = ax8 m c := rfl
theorem W0_arg9 : W0 m c (Proc.devRef .tc main_arg9) = ax9 m c := rfl
theorem W0_arg10 : W0 m c (Proc.devRef .tc main_arg10) = ax10 m c := rfl
theorem W0_arg11 : W0 m c (Proc.devRef .tc main_arg11) = ax11 m c := rfl
theorem W0_arg12 : W0 m c (Proc.devRef .tc main_arg12) = ax12 m c := rfl
theorem W0_arg13 : W0 m c (Proc.devRef .tc main_arg13) = ax13 m c := rfl
theorem W0_arg14 : W0 m c (Proc.devRef .tc main_arg14) = ax14 m c := rfl
theorem W0_arg15 : W0 m c (Proc.devRef .tc main_arg15) = ax15 m c := rfl
theorem W0_arg16 : W0 m c (Proc.devRef .tc main_arg16) = ax16 m c := rfl

theorem W1_arg0 : W1 m c (Proc.devRef .tc main_arg0) = ax0 m c :=
  (after_of_writes_sub ck1 (W0 m c) ck1_writes (by decide : main_arg0 ∉ wr1)).trans (W0_arg0 m c)
theorem W1_arg3 : W1 m c (Proc.devRef .tc main_arg3) = ax3 m c :=
  (after_of_writes_sub ck1 (W0 m c) ck1_writes (by decide : main_arg3 ∉ wr1)).trans (W0_arg3 m c)
theorem W1_v6 : W1 m c (Proc.devRef .tc main_v6) = val_main_v6 (F := Ideal) (ax0 m c) (ax3 m c) := by
  unfold W1 ck1
  after_results_simp
  rw [W0_arg0 m c, W0_arg3 m c]
  rfl
theorem W1_v13 : W1 m c (Proc.devRef .tc main_v13) = val_main_v13 (F := Ideal) (ax1 m c) (ax4 m c) := by
  unfold W1 ck1
  after_results_simp
  rw [W0_arg1 m c, W0_arg4 m c]
  rfl
theorem W1_arg2 : W1 m c (Proc.devRef .tc main_arg2) = ax2 m c :=
  (after_of_writes_sub ck1 (W0 m c) ck1_writes (by decide : main_arg2 ∉ wr1)).trans (W0_arg2 m c)
theorem W1_arg5 : W1 m c (Proc.devRef .tc main_arg5) = ax5 m c :=
  (after_of_writes_sub ck1 (W0 m c) ck1_writes (by decide : main_arg5 ∉ wr1)).trans (W0_arg5 m c)
theorem W1_arg6 : W1 m c (Proc.devRef .tc main_arg6) = ax6 m c :=
  (after_of_writes_sub ck1 (W0 m c) ck1_writes (by decide : main_arg6 ∉ wr1)).trans (W0_arg6 m c)
theorem W1_arg7 : W1 m c (Proc.devRef .tc main_arg7) = ax7 m c :=
  (after_of_writes_sub ck1 (W0 m c) ck1_writes (by decide : main_arg7 ∉ wr1)).trans (W0_arg7 m c)
theorem W1_arg8 : W1 m c (Proc.devRef .tc main_arg8) = ax8 m c :=
  (after_of_writes_sub ck1 (W0 m c) ck1_writes (by decide : main_arg8 ∉ wr1)).trans (W0_arg8 m c)
theorem W1_arg9 : W1 m c (Proc.devRef .tc main_arg9) = ax9 m c :=
  (after_of_writes_sub ck1 (W0 m c) ck1_writes (by decide : main_arg9 ∉ wr1)).trans (W0_arg9 m c)
theorem W1_arg10 : W1 m c (Proc.devRef .tc main_arg10) = ax10 m c :=
  (after_of_writes_sub ck1 (W0 m c) ck1_writes (by decide : main_arg10 ∉ wr1)).trans (W0_arg10 m c)
theorem W1_arg11 : W1 m c (Proc.devRef .tc main_arg11) = ax11 m c :=
  (after_of_writes_sub ck1 (W0 m c) ck1_writes (by decide : main_arg11 ∉ wr1)).trans (W0_arg11 m c)
theorem W1_arg12 : W1 m c (Proc.devRef .tc main_arg12) = ax12 m c :=
  (after_of_writes_sub ck1 (W0 m c) ck1_writes (by decide : main_arg12 ∉ wr1)).trans (W0_arg12 m c)
theorem W1_arg1 : W1 m c (Proc.devRef .tc main_arg1) = ax1 m c :=
  (after_of_writes_sub ck1 (W0 m c) ck1_writes (by decide : main_arg1 ∉ wr1)).trans (W0_arg1 m c)
theorem W1_arg4 : W1 m c (Proc.devRef .tc main_arg4) = ax4 m c :=
  (after_of_writes_sub ck1 (W0 m c) ck1_writes (by decide : main_arg4 ∉ wr1)).trans (W0_arg4 m c)
theorem W1_arg13 : W1 m c (Proc.devRef .tc main_arg13) = ax13 m c :=
  (after_of_writes_sub ck1 (W0 m c) ck1_writes (by decide : main_arg13 ∉ wr1)).trans (W0_arg13 m c)
theorem W1_arg14 : W1 m c (Proc.devRef .tc main_arg14) = ax14 m c :=
  (after_of_writes_sub ck1 (W0 m c) ck1_writes (by decide : main_arg14 ∉ wr1)).trans (W0_arg14 m c)
theorem W1_arg15 : W1 m c (Proc.devRef .tc main_arg15) = ax15 m c :=
  (after_of_writes_sub ck1 (W0 m c) ck1_writes (by decide : main_arg15 ∉ wr1)).trans (W0_arg15 m c)
theorem W1_arg16 : W1 m c (Proc.devRef .tc main_arg16) = ax16 m c :=
  (after_of_writes_sub ck1 (W0 m c) ck1_writes (by decide : main_arg16 ∉ wr1)).trans (W0_arg16 m c)

theorem W2_arg0 : W2 m c (Proc.devRef .tc main_arg0) = ax0 m c :=
  (after_of_writes_sub ck2 (W1 m c) ck2_writes (by decide : main_arg0 ∉ wr2)).trans (W1_arg0 m c)
theorem W2_arg3 : W2 m c (Proc.devRef .tc main_arg3) = ax3 m c :=
  (after_of_writes_sub ck2 (W1 m c) ck2_writes (by decide : main_arg3 ∉ wr2)).trans (W1_arg3 m c)
theorem W2_v14 : W2 m c (Proc.devRef .tc main_v14) = val_main_v14 (F := Ideal) (ax0 m c) (ax1 m c) (ax2 m c) (ax3 m c) (ax4 m c) := by
  unfold W2 ck2
  after_results_simp
  show concatenate S800000x136 1 [⟨S800000x64, (W1 m c (Proc.devRef .tc main_v6))⟩, ⟨S800000x64, (W1 m c (Proc.devRef .tc main_v13))⟩, ⟨S800000x8, (W1 m c (Proc.devRef .tc main_arg2))⟩] concatenates_S800000x64_S800000x64_S800000x8_S800000x136_d1 = _
  rw [W1_v6 m c, W1_v13 m c, W1_arg2 m c]
  rfl
theorem W2_arg5 : W2 m c (Proc.devRef .tc main_arg5) = ax5 m c :=
  (after_of_writes_sub ck2 (W1 m c) ck2_writes (by decide : main_arg5 ∉ wr2)).trans (W1_arg5 m c)
theorem W2_arg6 : W2 m c (Proc.devRef .tc main_arg6) = ax6 m c :=
  (after_of_writes_sub ck2 (W1 m c) ck2_writes (by decide : main_arg6 ∉ wr2)).trans (W1_arg6 m c)
theorem W2_arg7 : W2 m c (Proc.devRef .tc main_arg7) = ax7 m c :=
  (after_of_writes_sub ck2 (W1 m c) ck2_writes (by decide : main_arg7 ∉ wr2)).trans (W1_arg7 m c)
theorem W2_arg8 : W2 m c (Proc.devRef .tc main_arg8) = ax8 m c :=
  (after_of_writes_sub ck2 (W1 m c) ck2_writes (by decide : main_arg8 ∉ wr2)).trans (W1_arg8 m c)
theorem W2_arg9 : W2 m c (Proc.devRef .tc main_arg9) = ax9 m c :=
  (after_of_writes_sub ck2 (W1 m c) ck2_writes (by decide : main_arg9 ∉ wr2)).trans (W1_arg9 m c)
theorem W2_arg10 : W2 m c (Proc.devRef .tc main_arg10) = ax10 m c :=
  (after_of_writes_sub ck2 (W1 m c) ck2_writes (by decide : main_arg10 ∉ wr2)).trans (W1_arg10 m c)
theorem W2_arg11 : W2 m c (Proc.devRef .tc main_arg11) = ax11 m c :=
  (after_of_writes_sub ck2 (W1 m c) ck2_writes (by decide : main_arg11 ∉ wr2)).trans (W1_arg11 m c)
theorem W2_arg12 : W2 m c (Proc.devRef .tc main_arg12) = ax12 m c :=
  (after_of_writes_sub ck2 (W1 m c) ck2_writes (by decide : main_arg12 ∉ wr2)).trans (W1_arg12 m c)
theorem W2_arg1 : W2 m c (Proc.devRef .tc main_arg1) = ax1 m c :=
  (after_of_writes_sub ck2 (W1 m c) ck2_writes (by decide : main_arg1 ∉ wr2)).trans (W1_arg1 m c)
theorem W2_arg4 : W2 m c (Proc.devRef .tc main_arg4) = ax4 m c :=
  (after_of_writes_sub ck2 (W1 m c) ck2_writes (by decide : main_arg4 ∉ wr2)).trans (W1_arg4 m c)
theorem W2_v13 : W2 m c (Proc.devRef .tc main_v13) = val_main_v13 (F := Ideal) (ax1 m c) (ax4 m c) :=
  (after_of_writes_sub ck2 (W1 m c) ck2_writes (by decide : main_v13 ∉ wr2)).trans (W1_v13 m c)
theorem W2_v6 : W2 m c (Proc.devRef .tc main_v6) = val_main_v6 (F := Ideal) (ax0 m c) (ax3 m c) :=
  (after_of_writes_sub ck2 (W1 m c) ck2_writes (by decide : main_v6 ∉ wr2)).trans (W1_v6 m c)
theorem W2_arg2 : W2 m c (Proc.devRef .tc main_arg2) = ax2 m c :=
  (after_of_writes_sub ck2 (W1 m c) ck2_writes (by decide : main_arg2 ∉ wr2)).trans (W1_arg2 m c)
theorem W2_arg13 : W2 m c (Proc.devRef .tc main_arg13) = ax13 m c :=
  (after_of_writes_sub ck2 (W1 m c) ck2_writes (by decide : main_arg13 ∉ wr2)).trans (W1_arg13 m c)
theorem W2_arg14 : W2 m c (Proc.devRef .tc main_arg14) = ax14 m c :=
  (after_of_writes_sub ck2 (W1 m c) ck2_writes (by decide : main_arg14 ∉ wr2)).trans (W1_arg14 m c)
theorem W2_arg15 : W2 m c (Proc.devRef .tc main_arg15) = ax15 m c :=
  (after_of_writes_sub ck2 (W1 m c) ck2_writes (by decide : main_arg15 ∉ wr2)).trans (W1_arg15 m c)
theorem W2_arg16 : W2 m c (Proc.devRef .tc main_arg16) = ax16 m c :=
  (after_of_writes_sub ck2 (W1 m c) ck2_writes (by decide : main_arg16 ∉ wr2)).trans (W1_arg16 m c)

theorem W3_arg0 : W3 m c (Proc.devRef .tc main_arg0) = ax0 m c :=
  (after_of_writes_sub ck3 (W2 m c) ck3_writes (by decide : main_arg0 ∉ wr3)).trans (W2_arg0 m c)
theorem W3_arg3 : W3 m c (Proc.devRef .tc main_arg3) = ax3 m c :=
  (after_of_writes_sub ck3 (W2 m c) ck3_writes (by decide : main_arg3 ∉ wr3)).trans (W2_arg3 m c)
theorem W3_v31 : W3 m c (Proc.devRef .tc main_v31) = val_main_v31 (F := Ideal) (ax0 m c) (ax1 m c) (ax2 m c) (ax3 m c) (ax4 m c) (ax5 m c) (ax6 m c) (ax7 m c) (ax8 m c) := by
  unfold W3 ck3
  after_results_simp
  rw [W2_v14 m c, W2_arg5 m c, W2_arg6 m c, W2_arg7 m c, W2_arg8 m c]
  rfl
theorem W3_arg9 : W3 m c (Proc.devRef .tc main_arg9) = ax9 m c :=
  (after_of_writes_sub ck3 (W2 m c) ck3_writes (by decide : main_arg9 ∉ wr3)).trans (W2_arg9 m c)
theorem W3_arg10 : W3 m c (Proc.devRef .tc main_arg10) = ax10 m c :=
  (after_of_writes_sub ck3 (W2 m c) ck3_writes (by decide : main_arg10 ∉ wr3)).trans (W2_arg10 m c)
theorem W3_arg11 : W3 m c (Proc.devRef .tc main_arg11) = ax11 m c :=
  (after_of_writes_sub ck3 (W2 m c) ck3_writes (by decide : main_arg11 ∉ wr3)).trans (W2_arg11 m c)
theorem W3_arg12 : W3 m c (Proc.devRef .tc main_arg12) = ax12 m c :=
  (after_of_writes_sub ck3 (W2 m c) ck3_writes (by decide : main_arg12 ∉ wr3)).trans (W2_arg12 m c)
theorem W3_arg1 : W3 m c (Proc.devRef .tc main_arg1) = ax1 m c :=
  (after_of_writes_sub ck3 (W2 m c) ck3_writes (by decide : main_arg1 ∉ wr3)).trans (W2_arg1 m c)
theorem W3_arg4 : W3 m c (Proc.devRef .tc main_arg4) = ax4 m c :=
  (after_of_writes_sub ck3 (W2 m c) ck3_writes (by decide : main_arg4 ∉ wr3)).trans (W2_arg4 m c)
theorem W3_v13 : W3 m c (Proc.devRef .tc main_v13) = val_main_v13 (F := Ideal) (ax1 m c) (ax4 m c) :=
  (after_of_writes_sub ck3 (W2 m c) ck3_writes (by decide : main_v13 ∉ wr3)).trans (W2_v13 m c)
theorem W3_v6 : W3 m c (Proc.devRef .tc main_v6) = val_main_v6 (F := Ideal) (ax0 m c) (ax3 m c) :=
  (after_of_writes_sub ck3 (W2 m c) ck3_writes (by decide : main_v6 ∉ wr3)).trans (W2_v6 m c)
theorem W3_arg2 : W3 m c (Proc.devRef .tc main_arg2) = ax2 m c :=
  (after_of_writes_sub ck3 (W2 m c) ck3_writes (by decide : main_arg2 ∉ wr3)).trans (W2_arg2 m c)
theorem W3_arg5 : W3 m c (Proc.devRef .tc main_arg5) = ax5 m c :=
  (after_of_writes_sub ck3 (W2 m c) ck3_writes (by decide : main_arg5 ∉ wr3)).trans (W2_arg5 m c)
theorem W3_arg6 : W3 m c (Proc.devRef .tc main_arg6) = ax6 m c :=
  (after_of_writes_sub ck3 (W2 m c) ck3_writes (by decide : main_arg6 ∉ wr3)).trans (W2_arg6 m c)
theorem W3_arg7 : W3 m c (Proc.devRef .tc main_arg7) = ax7 m c :=
  (after_of_writes_sub ck3 (W2 m c) ck3_writes (by decide : main_arg7 ∉ wr3)).trans (W2_arg7 m c)
theorem W3_arg8 : W3 m c (Proc.devRef .tc main_arg8) = ax8 m c :=
  (after_of_writes_sub ck3 (W2 m c) ck3_writes (by decide : main_arg8 ∉ wr3)).trans (W2_arg8 m c)
theorem W3_arg13 : W3 m c (Proc.devRef .tc main_arg13) = ax13 m c :=
  (after_of_writes_sub ck3 (W2 m c) ck3_writes (by decide : main_arg13 ∉ wr3)).trans (W2_arg13 m c)
theorem W3_arg14 : W3 m c (Proc.devRef .tc main_arg14) = ax14 m c :=
  (after_of_writes_sub ck3 (W2 m c) ck3_writes (by decide : main_arg14 ∉ wr3)).trans (W2_arg14 m c)
theorem W3_arg15 : W3 m c (Proc.devRef .tc main_arg15) = ax15 m c :=
  (after_of_writes_sub ck3 (W2 m c) ck3_writes (by decide : main_arg15 ∉ wr3)).trans (W2_arg15 m c)
theorem W3_arg16 : W3 m c (Proc.devRef .tc main_arg16) = ax16 m c :=
  (after_of_writes_sub ck3 (W2 m c) ck3_writes (by decide : main_arg16 ∉ wr3)).trans (W2_arg16 m c)

theorem W4_arg0 : W4 m c (Proc.devRef .tc main_arg0) = ax0 m c :=
  (after_of_writes_sub ck4 (W3 m c) ck4_writes (by decide : main_arg0 ∉ wr4)).trans (W3_arg0 m c)
theorem W4_v34 : W4 m c (Proc.devRef .tc main_v34) = val_main_v34 (F := Ideal) (ax0 m c) (ax1 m c) (ax2 m c) (ax3 m c) (ax4 m c) (ax5 m c) (ax6 m c) (ax7 m c) (ax8 m c) := by
  unfold W4 ck4
  after_results_simp
  rw [W3_arg3 m c, W3_v31 m c]
  rfl
theorem W4_arg9 : W4 m c (Proc.devRef .tc main_arg9) = ax9 m c :=
  (after_of_writes_sub ck4 (W3 m c) ck4_writes (by decide : main_arg9 ∉ wr4)).trans (W3_arg9 m c)
theorem W4_arg10 : W4 m c (Proc.devRef .tc main_arg10) = ax10 m c :=
  (after_of_writes_sub ck4 (W3 m c) ck4_writes (by decide : main_arg10 ∉ wr4)).trans (W3_arg10 m c)
theorem W4_arg11 : W4 m c (Proc.devRef .tc main_arg11) = ax11 m c :=
  (after_of_writes_sub ck4 (W3 m c) ck4_writes (by decide : main_arg11 ∉ wr4)).trans (W3_arg11 m c)
theorem W4_arg12 : W4 m c (Proc.devRef .tc main_arg12) = ax12 m c :=
  (after_of_writes_sub ck4 (W3 m c) ck4_writes (by decide : main_arg12 ∉ wr4)).trans (W3_arg12 m c)
theorem W4_arg3 : W4 m c (Proc.devRef .tc main_arg3) = ax3 m c :=
  (after_of_writes_sub ck4 (W3 m c) ck4_writes (by decide : main_arg3 ∉ wr4)).trans (W3_arg3 m c)
theorem W4_arg1 : W4 m c (Proc.devRef .tc main_arg1) = ax1 m c :=
  (after_of_writes_sub ck4 (W3 m c) ck4_writes (by decide : main_arg1 ∉ wr4)).trans (W3_arg1 m c)
theorem W4_arg4 : W4 m c (Proc.devRef .tc main_arg4) = ax4 m c :=
  (after_of_writes_sub ck4 (W3 m c) ck4_writes (by decide : main_arg4 ∉ wr4)).trans (W3_arg4 m c)
theorem W4_v13 : W4 m c (Proc.devRef .tc main_v13) = val_main_v13 (F := Ideal) (ax1 m c) (ax4 m c) :=
  (after_of_writes_sub ck4 (W3 m c) ck4_writes (by decide : main_v13 ∉ wr4)).trans (W3_v13 m c)
theorem W4_v6 : W4 m c (Proc.devRef .tc main_v6) = val_main_v6 (F := Ideal) (ax0 m c) (ax3 m c) :=
  (after_of_writes_sub ck4 (W3 m c) ck4_writes (by decide : main_v6 ∉ wr4)).trans (W3_v6 m c)
theorem W4_arg2 : W4 m c (Proc.devRef .tc main_arg2) = ax2 m c :=
  (after_of_writes_sub ck4 (W3 m c) ck4_writes (by decide : main_arg2 ∉ wr4)).trans (W3_arg2 m c)
theorem W4_arg5 : W4 m c (Proc.devRef .tc main_arg5) = ax5 m c :=
  (after_of_writes_sub ck4 (W3 m c) ck4_writes (by decide : main_arg5 ∉ wr4)).trans (W3_arg5 m c)
theorem W4_arg6 : W4 m c (Proc.devRef .tc main_arg6) = ax6 m c :=
  (after_of_writes_sub ck4 (W3 m c) ck4_writes (by decide : main_arg6 ∉ wr4)).trans (W3_arg6 m c)
theorem W4_arg7 : W4 m c (Proc.devRef .tc main_arg7) = ax7 m c :=
  (after_of_writes_sub ck4 (W3 m c) ck4_writes (by decide : main_arg7 ∉ wr4)).trans (W3_arg7 m c)
theorem W4_arg8 : W4 m c (Proc.devRef .tc main_arg8) = ax8 m c :=
  (after_of_writes_sub ck4 (W3 m c) ck4_writes (by decide : main_arg8 ∉ wr4)).trans (W3_arg8 m c)
theorem W4_arg13 : W4 m c (Proc.devRef .tc main_arg13) = ax13 m c :=
  (after_of_writes_sub ck4 (W3 m c) ck4_writes (by decide : main_arg13 ∉ wr4)).trans (W3_arg13 m c)
theorem W4_arg14 : W4 m c (Proc.devRef .tc main_arg14) = ax14 m c :=
  (after_of_writes_sub ck4 (W3 m c) ck4_writes (by decide : main_arg14 ∉ wr4)).trans (W3_arg14 m c)
theorem W4_arg15 : W4 m c (Proc.devRef .tc main_arg15) = ax15 m c :=
  (after_of_writes_sub ck4 (W3 m c) ck4_writes (by decide : main_arg15 ∉ wr4)).trans (W3_arg15 m c)
theorem W4_arg16 : W4 m c (Proc.devRef .tc main_arg16) = ax16 m c :=
  (after_of_writes_sub ck4 (W3 m c) ck4_writes (by decide : main_arg16 ∉ wr4)).trans (W3_arg16 m c)

theorem W5_v35 : W5 m c (Proc.devRef .tc main_v35) = val_main_v35 (F := Ideal) (ax0 m c) (ax1 m c) (ax2 m c) (ax3 m c) (ax4 m c) (ax5 m c) (ax6 m c) (ax7 m c) (ax8 m c) := by
  unfold W5 ck5
  after_results_simp
  show concatenate S50000x128 1 [⟨S50000x64, (W4 m c (Proc.devRef .tc main_arg0))⟩, ⟨S50000x64, (W4 m c (Proc.devRef .tc main_v34))⟩] concatenates_S50000x64_S50000x64_S50000x128_d1 = _
  rw [W4_arg0 m c, W4_v34 m c]
  rfl
theorem W5_arg9 : W5 m c (Proc.devRef .tc main_arg9) = ax9 m c :=
  (after_of_writes_sub ck5 (W4 m c) ck5_writes (by decide : main_arg9 ∉ wr5)).trans (W4_arg9 m c)
theorem W5_arg10 : W5 m c (Proc.devRef .tc main_arg10) = ax10 m c :=
  (after_of_writes_sub ck5 (W4 m c) ck5_writes (by decide : main_arg10 ∉ wr5)).trans (W4_arg10 m c)
theorem W5_arg11 : W5 m c (Proc.devRef .tc main_arg11) = ax11 m c :=
  (after_of_writes_sub ck5 (W4 m c) ck5_writes (by decide : main_arg11 ∉ wr5)).trans (W4_arg11 m c)
theorem W5_arg12 : W5 m c (Proc.devRef .tc main_arg12) = ax12 m c :=
  (after_of_writes_sub ck5 (W4 m c) ck5_writes (by decide : main_arg12 ∉ wr5)).trans (W4_arg12 m c)
theorem W5_arg3 : W5 m c (Proc.devRef .tc main_arg3) = ax3 m c :=
  (after_of_writes_sub ck5 (W4 m c) ck5_writes (by decide : main_arg3 ∉ wr5)).trans (W4_arg3 m c)
theorem W5_arg1 : W5 m c (Proc.devRef .tc main_arg1) = ax1 m c :=
  (after_of_writes_sub ck5 (W4 m c) ck5_writes (by decide : main_arg1 ∉ wr5)).trans (W4_arg1 m c)
theorem W5_arg4 : W5 m c (Proc.devRef .tc main_arg4) = ax4 m c :=
  (after_of_writes_sub ck5 (W4 m c) ck5_writes (by decide : main_arg4 ∉ wr5)).trans (W4_arg4 m c)
theorem W5_v13 : W5 m c (Proc.devRef .tc main_v13) = val_main_v13 (F := Ideal) (ax1 m c) (ax4 m c) :=
  (after_of_writes_sub ck5 (W4 m c) ck5_writes (by decide : main_v13 ∉ wr5)).trans (W4_v13 m c)
theorem W5_v6 : W5 m c (Proc.devRef .tc main_v6) = val_main_v6 (F := Ideal) (ax0 m c) (ax3 m c) :=
  (after_of_writes_sub ck5 (W4 m c) ck5_writes (by decide : main_v6 ∉ wr5)).trans (W4_v6 m c)
theorem W5_arg2 : W5 m c (Proc.devRef .tc main_arg2) = ax2 m c :=
  (after_of_writes_sub ck5 (W4 m c) ck5_writes (by decide : main_arg2 ∉ wr5)).trans (W4_arg2 m c)
theorem W5_arg5 : W5 m c (Proc.devRef .tc main_arg5) = ax5 m c :=
  (after_of_writes_sub ck5 (W4 m c) ck5_writes (by decide : main_arg5 ∉ wr5)).trans (W4_arg5 m c)
theorem W5_arg6 : W5 m c (Proc.devRef .tc main_arg6) = ax6 m c :=
  (after_of_writes_sub ck5 (W4 m c) ck5_writes (by decide : main_arg6 ∉ wr5)).trans (W4_arg6 m c)
theorem W5_arg7 : W5 m c (Proc.devRef .tc main_arg7) = ax7 m c :=
  (after_of_writes_sub ck5 (W4 m c) ck5_writes (by decide : main_arg7 ∉ wr5)).trans (W4_arg7 m c)
theorem W5_arg8 : W5 m c (Proc.devRef .tc main_arg8) = ax8 m c :=
  (after_of_writes_sub ck5 (W4 m c) ck5_writes (by decide : main_arg8 ∉ wr5)).trans (W4_arg8 m c)
theorem W5_arg13 : W5 m c (Proc.devRef .tc main_arg13) = ax13 m c :=
  (after_of_writes_sub ck5 (W4 m c) ck5_writes (by decide : main_arg13 ∉ wr5)).trans (W4_arg13 m c)
theorem W5_arg14 : W5 m c (Proc.devRef .tc main_arg14) = ax14 m c :=
  (after_of_writes_sub ck5 (W4 m c) ck5_writes (by decide : main_arg14 ∉ wr5)).trans (W4_arg14 m c)
theorem W5_arg15 : W5 m c (Proc.devRef .tc main_arg15) = ax15 m c :=
  (after_of_writes_sub ck5 (W4 m c) ck5_writes (by decide : main_arg15 ∉ wr5)).trans (W4_arg15 m c)
theorem W5_arg16 : W5 m c (Proc.devRef .tc main_arg16) = ax16 m c :=
  (after_of_writes_sub ck5 (W4 m c) ck5_writes (by decide : main_arg16 ∉ wr5)).trans (W4_arg16 m c)
theorem W5_arg0 : W5 m c (Proc.devRef .tc main_arg0) = ax0 m c :=
  (after_of_writes_sub ck5 (W4 m c) ck5_writes (by decide : main_arg0 ∉ wr5)).trans (W4_arg0 m c)

theorem W6_v52 : W6 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) := by
  unfold W6 ck6
  after_results_simp
  rw [W5_v35 m c, W5_arg9 m c, W5_arg10 m c, W5_arg11 m c, W5_arg12 m c]
  rfl
theorem W6_arg3 : W6 m c (Proc.devRef .tc main_arg3) = ax3 m c :=
  (after_of_writes_sub ck6 (W5 m c) ck6_writes (by decide : main_arg3 ∉ wr6)).trans (W5_arg3 m c)
theorem W6_arg1 : W6 m c (Proc.devRef .tc main_arg1) = ax1 m c :=
  (after_of_writes_sub ck6 (W5 m c) ck6_writes (by decide : main_arg1 ∉ wr6)).trans (W5_arg1 m c)
theorem W6_arg4 : W6 m c (Proc.devRef .tc main_arg4) = ax4 m c :=
  (after_of_writes_sub ck6 (W5 m c) ck6_writes (by decide : main_arg4 ∉ wr6)).trans (W5_arg4 m c)
theorem W6_v13 : W6 m c (Proc.devRef .tc main_v13) = val_main_v13 (F := Ideal) (ax1 m c) (ax4 m c) :=
  (after_of_writes_sub ck6 (W5 m c) ck6_writes (by decide : main_v13 ∉ wr6)).trans (W5_v13 m c)
theorem W6_v6 : W6 m c (Proc.devRef .tc main_v6) = val_main_v6 (F := Ideal) (ax0 m c) (ax3 m c) :=
  (after_of_writes_sub ck6 (W5 m c) ck6_writes (by decide : main_v6 ∉ wr6)).trans (W5_v6 m c)
theorem W6_arg2 : W6 m c (Proc.devRef .tc main_arg2) = ax2 m c :=
  (after_of_writes_sub ck6 (W5 m c) ck6_writes (by decide : main_arg2 ∉ wr6)).trans (W5_arg2 m c)
theorem W6_arg5 : W6 m c (Proc.devRef .tc main_arg5) = ax5 m c :=
  (after_of_writes_sub ck6 (W5 m c) ck6_writes (by decide : main_arg5 ∉ wr6)).trans (W5_arg5 m c)
theorem W6_arg6 : W6 m c (Proc.devRef .tc main_arg6) = ax6 m c :=
  (after_of_writes_sub ck6 (W5 m c) ck6_writes (by decide : main_arg6 ∉ wr6)).trans (W5_arg6 m c)
theorem W6_arg7 : W6 m c (Proc.devRef .tc main_arg7) = ax7 m c :=
  (after_of_writes_sub ck6 (W5 m c) ck6_writes (by decide : main_arg7 ∉ wr6)).trans (W5_arg7 m c)
theorem W6_arg8 : W6 m c (Proc.devRef .tc main_arg8) = ax8 m c :=
  (after_of_writes_sub ck6 (W5 m c) ck6_writes (by decide : main_arg8 ∉ wr6)).trans (W5_arg8 m c)
theorem W6_arg13 : W6 m c (Proc.devRef .tc main_arg13) = ax13 m c :=
  (after_of_writes_sub ck6 (W5 m c) ck6_writes (by decide : main_arg13 ∉ wr6)).trans (W5_arg13 m c)
theorem W6_arg14 : W6 m c (Proc.devRef .tc main_arg14) = ax14 m c :=
  (after_of_writes_sub ck6 (W5 m c) ck6_writes (by decide : main_arg14 ∉ wr6)).trans (W5_arg14 m c)
theorem W6_arg15 : W6 m c (Proc.devRef .tc main_arg15) = ax15 m c :=
  (after_of_writes_sub ck6 (W5 m c) ck6_writes (by decide : main_arg15 ∉ wr6)).trans (W5_arg15 m c)
theorem W6_arg16 : W6 m c (Proc.devRef .tc main_arg16) = ax16 m c :=
  (after_of_writes_sub ck6 (W5 m c) ck6_writes (by decide : main_arg16 ∉ wr6)).trans (W5_arg16 m c)
theorem W6_arg9 : W6 m c (Proc.devRef .tc main_arg9) = ax9 m c :=
  (after_of_writes_sub ck6 (W5 m c) ck6_writes (by decide : main_arg9 ∉ wr6)).trans (W5_arg9 m c)
theorem W6_arg10 : W6 m c (Proc.devRef .tc main_arg10) = ax10 m c :=
  (after_of_writes_sub ck6 (W5 m c) ck6_writes (by decide : main_arg10 ∉ wr6)).trans (W5_arg10 m c)
theorem W6_arg11 : W6 m c (Proc.devRef .tc main_arg11) = ax11 m c :=
  (after_of_writes_sub ck6 (W5 m c) ck6_writes (by decide : main_arg11 ∉ wr6)).trans (W5_arg11 m c)
theorem W6_arg12 : W6 m c (Proc.devRef .tc main_arg12) = ax12 m c :=
  (after_of_writes_sub ck6 (W5 m c) ck6_writes (by decide : main_arg12 ∉ wr6)).trans (W5_arg12 m c)
theorem W6_arg0 : W6 m c (Proc.devRef .tc main_arg0) = ax0 m c :=
  (after_of_writes_sub ck6 (W5 m c) ck6_writes (by decide : main_arg0 ∉ wr6)).trans (W5_arg0 m c)

theorem W7_v52 : W7 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck7 (W6 m c) ck7_writes (by decide : main_v52 ∉ wr7)).trans (W6_v52 m c)
theorem W7_arg3 : W7 m c (Proc.devRef .tc main_arg3) = ax3 m c :=
  (after_of_writes_sub ck7 (W6 m c) ck7_writes (by decide : main_arg3 ∉ wr7)).trans (W6_arg3 m c)
theorem W7_arg1 : W7 m c (Proc.devRef .tc main_arg1) = ax1 m c :=
  (after_of_writes_sub ck7 (W6 m c) ck7_writes (by decide : main_arg1 ∉ wr7)).trans (W6_arg1 m c)
theorem W7_arg4 : W7 m c (Proc.devRef .tc main_arg4) = ax4 m c :=
  (after_of_writes_sub ck7 (W6 m c) ck7_writes (by decide : main_arg4 ∉ wr7)).trans (W6_arg4 m c)
theorem W7_v53 : W7 m c (Proc.devRef .tc main_v53) = val_main_v53 (F := Ideal) (ax0 m c) (ax1 m c) (ax2 m c) (ax3 m c) (ax4 m c) := by
  unfold W7 ck7
  after_results_simp
  show concatenate S800000x136 1 [⟨S800000x64, (W6 m c (Proc.devRef .tc main_v13))⟩, ⟨S800000x64, (W6 m c (Proc.devRef .tc main_v6))⟩, ⟨S800000x8, (W6 m c (Proc.devRef .tc main_arg2))⟩] concatenates_S800000x64_S800000x64_S800000x8_S800000x136_d1 = _
  rw [W6_v13 m c, W6_v6 m c, W6_arg2 m c]
  rfl
theorem W7_arg5 : W7 m c (Proc.devRef .tc main_arg5) = ax5 m c :=
  (after_of_writes_sub ck7 (W6 m c) ck7_writes (by decide : main_arg5 ∉ wr7)).trans (W6_arg5 m c)
theorem W7_arg6 : W7 m c (Proc.devRef .tc main_arg6) = ax6 m c :=
  (after_of_writes_sub ck7 (W6 m c) ck7_writes (by decide : main_arg6 ∉ wr7)).trans (W6_arg6 m c)
theorem W7_arg7 : W7 m c (Proc.devRef .tc main_arg7) = ax7 m c :=
  (after_of_writes_sub ck7 (W6 m c) ck7_writes (by decide : main_arg7 ∉ wr7)).trans (W6_arg7 m c)
theorem W7_arg8 : W7 m c (Proc.devRef .tc main_arg8) = ax8 m c :=
  (after_of_writes_sub ck7 (W6 m c) ck7_writes (by decide : main_arg8 ∉ wr7)).trans (W6_arg8 m c)
theorem W7_arg13 : W7 m c (Proc.devRef .tc main_arg13) = ax13 m c :=
  (after_of_writes_sub ck7 (W6 m c) ck7_writes (by decide : main_arg13 ∉ wr7)).trans (W6_arg13 m c)
theorem W7_arg14 : W7 m c (Proc.devRef .tc main_arg14) = ax14 m c :=
  (after_of_writes_sub ck7 (W6 m c) ck7_writes (by decide : main_arg14 ∉ wr7)).trans (W6_arg14 m c)
theorem W7_arg15 : W7 m c (Proc.devRef .tc main_arg15) = ax15 m c :=
  (after_of_writes_sub ck7 (W6 m c) ck7_writes (by decide : main_arg15 ∉ wr7)).trans (W6_arg15 m c)
theorem W7_arg16 : W7 m c (Proc.devRef .tc main_arg16) = ax16 m c :=
  (after_of_writes_sub ck7 (W6 m c) ck7_writes (by decide : main_arg16 ∉ wr7)).trans (W6_arg16 m c)
theorem W7_arg2 : W7 m c (Proc.devRef .tc main_arg2) = ax2 m c :=
  (after_of_writes_sub ck7 (W6 m c) ck7_writes (by decide : main_arg2 ∉ wr7)).trans (W6_arg2 m c)
theorem W7_arg9 : W7 m c (Proc.devRef .tc main_arg9) = ax9 m c :=
  (after_of_writes_sub ck7 (W6 m c) ck7_writes (by decide : main_arg9 ∉ wr7)).trans (W6_arg9 m c)
theorem W7_arg10 : W7 m c (Proc.devRef .tc main_arg10) = ax10 m c :=
  (after_of_writes_sub ck7 (W6 m c) ck7_writes (by decide : main_arg10 ∉ wr7)).trans (W6_arg10 m c)
theorem W7_arg11 : W7 m c (Proc.devRef .tc main_arg11) = ax11 m c :=
  (after_of_writes_sub ck7 (W6 m c) ck7_writes (by decide : main_arg11 ∉ wr7)).trans (W6_arg11 m c)
theorem W7_arg12 : W7 m c (Proc.devRef .tc main_arg12) = ax12 m c :=
  (after_of_writes_sub ck7 (W6 m c) ck7_writes (by decide : main_arg12 ∉ wr7)).trans (W6_arg12 m c)
theorem W7_arg0 : W7 m c (Proc.devRef .tc main_arg0) = ax0 m c :=
  (after_of_writes_sub ck7 (W6 m c) ck7_writes (by decide : main_arg0 ∉ wr7)).trans (W6_arg0 m c)

theorem W8_v52 : W8 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck8 (W7 m c) ck8_writes (by decide : main_v52 ∉ wr8)).trans (W7_v52 m c)
theorem W8_arg3 : W8 m c (Proc.devRef .tc main_arg3) = ax3 m c :=
  (after_of_writes_sub ck8 (W7 m c) ck8_writes (by decide : main_arg3 ∉ wr8)).trans (W7_arg3 m c)
theorem W8_arg1 : W8 m c (Proc.devRef .tc main_arg1) = ax1 m c :=
  (after_of_writes_sub ck8 (W7 m c) ck8_writes (by decide : main_arg1 ∉ wr8)).trans (W7_arg1 m c)
theorem W8_arg4 : W8 m c (Proc.devRef .tc main_arg4) = ax4 m c :=
  (after_of_writes_sub ck8 (W7 m c) ck8_writes (by decide : main_arg4 ∉ wr8)).trans (W7_arg4 m c)
theorem W8_v70 : W8 m c (Proc.devRef .tc main_v70) = val_main_v70 (F := Ideal) (ax0 m c) (ax1 m c) (ax2 m c) (ax3 m c) (ax4 m c) (ax5 m c) (ax6 m c) (ax7 m c) (ax8 m c) := by
  unfold W8 ck8
  after_results_simp
  rw [W7_v53 m c, W7_arg5 m c, W7_arg6 m c, W7_arg7 m c, W7_arg8 m c]
  rfl
theorem W8_arg13 : W8 m c (Proc.devRef .tc main_arg13) = ax13 m c :=
  (after_of_writes_sub ck8 (W7 m c) ck8_writes (by decide : main_arg13 ∉ wr8)).trans (W7_arg13 m c)
theorem W8_arg14 : W8 m c (Proc.devRef .tc main_arg14) = ax14 m c :=
  (after_of_writes_sub ck8 (W7 m c) ck8_writes (by decide : main_arg14 ∉ wr8)).trans (W7_arg14 m c)
theorem W8_arg15 : W8 m c (Proc.devRef .tc main_arg15) = ax15 m c :=
  (after_of_writes_sub ck8 (W7 m c) ck8_writes (by decide : main_arg15 ∉ wr8)).trans (W7_arg15 m c)
theorem W8_arg16 : W8 m c (Proc.devRef .tc main_arg16) = ax16 m c :=
  (after_of_writes_sub ck8 (W7 m c) ck8_writes (by decide : main_arg16 ∉ wr8)).trans (W7_arg16 m c)
theorem W8_arg2 : W8 m c (Proc.devRef .tc main_arg2) = ax2 m c :=
  (after_of_writes_sub ck8 (W7 m c) ck8_writes (by decide : main_arg2 ∉ wr8)).trans (W7_arg2 m c)
theorem W8_arg5 : W8 m c (Proc.devRef .tc main_arg5) = ax5 m c :=
  (after_of_writes_sub ck8 (W7 m c) ck8_writes (by decide : main_arg5 ∉ wr8)).trans (W7_arg5 m c)
theorem W8_arg6 : W8 m c (Proc.devRef .tc main_arg6) = ax6 m c :=
  (after_of_writes_sub ck8 (W7 m c) ck8_writes (by decide : main_arg6 ∉ wr8)).trans (W7_arg6 m c)
theorem W8_arg7 : W8 m c (Proc.devRef .tc main_arg7) = ax7 m c :=
  (after_of_writes_sub ck8 (W7 m c) ck8_writes (by decide : main_arg7 ∉ wr8)).trans (W7_arg7 m c)
theorem W8_arg8 : W8 m c (Proc.devRef .tc main_arg8) = ax8 m c :=
  (after_of_writes_sub ck8 (W7 m c) ck8_writes (by decide : main_arg8 ∉ wr8)).trans (W7_arg8 m c)
theorem W8_arg9 : W8 m c (Proc.devRef .tc main_arg9) = ax9 m c :=
  (after_of_writes_sub ck8 (W7 m c) ck8_writes (by decide : main_arg9 ∉ wr8)).trans (W7_arg9 m c)
theorem W8_arg10 : W8 m c (Proc.devRef .tc main_arg10) = ax10 m c :=
  (after_of_writes_sub ck8 (W7 m c) ck8_writes (by decide : main_arg10 ∉ wr8)).trans (W7_arg10 m c)
theorem W8_arg11 : W8 m c (Proc.devRef .tc main_arg11) = ax11 m c :=
  (after_of_writes_sub ck8 (W7 m c) ck8_writes (by decide : main_arg11 ∉ wr8)).trans (W7_arg11 m c)
theorem W8_arg12 : W8 m c (Proc.devRef .tc main_arg12) = ax12 m c :=
  (after_of_writes_sub ck8 (W7 m c) ck8_writes (by decide : main_arg12 ∉ wr8)).trans (W7_arg12 m c)
theorem W8_arg0 : W8 m c (Proc.devRef .tc main_arg0) = ax0 m c :=
  (after_of_writes_sub ck8 (W7 m c) ck8_writes (by decide : main_arg0 ∉ wr8)).trans (W7_arg0 m c)

theorem W9_v52 : W9 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck9 (W8 m c) ck9_writes (by decide : main_v52 ∉ wr9)).trans (W8_v52 m c)
theorem W9_arg3 : W9 m c (Proc.devRef .tc main_arg3) = ax3 m c :=
  (after_of_writes_sub ck9 (W8 m c) ck9_writes (by decide : main_arg3 ∉ wr9)).trans (W8_arg3 m c)
theorem W9_arg1 : W9 m c (Proc.devRef .tc main_arg1) = ax1 m c :=
  (after_of_writes_sub ck9 (W8 m c) ck9_writes (by decide : main_arg1 ∉ wr9)).trans (W8_arg1 m c)
theorem W9_v73 : W9 m c (Proc.devRef .tc main_v73) = val_main_v73 (F := Ideal) (ax0 m c) (ax1 m c) (ax2 m c) (ax3 m c) (ax4 m c) (ax5 m c) (ax6 m c) (ax7 m c) (ax8 m c) := by
  unfold W9 ck9
  after_results_simp
  rw [W8_arg4 m c, W8_v70 m c]
  rfl
theorem W9_arg13 : W9 m c (Proc.devRef .tc main_arg13) = ax13 m c :=
  (after_of_writes_sub ck9 (W8 m c) ck9_writes (by decide : main_arg13 ∉ wr9)).trans (W8_arg13 m c)
theorem W9_arg14 : W9 m c (Proc.devRef .tc main_arg14) = ax14 m c :=
  (after_of_writes_sub ck9 (W8 m c) ck9_writes (by decide : main_arg14 ∉ wr9)).trans (W8_arg14 m c)
theorem W9_arg15 : W9 m c (Proc.devRef .tc main_arg15) = ax15 m c :=
  (after_of_writes_sub ck9 (W8 m c) ck9_writes (by decide : main_arg15 ∉ wr9)).trans (W8_arg15 m c)
theorem W9_arg16 : W9 m c (Proc.devRef .tc main_arg16) = ax16 m c :=
  (after_of_writes_sub ck9 (W8 m c) ck9_writes (by decide : main_arg16 ∉ wr9)).trans (W8_arg16 m c)
theorem W9_arg4 : W9 m c (Proc.devRef .tc main_arg4) = ax4 m c :=
  (after_of_writes_sub ck9 (W8 m c) ck9_writes (by decide : main_arg4 ∉ wr9)).trans (W8_arg4 m c)
theorem W9_arg2 : W9 m c (Proc.devRef .tc main_arg2) = ax2 m c :=
  (after_of_writes_sub ck9 (W8 m c) ck9_writes (by decide : main_arg2 ∉ wr9)).trans (W8_arg2 m c)
theorem W9_arg5 : W9 m c (Proc.devRef .tc main_arg5) = ax5 m c :=
  (after_of_writes_sub ck9 (W8 m c) ck9_writes (by decide : main_arg5 ∉ wr9)).trans (W8_arg5 m c)
theorem W9_arg6 : W9 m c (Proc.devRef .tc main_arg6) = ax6 m c :=
  (after_of_writes_sub ck9 (W8 m c) ck9_writes (by decide : main_arg6 ∉ wr9)).trans (W8_arg6 m c)
theorem W9_arg7 : W9 m c (Proc.devRef .tc main_arg7) = ax7 m c :=
  (after_of_writes_sub ck9 (W8 m c) ck9_writes (by decide : main_arg7 ∉ wr9)).trans (W8_arg7 m c)
theorem W9_arg8 : W9 m c (Proc.devRef .tc main_arg8) = ax8 m c :=
  (after_of_writes_sub ck9 (W8 m c) ck9_writes (by decide : main_arg8 ∉ wr9)).trans (W8_arg8 m c)
theorem W9_arg9 : W9 m c (Proc.devRef .tc main_arg9) = ax9 m c :=
  (after_of_writes_sub ck9 (W8 m c) ck9_writes (by decide : main_arg9 ∉ wr9)).trans (W8_arg9 m c)
theorem W9_arg10 : W9 m c (Proc.devRef .tc main_arg10) = ax10 m c :=
  (after_of_writes_sub ck9 (W8 m c) ck9_writes (by decide : main_arg10 ∉ wr9)).trans (W8_arg10 m c)
theorem W9_arg11 : W9 m c (Proc.devRef .tc main_arg11) = ax11 m c :=
  (after_of_writes_sub ck9 (W8 m c) ck9_writes (by decide : main_arg11 ∉ wr9)).trans (W8_arg11 m c)
theorem W9_arg12 : W9 m c (Proc.devRef .tc main_arg12) = ax12 m c :=
  (after_of_writes_sub ck9 (W8 m c) ck9_writes (by decide : main_arg12 ∉ wr9)).trans (W8_arg12 m c)
theorem W9_arg0 : W9 m c (Proc.devRef .tc main_arg0) = ax0 m c :=
  (after_of_writes_sub ck9 (W8 m c) ck9_writes (by decide : main_arg0 ∉ wr9)).trans (W8_arg0 m c)

theorem W10_v52 : W10 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck10 (W9 m c) ck10_writes (by decide : main_v52 ∉ wr10)).trans (W9_v52 m c)
theorem W10_arg3 : W10 m c (Proc.devRef .tc main_arg3) = ax3 m c :=
  (after_of_writes_sub ck10 (W9 m c) ck10_writes (by decide : main_arg3 ∉ wr10)).trans (W9_arg3 m c)
theorem W10_v74 : W10 m c (Proc.devRef .tc main_v74) = val_main_v74 (F := Ideal) (ax0 m c) (ax1 m c) (ax2 m c) (ax3 m c) (ax4 m c) (ax5 m c) (ax6 m c) (ax7 m c) (ax8 m c) := by
  unfold W10 ck10
  after_results_simp
  show concatenate S50000x128 1 [⟨S50000x64, (W9 m c (Proc.devRef .tc main_arg1))⟩, ⟨S50000x64, (W9 m c (Proc.devRef .tc main_v73))⟩] concatenates_S50000x64_S50000x64_S50000x128_d1 = _
  rw [W9_arg1 m c, W9_v73 m c]
  rfl
theorem W10_arg13 : W10 m c (Proc.devRef .tc main_arg13) = ax13 m c :=
  (after_of_writes_sub ck10 (W9 m c) ck10_writes (by decide : main_arg13 ∉ wr10)).trans (W9_arg13 m c)
theorem W10_arg14 : W10 m c (Proc.devRef .tc main_arg14) = ax14 m c :=
  (after_of_writes_sub ck10 (W9 m c) ck10_writes (by decide : main_arg14 ∉ wr10)).trans (W9_arg14 m c)
theorem W10_arg15 : W10 m c (Proc.devRef .tc main_arg15) = ax15 m c :=
  (after_of_writes_sub ck10 (W9 m c) ck10_writes (by decide : main_arg15 ∉ wr10)).trans (W9_arg15 m c)
theorem W10_arg16 : W10 m c (Proc.devRef .tc main_arg16) = ax16 m c :=
  (after_of_writes_sub ck10 (W9 m c) ck10_writes (by decide : main_arg16 ∉ wr10)).trans (W9_arg16 m c)
theorem W10_arg4 : W10 m c (Proc.devRef .tc main_arg4) = ax4 m c :=
  (after_of_writes_sub ck10 (W9 m c) ck10_writes (by decide : main_arg4 ∉ wr10)).trans (W9_arg4 m c)
theorem W10_arg2 : W10 m c (Proc.devRef .tc main_arg2) = ax2 m c :=
  (after_of_writes_sub ck10 (W9 m c) ck10_writes (by decide : main_arg2 ∉ wr10)).trans (W9_arg2 m c)
theorem W10_arg5 : W10 m c (Proc.devRef .tc main_arg5) = ax5 m c :=
  (after_of_writes_sub ck10 (W9 m c) ck10_writes (by decide : main_arg5 ∉ wr10)).trans (W9_arg5 m c)
theorem W10_arg6 : W10 m c (Proc.devRef .tc main_arg6) = ax6 m c :=
  (after_of_writes_sub ck10 (W9 m c) ck10_writes (by decide : main_arg6 ∉ wr10)).trans (W9_arg6 m c)
theorem W10_arg7 : W10 m c (Proc.devRef .tc main_arg7) = ax7 m c :=
  (after_of_writes_sub ck10 (W9 m c) ck10_writes (by decide : main_arg7 ∉ wr10)).trans (W9_arg7 m c)
theorem W10_arg8 : W10 m c (Proc.devRef .tc main_arg8) = ax8 m c :=
  (after_of_writes_sub ck10 (W9 m c) ck10_writes (by decide : main_arg8 ∉ wr10)).trans (W9_arg8 m c)
theorem W10_arg9 : W10 m c (Proc.devRef .tc main_arg9) = ax9 m c :=
  (after_of_writes_sub ck10 (W9 m c) ck10_writes (by decide : main_arg9 ∉ wr10)).trans (W9_arg9 m c)
theorem W10_arg10 : W10 m c (Proc.devRef .tc main_arg10) = ax10 m c :=
  (after_of_writes_sub ck10 (W9 m c) ck10_writes (by decide : main_arg10 ∉ wr10)).trans (W9_arg10 m c)
theorem W10_arg11 : W10 m c (Proc.devRef .tc main_arg11) = ax11 m c :=
  (after_of_writes_sub ck10 (W9 m c) ck10_writes (by decide : main_arg11 ∉ wr10)).trans (W9_arg11 m c)
theorem W10_arg12 : W10 m c (Proc.devRef .tc main_arg12) = ax12 m c :=
  (after_of_writes_sub ck10 (W9 m c) ck10_writes (by decide : main_arg12 ∉ wr10)).trans (W9_arg12 m c)
theorem W10_arg0 : W10 m c (Proc.devRef .tc main_arg0) = ax0 m c :=
  (after_of_writes_sub ck10 (W9 m c) ck10_writes (by decide : main_arg0 ∉ wr10)).trans (W9_arg0 m c)
theorem W10_arg1 : W10 m c (Proc.devRef .tc main_arg1) = ax1 m c :=
  (after_of_writes_sub ck10 (W9 m c) ck10_writes (by decide : main_arg1 ∉ wr10)).trans (W9_arg1 m c)

theorem W11_v52 : W11 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck11 (W10 m c) ck11_writes (by decide : main_v52 ∉ wr11)).trans (W10_v52 m c)
theorem W11_arg3 : W11 m c (Proc.devRef .tc main_arg3) = ax3 m c :=
  (after_of_writes_sub ck11 (W10 m c) ck11_writes (by decide : main_arg3 ∉ wr11)).trans (W10_arg3 m c)
theorem W11_v91 : W11 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) := by
  unfold W11 ck11
  after_results_simp
  rw [W10_v74 m c, W10_arg13 m c, W10_arg14 m c, W10_arg15 m c, W10_arg16 m c]
  rfl
theorem W11_arg4 : W11 m c (Proc.devRef .tc main_arg4) = ax4 m c :=
  (after_of_writes_sub ck11 (W10 m c) ck11_writes (by decide : main_arg4 ∉ wr11)).trans (W10_arg4 m c)
theorem W11_arg2 : W11 m c (Proc.devRef .tc main_arg2) = ax2 m c :=
  (after_of_writes_sub ck11 (W10 m c) ck11_writes (by decide : main_arg2 ∉ wr11)).trans (W10_arg2 m c)
theorem W11_arg5 : W11 m c (Proc.devRef .tc main_arg5) = ax5 m c :=
  (after_of_writes_sub ck11 (W10 m c) ck11_writes (by decide : main_arg5 ∉ wr11)).trans (W10_arg5 m c)
theorem W11_arg6 : W11 m c (Proc.devRef .tc main_arg6) = ax6 m c :=
  (after_of_writes_sub ck11 (W10 m c) ck11_writes (by decide : main_arg6 ∉ wr11)).trans (W10_arg6 m c)
theorem W11_arg7 : W11 m c (Proc.devRef .tc main_arg7) = ax7 m c :=
  (after_of_writes_sub ck11 (W10 m c) ck11_writes (by decide : main_arg7 ∉ wr11)).trans (W10_arg7 m c)
theorem W11_arg8 : W11 m c (Proc.devRef .tc main_arg8) = ax8 m c :=
  (after_of_writes_sub ck11 (W10 m c) ck11_writes (by decide : main_arg8 ∉ wr11)).trans (W10_arg8 m c)
theorem W11_arg9 : W11 m c (Proc.devRef .tc main_arg9) = ax9 m c :=
  (after_of_writes_sub ck11 (W10 m c) ck11_writes (by decide : main_arg9 ∉ wr11)).trans (W10_arg9 m c)
theorem W11_arg10 : W11 m c (Proc.devRef .tc main_arg10) = ax10 m c :=
  (after_of_writes_sub ck11 (W10 m c) ck11_writes (by decide : main_arg10 ∉ wr11)).trans (W10_arg10 m c)
theorem W11_arg11 : W11 m c (Proc.devRef .tc main_arg11) = ax11 m c :=
  (after_of_writes_sub ck11 (W10 m c) ck11_writes (by decide : main_arg11 ∉ wr11)).trans (W10_arg11 m c)
theorem W11_arg12 : W11 m c (Proc.devRef .tc main_arg12) = ax12 m c :=
  (after_of_writes_sub ck11 (W10 m c) ck11_writes (by decide : main_arg12 ∉ wr11)).trans (W10_arg12 m c)
theorem W11_arg13 : W11 m c (Proc.devRef .tc main_arg13) = ax13 m c :=
  (after_of_writes_sub ck11 (W10 m c) ck11_writes (by decide : main_arg13 ∉ wr11)).trans (W10_arg13 m c)
theorem W11_arg14 : W11 m c (Proc.devRef .tc main_arg14) = ax14 m c :=
  (after_of_writes_sub ck11 (W10 m c) ck11_writes (by decide : main_arg14 ∉ wr11)).trans (W10_arg14 m c)
theorem W11_arg15 : W11 m c (Proc.devRef .tc main_arg15) = ax15 m c :=
  (after_of_writes_sub ck11 (W10 m c) ck11_writes (by decide : main_arg15 ∉ wr11)).trans (W10_arg15 m c)
theorem W11_arg16 : W11 m c (Proc.devRef .tc main_arg16) = ax16 m c :=
  (after_of_writes_sub ck11 (W10 m c) ck11_writes (by decide : main_arg16 ∉ wr11)).trans (W10_arg16 m c)
theorem W11_arg0 : W11 m c (Proc.devRef .tc main_arg0) = ax0 m c :=
  (after_of_writes_sub ck11 (W10 m c) ck11_writes (by decide : main_arg0 ∉ wr11)).trans (W10_arg0 m c)
theorem W11_arg1 : W11 m c (Proc.devRef .tc main_arg1) = ax1 m c :=
  (after_of_writes_sub ck11 (W10 m c) ck11_writes (by decide : main_arg1 ∉ wr11)).trans (W10_arg1 m c)

theorem W12_v52 : W12 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck12 (W11 m c) ck12_writes (by decide : main_v52 ∉ wr12)).trans (W11_v52 m c)
theorem W12_arg3 : W12 m c (Proc.devRef .tc main_arg3) = ax3 m c :=
  (after_of_writes_sub ck12 (W11 m c) ck12_writes (by decide : main_arg3 ∉ wr12)).trans (W11_arg3 m c)
theorem W12_v98 : W12 m c (Proc.devRef .tc main_v98) = val_main_v98 (F := Ideal) (ax0 m c) (ax1 m c) (ax2 m c) (ax3 m c) (ax4 m c) (ax5 m c) (ax6 m c) (ax7 m c) (ax8 m c) (ax9 m c) (ax10 m c) (ax11 m c) (ax12 m c) := by
  unfold W12 ck12
  after_results_simp
  rw [W11_v52 m c, W11_arg3 m c]
  rfl
theorem W12_v105 : W12 m c (Proc.devRef .tc main_v105) = val_main_v105 (F := Ideal) (ax0 m c) (ax1 m c) (ax2 m c) (ax3 m c) (ax4 m c) (ax5 m c) (ax6 m c) (ax7 m c) (ax8 m c) (ax13 m c) (ax14 m c) (ax15 m c) (ax16 m c) := by
  unfold W12 ck12
  after_results_simp
  rw [W11_v91 m c, W11_arg4 m c]
  rfl
theorem W12_arg2 : W12 m c (Proc.devRef .tc main_arg2) = ax2 m c :=
  (after_of_writes_sub ck12 (W11 m c) ck12_writes (by decide : main_arg2 ∉ wr12)).trans (W11_arg2 m c)
theorem W12_arg5 : W12 m c (Proc.devRef .tc main_arg5) = ax5 m c :=
  (after_of_writes_sub ck12 (W11 m c) ck12_writes (by decide : main_arg5 ∉ wr12)).trans (W11_arg5 m c)
theorem W12_arg6 : W12 m c (Proc.devRef .tc main_arg6) = ax6 m c :=
  (after_of_writes_sub ck12 (W11 m c) ck12_writes (by decide : main_arg6 ∉ wr12)).trans (W11_arg6 m c)
theorem W12_arg7 : W12 m c (Proc.devRef .tc main_arg7) = ax7 m c :=
  (after_of_writes_sub ck12 (W11 m c) ck12_writes (by decide : main_arg7 ∉ wr12)).trans (W11_arg7 m c)
theorem W12_arg8 : W12 m c (Proc.devRef .tc main_arg8) = ax8 m c :=
  (after_of_writes_sub ck12 (W11 m c) ck12_writes (by decide : main_arg8 ∉ wr12)).trans (W11_arg8 m c)
theorem W12_arg9 : W12 m c (Proc.devRef .tc main_arg9) = ax9 m c :=
  (after_of_writes_sub ck12 (W11 m c) ck12_writes (by decide : main_arg9 ∉ wr12)).trans (W11_arg9 m c)
theorem W12_arg10 : W12 m c (Proc.devRef .tc main_arg10) = ax10 m c :=
  (after_of_writes_sub ck12 (W11 m c) ck12_writes (by decide : main_arg10 ∉ wr12)).trans (W11_arg10 m c)
theorem W12_arg11 : W12 m c (Proc.devRef .tc main_arg11) = ax11 m c :=
  (after_of_writes_sub ck12 (W11 m c) ck12_writes (by decide : main_arg11 ∉ wr12)).trans (W11_arg11 m c)
theorem W12_arg12 : W12 m c (Proc.devRef .tc main_arg12) = ax12 m c :=
  (after_of_writes_sub ck12 (W11 m c) ck12_writes (by decide : main_arg12 ∉ wr12)).trans (W11_arg12 m c)
theorem W12_v91 : W12 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck12 (W11 m c) ck12_writes (by decide : main_v91 ∉ wr12)).trans (W11_v91 m c)
theorem W12_arg4 : W12 m c (Proc.devRef .tc main_arg4) = ax4 m c :=
  (after_of_writes_sub ck12 (W11 m c) ck12_writes (by decide : main_arg4 ∉ wr12)).trans (W11_arg4 m c)
theorem W12_arg13 : W12 m c (Proc.devRef .tc main_arg13) = ax13 m c :=
  (after_of_writes_sub ck12 (W11 m c) ck12_writes (by decide : main_arg13 ∉ wr12)).trans (W11_arg13 m c)
theorem W12_arg14 : W12 m c (Proc.devRef .tc main_arg14) = ax14 m c :=
  (after_of_writes_sub ck12 (W11 m c) ck12_writes (by decide : main_arg14 ∉ wr12)).trans (W11_arg14 m c)
theorem W12_arg15 : W12 m c (Proc.devRef .tc main_arg15) = ax15 m c :=
  (after_of_writes_sub ck12 (W11 m c) ck12_writes (by decide : main_arg15 ∉ wr12)).trans (W11_arg15 m c)
theorem W12_arg16 : W12 m c (Proc.devRef .tc main_arg16) = ax16 m c :=
  (after_of_writes_sub ck12 (W11 m c) ck12_writes (by decide : main_arg16 ∉ wr12)).trans (W11_arg16 m c)
theorem W12_arg0 : W12 m c (Proc.devRef .tc main_arg0) = ax0 m c :=
  (after_of_writes_sub ck12 (W11 m c) ck12_writes (by decide : main_arg0 ∉ wr12)).trans (W11_arg0 m c)
theorem W12_arg1 : W12 m c (Proc.devRef .tc main_arg1) = ax1 m c :=
  (after_of_writes_sub ck12 (W11 m c) ck12_writes (by decide : main_arg1 ∉ wr12)).trans (W11_arg1 m c)

theorem W13_v52 : W13 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck13 (W12 m c) ck13_writes (by decide : main_v52 ∉ wr13)).trans (W12_v52 m c)
theorem W13_arg3 : W13 m c (Proc.devRef .tc main_arg3) = ax3 m c :=
  (after_of_writes_sub ck13 (W12 m c) ck13_writes (by decide : main_arg3 ∉ wr13)).trans (W12_arg3 m c)
theorem W13_v106 : W13 m c (Proc.devRef .tc main_v106) = val_main_v106 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W13 ck13
  after_results_simp
  show concatenate S800000x136 1 [⟨S800000x64, (W12 m c (Proc.devRef .tc main_v98))⟩, ⟨S800000x64, (W12 m c (Proc.devRef .tc main_v105))⟩, ⟨S800000x8, (W12 m c (Proc.devRef .tc main_arg2))⟩] concatenates_S800000x64_S800000x64_S800000x8_S800000x136_d1 = _
  rw [W12_v98 m c, W12_v105 m c, W12_arg2 m c]
  rfl
theorem W13_arg5 : W13 m c (Proc.devRef .tc main_arg5) = ax5 m c :=
  (after_of_writes_sub ck13 (W12 m c) ck13_writes (by decide : main_arg5 ∉ wr13)).trans (W12_arg5 m c)
theorem W13_arg6 : W13 m c (Proc.devRef .tc main_arg6) = ax6 m c :=
  (after_of_writes_sub ck13 (W12 m c) ck13_writes (by decide : main_arg6 ∉ wr13)).trans (W12_arg6 m c)
theorem W13_arg7 : W13 m c (Proc.devRef .tc main_arg7) = ax7 m c :=
  (after_of_writes_sub ck13 (W12 m c) ck13_writes (by decide : main_arg7 ∉ wr13)).trans (W12_arg7 m c)
theorem W13_arg8 : W13 m c (Proc.devRef .tc main_arg8) = ax8 m c :=
  (after_of_writes_sub ck13 (W12 m c) ck13_writes (by decide : main_arg8 ∉ wr13)).trans (W12_arg8 m c)
theorem W13_arg9 : W13 m c (Proc.devRef .tc main_arg9) = ax9 m c :=
  (after_of_writes_sub ck13 (W12 m c) ck13_writes (by decide : main_arg9 ∉ wr13)).trans (W12_arg9 m c)
theorem W13_arg10 : W13 m c (Proc.devRef .tc main_arg10) = ax10 m c :=
  (after_of_writes_sub ck13 (W12 m c) ck13_writes (by decide : main_arg10 ∉ wr13)).trans (W12_arg10 m c)
theorem W13_arg11 : W13 m c (Proc.devRef .tc main_arg11) = ax11 m c :=
  (after_of_writes_sub ck13 (W12 m c) ck13_writes (by decide : main_arg11 ∉ wr13)).trans (W12_arg11 m c)
theorem W13_arg12 : W13 m c (Proc.devRef .tc main_arg12) = ax12 m c :=
  (after_of_writes_sub ck13 (W12 m c) ck13_writes (by decide : main_arg12 ∉ wr13)).trans (W12_arg12 m c)
theorem W13_v91 : W13 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck13 (W12 m c) ck13_writes (by decide : main_v91 ∉ wr13)).trans (W12_v91 m c)
theorem W13_arg4 : W13 m c (Proc.devRef .tc main_arg4) = ax4 m c :=
  (after_of_writes_sub ck13 (W12 m c) ck13_writes (by decide : main_arg4 ∉ wr13)).trans (W12_arg4 m c)
theorem W13_v105 : W13 m c (Proc.devRef .tc main_v105) = val_main_v105 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck13 (W12 m c) ck13_writes (by decide : main_v105 ∉ wr13)).trans (W12_v105 m c)
theorem W13_v98 : W13 m c (Proc.devRef .tc main_v98) = val_main_v98 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck13 (W12 m c) ck13_writes (by decide : main_v98 ∉ wr13)).trans (W12_v98 m c)
theorem W13_arg2 : W13 m c (Proc.devRef .tc main_arg2) = ax2 m c :=
  (after_of_writes_sub ck13 (W12 m c) ck13_writes (by decide : main_arg2 ∉ wr13)).trans (W12_arg2 m c)
theorem W13_arg13 : W13 m c (Proc.devRef .tc main_arg13) = ax13 m c :=
  (after_of_writes_sub ck13 (W12 m c) ck13_writes (by decide : main_arg13 ∉ wr13)).trans (W12_arg13 m c)
theorem W13_arg14 : W13 m c (Proc.devRef .tc main_arg14) = ax14 m c :=
  (after_of_writes_sub ck13 (W12 m c) ck13_writes (by decide : main_arg14 ∉ wr13)).trans (W12_arg14 m c)
theorem W13_arg15 : W13 m c (Proc.devRef .tc main_arg15) = ax15 m c :=
  (after_of_writes_sub ck13 (W12 m c) ck13_writes (by decide : main_arg15 ∉ wr13)).trans (W12_arg15 m c)
theorem W13_arg16 : W13 m c (Proc.devRef .tc main_arg16) = ax16 m c :=
  (after_of_writes_sub ck13 (W12 m c) ck13_writes (by decide : main_arg16 ∉ wr13)).trans (W12_arg16 m c)
theorem W13_arg0 : W13 m c (Proc.devRef .tc main_arg0) = ax0 m c :=
  (after_of_writes_sub ck13 (W12 m c) ck13_writes (by decide : main_arg0 ∉ wr13)).trans (W12_arg0 m c)
theorem W13_arg1 : W13 m c (Proc.devRef .tc main_arg1) = ax1 m c :=
  (after_of_writes_sub ck13 (W12 m c) ck13_writes (by decide : main_arg1 ∉ wr13)).trans (W12_arg1 m c)

theorem W14_v52 : W14 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck14 (W13 m c) ck14_writes (by decide : main_v52 ∉ wr14)).trans (W13_v52 m c)
theorem W14_arg3 : W14 m c (Proc.devRef .tc main_arg3) = ax3 m c :=
  (after_of_writes_sub ck14 (W13 m c) ck14_writes (by decide : main_arg3 ∉ wr14)).trans (W13_arg3 m c)
theorem W14_v123 : W14 m c (Proc.devRef .tc main_v123) = val_main_v123 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W14 ck14
  after_results_simp
  rw [W13_v106 m c, W13_arg5 m c, W13_arg6 m c, W13_arg7 m c, W13_arg8 m c]
  rfl
theorem W14_arg9 : W14 m c (Proc.devRef .tc main_arg9) = ax9 m c :=
  (after_of_writes_sub ck14 (W13 m c) ck14_writes (by decide : main_arg9 ∉ wr14)).trans (W13_arg9 m c)
theorem W14_arg10 : W14 m c (Proc.devRef .tc main_arg10) = ax10 m c :=
  (after_of_writes_sub ck14 (W13 m c) ck14_writes (by decide : main_arg10 ∉ wr14)).trans (W13_arg10 m c)
theorem W14_arg11 : W14 m c (Proc.devRef .tc main_arg11) = ax11 m c :=
  (after_of_writes_sub ck14 (W13 m c) ck14_writes (by decide : main_arg11 ∉ wr14)).trans (W13_arg11 m c)
theorem W14_arg12 : W14 m c (Proc.devRef .tc main_arg12) = ax12 m c :=
  (after_of_writes_sub ck14 (W13 m c) ck14_writes (by decide : main_arg12 ∉ wr14)).trans (W13_arg12 m c)
theorem W14_v91 : W14 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck14 (W13 m c) ck14_writes (by decide : main_v91 ∉ wr14)).trans (W13_v91 m c)
theorem W14_arg4 : W14 m c (Proc.devRef .tc main_arg4) = ax4 m c :=
  (after_of_writes_sub ck14 (W13 m c) ck14_writes (by decide : main_arg4 ∉ wr14)).trans (W13_arg4 m c)
theorem W14_v105 : W14 m c (Proc.devRef .tc main_v105) = val_main_v105 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck14 (W13 m c) ck14_writes (by decide : main_v105 ∉ wr14)).trans (W13_v105 m c)
theorem W14_v98 : W14 m c (Proc.devRef .tc main_v98) = val_main_v98 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck14 (W13 m c) ck14_writes (by decide : main_v98 ∉ wr14)).trans (W13_v98 m c)
theorem W14_arg2 : W14 m c (Proc.devRef .tc main_arg2) = ax2 m c :=
  (after_of_writes_sub ck14 (W13 m c) ck14_writes (by decide : main_arg2 ∉ wr14)).trans (W13_arg2 m c)
theorem W14_arg5 : W14 m c (Proc.devRef .tc main_arg5) = ax5 m c :=
  (after_of_writes_sub ck14 (W13 m c) ck14_writes (by decide : main_arg5 ∉ wr14)).trans (W13_arg5 m c)
theorem W14_arg6 : W14 m c (Proc.devRef .tc main_arg6) = ax6 m c :=
  (after_of_writes_sub ck14 (W13 m c) ck14_writes (by decide : main_arg6 ∉ wr14)).trans (W13_arg6 m c)
theorem W14_arg7 : W14 m c (Proc.devRef .tc main_arg7) = ax7 m c :=
  (after_of_writes_sub ck14 (W13 m c) ck14_writes (by decide : main_arg7 ∉ wr14)).trans (W13_arg7 m c)
theorem W14_arg8 : W14 m c (Proc.devRef .tc main_arg8) = ax8 m c :=
  (after_of_writes_sub ck14 (W13 m c) ck14_writes (by decide : main_arg8 ∉ wr14)).trans (W13_arg8 m c)
theorem W14_arg13 : W14 m c (Proc.devRef .tc main_arg13) = ax13 m c :=
  (after_of_writes_sub ck14 (W13 m c) ck14_writes (by decide : main_arg13 ∉ wr14)).trans (W13_arg13 m c)
theorem W14_arg14 : W14 m c (Proc.devRef .tc main_arg14) = ax14 m c :=
  (after_of_writes_sub ck14 (W13 m c) ck14_writes (by decide : main_arg14 ∉ wr14)).trans (W13_arg14 m c)
theorem W14_arg15 : W14 m c (Proc.devRef .tc main_arg15) = ax15 m c :=
  (after_of_writes_sub ck14 (W13 m c) ck14_writes (by decide : main_arg15 ∉ wr14)).trans (W13_arg15 m c)
theorem W14_arg16 : W14 m c (Proc.devRef .tc main_arg16) = ax16 m c :=
  (after_of_writes_sub ck14 (W13 m c) ck14_writes (by decide : main_arg16 ∉ wr14)).trans (W13_arg16 m c)
theorem W14_arg0 : W14 m c (Proc.devRef .tc main_arg0) = ax0 m c :=
  (after_of_writes_sub ck14 (W13 m c) ck14_writes (by decide : main_arg0 ∉ wr14)).trans (W13_arg0 m c)
theorem W14_arg1 : W14 m c (Proc.devRef .tc main_arg1) = ax1 m c :=
  (after_of_writes_sub ck14 (W13 m c) ck14_writes (by decide : main_arg1 ∉ wr14)).trans (W13_arg1 m c)

theorem W15_v52 : W15 m c (Proc.devRef .tc main_v52) = val_main_v52 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck15 (W14 m c) ck15_writes (by decide : main_v52 ∉ wr15)).trans (W14_v52 m c)
theorem W15_v126 : W15 m c (Proc.devRef .tc main_v126) = val_main_v126 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W15 ck15
  after_results_simp
  rw [W14_arg3 m c, W14_v123 m c]
  rfl
theorem W15_arg9 : W15 m c (Proc.devRef .tc main_arg9) = ax9 m c :=
  (after_of_writes_sub ck15 (W14 m c) ck15_writes (by decide : main_arg9 ∉ wr15)).trans (W14_arg9 m c)
theorem W15_arg10 : W15 m c (Proc.devRef .tc main_arg10) = ax10 m c :=
  (after_of_writes_sub ck15 (W14 m c) ck15_writes (by decide : main_arg10 ∉ wr15)).trans (W14_arg10 m c)
theorem W15_arg11 : W15 m c (Proc.devRef .tc main_arg11) = ax11 m c :=
  (after_of_writes_sub ck15 (W14 m c) ck15_writes (by decide : main_arg11 ∉ wr15)).trans (W14_arg11 m c)
theorem W15_arg12 : W15 m c (Proc.devRef .tc main_arg12) = ax12 m c :=
  (after_of_writes_sub ck15 (W14 m c) ck15_writes (by decide : main_arg12 ∉ wr15)).trans (W14_arg12 m c)
theorem W15_v91 : W15 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck15 (W14 m c) ck15_writes (by decide : main_v91 ∉ wr15)).trans (W14_v91 m c)
theorem W15_arg4 : W15 m c (Proc.devRef .tc main_arg4) = ax4 m c :=
  (after_of_writes_sub ck15 (W14 m c) ck15_writes (by decide : main_arg4 ∉ wr15)).trans (W14_arg4 m c)
theorem W15_v105 : W15 m c (Proc.devRef .tc main_v105) = val_main_v105 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck15 (W14 m c) ck15_writes (by decide : main_v105 ∉ wr15)).trans (W14_v105 m c)
theorem W15_v98 : W15 m c (Proc.devRef .tc main_v98) = val_main_v98 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck15 (W14 m c) ck15_writes (by decide : main_v98 ∉ wr15)).trans (W14_v98 m c)
theorem W15_arg2 : W15 m c (Proc.devRef .tc main_arg2) = ax2 m c :=
  (after_of_writes_sub ck15 (W14 m c) ck15_writes (by decide : main_arg2 ∉ wr15)).trans (W14_arg2 m c)
theorem W15_arg5 : W15 m c (Proc.devRef .tc main_arg5) = ax5 m c :=
  (after_of_writes_sub ck15 (W14 m c) ck15_writes (by decide : main_arg5 ∉ wr15)).trans (W14_arg5 m c)
theorem W15_arg6 : W15 m c (Proc.devRef .tc main_arg6) = ax6 m c :=
  (after_of_writes_sub ck15 (W14 m c) ck15_writes (by decide : main_arg6 ∉ wr15)).trans (W14_arg6 m c)
theorem W15_arg7 : W15 m c (Proc.devRef .tc main_arg7) = ax7 m c :=
  (after_of_writes_sub ck15 (W14 m c) ck15_writes (by decide : main_arg7 ∉ wr15)).trans (W14_arg7 m c)
theorem W15_arg8 : W15 m c (Proc.devRef .tc main_arg8) = ax8 m c :=
  (after_of_writes_sub ck15 (W14 m c) ck15_writes (by decide : main_arg8 ∉ wr15)).trans (W14_arg8 m c)
theorem W15_arg13 : W15 m c (Proc.devRef .tc main_arg13) = ax13 m c :=
  (after_of_writes_sub ck15 (W14 m c) ck15_writes (by decide : main_arg13 ∉ wr15)).trans (W14_arg13 m c)
theorem W15_arg14 : W15 m c (Proc.devRef .tc main_arg14) = ax14 m c :=
  (after_of_writes_sub ck15 (W14 m c) ck15_writes (by decide : main_arg14 ∉ wr15)).trans (W14_arg14 m c)
theorem W15_arg15 : W15 m c (Proc.devRef .tc main_arg15) = ax15 m c :=
  (after_of_writes_sub ck15 (W14 m c) ck15_writes (by decide : main_arg15 ∉ wr15)).trans (W14_arg15 m c)
theorem W15_arg16 : W15 m c (Proc.devRef .tc main_arg16) = ax16 m c :=
  (after_of_writes_sub ck15 (W14 m c) ck15_writes (by decide : main_arg16 ∉ wr15)).trans (W14_arg16 m c)
theorem W15_arg0 : W15 m c (Proc.devRef .tc main_arg0) = ax0 m c :=
  (after_of_writes_sub ck15 (W14 m c) ck15_writes (by decide : main_arg0 ∉ wr15)).trans (W14_arg0 m c)
theorem W15_arg1 : W15 m c (Proc.devRef .tc main_arg1) = ax1 m c :=
  (after_of_writes_sub ck15 (W14 m c) ck15_writes (by decide : main_arg1 ∉ wr15)).trans (W14_arg1 m c)
theorem W15_arg3 : W15 m c (Proc.devRef .tc main_arg3) = ax3 m c :=
  (after_of_writes_sub ck15 (W14 m c) ck15_writes (by decide : main_arg3 ∉ wr15)).trans (W14_arg3 m c)

theorem W16_v127 : W16 m c (Proc.devRef .tc main_v127) = val_main_v127 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W16 ck16
  after_results_simp
  show concatenate S50000x128 1 [⟨S50000x64, (W15 m c (Proc.devRef .tc main_v52))⟩, ⟨S50000x64, (W15 m c (Proc.devRef .tc main_v126))⟩] concatenates_S50000x64_S50000x64_S50000x128_d1 = _
  rw [W15_v52 m c, W15_v126 m c]
  rfl
theorem W16_arg9 : W16 m c (Proc.devRef .tc main_arg9) = ax9 m c :=
  (after_of_writes_sub ck16 (W15 m c) ck16_writes (by decide : main_arg9 ∉ wr16)).trans (W15_arg9 m c)
theorem W16_arg10 : W16 m c (Proc.devRef .tc main_arg10) = ax10 m c :=
  (after_of_writes_sub ck16 (W15 m c) ck16_writes (by decide : main_arg10 ∉ wr16)).trans (W15_arg10 m c)
theorem W16_arg11 : W16 m c (Proc.devRef .tc main_arg11) = ax11 m c :=
  (after_of_writes_sub ck16 (W15 m c) ck16_writes (by decide : main_arg11 ∉ wr16)).trans (W15_arg11 m c)
theorem W16_arg12 : W16 m c (Proc.devRef .tc main_arg12) = ax12 m c :=
  (after_of_writes_sub ck16 (W15 m c) ck16_writes (by decide : main_arg12 ∉ wr16)).trans (W15_arg12 m c)
theorem W16_v91 : W16 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck16 (W15 m c) ck16_writes (by decide : main_v91 ∉ wr16)).trans (W15_v91 m c)
theorem W16_arg4 : W16 m c (Proc.devRef .tc main_arg4) = ax4 m c :=
  (after_of_writes_sub ck16 (W15 m c) ck16_writes (by decide : main_arg4 ∉ wr16)).trans (W15_arg4 m c)
theorem W16_v105 : W16 m c (Proc.devRef .tc main_v105) = val_main_v105 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck16 (W15 m c) ck16_writes (by decide : main_v105 ∉ wr16)).trans (W15_v105 m c)
theorem W16_v98 : W16 m c (Proc.devRef .tc main_v98) = val_main_v98 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck16 (W15 m c) ck16_writes (by decide : main_v98 ∉ wr16)).trans (W15_v98 m c)
theorem W16_arg2 : W16 m c (Proc.devRef .tc main_arg2) = ax2 m c :=
  (after_of_writes_sub ck16 (W15 m c) ck16_writes (by decide : main_arg2 ∉ wr16)).trans (W15_arg2 m c)
theorem W16_arg5 : W16 m c (Proc.devRef .tc main_arg5) = ax5 m c :=
  (after_of_writes_sub ck16 (W15 m c) ck16_writes (by decide : main_arg5 ∉ wr16)).trans (W15_arg5 m c)
theorem W16_arg6 : W16 m c (Proc.devRef .tc main_arg6) = ax6 m c :=
  (after_of_writes_sub ck16 (W15 m c) ck16_writes (by decide : main_arg6 ∉ wr16)).trans (W15_arg6 m c)
theorem W16_arg7 : W16 m c (Proc.devRef .tc main_arg7) = ax7 m c :=
  (after_of_writes_sub ck16 (W15 m c) ck16_writes (by decide : main_arg7 ∉ wr16)).trans (W15_arg7 m c)
theorem W16_arg8 : W16 m c (Proc.devRef .tc main_arg8) = ax8 m c :=
  (after_of_writes_sub ck16 (W15 m c) ck16_writes (by decide : main_arg8 ∉ wr16)).trans (W15_arg8 m c)
theorem W16_arg13 : W16 m c (Proc.devRef .tc main_arg13) = ax13 m c :=
  (after_of_writes_sub ck16 (W15 m c) ck16_writes (by decide : main_arg13 ∉ wr16)).trans (W15_arg13 m c)
theorem W16_arg14 : W16 m c (Proc.devRef .tc main_arg14) = ax14 m c :=
  (after_of_writes_sub ck16 (W15 m c) ck16_writes (by decide : main_arg14 ∉ wr16)).trans (W15_arg14 m c)
theorem W16_arg15 : W16 m c (Proc.devRef .tc main_arg15) = ax15 m c :=
  (after_of_writes_sub ck16 (W15 m c) ck16_writes (by decide : main_arg15 ∉ wr16)).trans (W15_arg15 m c)
theorem W16_arg16 : W16 m c (Proc.devRef .tc main_arg16) = ax16 m c :=
  (after_of_writes_sub ck16 (W15 m c) ck16_writes (by decide : main_arg16 ∉ wr16)).trans (W15_arg16 m c)
theorem W16_arg0 : W16 m c (Proc.devRef .tc main_arg0) = ax0 m c :=
  (after_of_writes_sub ck16 (W15 m c) ck16_writes (by decide : main_arg0 ∉ wr16)).trans (W15_arg0 m c)
theorem W16_arg1 : W16 m c (Proc.devRef .tc main_arg1) = ax1 m c :=
  (after_of_writes_sub ck16 (W15 m c) ck16_writes (by decide : main_arg1 ∉ wr16)).trans (W15_arg1 m c)
theorem W16_arg3 : W16 m c (Proc.devRef .tc main_arg3) = ax3 m c :=
  (after_of_writes_sub ck16 (W15 m c) ck16_writes (by decide : main_arg3 ∉ wr16)).trans (W15_arg3 m c)

theorem W17_v144 : W17 m c (Proc.devRef .tc main_v144) = val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W17 ck17
  after_results_simp
  rw [W16_v127 m c, W16_arg9 m c, W16_arg10 m c, W16_arg11 m c, W16_arg12 m c]
  rfl
theorem W17_v91 : W17 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck17 (W16 m c) ck17_writes (by decide : main_v91 ∉ wr17)).trans (W16_v91 m c)
theorem W17_arg4 : W17 m c (Proc.devRef .tc main_arg4) = ax4 m c :=
  (after_of_writes_sub ck17 (W16 m c) ck17_writes (by decide : main_arg4 ∉ wr17)).trans (W16_arg4 m c)
theorem W17_v105 : W17 m c (Proc.devRef .tc main_v105) = val_main_v105 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck17 (W16 m c) ck17_writes (by decide : main_v105 ∉ wr17)).trans (W16_v105 m c)
theorem W17_v98 : W17 m c (Proc.devRef .tc main_v98) = val_main_v98 (F := Ideal) (ax0 m c) (ax1 m c) (ax2 m c) (ax3 m c) (ax4 m c) (ax5 m c) (ax6 m c) (ax7 m c) (ax8 m c) (ax9 m c) (ax10 m c) (ax11 m c) (ax12 m c) :=
  (after_of_writes_sub ck17 (W16 m c) ck17_writes (by decide : main_v98 ∉ wr17)).trans (W16_v98 m c)
theorem W17_arg2 : W17 m c (Proc.devRef .tc main_arg2) = ax2 m c :=
  (after_of_writes_sub ck17 (W16 m c) ck17_writes (by decide : main_arg2 ∉ wr17)).trans (W16_arg2 m c)
theorem W17_arg5 : W17 m c (Proc.devRef .tc main_arg5) = ax5 m c :=
  (after_of_writes_sub ck17 (W16 m c) ck17_writes (by decide : main_arg5 ∉ wr17)).trans (W16_arg5 m c)
theorem W17_arg6 : W17 m c (Proc.devRef .tc main_arg6) = ax6 m c :=
  (after_of_writes_sub ck17 (W16 m c) ck17_writes (by decide : main_arg6 ∉ wr17)).trans (W16_arg6 m c)
theorem W17_arg7 : W17 m c (Proc.devRef .tc main_arg7) = ax7 m c :=
  (after_of_writes_sub ck17 (W16 m c) ck17_writes (by decide : main_arg7 ∉ wr17)).trans (W16_arg7 m c)
theorem W17_arg8 : W17 m c (Proc.devRef .tc main_arg8) = ax8 m c :=
  (after_of_writes_sub ck17 (W16 m c) ck17_writes (by decide : main_arg8 ∉ wr17)).trans (W16_arg8 m c)
theorem W17_arg13 : W17 m c (Proc.devRef .tc main_arg13) = ax13 m c :=
  (after_of_writes_sub ck17 (W16 m c) ck17_writes (by decide : main_arg13 ∉ wr17)).trans (W16_arg13 m c)
theorem W17_arg14 : W17 m c (Proc.devRef .tc main_arg14) = ax14 m c :=
  (after_of_writes_sub ck17 (W16 m c) ck17_writes (by decide : main_arg14 ∉ wr17)).trans (W16_arg14 m c)
theorem W17_arg15 : W17 m c (Proc.devRef .tc main_arg15) = ax15 m c :=
  (after_of_writes_sub ck17 (W16 m c) ck17_writes (by decide : main_arg15 ∉ wr17)).trans (W16_arg15 m c)
theorem W17_arg16 : W17 m c (Proc.devRef .tc main_arg16) = ax16 m c :=
  (after_of_writes_sub ck17 (W16 m c) ck17_writes (by decide : main_arg16 ∉ wr17)).trans (W16_arg16 m c)
theorem W17_arg0 : W17 m c (Proc.devRef .tc main_arg0) = ax0 m c :=
  (after_of_writes_sub ck17 (W16 m c) ck17_writes (by decide : main_arg0 ∉ wr17)).trans (W16_arg0 m c)
theorem W17_arg1 : W17 m c (Proc.devRef .tc main_arg1) = ax1 m c :=
  (after_of_writes_sub ck17 (W16 m c) ck17_writes (by decide : main_arg1 ∉ wr17)).trans (W16_arg1 m c)
theorem W17_arg3 : W17 m c (Proc.devRef .tc main_arg3) = ax3 m c :=
  (after_of_writes_sub ck17 (W16 m c) ck17_writes (by decide : main_arg3 ∉ wr17)).trans (W16_arg3 m c)
theorem W17_arg9 : W17 m c (Proc.devRef .tc main_arg9) = ax9 m c :=
  (after_of_writes_sub ck17 (W16 m c) ck17_writes (by decide : main_arg9 ∉ wr17)).trans (W16_arg9 m c)
theorem W17_arg10 : W17 m c (Proc.devRef .tc main_arg10) = ax10 m c :=
  (after_of_writes_sub ck17 (W16 m c) ck17_writes (by decide : main_arg10 ∉ wr17)).trans (W16_arg10 m c)
theorem W17_arg11 : W17 m c (Proc.devRef .tc main_arg11) = ax11 m c :=
  (after_of_writes_sub ck17 (W16 m c) ck17_writes (by decide : main_arg11 ∉ wr17)).trans (W16_arg11 m c)
theorem W17_arg12 : W17 m c (Proc.devRef .tc main_arg12) = ax12 m c :=
  (after_of_writes_sub ck17 (W16 m c) ck17_writes (by decide : main_arg12 ∉ wr17)).trans (W16_arg12 m c)

theorem W18_v144 : W18 m c (Proc.devRef .tc main_v144) = val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) :=
  (after_of_writes_sub ck18 (W17 m c) ck18_writes (by decide : main_v144 ∉ wr18)).trans (W17_v144 m c)
theorem W18_v91 : W18 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck18 (W17 m c) ck18_writes (by decide : main_v91 ∉ wr18)).trans (W17_v91 m c)
theorem W18_arg4 : W18 m c (Proc.devRef .tc main_arg4) = ax4 m c :=
  (after_of_writes_sub ck18 (W17 m c) ck18_writes (by decide : main_arg4 ∉ wr18)).trans (W17_arg4 m c)
theorem W18_v145 : W18 m c (Proc.devRef .tc main_v145) = val_main_v145 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W18 ck18
  after_results_simp
  show concatenate S800000x136 1 [⟨S800000x64, (W17 m c (Proc.devRef .tc main_v105))⟩, ⟨S800000x64, (W17 m c (Proc.devRef .tc main_v98))⟩, ⟨S800000x8, (W17 m c (Proc.devRef .tc main_arg2))⟩] concatenates_S800000x64_S800000x64_S800000x8_S800000x136_d1 = _
  rw [W17_v105 m c, W17_v98 m c, W17_arg2 m c]
  rfl
theorem W18_arg5 : W18 m c (Proc.devRef .tc main_arg5) = ax5 m c :=
  (after_of_writes_sub ck18 (W17 m c) ck18_writes (by decide : main_arg5 ∉ wr18)).trans (W17_arg5 m c)
theorem W18_arg6 : W18 m c (Proc.devRef .tc main_arg6) = ax6 m c :=
  (after_of_writes_sub ck18 (W17 m c) ck18_writes (by decide : main_arg6 ∉ wr18)).trans (W17_arg6 m c)
theorem W18_arg7 : W18 m c (Proc.devRef .tc main_arg7) = ax7 m c :=
  (after_of_writes_sub ck18 (W17 m c) ck18_writes (by decide : main_arg7 ∉ wr18)).trans (W17_arg7 m c)
theorem W18_arg8 : W18 m c (Proc.devRef .tc main_arg8) = ax8 m c :=
  (after_of_writes_sub ck18 (W17 m c) ck18_writes (by decide : main_arg8 ∉ wr18)).trans (W17_arg8 m c)
theorem W18_arg13 : W18 m c (Proc.devRef .tc main_arg13) = ax13 m c :=
  (after_of_writes_sub ck18 (W17 m c) ck18_writes (by decide : main_arg13 ∉ wr18)).trans (W17_arg13 m c)
theorem W18_arg14 : W18 m c (Proc.devRef .tc main_arg14) = ax14 m c :=
  (after_of_writes_sub ck18 (W17 m c) ck18_writes (by decide : main_arg14 ∉ wr18)).trans (W17_arg14 m c)
theorem W18_arg15 : W18 m c (Proc.devRef .tc main_arg15) = ax15 m c :=
  (after_of_writes_sub ck18 (W17 m c) ck18_writes (by decide : main_arg15 ∉ wr18)).trans (W17_arg15 m c)
theorem W18_arg16 : W18 m c (Proc.devRef .tc main_arg16) = ax16 m c :=
  (after_of_writes_sub ck18 (W17 m c) ck18_writes (by decide : main_arg16 ∉ wr18)).trans (W17_arg16 m c)
theorem W18_arg0 : W18 m c (Proc.devRef .tc main_arg0) = ax0 m c :=
  (after_of_writes_sub ck18 (W17 m c) ck18_writes (by decide : main_arg0 ∉ wr18)).trans (W17_arg0 m c)
theorem W18_arg1 : W18 m c (Proc.devRef .tc main_arg1) = ax1 m c :=
  (after_of_writes_sub ck18 (W17 m c) ck18_writes (by decide : main_arg1 ∉ wr18)).trans (W17_arg1 m c)
theorem W18_arg2 : W18 m c (Proc.devRef .tc main_arg2) = ax2 m c :=
  (after_of_writes_sub ck18 (W17 m c) ck18_writes (by decide : main_arg2 ∉ wr18)).trans (W17_arg2 m c)
theorem W18_arg3 : W18 m c (Proc.devRef .tc main_arg3) = ax3 m c :=
  (after_of_writes_sub ck18 (W17 m c) ck18_writes (by decide : main_arg3 ∉ wr18)).trans (W17_arg3 m c)
theorem W18_arg9 : W18 m c (Proc.devRef .tc main_arg9) = ax9 m c :=
  (after_of_writes_sub ck18 (W17 m c) ck18_writes (by decide : main_arg9 ∉ wr18)).trans (W17_arg9 m c)
theorem W18_arg10 : W18 m c (Proc.devRef .tc main_arg10) = ax10 m c :=
  (after_of_writes_sub ck18 (W17 m c) ck18_writes (by decide : main_arg10 ∉ wr18)).trans (W17_arg10 m c)
theorem W18_arg11 : W18 m c (Proc.devRef .tc main_arg11) = ax11 m c :=
  (after_of_writes_sub ck18 (W17 m c) ck18_writes (by decide : main_arg11 ∉ wr18)).trans (W17_arg11 m c)
theorem W18_arg12 : W18 m c (Proc.devRef .tc main_arg12) = ax12 m c :=
  (after_of_writes_sub ck18 (W17 m c) ck18_writes (by decide : main_arg12 ∉ wr18)).trans (W17_arg12 m c)

theorem W19_v144 : W19 m c (Proc.devRef .tc main_v144) = val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) :=
  (after_of_writes_sub ck19 (W18 m c) ck19_writes (by decide : main_v144 ∉ wr19)).trans (W18_v144 m c)
theorem W19_v91 : W19 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck19 (W18 m c) ck19_writes (by decide : main_v91 ∉ wr19)).trans (W18_v91 m c)
theorem W19_arg4 : W19 m c (Proc.devRef .tc main_arg4) = ax4 m c :=
  (after_of_writes_sub ck19 (W18 m c) ck19_writes (by decide : main_arg4 ∉ wr19)).trans (W18_arg4 m c)
theorem W19_v162 : W19 m c (Proc.devRef .tc main_v162) = val_main_v162 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W19 ck19
  after_results_simp
  rw [W18_v145 m c, W18_arg5 m c, W18_arg6 m c, W18_arg7 m c, W18_arg8 m c]
  rfl
theorem W19_arg13 : W19 m c (Proc.devRef .tc main_arg13) = ax13 m c :=
  (after_of_writes_sub ck19 (W18 m c) ck19_writes (by decide : main_arg13 ∉ wr19)).trans (W18_arg13 m c)
theorem W19_arg14 : W19 m c (Proc.devRef .tc main_arg14) = ax14 m c :=
  (after_of_writes_sub ck19 (W18 m c) ck19_writes (by decide : main_arg14 ∉ wr19)).trans (W18_arg14 m c)
theorem W19_arg15 : W19 m c (Proc.devRef .tc main_arg15) = ax15 m c :=
  (after_of_writes_sub ck19 (W18 m c) ck19_writes (by decide : main_arg15 ∉ wr19)).trans (W18_arg15 m c)
theorem W19_arg16 : W19 m c (Proc.devRef .tc main_arg16) = ax16 m c :=
  (after_of_writes_sub ck19 (W18 m c) ck19_writes (by decide : main_arg16 ∉ wr19)).trans (W18_arg16 m c)
theorem W19_arg0 : W19 m c (Proc.devRef .tc main_arg0) = ax0 m c :=
  (after_of_writes_sub ck19 (W18 m c) ck19_writes (by decide : main_arg0 ∉ wr19)).trans (W18_arg0 m c)
theorem W19_arg1 : W19 m c (Proc.devRef .tc main_arg1) = ax1 m c :=
  (after_of_writes_sub ck19 (W18 m c) ck19_writes (by decide : main_arg1 ∉ wr19)).trans (W18_arg1 m c)
theorem W19_arg2 : W19 m c (Proc.devRef .tc main_arg2) = ax2 m c :=
  (after_of_writes_sub ck19 (W18 m c) ck19_writes (by decide : main_arg2 ∉ wr19)).trans (W18_arg2 m c)
theorem W19_arg3 : W19 m c (Proc.devRef .tc main_arg3) = ax3 m c :=
  (after_of_writes_sub ck19 (W18 m c) ck19_writes (by decide : main_arg3 ∉ wr19)).trans (W18_arg3 m c)
theorem W19_arg5 : W19 m c (Proc.devRef .tc main_arg5) = ax5 m c :=
  (after_of_writes_sub ck19 (W18 m c) ck19_writes (by decide : main_arg5 ∉ wr19)).trans (W18_arg5 m c)
theorem W19_arg6 : W19 m c (Proc.devRef .tc main_arg6) = ax6 m c :=
  (after_of_writes_sub ck19 (W18 m c) ck19_writes (by decide : main_arg6 ∉ wr19)).trans (W18_arg6 m c)
theorem W19_arg7 : W19 m c (Proc.devRef .tc main_arg7) = ax7 m c :=
  (after_of_writes_sub ck19 (W18 m c) ck19_writes (by decide : main_arg7 ∉ wr19)).trans (W18_arg7 m c)
theorem W19_arg8 : W19 m c (Proc.devRef .tc main_arg8) = ax8 m c :=
  (after_of_writes_sub ck19 (W18 m c) ck19_writes (by decide : main_arg8 ∉ wr19)).trans (W18_arg8 m c)
theorem W19_arg9 : W19 m c (Proc.devRef .tc main_arg9) = ax9 m c :=
  (after_of_writes_sub ck19 (W18 m c) ck19_writes (by decide : main_arg9 ∉ wr19)).trans (W18_arg9 m c)
theorem W19_arg10 : W19 m c (Proc.devRef .tc main_arg10) = ax10 m c :=
  (after_of_writes_sub ck19 (W18 m c) ck19_writes (by decide : main_arg10 ∉ wr19)).trans (W18_arg10 m c)
theorem W19_arg11 : W19 m c (Proc.devRef .tc main_arg11) = ax11 m c :=
  (after_of_writes_sub ck19 (W18 m c) ck19_writes (by decide : main_arg11 ∉ wr19)).trans (W18_arg11 m c)
theorem W19_arg12 : W19 m c (Proc.devRef .tc main_arg12) = ax12 m c :=
  (after_of_writes_sub ck19 (W18 m c) ck19_writes (by decide : main_arg12 ∉ wr19)).trans (W18_arg12 m c)

theorem W20_v144 : W20 m c (Proc.devRef .tc main_v144) = val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) :=
  (after_of_writes_sub ck20 (W19 m c) ck20_writes (by decide : main_v144 ∉ wr20)).trans (W19_v144 m c)
theorem W20_v91 : W20 m c (Proc.devRef .tc main_v91) = val_main_v91 (F := Ideal) (ax0 m c) (ax1 m c) (ax2 m c) (ax3 m c) (ax4 m c) (ax5 m c) (ax6 m c) (ax7 m c) (ax8 m c) (ax13 m c) (ax14 m c) (ax15 m c) (ax16 m c) :=
  (after_of_writes_sub ck20 (W19 m c) ck20_writes (by decide : main_v91 ∉ wr20)).trans (W19_v91 m c)
theorem W20_v165 : W20 m c (Proc.devRef .tc main_v165) = val_main_v165 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W20 ck20
  after_results_simp
  rw [W19_arg4 m c, W19_v162 m c]
  rfl
theorem W20_arg13 : W20 m c (Proc.devRef .tc main_arg13) = ax13 m c :=
  (after_of_writes_sub ck20 (W19 m c) ck20_writes (by decide : main_arg13 ∉ wr20)).trans (W19_arg13 m c)
theorem W20_arg14 : W20 m c (Proc.devRef .tc main_arg14) = ax14 m c :=
  (after_of_writes_sub ck20 (W19 m c) ck20_writes (by decide : main_arg14 ∉ wr20)).trans (W19_arg14 m c)
theorem W20_arg15 : W20 m c (Proc.devRef .tc main_arg15) = ax15 m c :=
  (after_of_writes_sub ck20 (W19 m c) ck20_writes (by decide : main_arg15 ∉ wr20)).trans (W19_arg15 m c)
theorem W20_arg16 : W20 m c (Proc.devRef .tc main_arg16) = ax16 m c :=
  (after_of_writes_sub ck20 (W19 m c) ck20_writes (by decide : main_arg16 ∉ wr20)).trans (W19_arg16 m c)
theorem W20_arg0 : W20 m c (Proc.devRef .tc main_arg0) = ax0 m c :=
  (after_of_writes_sub ck20 (W19 m c) ck20_writes (by decide : main_arg0 ∉ wr20)).trans (W19_arg0 m c)
theorem W20_arg1 : W20 m c (Proc.devRef .tc main_arg1) = ax1 m c :=
  (after_of_writes_sub ck20 (W19 m c) ck20_writes (by decide : main_arg1 ∉ wr20)).trans (W19_arg1 m c)
theorem W20_arg2 : W20 m c (Proc.devRef .tc main_arg2) = ax2 m c :=
  (after_of_writes_sub ck20 (W19 m c) ck20_writes (by decide : main_arg2 ∉ wr20)).trans (W19_arg2 m c)
theorem W20_arg3 : W20 m c (Proc.devRef .tc main_arg3) = ax3 m c :=
  (after_of_writes_sub ck20 (W19 m c) ck20_writes (by decide : main_arg3 ∉ wr20)).trans (W19_arg3 m c)
theorem W20_arg4 : W20 m c (Proc.devRef .tc main_arg4) = ax4 m c :=
  (after_of_writes_sub ck20 (W19 m c) ck20_writes (by decide : main_arg4 ∉ wr20)).trans (W19_arg4 m c)
theorem W20_arg5 : W20 m c (Proc.devRef .tc main_arg5) = ax5 m c :=
  (after_of_writes_sub ck20 (W19 m c) ck20_writes (by decide : main_arg5 ∉ wr20)).trans (W19_arg5 m c)
theorem W20_arg6 : W20 m c (Proc.devRef .tc main_arg6) = ax6 m c :=
  (after_of_writes_sub ck20 (W19 m c) ck20_writes (by decide : main_arg6 ∉ wr20)).trans (W19_arg6 m c)
theorem W20_arg7 : W20 m c (Proc.devRef .tc main_arg7) = ax7 m c :=
  (after_of_writes_sub ck20 (W19 m c) ck20_writes (by decide : main_arg7 ∉ wr20)).trans (W19_arg7 m c)
theorem W20_arg8 : W20 m c (Proc.devRef .tc main_arg8) = ax8 m c :=
  (after_of_writes_sub ck20 (W19 m c) ck20_writes (by decide : main_arg8 ∉ wr20)).trans (W19_arg8 m c)
theorem W20_arg9 : W20 m c (Proc.devRef .tc main_arg9) = ax9 m c :=
  (after_of_writes_sub ck20 (W19 m c) ck20_writes (by decide : main_arg9 ∉ wr20)).trans (W19_arg9 m c)
theorem W20_arg10 : W20 m c (Proc.devRef .tc main_arg10) = ax10 m c :=
  (after_of_writes_sub ck20 (W19 m c) ck20_writes (by decide : main_arg10 ∉ wr20)).trans (W19_arg10 m c)
theorem W20_arg11 : W20 m c (Proc.devRef .tc main_arg11) = ax11 m c :=
  (after_of_writes_sub ck20 (W19 m c) ck20_writes (by decide : main_arg11 ∉ wr20)).trans (W19_arg11 m c)
theorem W20_arg12 : W20 m c (Proc.devRef .tc main_arg12) = ax12 m c :=
  (after_of_writes_sub ck20 (W19 m c) ck20_writes (by decide : main_arg12 ∉ wr20)).trans (W19_arg12 m c)

theorem W21_v144 : W21 m c (Proc.devRef .tc main_v144) = val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) :=
  (after_of_writes_sub ck21 (W20 m c) ck21_writes (by decide : main_v144 ∉ wr21)).trans (W20_v144 m c)
theorem W21_v166 : W21 m c (Proc.devRef .tc main_v166) = val_main_v166 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W21 ck21
  after_results_simp
  show concatenate S50000x128 1 [⟨S50000x64, (W20 m c (Proc.devRef .tc main_v91))⟩, ⟨S50000x64, (W20 m c (Proc.devRef .tc main_v165))⟩] concatenates_S50000x64_S50000x64_S50000x128_d1 = _
  rw [W20_v91 m c, W20_v165 m c]
  rfl
theorem W21_arg13 : W21 m c (Proc.devRef .tc main_arg13) = ax13 m c :=
  (after_of_writes_sub ck21 (W20 m c) ck21_writes (by decide : main_arg13 ∉ wr21)).trans (W20_arg13 m c)
theorem W21_arg14 : W21 m c (Proc.devRef .tc main_arg14) = ax14 m c :=
  (after_of_writes_sub ck21 (W20 m c) ck21_writes (by decide : main_arg14 ∉ wr21)).trans (W20_arg14 m c)
theorem W21_arg15 : W21 m c (Proc.devRef .tc main_arg15) = ax15 m c :=
  (after_of_writes_sub ck21 (W20 m c) ck21_writes (by decide : main_arg15 ∉ wr21)).trans (W20_arg15 m c)
theorem W21_arg16 : W21 m c (Proc.devRef .tc main_arg16) = ax16 m c :=
  (after_of_writes_sub ck21 (W20 m c) ck21_writes (by decide : main_arg16 ∉ wr21)).trans (W20_arg16 m c)
theorem W21_arg0 : W21 m c (Proc.devRef .tc main_arg0) = ax0 m c :=
  (after_of_writes_sub ck21 (W20 m c) ck21_writes (by decide : main_arg0 ∉ wr21)).trans (W20_arg0 m c)
theorem W21_arg1 : W21 m c (Proc.devRef .tc main_arg1) = ax1 m c :=
  (after_of_writes_sub ck21 (W20 m c) ck21_writes (by decide : main_arg1 ∉ wr21)).trans (W20_arg1 m c)
theorem W21_arg2 : W21 m c (Proc.devRef .tc main_arg2) = ax2 m c :=
  (after_of_writes_sub ck21 (W20 m c) ck21_writes (by decide : main_arg2 ∉ wr21)).trans (W20_arg2 m c)
theorem W21_arg3 : W21 m c (Proc.devRef .tc main_arg3) = ax3 m c :=
  (after_of_writes_sub ck21 (W20 m c) ck21_writes (by decide : main_arg3 ∉ wr21)).trans (W20_arg3 m c)
theorem W21_arg4 : W21 m c (Proc.devRef .tc main_arg4) = ax4 m c :=
  (after_of_writes_sub ck21 (W20 m c) ck21_writes (by decide : main_arg4 ∉ wr21)).trans (W20_arg4 m c)
theorem W21_arg5 : W21 m c (Proc.devRef .tc main_arg5) = ax5 m c :=
  (after_of_writes_sub ck21 (W20 m c) ck21_writes (by decide : main_arg5 ∉ wr21)).trans (W20_arg5 m c)
theorem W21_arg6 : W21 m c (Proc.devRef .tc main_arg6) = ax6 m c :=
  (after_of_writes_sub ck21 (W20 m c) ck21_writes (by decide : main_arg6 ∉ wr21)).trans (W20_arg6 m c)
theorem W21_arg7 : W21 m c (Proc.devRef .tc main_arg7) = ax7 m c :=
  (after_of_writes_sub ck21 (W20 m c) ck21_writes (by decide : main_arg7 ∉ wr21)).trans (W20_arg7 m c)
theorem W21_arg8 : W21 m c (Proc.devRef .tc main_arg8) = ax8 m c :=
  (after_of_writes_sub ck21 (W20 m c) ck21_writes (by decide : main_arg8 ∉ wr21)).trans (W20_arg8 m c)
theorem W21_arg9 : W21 m c (Proc.devRef .tc main_arg9) = ax9 m c :=
  (after_of_writes_sub ck21 (W20 m c) ck21_writes (by decide : main_arg9 ∉ wr21)).trans (W20_arg9 m c)
theorem W21_arg10 : W21 m c (Proc.devRef .tc main_arg10) = ax10 m c :=
  (after_of_writes_sub ck21 (W20 m c) ck21_writes (by decide : main_arg10 ∉ wr21)).trans (W20_arg10 m c)
theorem W21_arg11 : W21 m c (Proc.devRef .tc main_arg11) = ax11 m c :=
  (after_of_writes_sub ck21 (W20 m c) ck21_writes (by decide : main_arg11 ∉ wr21)).trans (W20_arg11 m c)
theorem W21_arg12 : W21 m c (Proc.devRef .tc main_arg12) = ax12 m c :=
  (after_of_writes_sub ck21 (W20 m c) ck21_writes (by decide : main_arg12 ∉ wr21)).trans (W20_arg12 m c)

theorem W22_v144 : W22 m c (Proc.devRef .tc main_v144) = val_main_v144 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) :=
  (after_of_writes_sub ck22 (W21 m c) ck22_writes (by decide : main_v144 ∉ wr22)).trans (W21_v144 m c)
theorem W22_v183 : W22 m c (Proc.devRef .tc main_v183) = val_main_v183 (F := Ideal) (ax0 m c) (ax1 m c) (ax2 m c) (ax3 m c) (ax4 m c) (ax5 m c) (ax6 m c) (ax7 m c) (ax8 m c) (ax9 m c) (ax10 m c) (ax11 m c) (ax12 m c) (ax13 m c) (ax14 m c) (ax15 m c) (ax16 m c) := by
  unfold W22 ck22
  after_results_simp
  rw [W21_v166 m c, W21_arg13 m c, W21_arg14 m c, W21_arg15 m c, W21_arg16 m c]
  rfl
theorem W22_arg0 : W22 m c (Proc.devRef .tc main_arg0) = ax0 m c :=
  (after_of_writes_sub ck22 (W21 m c) ck22_writes (by decide : main_arg0 ∉ wr22)).trans (W21_arg0 m c)
theorem W22_arg1 : W22 m c (Proc.devRef .tc main_arg1) = ax1 m c :=
  (after_of_writes_sub ck22 (W21 m c) ck22_writes (by decide : main_arg1 ∉ wr22)).trans (W21_arg1 m c)
theorem W22_arg2 : W22 m c (Proc.devRef .tc main_arg2) = ax2 m c :=
  (after_of_writes_sub ck22 (W21 m c) ck22_writes (by decide : main_arg2 ∉ wr22)).trans (W21_arg2 m c)
theorem W22_arg3 : W22 m c (Proc.devRef .tc main_arg3) = ax3 m c :=
  (after_of_writes_sub ck22 (W21 m c) ck22_writes (by decide : main_arg3 ∉ wr22)).trans (W21_arg3 m c)
theorem W22_arg4 : W22 m c (Proc.devRef .tc main_arg4) = ax4 m c :=
  (after_of_writes_sub ck22 (W21 m c) ck22_writes (by decide : main_arg4 ∉ wr22)).trans (W21_arg4 m c)
theorem W22_arg5 : W22 m c (Proc.devRef .tc main_arg5) = ax5 m c :=
  (after_of_writes_sub ck22 (W21 m c) ck22_writes (by decide : main_arg5 ∉ wr22)).trans (W21_arg5 m c)
theorem W22_arg6 : W22 m c (Proc.devRef .tc main_arg6) = ax6 m c :=
  (after_of_writes_sub ck22 (W21 m c) ck22_writes (by decide : main_arg6 ∉ wr22)).trans (W21_arg6 m c)
theorem W22_arg7 : W22 m c (Proc.devRef .tc main_arg7) = ax7 m c :=
  (after_of_writes_sub ck22 (W21 m c) ck22_writes (by decide : main_arg7 ∉ wr22)).trans (W21_arg7 m c)
theorem W22_arg8 : W22 m c (Proc.devRef .tc main_arg8) = ax8 m c :=
  (after_of_writes_sub ck22 (W21 m c) ck22_writes (by decide : main_arg8 ∉ wr22)).trans (W21_arg8 m c)
theorem W22_arg9 : W22 m c (Proc.devRef .tc main_arg9) = ax9 m c :=
  (after_of_writes_sub ck22 (W21 m c) ck22_writes (by decide : main_arg9 ∉ wr22)).trans (W21_arg9 m c)
theorem W22_arg10 : W22 m c (Proc.devRef .tc main_arg10) = ax10 m c :=
  (after_of_writes_sub ck22 (W21 m c) ck22_writes (by decide : main_arg10 ∉ wr22)).trans (W21_arg10 m c)
theorem W22_arg11 : W22 m c (Proc.devRef .tc main_arg11) = ax11 m c :=
  (after_of_writes_sub ck22 (W21 m c) ck22_writes (by decide : main_arg11 ∉ wr22)).trans (W21_arg11 m c)
theorem W22_arg12 : W22 m c (Proc.devRef .tc main_arg12) = ax12 m c :=
  (after_of_writes_sub ck22 (W21 m c) ck22_writes (by decide : main_arg12 ∉ wr22)).trans (W21_arg12 m c)
theorem W22_arg13 : W22 m c (Proc.devRef .tc main_arg13) = ax13 m c :=
  (after_of_writes_sub ck22 (W21 m c) ck22_writes (by decide : main_arg13 ∉ wr22)).trans (W21_arg13 m c)
theorem W22_arg14 : W22 m c (Proc.devRef .tc main_arg14) = ax14 m c :=
  (after_of_writes_sub ck22 (W21 m c) ck22_writes (by decide : main_arg14 ∉ wr22)).trans (W21_arg14 m c)
theorem W22_arg15 : W22 m c (Proc.devRef .tc main_arg15) = ax15 m c :=
  (after_of_writes_sub ck22 (W21 m c) ck22_writes (by decide : main_arg15 ∉ wr22)).trans (W21_arg15 m c)
theorem W22_arg16 : W22 m c (Proc.devRef .tc main_arg16) = ax16 m c :=
  (after_of_writes_sub ck22 (W21 m c) ck22_writes (by decide : main_arg16 ∉ wr22)).trans (W21_arg16 m c)

end Chain

/-- On every device, from any memory with zero counters: every weakly fair execution of @main terminates with each
    result at its stage of the arguments' launch contents and the arguments unchanged. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144) = val_main_v144 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_v183) = val_main_v183 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v144).trans ((congrFun (after_ops m c) _).trans (W22_v144 m c)),
      (h c main_v183).trans ((congrFun (after_ops m c) _).trans (W22_v183 m c)),
      (h c main_arg0).trans ((congrFun (after_ops m c) _).trans (W22_arg0 m c)),
      (h c main_arg1).trans ((congrFun (after_ops m c) _).trans (W22_arg1 m c)),
      (h c main_arg2).trans ((congrFun (after_ops m c) _).trans (W22_arg2 m c)),
      (h c main_arg3).trans ((congrFun (after_ops m c) _).trans (W22_arg3 m c)),
      (h c main_arg4).trans ((congrFun (after_ops m c) _).trans (W22_arg4 m c)),
      (h c main_arg5).trans ((congrFun (after_ops m c) _).trans (W22_arg5 m c)),
      (h c main_arg6).trans ((congrFun (after_ops m c) _).trans (W22_arg6 m c)),
      (h c main_arg7).trans ((congrFun (after_ops m c) _).trans (W22_arg7 m c)),
      (h c main_arg8).trans ((congrFun (after_ops m c) _).trans (W22_arg8 m c)),
      (h c main_arg9).trans ((congrFun (after_ops m c) _).trans (W22_arg9 m c)),
      (h c main_arg10).trans ((congrFun (after_ops m c) _).trans (W22_arg10 m c)),
      (h c main_arg11).trans ((congrFun (after_ops m c) _).trans (W22_arg11 m c)),
      (h c main_arg12).trans ((congrFun (after_ops m c) _).trans (W22_arg12 m c)),
      (h c main_arg13).trans ((congrFun (after_ops m c) _).trans (W22_arg13 m c)),
      (h c main_arg14).trans ((congrFun (after_ops m c) _).trans (W22_arg14 m c)),
      (h c main_arg15).trans ((congrFun (after_ops m c) _).trans (W22_arg15 m c)),
      (h c main_arg16).trans ((congrFun (after_ops m c) _).trans (W22_arg16 m c))⟩)
    (run_seq scopedRefs_eq scopedSems_eq defs main (fun _ => ops) main_eq (fun _ => ops_sub) m ρ)

end Cert.ReferenceIdeal.RunHand

end
-- ==== Proof.lean ====
/-
  Two rounds of message passing on a bipartite graph of 50000 variable nodes, 50000 constraint nodes and 800000 edges:
  the kernel program against its array-language reference, on the extended reals.

  Each round gathers the two endpoint rows of every edge, applies the edge network to the joined row
  [ endpoint | other endpoint | edge features ] in both orientations, sums the messages into their node's bin, and
  applies a node network to the joined row [ node | summed messages ].  Every network is a two-layer perceptron
  (linear, ReLU, linear).  The kernel program runs the two networks as blocked kernels — the edge network once per
  round with two results, the node network twice per round — and in each of them multiplies the pieces of a joined row
  with the matching row blocks of the first weight matrix and adds the products, where the reference joins the row
  and multiplies once.  On the extended reals these agree, since a finite sum may be regrouped freely; no finiteness
  of the inputs is used.  Changes of float format are the identity there, gathers and scatters are the same host
  operations on both sides, and a buffer nobody writes keeps its contents; so, following the buffers from boundary to
  boundary through both rounds, the kernel program's two result buffers end at the reference's two results.

  The kernel programs' frame claims are their generated frames; the reference's is its run with the results dropped.
  The idealization rewrote nothing, so the preservation claim is trivial.
-/
import proofs.«156022_j57337813401889_2_alg».proof.Defs
import proofs.«156022_j57337813401889_2_alg».proof.Proof.Gen.Kernel
import proofs.«156022_j57337813401889_2_alg».proof.Proof.Gen.Kernel.Frame
import proofs.«156022_j57337813401889_2_alg».proof.Proof.Gen.KernelIdeal
import proofs.«156022_j57337813401889_2_alg».proof.Proof.Gen.KernelIdeal.Frame
import proofs.«156022_j57337813401889_2_alg».proof.Proof.Gen.ReferenceIdeal
import proofs.«156022_j57337813401889_2_alg».proof.Proof.Gen.Pre_finite_inputs
import proofs.«156022_j57337813401889_2_alg».proof.Proof.RunValue
import proofs.«156022_j57337813401889_2_alg».proof.Proof.ChainB
import proofs.«156022_j57337813401889_2_alg».proof.Proof.RefRunHand
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_referenceIdeal : Cert.frame_ReferenceIdeal := fun m ρ _ =>
  (θ_run Cert.ReferenceIdeal.defs _ _).mono (fun _ h c => (h c).2.2) (Cert.ReferenceIdeal.RunHand.run_stages m ρ)

/-- Both programs run; the kernel program's result buffers end at the reference's two results of the same arguments. -/
theorem algebraic : Cert.algebraic_KernelIdeal_ReferenceIdeal := by
  intro m ρ m' ρ' _ hagree
  refine ⟨fun c => Cert.ReferenceIdeal.ReadP.val_main_v144 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)),
    fun c => Cert.ReferenceIdeal.ReadP.val_main_v183 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)), ?_,
    Cert.ReferenceIdeal.RunHand.run_stages m' ρ'⟩
  refine (θ_run Cert.KernelIdeal.defs _ _).mono (fun r h c => ⟨(h c).1.trans ?_, (h c).2.1.trans ?_, (h c).2.2⟩)
    (Cert.KernelIdeal.RunValue.run_vals (F := Ideal) m ρ)
  · obtain ⟨h0, h1, h2, h3, h4, h5, h6, h7, h8, h9, h10, h11, h12, h13, h14, h15, h16⟩ := hagree c
    beta_reduce
    rw [h0, h1, h2, h3, h4, h5, h6, h7, h8, h9, h10, h11, h12, h13, h14, h15, h16]
    exact Cert.KernelIdeal.Chain.W12_v103 m ρ c
  · obtain ⟨h0, h1, h2, h3, h4, h5, h6, h7, h8, h9, h10, h11, h12, h13, h14, h15, h16⟩ := hagree c
    beta_reduce
    rw [h0, h1, h2, h3, h4, h5, h6, h7, h8, h9, h10, h11, h12, h13, h14, h15, h16]
    exact Cert.KernelIdeal.Chain.W12_v114 m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
